-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v275)) (v1 : (c : Dev Cert.KernelIdeal.nD) → Buf (Elt Ideal) ((c.tc : Thread Cert.KernelIdeal.nD Cert.KernelIdeal.τ).loc Cert.KernelIdeal.main_v259)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v275) = v0 c
          ∧ r.2.mem ((c.tc : Thread Cert.KernelIdeal.nD Cert.KernelIdeal.τ).loc Cert.KernelIdeal.main_v259) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v323) = v0 c
          ∧ r.2.mem ((c.tc : Thread Cert.ReferenceIdeal.nD Cert.ReferenceIdeal.τ).loc Cert.ReferenceIdeal.main_v306) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x192 : Shape := ⟨2, ![25000, 192]⟩
abbrev S400000 : Shape := ⟨1, ![400000]⟩
abbrev S13x192x192 : Shape := ⟨3, ![13, 192, 192]⟩
abbrev S13x192 : Shape := ⟨2, ![13, 192]⟩
abbrev S192x3 : Shape := ⟨2, ![192, 3]⟩
abbrev S3 : Shape := ⟨1, ![3]⟩
abbrev S_ : Shape := ⟨0, ![]⟩

class Facts : Prop where
  bcast_S_S25000x192 : S_.BroadcastsInDim S25000x192 (![] : Fin 0 → Fin S25000x192.rank)
  reducesTo_S25000x192_S_d0_1 : S25000x192.ReducesTo [0, 1] S_
  h_S_ : 0 < S_.numel
  bcast_S_S400000 : S_.BroadcastsInDim S400000 (![] : Fin 0 → Fin S400000.rank)
  reducesTo_S400000_S_d0 : S400000.ReducesTo [0] S_
  bcast_S_S13x192x192 : S_.BroadcastsInDim S13x192x192 (![] : Fin 0 → Fin S13x192x192.rank)
  reducesTo_S13x192x192_S_d0_1_2 : S13x192x192.ReducesTo [0, 1, 2] S_
  bcast_S_S13x192 : S_.BroadcastsInDim S13x192 (![] : Fin 0 → Fin S13x192.rank)
  reducesTo_S13x192_S_d0_1 : S13x192.ReducesTo [0, 1] S_
  bcast_S_S192x3 : S_.BroadcastsInDim S192x3 (![] : Fin 0 → Fin S192x3.rank)
  reducesTo_S192x3_S_d0_1 : S192x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg6 : FVec F S192x3 .f32) (main_arg7 : FVec F S3 .f32) (main_v13 : IVec S_ 1) (main_v16 : IVec S13x192 1) : IVec S_ 1 :=
  let main_c_5 : IVec S_ 1 := constantI S_ 1 1#1
  let main_v17 : IVec S_ 1 := (fun x v => Host.reduce IntOp.andi x v reducesTo_S13x192_S_d0_1 h_S_) main_v16 main_c_5
  let main_v18 : IVec S_ 1 := andi main_v13 main_v17
  let main_v19 : FVec F S192x3 .f32 := Host.absf main_arg6
  let main_cst_6 : FVec F S_ .f32 := constant S_ .f32 0x7F800000#32
  let main_v20 : FVec F S192x3 .f32 := broadcastInDim S192x3 ![] bcast_S_S192x3 main_cst_6
  let main_v21 : IVec S192x3 1 := cmpf .olt main_v19 main_v20
  let main_c_7 : IVec S_ 1 := constantI S_ 1 1#1
  let main_v22 : IVec S_ 1 := (fun x v => Host.reduce IntOp.andi x v reducesTo_S192x3_S_d0_1 h_S_) main_v21 main_c_7
  let main_v23 : IVec S_ 1 := andi main_v18 main_v22
  let main_v24 : FVec F S3 .f32 := Host.absf main_arg7
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  main_v28

def fn {F : FTy → Type} [FloatOps F] (main_arg0 : FVec F S25000x192 .f32) (main_arg1 : IVec S400000 32) (main_arg2 : IVec S400000 32) (main_arg3 : FVec F S400000 .f32) (main_arg4 : FVec F S13x192x192 .f32) (main_arg5 : FVec F S13x192 .f32) (main_arg6 : FVec F S192x3 .f32) (main_arg7 : FVec F S3 .f32) : IVec S_ 1 :=
  let main_v0 : FVec F S25000x192 .f32 := Host.absf main_arg0
  let main_cst : FVec F S_ .f32 := constant S_ .f32 0x7F800000#32
  let main_v1 : FVec F S25000x192 .f32 := broadcastInDim S25000x192 ![] bcast_S_S25000x192 main_cst
  let main_v2 : IVec S25000x192 1 := cmpf .olt main_v0 main_v1
  let main_c : IVec S_ 1 := constantI S_ 1 1#1
  let main_v3 : IVec S_ 1 := (fun x v => Host.reduce IntOp.andi x v reducesTo_S25000x192_S_d0_1 h_S_) main_v2 main_c
  let main_v4 : FVec F S400000 .f32 := Host.absf main_arg3
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S13x192x192 .f32 := Host.absf main_arg4
  let main_cst_2 : FVec F S_ .f32 := constant S_ .f32 0x7F800000#32
  let main_v10 : FVec F S13x192x192 .f32 := broadcastInDim S13x192x192 ![] bcast_S_S13x192x192 main_cst_2
  let main_v11 : IVec S13x192x192 1 := cmpf .olt main_v9 main_v10
  let main_c_3 : IVec S_ 1 := constantI S_ 1 1#1
  let main_v12 : IVec S_ 1 := (fun x v => Host.reduce IntOp.andi x v reducesTo_S13x192x192_S_d0_1_2 h_S_) main_v11 main_c_3
  let main_v13 : IVec S_ 1 := andi main_v8 main_v12
  let main_v14 : FVec F S13x192 .f32 := Host.absf main_arg5
  let main_cst_4 : FVec F S_ .f32 := constant S_ .f32 0x7F800000#32
  let main_v15 : FVec F S13x192 .f32 := broadcastInDim S13x192 ![] bcast_S_S13x192 main_cst_4
  let main_v16 : IVec S13x192 1 := cmpf .olt main_v14 main_v15
  fn_part1 (F := F) main_arg6 main_arg7 main_v13 main_v16
-- ==== Kernel.lean ====
abbrev S25000x192 : Shape := ⟨2, ![25000, 192]⟩
abbrev S400000 : Shape := ⟨1, ![400000]⟩
abbrev S13x192x192 : Shape := ⟨3, ![13, 192, 192]⟩
abbrev S13x192 : Shape := ⟨2, ![13, 192]⟩
abbrev S192x3 : Shape := ⟨2, ![192, 3]⟩
abbrev S3 : Shape := ⟨1, ![3]⟩
abbrev S1x192x192 : Shape := ⟨3, ![1, 192, 192]⟩
abbrev S192x192 : Shape := ⟨2, ![192, 192]⟩
abbrev S1x192 : Shape := ⟨2, ![1, 192]⟩
abbrev S192 : Shape := ⟨1, ![192]⟩
abbrev S1000x192 : Shape := ⟨2, ![1000, 192]⟩
abbrev S400000x1 : Shape := ⟨2, ![400000, 1]⟩
abbrev S_ : Shape := ⟨0, ![]⟩
abbrev S400000x192 : Shape := ⟨2, ![400000, 192]⟩
abbrev S25000x3 : Shape := ⟨2, ![25000, 3]⟩
abbrev S1000x3 : Shape := ⟨2, ![1000, 3]⟩
abbrev S400000x3 : Shape := ⟨2, ![400000, 3]⟩
abbrev S1x3 : Shape := ⟨2, ![1, 3]⟩

abbrev nBuf : Space → Nat
  | .hbm => 326
  | .vmem => 154
  | .smem => 0
  | _ => 0

abbrev hbmTy0_0 (i : Nat) : BufTy := match i % 128 with
  | 0 => ⟨S25000x192, .f32⟩
  | 1 => ⟨S400000, .i32⟩
  | 2 => ⟨S400000, .i32⟩
  | 3 => ⟨S400000, .f32⟩
  | 4 => ⟨S13x192x192, .f32⟩
  | 5 => ⟨S13x192, .f32⟩
  | 6 => ⟨S192x3, .f32⟩
  | 7 => ⟨S3, .f32⟩
  | 8 => ⟨S1x192x192, .f32⟩
  | 9 => ⟨S192x192, .f32⟩
  | 10 => ⟨S1x192, .f32⟩
  | 11 => ⟨S192, .f32⟩
  | 12 => ⟨S25000x192, .f32⟩
  | 13 => ⟨S400000x1, .f32⟩
  | 14 => ⟨S_, .i32⟩
  | 15 => ⟨S400000, .i32⟩
  | 16 => ⟨S400000, .i1⟩
  | 17 => ⟨S_, .i32⟩
  | 18 => ⟨S400000, .i32⟩
  | 19 => ⟨S400000, .i32⟩
  | 20 => ⟨S400000, .i32⟩
  | 21 => ⟨S400000x1, .i32⟩
  | 22 => ⟨S400000x192, .f32⟩
  | 23 => ⟨S400000x192, .f32⟩
  | 24 => ⟨S400000x192, .f32⟩
  | 25 => ⟨S_, .f32⟩
  | 26 => ⟨S25000x192, .f32⟩
  | 27 => ⟨S400000x1, .i32⟩
  | 28 => ⟨S25000x192, .f32⟩
  | 29 => ⟨S1x192, .f32⟩
  | 30 => ⟨S25000x192, .f32⟩
  | 31 => ⟨S1x192x192, .f32⟩
  | 32 => ⟨S192x192, .f32⟩
  | 33 => ⟨S1x192, .f32⟩
  | 34 => ⟨S192, .f32⟩
  | 35 => ⟨S25000x192, .f32⟩
  | 36 => ⟨S400000x1, .f32⟩
  | 37 => ⟨S_, .i32⟩
  | 38 => ⟨S400000, .i32⟩
  | 39 => ⟨S400000, .i1⟩
  | 40 => ⟨S_, .i32⟩
  | 41 => ⟨S400000, .i32⟩
  | 42 => ⟨S400000, .i32⟩
  | 43 => ⟨S400000, .i32⟩
  | 44 => ⟨S400000x1, .i32⟩
  | 45 => ⟨S400000x192, .f32⟩
  | 46 => ⟨S400000x192, .f32⟩
  | 47 => ⟨S400000x192, .f32⟩
  | 48 => ⟨S_, .f32⟩
  | 49 => ⟨S25000x192, .f32⟩
  | 50 => ⟨S400000x1, .i32⟩
  | 51 => ⟨S25000x192, .f32⟩
  | 52 => ⟨S1x192, .f32⟩
  | 53 => ⟨S25000x192, .f32⟩
  | 54 => ⟨S1x192x192, .f32⟩
  | 55 => ⟨S192x192, .f32⟩
  | 56 => ⟨S1x192, .f32⟩
  | 57 => ⟨S192, .f32⟩
  | 58 => ⟨S25000x192, .f32⟩
  | 59 => ⟨S400000x1, .f32⟩
  | 60 => ⟨S_, .i32⟩
  | 61 => ⟨S400000, .i32⟩
  | 62 => ⟨S400000, .i1⟩
  | 63 => ⟨S_, .i32⟩
  | 64 => ⟨S400000, .i32⟩
  | 65 => ⟨S400000, .i32⟩
  | 66 => ⟨S400000, .i32⟩
  | 67 => ⟨S400000x1, .i32⟩
  | 68 => ⟨S400000x192, .f32⟩
  | 69 => ⟨S400000x192, .f32⟩
  | 70 => ⟨S400000x192, .f32⟩
  | 71 => ⟨S_, .f32⟩
  | 72 => ⟨S25000x192, .f32⟩
  | 73 => ⟨S400000x1, .i32⟩
  | 74 => ⟨S25000x192, .f32⟩
  | 75 => ⟨S1x192, .f32⟩
  | 76 => ⟨S25000x192, .f32⟩
  | 77 => ⟨S1x192x192, .f32⟩
  | 78 => ⟨S192x192, .f32⟩
  | 79 => ⟨S1x192, .f32⟩
  | 80 => ⟨S192, .f32⟩
  | 81 => ⟨S25000x192, .f32⟩
  | 82 => ⟨S400000x1, .f32⟩
  | 83 => ⟨S_, .i32⟩
  | 84 => ⟨S400000, .i32⟩
  | 85 => ⟨S400000, .i1⟩
  | 86 => ⟨S_, .i32⟩
  | 87 => ⟨S400000, .i32⟩
  | 88 => ⟨S400000, .i32⟩
  | 89 => ⟨S400000, .i32⟩
  | 90 => ⟨S400000x1, .i32⟩
  | 91 => ⟨S400000x192, .f32⟩
  | 92 => ⟨S400000x192, .f32⟩
  | 93 => ⟨S400000x192, .f32⟩
  | 94 => ⟨S_, .f32⟩
  | 95 => ⟨S25000x192, .f32⟩
  | 96 => ⟨S400000x1, .i32⟩
  | 97 => ⟨S25000x192, .f32⟩
  | 98 => ⟨S1x192, .f32⟩
  | 99 => ⟨S25000x192, .f32⟩
  | 100 => ⟨S1x192x192, .f32⟩
  | 101 => ⟨S192x192, .f32⟩
  | 102 => ⟨S1x192, .f32⟩
  | 103 => ⟨S192, .f32⟩
  | 104 => ⟨S25000x192, .f32⟩
  | 105 => ⟨S400000x1, .f32⟩
  | 106 => ⟨S_, .i32⟩
  | 107 => ⟨S400000, .i32⟩
  | 108 => ⟨S400000, .i1⟩
  | 109 => ⟨S_, .i32⟩
  | 110 => ⟨S400000, .i32⟩
  | 111 => ⟨S400000, .i32⟩
  | 112 => ⟨S400000, .i32⟩
  | 113 => ⟨S400000x1, .i32⟩
  | 114 => ⟨S400000x192, .f32⟩
  | 115 => ⟨S400000x192, .f32⟩
  | 116 => ⟨S400000x192, .f32⟩
  | 117 => ⟨S_, .f32⟩
  | 118 => ⟨S25000x192, .f32⟩
  | 119 => ⟨S400000x1, .i32⟩
  | 120 => ⟨S25000x192, .f32⟩
  | 121 => ⟨S1x192, .f32⟩
  | 122 => ⟨S25000x192, .f32⟩
  | 123 => ⟨S1x192x192, .f32⟩
  | 124 => ⟨S192x192, .f32⟩
  | 125 => ⟨S1x192, .f32⟩
  | 126 => ⟨S192, .f32⟩
  | 127 => ⟨S25000x192, .f32⟩
  | _ => ⟨S25000x192, .f32⟩

abbrev hbmTy0_1 (i : Nat) : BufTy := match i % 128 with
  | 0 => ⟨S400000x1, .f32⟩
  | 1 => ⟨S_, .i32⟩
  | 2 => ⟨S400000, .i32⟩
  | 3 => ⟨S400000, .i1⟩
  | 4 => ⟨S_, .i32⟩
  | 5 => ⟨S400000, .i32⟩
  | 6 => ⟨S400000, .i32⟩
  | 7 => ⟨S400000, .i32⟩
  | 8 => ⟨S400000x1, .i32⟩
  | 9 => ⟨S400000x192, .f32⟩
  | 10 => ⟨S400000x192, .f32⟩
  | 11 => ⟨S400000x192, .f32⟩
  | 12 => ⟨S_, .f32⟩
  | 13 => ⟨S25000x192, .f32⟩
  | 14 => ⟨S400000x1, .i32⟩
  | 15 => ⟨S25000x192, .f32⟩
  | 16 => ⟨S1x192, .f32⟩
  | 17 => ⟨S25000x192, .f32⟩
  | 18 => ⟨S1x192x192, .f32⟩
  | 19 => ⟨S192x192, .f32⟩
  | 20 => ⟨S1x192, .f32⟩
  | 21 => ⟨S192, .f32⟩
  | 22 => ⟨S25000x192, .f32⟩
  | 23 => ⟨S400000x1, .f32⟩
  | 24 => ⟨S_, .i32⟩
  | 25 => ⟨S400000, .i32⟩
  | 26 => ⟨S400000, .i1⟩
  | 27 => ⟨S_, .i32⟩
  | 28 => ⟨S400000, .i32⟩
  | 29 => ⟨S400000, .i32⟩
  | 30 => ⟨S400000, .i32⟩
  | 31 => ⟨S400000x1, .i32⟩
  | 32 => ⟨S400000x192, .f32⟩
  | 33 => ⟨S400000x192, .f32⟩
  | 34 => ⟨S400000x192, .f32⟩
  | 35 => ⟨S_, .f32⟩
  | 36 => ⟨S25000x192, .f32⟩
  | 37 => ⟨S400000x1, .i32⟩
  | 38 => ⟨S25000x192, .f32⟩
  | 39 => ⟨S1x192, .f32⟩
  | 40 => ⟨S25000x192, .f32⟩
  | 41 => ⟨S1x192x192, .f32⟩
  | 42 => ⟨S192x192, .f32⟩
  | 43 => ⟨S1x192, .f32⟩
  | 44 => ⟨S192, .f32⟩
  | 45 => ⟨S25000x192, .f32⟩
  | 46 => ⟨S400000x1, .f32⟩
  | 47 => ⟨S_, .i32⟩
  | 48 => ⟨S400000, .i32⟩
  | 49 => ⟨S400000, .i1⟩
  | 50 => ⟨S_, .i32⟩
  | 51 => ⟨S400000, .i32⟩
  | 52 => ⟨S400000, .i32⟩
  | 53 => ⟨S400000, .i32⟩
  | 54 => ⟨S400000x1, .i32⟩
  | 55 => ⟨S400000x192, .f32⟩
  | 56 => ⟨S400000x192, .f32⟩
  | 57 => ⟨S400000x192, .f32⟩
  | 58 => ⟨S_, .f32⟩
  | 59 => ⟨S25000x192, .f32⟩
  | 60 => ⟨S400000x1, .i32⟩
  | 61 => ⟨S25000x192, .f32⟩
  | 62 => ⟨S1x192, .f32⟩
  | 63 => ⟨S25000x192, .f32⟩
  | 64 => ⟨S1x192x192, .f32⟩
  | 65 => ⟨S192x192, .f32⟩
  | 66 => ⟨S1x192, .f32⟩
  | 67 => ⟨S192, .f32⟩
  | 68 => ⟨S25000x192, .f32⟩
  | 69 => ⟨S400000x1, .f32⟩
  | 70 => ⟨S_, .i32⟩
  | 71 => ⟨S400000, .i32⟩
  | 72 => ⟨S400000, .i1⟩
  | 73 => ⟨S_, .i32⟩
  | 74 => ⟨S400000, .i32⟩
  | 75 => ⟨S400000, .i32⟩
  | 76 => ⟨S400000, .i32⟩
  | 77 => ⟨S400000x1, .i32⟩
  | 78 => ⟨S400000x192, .f32⟩
  | 79 => ⟨S400000x192, .f32⟩
  | 80 => ⟨S400000x192, .f32⟩
  | 81 => ⟨S_, .f32⟩
  | 82 => ⟨S25000x192, .f32⟩
  | 83 => ⟨S400000x1, .i32⟩
  | 84 => ⟨S25000x192, .f32⟩
  | 85 => ⟨S1x192, .f32⟩
  | 86 => ⟨S25000x192, .f32⟩
  | 87 => ⟨S1x192x192, .f32⟩
  | 88 => ⟨S192x192, .f32⟩
  | 89 => ⟨S1x192, .f32⟩
  | 90 => ⟨S192, .f32⟩
  | 91 => ⟨S25000x192, .f32⟩
  | 92 => ⟨S400000x1, .f32⟩
  | 93 => ⟨S_, .i32⟩
  | 94 => ⟨S400000, .i32⟩
  | 95 => ⟨S400000, .i1⟩
  | 96 => ⟨S_, .i32⟩
  | 97 => ⟨S400000, .i32⟩
  | 98 => ⟨S400000, .i32⟩
  | 99 => ⟨S400000, .i32⟩
  | 100 => ⟨S400000x1, .i32⟩
  | 101 => ⟨S400000x192, .f32⟩
  | 102 => ⟨S400000x192, .f32⟩
  | 103 => ⟨S400000x192, .f32⟩
  | 104 => ⟨S_, .f32⟩
  | 105 => ⟨S25000x192, .f32⟩
  | 106 => ⟨S400000x1, .i32⟩
  | 107 => ⟨S25000x192, .f32⟩
  | 108 => ⟨S1x192, .f32⟩
  | 109 => ⟨S25000x192, .f32⟩
  | 110 => ⟨S1x192x192, .f32⟩
  | 111 => ⟨S192x192, .f32⟩
  | 112 => ⟨S1x192, .f32⟩
  | 113 => ⟨S192, .f32⟩
  | 114 => ⟨S25000x192, .f32⟩
  | 115 => ⟨S400000x1, .f32⟩
  | 116 => ⟨S_, .i32⟩
  | 117 => ⟨S400000, .i32⟩
  | 118 => ⟨S400000, .i1⟩
  | 119 => ⟨S_, .i32⟩
  | 120 => ⟨S400000, .i32⟩
  | 121 => ⟨S400000, .i32⟩
  | 122 => ⟨S400000, .i32⟩
  | 123 => ⟨S400000x1, .i32⟩
  | 124 => ⟨S400000x192, .f32⟩
  | 125 => ⟨S400000x192, .f32⟩
  | 126 => ⟨S400000x192, .f32⟩
  | 127 => ⟨S_, .f32⟩
  | _ => ⟨S25000x192, .f32⟩

abbrev hbmTy0_2 (i : Nat) : BufTy := match i % 128 with
  | 0 => ⟨S25000x192, .f32⟩
  | 1 => ⟨S400000x1, .i32⟩
  | 2 => ⟨S25000x192, .f32⟩
  | 3 => ⟨S1x192, .f32⟩
  | 4 => ⟨S25000x192, .f32⟩
  | 5 => ⟨S1x192x192, .f32⟩
  | 6 => ⟨S192x192, .f32⟩
  | 7 => ⟨S1x192, .f32⟩
  | 8 => ⟨S192, .f32⟩
  | 9 => ⟨S25000x192, .f32⟩
  | 10 => ⟨S400000x1, .f32⟩
  | 11 => ⟨S_, .i32⟩
  | 12 => ⟨S400000, .i32⟩
  | 13 => ⟨S400000, .i1⟩
  | 14 => ⟨S_, .i32⟩
  | 15 => ⟨S400000, .i32⟩
  | 16 => ⟨S400000, .i32⟩
  | 17 => ⟨S400000, .i32⟩
  | 18 => ⟨S400000x1, .i32⟩
  | 19 => ⟨S400000x192, .f32⟩
  | 20 => ⟨S400000x192, .f32⟩
  | 21 => ⟨S400000x192, .f32⟩
  | 22 => ⟨S_, .f32⟩
  | 23 => ⟨S25000x192, .f32⟩
  | 24 => ⟨S400000x1, .i32⟩
  | 25 => ⟨S25000x192, .f32⟩
  | 26 => ⟨S1x192, .f32⟩
  | 27 => ⟨S25000x192, .f32⟩
  | 28 => ⟨S1x192x192, .f32⟩
  | 29 => ⟨S192x192, .f32⟩
  | 30 => ⟨S1x192, .f32⟩
  | 31 => ⟨S192, .f32⟩
  | 32 => ⟨S25000x192, .f32⟩
  | 33 => ⟨S400000x1, .f32⟩
  | 34 => ⟨S_, .i32⟩
  | 35 => ⟨S400000, .i32⟩
  | 36 => ⟨S400000, .i1⟩
  | 37 => ⟨S_, .i32⟩
  | 38 => ⟨S400000, .i32⟩
  | 39 => ⟨S400000, .i32⟩
  | 40 => ⟨S400000, .i32⟩
  | 41 => ⟨S400000x1, .i32⟩
  | 42 => ⟨S400000x192, .f32⟩
  | 43 => ⟨S400000x192, .f32⟩
  | 44 => ⟨S400000x192, .f32⟩
  | 45 => ⟨S_, .f32⟩
  | 46 => ⟨S25000x192, .f32⟩
  | 47 => ⟨S400000x1, .i32⟩
  | 48 => ⟨S25000x192, .f32⟩
  | 49 => ⟨S1x192, .f32⟩
  | 50 => ⟨S25000x192, .f32⟩
  | 51 => ⟨S25000x3, .f32⟩
  | 52 => ⟨S400000x1, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000x3, .f32⟩
  | 62 => ⟨S400000x3, .f32⟩
  | 63 => ⟨S400000x3, .f32⟩
  | 64 => ⟨S_, .f32⟩
  | 65 => ⟨S25000x3, .f32⟩
  | 66 => ⟨S400000x1, .i32⟩
  | 67 => ⟨S25000x3, .f32⟩
  | 68 => ⟨S1x3, .f32⟩
  | 69 => ⟨S25000x3, .f32⟩
  | _ => ⟨S25000x192, .f32⟩

abbrev hbmTy (i : Nat) : BufTy := match i / 128 with
  | 0 => hbmTy0_0 i
  | 1 => hbmTy0_1 i
  | 2 => hbmTy0_2 i
  | _ => ⟨S25000x192, .f32⟩

abbrev vmemTy0_0 (i : Nat) : BufTy := match i % 128 with
  | 0 => ⟨S1000x192, .f32⟩
  | 1 => ⟨S1000x192, .f32⟩
  | 2 => ⟨S192x192, .f32⟩
  | 3 => ⟨S1000x192, .f32⟩
  | 4 => ⟨S1000x192, .f32⟩
  | 5 => ⟨S1000x192, .f32⟩
  | 6 => ⟨S1000x192, .f32⟩
  | 7 => ⟨S1x192, .f32⟩
  | 8 => ⟨S1000x192, .f32⟩
  | 9 => ⟨S1000x192, .f32⟩
  | 10 => ⟨S1000x192, .f32⟩
  | 11 => ⟨S1000x192, .f32⟩
  | 12 => ⟨S192x192, .f32⟩
  | 13 => ⟨S1000x192, .f32⟩
  | 14 => ⟨S1000x192, .f32⟩
  | 15 => ⟨S1000x192, .f32⟩
  | 16 => ⟨S1000x192, .f32⟩
  | 17 => ⟨S1x192, .f32⟩
  | 18 => ⟨S1000x192, .f32⟩
  | 19 => ⟨S1000x192, .f32⟩
  | 20 => ⟨S1000x192, .f32⟩
  | 21 => ⟨S1000x192, .f32⟩
  | 22 => ⟨S1000x192, .f32⟩
  | 23 => ⟨S1000x192, .f32⟩
  | 24 => ⟨S192x192, .f32⟩
  | 25 => ⟨S1000x192, .f32⟩
  | 26 => ⟨S1000x192, .f32⟩
  | 27 => ⟨S1000x192, .f32⟩
  | 28 => ⟨S1000x192, .f32⟩
  | 29 => ⟨S1x192, .f32⟩
  | 30 => ⟨S1000x192, .f32⟩
  | 31 => ⟨S1000x192, .f32⟩
  | 32 => ⟨S1000x192, .f32⟩
  | 33 => ⟨S1000x192, .f32⟩
  | 34 => ⟨S192x192, .f32⟩
  | 35 => ⟨S1000x192, .f32⟩
  | 36 => ⟨S1000x192, .f32⟩
  | 37 => ⟨S1000x192, .f32⟩
  | 38 => ⟨S1000x192, .f32⟩
  | 39 => ⟨S1x192, .f32⟩
  | 40 => ⟨S1000x192, .f32⟩
  | 41 => ⟨S1000x192, .f32⟩
  | 42 => ⟨S1000x192, .f32⟩
  | 43 => ⟨S1000x192, .f32⟩
  | 44 => ⟨S1000x192, .f32⟩
  | 45 => ⟨S1000x192, .f32⟩
  | 46 => ⟨S192x192, .f32⟩
  | 47 => ⟨S1000x192, .f32⟩
  | 48 => ⟨S1000x192, .f32⟩
  | 49 => ⟨S1000x192, .f32⟩
  | 50 => ⟨S1000x192, .f32⟩
  | 51 => ⟨S1x192, .f32⟩
  | 52 => ⟨S1000x192, .f32⟩
  | 53 => ⟨S1000x192, .f32⟩
  | 54 => ⟨S1000x192, .f32⟩
  | 55 => ⟨S1000x192, .f32⟩
  | 56 => ⟨S192x192, .f32⟩
  | 57 => ⟨S1000x192, .f32⟩
  | 58 => ⟨S1000x192, .f32⟩
  | 59 => ⟨S1000x192, .f32⟩
  | 60 => ⟨S1000x192, .f32⟩
  | 61 => ⟨S1x192, .f32⟩
  | 62 => ⟨S1000x192, .f32⟩
  | 63 => ⟨S1000x192, .f32⟩
  | 64 => ⟨S1000x192, .f32⟩
  | 65 => ⟨S1000x192, .f32⟩
  | 66 => ⟨S1000x192, .f32⟩
  | 67 => ⟨S1000x192, .f32⟩
  | 68 => ⟨S192x192, .f32⟩
  | 69 => ⟨S1000x192, .f32⟩
  | 70 => ⟨S1000x192, .f32⟩
  | 71 => ⟨S1000x192, .f32⟩
  | 72 => ⟨S1000x192, .f32⟩
  | 73 => ⟨S1x192, .f32⟩
  | 74 => ⟨S1000x192, .f32⟩
  | 75 => ⟨S1000x192, .f32⟩
  | 76 => ⟨S1000x192, .f32⟩
  | 77 => ⟨S1000x192, .f32⟩
  | 78 => ⟨S192x192, .f32⟩
  | 79 => ⟨S1000x192, .f32⟩
  | 80 => ⟨S1000x192, .f32⟩
  | 81 => ⟨S1000x192, .f32⟩
  | 82 => ⟨S1000x192, .f32⟩
  | 83 => ⟨S1x192, .f32⟩
  | 84 => ⟨S1000x192, .f32⟩
  | 85 => ⟨S1000x192, .f32⟩
  | 86 => ⟨S1000x192, .f32⟩
  | 87 => ⟨S1000x192, .f32⟩
  | 88 => ⟨S1000x192, .f32⟩
  | 89 => ⟨S1000x192, .f32⟩
  | 90 => ⟨S192x192, .f32⟩
  | 91 => ⟨S1000x192, .f32⟩
  | 92 => ⟨S1000x192, .f32⟩
  | 93 => ⟨S1000x192, .f32⟩
  | 94 => ⟨S1000x192, .f32⟩
  | 95 => ⟨S1x192, .f32⟩
  | 96 => ⟨S1000x192, .f32⟩
  | 97 => ⟨S1000x192, .f32⟩
  | 98 => ⟨S1000x192, .f32⟩
  | 99 => ⟨S1000x192, .f32⟩
  | 100 => ⟨S192x192, .f32⟩
  | 101 => ⟨S1000x192, .f32⟩
  | 102 => ⟨S1000x192, .f32⟩
  | 103 => ⟨S1000x192, .f32⟩
  | 104 => ⟨S1000x192, .f32⟩
  | 105 => ⟨S1x192, .f32⟩
  | 106 => ⟨S1000x192, .f32⟩
  | 107 => ⟨S1000x192, .f32⟩
  | 108 => ⟨S1000x192, .f32⟩
  | 109 => ⟨S1000x192, .f32⟩
  | 110 => ⟨S1000x192, .f32⟩
  | 111 => ⟨S1000x192, .f32⟩
  | 112 => ⟨S192x192, .f32⟩
  | 113 => ⟨S1000x192, .f32⟩
  | 114 => ⟨S1000x192, .f32⟩
  | 115 => ⟨S1000x192, .f32⟩
  | 116 => ⟨S1000x192, .f32⟩
  | 117 => ⟨S1x192, .f32⟩
  | 118 => ⟨S1000x192, .f32⟩
  | 119 => ⟨S1000x192, .f32⟩
  | 120 => ⟨S1000x192, .f32⟩
  | 121 => ⟨S1000x192, .f32⟩
  | 122 => ⟨S192x192, .f32⟩
  | 123 => ⟨S1000x192, .f32⟩
  | 124 => ⟨S1000x192, .f32⟩
  | 125 => ⟨S1000x192, .f32⟩
  | 126 => ⟨S1000x192, .f32⟩
  | 127 => ⟨S1x192, .f32⟩
  | _ => ⟨S25000x192, .f32⟩

abbrev vmemTy0_1 (i : Nat) : BufTy := match i % 128 with
  | 0 => ⟨S1000x192, .f32⟩
  | 1 => ⟨S1000x192, .f32⟩
  | 2 => ⟨S1000x192, .f32⟩
  | 3 => ⟨S1000x192, .f32⟩
  | 4 => ⟨S1000x192, .f32⟩
  | 5 => ⟨S1000x192, .f32⟩
  | 6 => ⟨S192x192, .f32⟩
  | 7 => ⟨S1000x192, .f32⟩
  | 8 => ⟨S1000x192, .f32⟩
  | 9 => ⟨S1000x192, .f32⟩
  | 10 => ⟨S1000x192, .f32⟩
  | 11 => ⟨S1x192, .f32⟩
  | 12 => ⟨S1000x192, .f32⟩
  | 13 => ⟨S1000x192, .f32⟩
  | 14 => ⟨S1000x192, .f32⟩
  | 15 => ⟨S1000x192, .f32⟩
  | 16 => ⟨S1000x192, .f32⟩
  | 17 => ⟨S1000x192, .f32⟩
  | 18 => ⟨S192x3, .f32⟩
  | 19 => ⟨S1000x3, .f32⟩
  | 20 => ⟨S1000x3, .f32⟩
  | 21 => ⟨S1000x3, .f32⟩
  | 22 => ⟨S1000x3, .f32⟩
  | 23 => ⟨S1x3, .f32⟩
  | 24 => ⟨S1000x3, .f32⟩
  | 25 => ⟨S1000x3, .f32⟩
  | _ => ⟨S25000x192, .f32⟩

abbrev vmemTy (i : Nat) : BufTy := match i / 128 with
  | 0 => vmemTy0_0 i
  | 1 => vmemTy0_1 i
  | _ => ⟨S25000x192, .f32⟩

abbrev bufTy : (tb : Table) → Fin (tcTables nBuf tb) → BufTy
  | .hbm, ⟨i, _⟩ => hbmTy i
  | .local _ .vmem, ⟨i, _⟩ => vmemTy i
  | _, _ => ⟨S25000x192, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 154 → Bool
  | ⟨i, _⟩ => dmaSemScopedAt i

abbrev sig : RefSig :=
  ofTc nBuf bufTy 0 154 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_1 : Ref sig .tc := ⟨.hbm, 37, rfl⟩
abbrev main_v26 : Ref sig .tc := ⟨.hbm, 38, rfl⟩
abbrev main_v27 : Ref sig .tc := ⟨.hbm, 39, rfl⟩
abbrev main_c_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_4 : Ref sig .tc := ⟨.hbm, 60, rfl⟩
abbrev main_v46 : Ref sig .tc := ⟨.hbm, 61, rfl⟩
abbrev main_v47 : Ref sig .tc := ⟨.hbm, 62, rfl⟩
abbrev main_c_5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_c_7 : Ref sig .tc := ⟨.hbm, 83, rfl⟩
abbrev main_v66 : Ref sig .tc := ⟨.hbm, 84, rfl⟩
abbrev main_v67 : Ref sig .tc := ⟨.hbm, 85, rfl⟩
abbrev main_c_8 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_9 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_c_10 : Ref sig .tc := ⟨.hbm, 106, rfl⟩
abbrev main_v86 : Ref sig .tc := ⟨.hbm, 107, rfl⟩
abbrev main_v87 : Ref sig .tc := ⟨.hbm, 108, rfl⟩
abbrev main_c_11 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_12 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_c_13 : Ref sig .tc := ⟨.hbm, 129, rfl⟩
abbrev main_v106 : Ref sig .tc := ⟨.hbm, 130, rfl⟩
abbrev main_v107 : Ref sig .tc := ⟨.hbm, 131, rfl⟩
abbrev main_c_14 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_15 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_c_16 : Ref sig .tc := ⟨.hbm, 152, rfl⟩
abbrev main_v126 : Ref sig .tc := ⟨.hbm, 153, rfl⟩
abbrev main_v127 : Ref sig .tc := ⟨.hbm, 154, rfl⟩
abbrev main_c_17 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_cst_18 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_c_19 : Ref sig .tc := ⟨.hbm, 175, rfl⟩
abbrev main_v146 : Ref sig .tc := ⟨.hbm, 176, rfl⟩
abbrev main_v147 : Ref sig .tc := ⟨.hbm, 177, rfl⟩
abbrev main_c_20 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_cst_21 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_c_22 : Ref sig .tc := ⟨.hbm, 198, rfl⟩
abbrev main_v166 : Ref sig .tc := ⟨.hbm, 199, rfl⟩
abbrev main_v167 : Ref sig .tc := ⟨.hbm, 200, rfl⟩
abbrev main_c_23 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_cst_24 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_c_25 : Ref sig .tc := ⟨.hbm, 221, rfl⟩
abbrev main_v186 : Ref sig .tc := ⟨.hbm, 222, rfl⟩
abbrev main_v187 : Ref sig .tc := ⟨.hbm, 223, rfl⟩
abbrev main_c_26 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_cst_27 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_c_28 : Ref sig .tc := ⟨.hbm, 244, rfl⟩
abbrev main_v206 : Ref sig .tc := ⟨.hbm, 245, rfl⟩
abbrev main_v207 : Ref sig .tc := ⟨.hbm, 246, rfl⟩
abbrev main_c_29 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_cst_30 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_c_31 : Ref sig .tc := ⟨.hbm, 267, rfl⟩
abbrev main_v226 : Ref sig .tc := ⟨.hbm, 268, rfl⟩
abbrev main_v227 : Ref sig .tc := ⟨.hbm, 269, rfl⟩
abbrev main_c_32 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_cst_33 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_c_34 : Ref sig .tc := ⟨.hbm, 290, rfl⟩
abbrev main_v246 : Ref sig .tc := ⟨.hbm, 291, rfl⟩
abbrev main_v247 : Ref sig .tc := ⟨.hbm, 292, rfl⟩
abbrev main_c_35 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_cst_36 : Ref sig .tc := ⟨.hbm, 301, rfl⟩
abbrev main_v255 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_c_37 : Ref sig .tc := ⟨.hbm, 309, rfl⟩
abbrev main_v262 : Ref sig .tc := ⟨.hbm, 310, rfl⟩
abbrev main_v263 : Ref sig .tc := ⟨.hbm, 311, rfl⟩
abbrev main_c_38 : Ref sig .tc := ⟨.hbm, 312, rfl⟩
abbrev main_v264 : Ref sig .tc := ⟨.hbm, 313, rfl⟩
abbrev main_v265 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_cst_39 : Ref sig .tc := ⟨.hbm, 320, rfl⟩
abbrev main_v271 : Ref sig .tc := ⟨.hbm, 321, rfl⟩
abbrev main_v272 : Ref sig .tc := ⟨.hbm, 322, rfl⟩
abbrev main_v273 : Ref sig .tc := ⟨.hbm, 323, rfl⟩
abbrev main_v274 : Ref sig .tc := ⟨.hbm, 324, rfl⟩
abbrev main_v275 : Ref sig .tc := ⟨.hbm, 325, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg2_1 : Ref sig .tc := ⟨.vmem, 41, rfl⟩
abbrev cc7_stg3_0 : Ref sig .tc := ⟨.vmem, 42, rfl⟩
abbrev cc7_stg3_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg2_0 : Ref sig .tc := ⟨.vmem, 47, rfl⟩
abbrev cc8_stg2_1 : Ref sig .tc := ⟨.vmem, 48, rfl⟩
abbrev cc9_stg0_0 : Ref sig .tc := ⟨.vmem, 49, rfl⟩
abbrev cc9_stg0_1 : Ref sig .tc := ⟨.vmem, 50, rfl⟩
abbrev cc9_stg1_0 : Ref sig .tc := ⟨.vmem, 51, rfl⟩
abbrev cc9_stg2_0 : Ref sig .tc := ⟨.vmem, 52, rfl⟩
abbrev cc9_stg2_1 : Ref sig .tc := ⟨.vmem, 53, rfl⟩
abbrev cc10_stg0_0 : Ref sig .tc := ⟨.vmem, 54, rfl⟩
abbrev cc10_stg0_1 : Ref sig .tc := ⟨.vmem, 55, rfl⟩
abbrev cc10_stg1_0 : Ref sig .tc := ⟨.vmem, 56, rfl⟩
abbrev cc10_stg2_0 : Ref sig .tc := ⟨.vmem, 57, rfl⟩
abbrev cc10_stg2_1 : Ref sig .tc := ⟨.vmem, 58, rfl⟩
abbrev cc11_stg0_0 : Ref sig .tc := ⟨.vmem, 59, rfl⟩
abbrev cc11_stg0_1 : Ref sig .tc := ⟨.vmem, 60, rfl⟩
abbrev cc11_stg1_0 : Ref sig .tc := ⟨.vmem, 61, rfl⟩
abbrev cc11_stg2_0 : Ref sig .tc := ⟨.vmem, 62, rfl⟩
abbrev cc11_stg2_1 : Ref sig .tc := ⟨.vmem, 63, rfl⟩
abbrev cc11_stg3_0 : Ref sig .tc := ⟨.vmem, 64, rfl⟩
abbrev cc11_stg3_1 : Ref sig .tc := ⟨.vmem, 65, rfl⟩
abbrev cc12_stg0_0 : Ref sig .tc := ⟨.vmem, 66, rfl⟩
abbrev cc12_stg0_1 : Ref sig .tc := ⟨.vmem, 67, rfl⟩
abbrev cc12_stg1_0 : Ref sig .tc := ⟨.vmem, 68, rfl⟩
abbrev cc12_stg2_0 : Ref sig .tc := ⟨.vmem, 69, rfl⟩
abbrev cc12_stg2_1 : Ref sig .tc := ⟨.vmem, 70, rfl⟩
abbrev cc13_stg0_0 : Ref sig .tc := ⟨.vmem, 71, rfl⟩
abbrev cc13_stg0_1 : Ref sig .tc := ⟨.vmem, 72, rfl⟩
abbrev cc13_stg1_0 : Ref sig .tc := ⟨.vmem, 73, rfl⟩
abbrev cc13_stg2_0 : Ref sig .tc := ⟨.vmem, 74, rfl⟩
abbrev cc13_stg2_1 : Ref sig .tc := ⟨.vmem, 75, rfl⟩
abbrev cc14_stg0_0 : Ref sig .tc := ⟨.vmem, 76, rfl⟩
abbrev cc14_stg0_1 : Ref sig .tc := ⟨.vmem, 77, rfl⟩
abbrev cc14_stg1_0 : Ref sig .tc := ⟨.vmem, 78, rfl⟩
abbrev cc14_stg2_0 : Ref sig .tc := ⟨.vmem, 79, rfl⟩
abbrev cc14_stg2_1 : Ref sig .tc := ⟨.vmem, 80, rfl⟩
abbrev cc15_stg0_0 : Ref sig .tc := ⟨.vmem, 81, rfl⟩
abbrev cc15_stg0_1 : Ref sig .tc := ⟨.vmem, 82, rfl⟩
abbrev cc15_stg1_0 : Ref sig .tc := ⟨.vmem, 83, rfl⟩
abbrev cc15_stg2_0 : Ref sig .tc := ⟨.vmem, 84, rfl⟩
abbrev cc15_stg2_1 : Ref sig .tc := ⟨.vmem, 85, rfl⟩
abbrev cc15_stg3_0 : Ref sig .tc := ⟨.vmem, 86, rfl⟩
abbrev cc15_stg3_1 : Ref sig .tc := ⟨.vmem, 87, rfl⟩
abbrev cc16_stg0_0 : Ref sig .tc := ⟨.vmem, 88, rfl⟩
abbrev cc16_stg0_1 : Ref sig .tc := ⟨.vmem, 89, rfl⟩
abbrev cc16_stg1_0 : Ref sig .tc := ⟨.vmem, 90, rfl⟩
abbrev cc16_stg2_0 : Ref sig .tc := ⟨.vmem, 91, rfl⟩
abbrev cc16_stg2_1 : Ref sig .tc := ⟨.vmem, 92, rfl⟩
abbrev cc17_stg0_0 : Ref sig .tc := ⟨.vmem, 93, rfl⟩
abbrev cc17_stg0_1 : Ref sig .tc := ⟨.vmem, 94, rfl⟩
abbrev cc17_stg1_0 : Ref sig .tc := ⟨.vmem, 95, rfl⟩
abbrev cc17_stg2_0 : Ref sig .tc := ⟨.vmem, 96, rfl⟩
abbrev cc17_stg2_1 : Ref sig .tc := ⟨.vmem, 97, rfl⟩
abbrev cc18_stg0_0 : Ref sig .tc := ⟨.vmem, 98, rfl⟩
abbrev cc18_stg0_1 : Ref sig .tc := ⟨.vmem, 99, rfl⟩
abbrev cc18_stg1_0 : Ref sig .tc := ⟨.vmem, 100, rfl⟩
abbrev cc18_stg2_0 : Ref sig .tc := ⟨.vmem, 101, rfl⟩
abbrev cc18_stg2_1 : Ref sig .tc := ⟨.vmem, 102, rfl⟩
abbrev cc19_stg0_0 : Ref sig .tc := ⟨.vmem, 103, rfl⟩
abbrev cc19_stg0_1 : Ref sig .tc := ⟨.vmem, 104, rfl⟩
abbrev cc19_stg1_0 : Ref sig .tc := ⟨.vmem, 105, rfl⟩
abbrev cc19_stg2_0 : Ref sig .tc := ⟨.vmem, 106, rfl⟩
abbrev cc19_stg2_1 : Ref sig .tc := ⟨.vmem, 107, rfl⟩
abbrev cc19_stg3_0 : Ref sig .tc := ⟨.vmem, 108, rfl⟩
abbrev cc19_stg3_1 : Ref sig .tc := ⟨.vmem, 109, rfl⟩
abbrev cc20_stg0_0 : Ref sig .tc := ⟨.vmem, 110, rfl⟩
abbrev cc20_stg0_1 : Ref sig .tc := ⟨.vmem, 111, rfl⟩
abbrev cc20_stg1_0 : Ref sig .tc := ⟨.vmem, 112, rfl⟩
abbrev cc20_stg2_0 : Ref sig .tc := ⟨.vmem, 113, rfl⟩
abbrev cc20_stg2_1 : Ref sig .tc := ⟨.vmem, 114, rfl⟩
abbrev cc21_stg0_0 : Ref sig .tc := ⟨.vmem, 115, rfl⟩
abbrev cc21_stg0_1 : Ref sig .tc := ⟨.vmem, 116, rfl⟩
abbrev cc21_stg1_0 : Ref sig .tc := ⟨.vmem, 117, rfl⟩
abbrev cc21_stg2_0 : Ref sig .tc := ⟨.vmem, 118, rfl⟩
abbrev cc21_stg2_1 : Ref sig .tc := ⟨.vmem, 119, rfl⟩
abbrev cc22_stg0_0 : Ref sig .tc := ⟨.vmem, 120, rfl⟩
abbrev cc22_stg0_1 : Ref sig .tc := ⟨.vmem, 121, rfl⟩
abbrev cc22_stg1_0 : Ref sig .tc := ⟨.vmem, 122, rfl⟩
abbrev cc22_stg2_0 : Ref sig .tc := ⟨.vmem, 123, rfl⟩
abbrev cc22_stg2_1 : Ref sig .tc := ⟨.vmem, 124, rfl⟩
abbrev cc23_stg0_0 : Ref sig .tc := ⟨.vmem, 125, rfl⟩
abbrev cc23_stg0_1 : Ref sig .tc := ⟨.vmem, 126, rfl⟩
abbrev cc23_stg1_0 : Ref sig .tc := ⟨.vmem, 127, rfl⟩
abbrev cc23_stg2_0 : Ref sig .tc := ⟨.vmem, 128, rfl⟩
abbrev cc23_stg2_1 : Ref sig .tc := ⟨.vmem, 129, rfl⟩
abbrev cc23_stg3_0 : Ref sig .tc := ⟨.vmem, 130, rfl⟩
abbrev cc23_stg3_1 : Ref sig .tc := ⟨.vmem, 131, rfl⟩
abbrev cc24_stg0_0 : Ref sig .tc := ⟨.vmem, 132, rfl⟩
abbrev cc24_stg0_1 : Ref sig .tc := ⟨.vmem, 133, rfl⟩
abbrev cc24_stg1_0 : Ref sig .tc := ⟨.vmem, 134, rfl⟩
abbrev cc24_stg2_0 : Ref sig .tc := ⟨.vmem, 135, rfl⟩
abbrev cc24_stg2_1 : Ref sig .tc := ⟨.vmem, 136, rfl⟩
abbrev cc25_stg0_0 : Ref sig .tc := ⟨.vmem, 137, rfl⟩
abbrev cc25_stg0_1 : Ref sig .tc := ⟨.vmem, 138, rfl⟩
abbrev cc25_stg1_0 : Ref sig .tc := ⟨.vmem, 139, rfl⟩
abbrev cc25_stg2_0 : Ref sig .tc := ⟨.vmem, 140, rfl⟩
abbrev cc25_stg2_1 : Ref sig .tc := ⟨.vmem, 141, rfl⟩
abbrev cc25_stg3_0 : Ref sig .tc := ⟨.vmem, 142, rfl⟩
abbrev cc25_stg3_1 : Ref sig .tc := ⟨.vmem, 143, rfl⟩
abbrev cc26_stg0_0 : Ref sig .tc := ⟨.vmem, 144, rfl⟩
abbrev cc26_stg0_1 : Ref sig .tc := ⟨.vmem, 145, rfl⟩
abbrev cc26_stg1_0 : Ref sig .tc := ⟨.vmem, 146, rfl⟩
abbrev cc26_stg2_0 : Ref sig .tc := ⟨.vmem, 147, rfl⟩
abbrev cc26_stg2_1 : Ref sig .tc := ⟨.vmem, 148, rfl⟩
abbrev cc27_stg0_0 : Ref sig .tc := ⟨.vmem, 149, rfl⟩
abbrev cc27_stg0_1 : Ref sig .tc := ⟨.vmem, 150, rfl⟩
abbrev cc27_stg1_0 : Ref sig .tc := ⟨.vmem, 151, rfl⟩
abbrev cc27_stg2_0 : Ref sig .tc := ⟨.vmem, 152, rfl⟩
abbrev cc27_stg2_1 : Ref sig .tc := ⟨.vmem, 153, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem2_0 : DmaSem sig := 40
abbrev cc7_sem2_1 : DmaSem sig := 41
abbrev cc7_sem3_0 : DmaSem sig := 42
abbrev cc7_sem3_1 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem2_1 : DmaSem sig := 48
abbrev cc9_sem0_0 : DmaSem sig := 49
abbrev cc9_sem0_1 : DmaSem sig := 50
abbrev cc9_sem1_0 : DmaSem sig := 51
abbrev cc9_sem2_0 : DmaSem sig := 52
abbrev cc9_sem2_1 : DmaSem sig := 53
abbrev cc10_sem0_0 : DmaSem sig := 54
abbrev cc10_sem0_1 : DmaSem sig := 55
abbrev cc10_sem1_0 : DmaSem sig := 56
abbrev cc10_sem2_0 : DmaSem sig := 57
abbrev cc10_sem2_1 : DmaSem sig := 58
abbrev cc11_sem0_0 : DmaSem sig := 59
abbrev cc11_sem0_1 : DmaSem sig := 60
abbrev cc11_sem1_0 : DmaSem sig := 61
abbrev cc11_sem2_0 : DmaSem sig := 62
abbrev cc11_sem2_1 : DmaSem sig := 63
abbrev cc11_sem3_0 : DmaSem sig := 64
abbrev cc11_sem3_1 : DmaSem sig := 65
abbrev cc12_sem0_0 : DmaSem sig := 66
abbrev cc12_sem0_1 : DmaSem sig := 67
abbrev cc12_sem1_0 : DmaSem sig := 68
abbrev cc12_sem2_0 : DmaSem sig := 69
abbrev cc12_sem2_1 : DmaSem sig := 70
abbrev cc13_sem0_0 : DmaSem sig := 71
abbrev cc13_sem0_1 : DmaSem sig := 72
abbrev cc13_sem1_0 : DmaSem sig := 73
abbrev cc13_sem2_0 : DmaSem sig := 74
abbrev cc13_sem2_1 : DmaSem sig := 75
abbrev cc14_sem0_0 : DmaSem sig := 76
abbrev cc14_sem0_1 : DmaSem sig := 77
abbrev cc14_sem1_0 : DmaSem sig := 78
abbrev cc14_sem2_0 : DmaSem sig := 79
abbrev cc14_sem2_1 : DmaSem sig := 80
abbrev cc15_sem0_0 : DmaSem sig := 81
abbrev cc15_sem0_1 : DmaSem sig := 82
abbrev cc15_sem1_0 : DmaSem sig := 83
abbrev cc15_sem2_0 : DmaSem sig := 84
abbrev cc15_sem2_1 : DmaSem sig := 85
abbrev cc15_sem3_0 : DmaSem sig := 86
abbrev cc15_sem3_1 : DmaSem sig := 87
abbrev cc16_sem0_0 : DmaSem sig := 88
abbrev cc16_sem0_1 : DmaSem sig := 89
abbrev cc16_sem1_0 : DmaSem sig := 90
abbrev cc16_sem2_0 : DmaSem sig := 91
abbrev cc16_sem2_1 : DmaSem sig := 92
abbrev cc17_sem0_0 : DmaSem sig := 93
abbrev cc17_sem0_1 : DmaSem sig := 94
abbrev cc17_sem1_0 : DmaSem sig := 95
abbrev cc17_sem2_0 : DmaSem sig := 96
abbrev cc17_sem2_1 : DmaSem sig := 97
abbrev cc18_sem0_0 : DmaSem sig := 98
abbrev cc18_sem0_1 : DmaSem sig := 99
abbrev cc18_sem1_0 : DmaSem sig := 100
abbrev cc18_sem2_0 : DmaSem sig := 101
abbrev cc18_sem2_1 : DmaSem sig := 102
abbrev cc19_sem0_0 : DmaSem sig := 103
abbrev cc19_sem0_1 : DmaSem sig := 104
abbrev cc19_sem1_0 : DmaSem sig := 105
abbrev cc19_sem2_0 : DmaSem sig := 106
abbrev cc19_sem2_1 : DmaSem sig := 107
abbrev cc19_sem3_0 : DmaSem sig := 108
abbrev cc19_sem3_1 : DmaSem sig := 109
abbrev cc20_sem0_0 : DmaSem sig := 110
abbrev cc20_sem0_1 : DmaSem sig := 111
abbrev cc20_sem1_0 : DmaSem sig := 112
abbrev cc20_sem2_0 : DmaSem sig := 113
abbrev cc20_sem2_1 : DmaSem sig := 114
abbrev cc21_sem0_0 : DmaSem sig := 115
abbrev cc21_sem0_1 : DmaSem sig := 116
abbrev cc21_sem1_0 : DmaSem sig := 117
abbrev cc21_sem2_0 : DmaSem sig := 118
abbrev cc21_sem2_1 : DmaSem sig := 119
abbrev cc22_sem0_0 : DmaSem sig := 120
abbrev cc22_sem0_1 : DmaSem sig := 121
abbrev cc22_sem1_0 : DmaSem sig := 122
abbrev cc22_sem2_0 : DmaSem sig := 123
abbrev cc22_sem2_1 : DmaSem sig := 124
abbrev cc23_sem0_0 : DmaSem sig := 125
abbrev cc23_sem0_1 : DmaSem sig := 126
abbrev cc23_sem1_0 : DmaSem sig := 127
abbrev cc23_sem2_0 : DmaSem sig := 128
abbrev cc23_sem2_1 : DmaSem sig := 129
abbrev cc23_sem3_0 : DmaSem sig := 130
abbrev cc23_sem3_1 : DmaSem sig := 131
abbrev cc24_sem0_0 : DmaSem sig := 132
abbrev cc24_sem0_1 : DmaSem sig := 133
abbrev cc24_sem1_0 : DmaSem sig := 134
abbrev cc24_sem2_0 : DmaSem sig := 135
abbrev cc24_sem2_1 : DmaSem sig := 136
abbrev cc25_sem0_0 : DmaSem sig := 137
abbrev cc25_sem0_1 : DmaSem sig := 138
abbrev cc25_sem1_0 : DmaSem sig := 139
abbrev cc25_sem2_0 : DmaSem sig := 140
abbrev cc25_sem2_1 : DmaSem sig := 141
abbrev cc25_sem3_0 : DmaSem sig := 142
abbrev cc25_sem3_1 : DmaSem sig := 143
abbrev cc26_sem0_0 : DmaSem sig := 144
abbrev cc26_sem0_1 : DmaSem sig := 145
abbrev cc26_sem1_0 : DmaSem sig := 146
abbrev cc26_sem2_0 : DmaSem sig := 147
abbrev cc26_sem2_1 : DmaSem sig := 148
abbrev cc27_sem0_0 : DmaSem sig := 149
abbrev cc27_sem0_1 : DmaSem sig := 150
abbrev cc27_sem1_0 : DmaSem sig := 151
abbrev cc27_sem2_0 : DmaSem sig := 152
abbrev cc27_sem2_1 : DmaSem sig := 153

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S192x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x192 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x192 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S192x192 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x192 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x192 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x192 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1000x192 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x192 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S192x192 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x192 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x192 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x192 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S1000x192 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1000x192 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x192 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S192x192 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1000x192 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1000x192 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x192 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S1000x192 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1000x192 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S192x192 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S1000x192 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S1000x192 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x192 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S1000x192 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S1000x192 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1000x192 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S192x192 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S1000x192 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S1000x192 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x192 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S1000x192 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![25], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S1000x192 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S192x192 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S1000x192 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![25], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S1000x192 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x192 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S1000x192 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev stage15_3 : Fin 2 → Memref sig .tc .vmem S1000x192 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![25], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S1000x192 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S192x192 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 2 → Memref sig .tc .vmem S1000x192 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![25], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S1000x192 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x192 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S1000x192 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![25], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S1000x192 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S192x192 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 2 → Memref sig .tc .vmem S1000x192 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev grid19 : Pipeline.Grid := ⟨1, ![25], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_3 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S1000x192 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S1x192 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 2 → Memref sig .tc .vmem S1000x192 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev stage19_3 : Fin 2 → Memref sig .tc .vmem S1000x192 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true]

abbrev grid20 : Pipeline.Grid := ⟨1, ![25], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S1000x192 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S192x192 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 2 → Memref sig .tc .vmem S1000x192 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev grid21 : Pipeline.Grid := ⟨1, ![25], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S1000x192 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S1x192 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 2 → Memref sig .tc .vmem S1000x192 .f32 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![true]

abbrev grid22 : Pipeline.Grid := ⟨1, ![25], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S1000x192 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S192x192 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 2 → Memref sig .tc .vmem S1000x192 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true]

abbrev grid23 : Pipeline.Grid := ⟨1, ![25], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_3 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S1000x192 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 1 → Memref sig .tc .vmem S1x192 .f32 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))
abbrev reads23_1 : Fin grid23.rank → Bool := ![false]

abbrev stage23_2 : Fin 2 → Memref sig .tc .vmem S1000x192 .f32 := fun | 0 => Memref.whole cc23_stg2_0 | 1 => Memref.whole cc23_stg2_1 | ⟨_ + 2, h⟩ => absurd h (Nat.not_lt.2 (Nat.le_add_left _ _))
abbrev sem23_2 : Fin 2 → DmaSem sig := fun | 0 => cc23_sem2_0 | 1 => cc23_sem2_1 | ⟨_ + 2, h⟩ => absurd h (Nat.not_lt.2 (Nat.le_add_left _ _))
abbrev reads23_2 : Fin grid23.rank → Bool := ![true]

abbrev stage23_3 : Fin 2 → Memref sig .tc .vmem S1000x192 .f32 := fun | 0 => Memref.whole cc23_stg3_0 | 1 => Memref.whole cc23_stg3_1 | ⟨_ + 2, h⟩ => absurd h (Nat.not_lt.2 (Nat.le_add_left _ _))
abbrev sem23_3 : Fin 2 → DmaSem sig := fun | 0 => cc23_sem3_0 | 1 => cc23_sem3_1 | ⟨_ + 2, h⟩ => absurd h (Nat.not_lt.2 (Nat.le_add_left _ _))
abbrev reads23_3 : Fin grid23.rank → Bool := ![true]

abbrev grid24 : Pipeline.Grid := ⟨1, ![25], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_2 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage24_0 : Fin 2 → Memref sig .tc .vmem S1000x192 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 1 → Memref sig .tc .vmem S192x192 .f32 := fun | 0 => Memref.whole cc24_stg1_0 | ⟨_ + 1, h⟩ => absurd h (Nat.not_lt.2 (Nat.le_add_left _ _))
abbrev sem24_1 : Fin 1 → DmaSem sig := fun | 0 => cc24_sem1_0 | ⟨_ + 1, h⟩ => absurd h (Nat.not_lt.2 (Nat.le_add_left _ _))
abbrev reads24_1 : Fin grid24.rank → Bool := ![false]

abbrev stage24_2 : Fin 2 → Memref sig .tc .vmem S1000x192 .f32 := fun | 0 => Memref.whole cc24_stg2_0 | 1 => Memref.whole cc24_stg2_1 | ⟨_ + 2, h⟩ => absurd h (Nat.not_lt.2 (Nat.le_add_left _ _))
abbrev sem24_2 : Fin 2 → DmaSem sig := fun | 0 => cc24_sem2_0 | 1 => cc24_sem2_1 | ⟨_ + 2, h⟩ => absurd h (Nat.not_lt.2 (Nat.le_add_left _ _))
abbrev reads24_2 : Fin grid24.rank → Bool := ![true]

abbrev grid25 : Pipeline.Grid := ⟨1, ![25], ![false]⟩

def cc25_transform_0 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_1 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_2 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_3 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage25_0 : Fin 2 → Memref sig .tc .vmem S1000x192 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 1 → Memref sig .tc .vmem S1x192 .f32 := fun | 0 => Memref.whole cc25_stg1_0 | ⟨_ + 1, h⟩ => absurd h (Nat.not_lt.2 (Nat.le_add_left _ _))
abbrev sem25_1 : Fin 1 → DmaSem sig := fun | 0 => cc25_sem1_0 | ⟨_ + 1, h⟩ => absurd h (Nat.not_lt.2 (Nat.le_add_left _ _))
abbrev reads25_1 : Fin grid25.rank → Bool := ![false]

abbrev stage25_2 : Fin 2 → Memref sig .tc .vmem S1000x192 .f32 := fun | 0 => Memref.whole cc25_stg2_0 | 1 => Memref.whole cc25_stg2_1 | ⟨_ + 2, h⟩ => absurd h (Nat.not_lt.2 (Nat.le_add_left _ _))
abbrev sem25_2 : Fin 2 → DmaSem sig := fun | 0 => cc25_sem2_0 | 1 => cc25_sem2_1 | ⟨_ + 2, h⟩ => absurd h (Nat.not_lt.2 (Nat.le_add_left _ _))
abbrev reads25_2 : Fin grid25.rank → Bool := ![true]

abbrev stage25_3 : Fin 2 → Memref sig .tc .vmem S1000x192 .f32 := fun | 0 => Memref.whole cc25_stg3_0 | 1 => Memref.whole cc25_stg3_1 | ⟨_ + 2, h⟩ => absurd h (Nat.not_lt.2 (Nat.le_add_left _ _))
abbrev sem25_3 : Fin 2 → DmaSem sig := fun | 0 => cc25_sem3_0 | 1 => cc25_sem3_1 | ⟨_ + 2, h⟩ => absurd h (Nat.not_lt.2 (Nat.le_add_left _ _))
abbrev reads25_3 : Fin grid25.rank → Bool := ![true]

abbrev grid26 : Pipeline.Grid := ⟨1, ![25], ![false]⟩

def cc26_transform_0 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_1 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_2 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage26_0 : Fin 2 → Memref sig .tc .vmem S1000x192 .f32 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev stage26_1 : Fin 1 → Memref sig .tc .vmem S192x3 .f32 := fun | 0 => Memref.whole cc26_stg1_0 | ⟨_ + 1, h⟩ => absurd h (Nat.not_lt.2 (Nat.le_add_left _ _))
abbrev sem26_1 : Fin 1 → DmaSem sig := fun | 0 => cc26_sem1_0 | ⟨_ + 1, h⟩ => absurd h (Nat.not_lt.2 (Nat.le_add_left _ _))
abbrev reads26_1 : Fin grid26.rank → Bool := ![false]

abbrev stage26_2 : Fin 2 → Memref sig .tc .vmem S1000x3 .f32 := fun | 0 => Memref.whole cc26_stg2_0 | 1 => Memref.whole cc26_stg2_1 | ⟨_ + 2, h⟩ => absurd h (Nat.not_lt.2 (Nat.le_add_left _ _))
abbrev sem26_2 : Fin 2 → DmaSem sig := fun | 0 => cc26_sem2_0 | 1 => cc26_sem2_1 | ⟨_ + 2, h⟩ => absurd h (Nat.not_lt.2 (Nat.le_add_left _ _))
abbrev reads26_2 : Fin grid26.rank → Bool := ![true]

abbrev grid27 : Pipeline.Grid := ⟨1, ![25], ![false]⟩

def cc27_transform_0 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_1 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_2 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage27_0 : Fin 2 → Memref sig .tc .vmem S1000x3 .f32 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true]

abbrev stage27_1 : Fin 1 → Memref sig .tc .vmem S1x3 .f32 := fun | 0 => Memref.whole cc27_stg1_0 | ⟨_ + 1, h⟩ => absurd h (Nat.not_lt.2 (Nat.le_add_left _ _))
abbrev sem27_1 : Fin 1 → DmaSem sig := fun | 0 => cc27_sem1_0 | ⟨_ + 1, h⟩ => absurd h (Nat.not_lt.2 (Nat.le_add_left _ _))
abbrev reads27_1 : Fin grid27.rank → Bool := ![false]

abbrev stage27_2 : Fin 2 → Memref sig .tc .vmem S1000x3 .f32 := fun | 0 => Memref.whole cc27_stg2_0 | 1 => Memref.whole cc27_stg2_1 | ⟨_ + 2, h⟩ => absurd h (Nat.not_lt.2 (Nat.le_add_left _ _))
abbrev sem27_2 : Fin 2 → DmaSem sig := fun | 0 => cc27_sem2_0 | 1 => cc27_sem2_1 | ⟨_ + 2, h⟩ => absurd h (Nat.not_lt.2 (Nat.le_add_left _ _))
abbrev reads27_2 : Fin grid27.rank → Bool := ![true]

class Facts₀ : Prop where
  slices_S13x192x192_S1x192x192_0_0_0 : S13x192x192.Slices ![0, 0, 0] S1x192x192
  shapeCasts_S1x192x192_S192x192 : S1x192x192.ShapeCasts S192x192
  slices_S13x192_S1x192_0_0 : S13x192.Slices ![0, 0] S1x192
  shapeCasts_S1x192_S192 : S1x192.ShapeCasts S192
  inb_S1000x192_S1000x192_0_0 : ∀ a, (![0, 0] : Fin 2 → Nat) a + S1000x192.size a ≤ S1000x192.size a
  h_S1000x192 : 0 < S1000x192.numel
  bitsLt_bf16_f32 : FTy.bits .bf16 < FTy.bits .f32
  inb_S192x192_S192x192_0_0 : ∀ a, (![0, 0] : Fin 2 → Nat) a + S192x192.size a ≤ S192x192.size a
  h_S192x192 : 0 < S192x192.numel
  shapeCasts_S192x192_S192x192 : S192x192.ShapeCasts S192x192
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x192_0_1 : S400000x1.BroadcastsInDim S400000x192 (![0, 1] : Fin 2 → Fin S400000x192.rank)
  bcast_S_S25000x192 : S_.BroadcastsInDim S25000x192 (![] : Fin 0 → Fin S25000x192.rank)
  shapeCasts_S192_S1x192 : S192.ShapeCasts S1x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S1000x192 : S1x192.Broadcasts S1000x192
  shapeCasts_S1000x192_S1000x192 : S1000x192.ShapeCasts S1000x192
  slices_S13x192x192_S1x192x192_1_0_0 : S13x192x192.Slices ![1, 0, 0] S1x192x192
  slices_S13x192_S1x192_1_0 : S13x192.Slices ![1, 0] S1x192
  slices_S13x192x192_S1x192x192_2_0_0 : S13x192x192.Slices ![2, 0, 0] S1x192x192
  slices_S13x192_S1x192_2_0 : S13x192.Slices ![2, 0] S1x192
  slices_S13x192x192_S1x192x192_3_0_0 : S13x192x192.Slices ![3, 0, 0] S1x192x192
  slices_S13x192_S1x192_3_0 : S13x192.Slices ![3, 0] S1x192
  slices_S13x192x192_S1x192x192_4_0_0 : S13x192x192.Slices ![4, 0, 0] S1x192x192
  slices_S13x192_S1x192_4_0 : S13x192.Slices ![4, 0] S1x192
  slices_S13x192x192_S1x192x192_5_0_0 : S13x192x192.Slices ![5, 0, 0] S1x192x192
  slices_S13x192_S1x192_5_0 : S13x192.Slices ![5, 0] S1x192
  slices_S13x192x192_S1x192x192_6_0_0 : S13x192x192.Slices ![6, 0, 0] S1x192x192
  slices_S13x192_S1x192_6_0 : S13x192.Slices ![6, 0] S1x192
  slices_S13x192x192_S1x192x192_7_0_0 : S13x192x192.Slices ![7, 0, 0] S1x192x192
  slices_S13x192_S1x192_7_0 : S13x192.Slices ![7, 0] S1x192
  slices_S13x192x192_S1x192x192_8_0_0 : S13x192x192.Slices ![8, 0, 0] S1x192x192
  slices_S13x192_S1x192_8_0 : S13x192.Slices ![8, 0] S1x192
  slices_S13x192x192_S1x192x192_9_0_0 : S13x192x192.Slices ![9, 0, 0] S1x192x192
  slices_S13x192_S1x192_9_0 : S13x192.Slices ![9, 0] S1x192
  slices_S13x192x192_S1x192x192_10_0_0 : S13x192x192.Slices ![10, 0, 0] S1x192x192
  slices_S13x192_S1x192_10_0 : S13x192.Slices ![10, 0] S1x192
  slices_S13x192x192_S1x192x192_11_0_0 : S13x192x192.Slices ![11, 0, 0] S1x192x192
  slices_S13x192_S1x192_11_0 : S13x192.Slices ![11, 0] S1x192
  slices_S13x192x192_S1x192x192_12_0_0 : S13x192x192.Slices ![12, 0, 0] S1x192x192
  slices_S13x192_S1x192_12_0 : S13x192.Slices ![12, 0] S1x192
  inb_S192x3_S192x3_0_0 : ∀ a, (![0, 0] : Fin 2 → Nat) a + S192x3.size a ≤ S192x3.size a
  h_S192x3 : 0 < S192x3.numel
  inb_S1000x3_S1000x3_0_0 : ∀ a, (![0, 0] : Fin 2 → Nat) a + S1000x3.size a ≤ S1000x3.size a
  h_S1000x3 : 0 < S1000x3.numel
  bcast_S400000x1_S400000x3_0_1 : S400000x1.BroadcastsInDim S400000x3 (![0, 1] : Fin 2 → Fin S400000x3.rank)
  bcast_S_S25000x3 : S_.BroadcastsInDim S25000x3 (![] : Fin 0 → Fin S25000x3.rank)
  shapeCasts_S3_S1x3 : S3.ShapeCasts S1x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S1000x3 : S1x3.Broadcasts S1000x3
  shapeCasts_S1000x3_S1000x3 : S1000x3.ShapeCasts S1000x3
  dot_S1000x192_S192x192_S1000x192_1_0_0_1_n_n_wf : DotDims.WF S1000x192 S192x192 S1000x192 [1] [0] [0] [1] [] []
  gather_S25000x192_S400000x1_S400000x192_1_0_n_n_0_1_1192_wf : GatherDims.WF S25000x192 S400000x1 S400000x192 [1] [0] [] [0] [] 1 ![1, 192]
  scatter_S25000x192_S400000x1_S400000x192_1_0_0_1_wf : ScatterDims.WF S25000x192 S400000x1 S400000x192 [1] [0] [0] 1
  dot_S1000x192_S192x3_S1000x3_1_0_0_1_n_n_wf : DotDims.WF S1000x192 S192x3 S1000x3 [1] [0] [0] [1] [] []
  gather_S25000x3_S400000x1_S400000x3_1_0_n_n_0_1_13_wf : GatherDims.WF S25000x3 S400000x1 S400000x3 [1] [0] [] [0] [] 1 ![1, 3]
  scatter_S25000x3_S400000x1_S400000x3_1_0_0_1_wf : ScatterDims.WF S25000x3 S400000x1 S400000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x192.size a ≤ S25000x192.size a
  hwx0_0 : ∀ i : grid0.Coords, EltTy.bits .f32 = 32 ∨ (Rect.block (s := S25000x192) S1000x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x192.size a ≤ S192x192.size a
  hwx0_1 : ∀ i : grid0.Coords, EltTy.bits .f32 = 32 ∨ (Rect.block (s := S192x192) S192x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x192.size a ≤ S25000x192.size a
  hwx0_2 : ∀ i : grid0.Coords, EltTy.bits .f32 = 32 ∨ (Rect.block (s := S25000x192) S1000x192.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x192.size a ≤ S25000x192.size a
  hwx1_0 : ∀ i : grid1.Coords, EltTy.bits .f32 = 32 ∨ (Rect.block (s := S25000x192) S1000x192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x192.size a ≤ S1x192.size a
  hwx1_1 : ∀ i : grid1.Coords, EltTy.bits .f32 = 32 ∨ (Rect.block (s := S1x192) S1x192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x192.size a ≤ S25000x192.size a
  hwx1_2 : ∀ i : grid1.Coords, EltTy.bits .f32 = 32 ∨ (Rect.block (s := S25000x192) S1000x192.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x192.size a ≤ S25000x192.size a
  hwx2_0 : ∀ i : grid2.Coords, EltTy.bits .f32 = 32 ∨ (Rect.block (s := S25000x192) S1000x192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S192x192.size a ≤ S192x192.size a
  hwx2_1 : ∀ i : grid2.Coords, EltTy.bits .f32 = 32 ∨ (Rect.block (s := S192x192) S192x192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x192.size a ≤ S25000x192.size a
  hwx2_2 : ∀ i : grid2.Coords, EltTy.bits .f32 = 32 ∨ (Rect.block (s := S25000x192) S1000x192.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x192.size a ≤ S25000x192.size a
  hwx3_0 : ∀ i : grid3.Coords, EltTy.bits .f32 = 32 ∨ (Rect.block (s := S25000x192) S1000x192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x192.size a ≤ S1x192.size a
  hwx3_1 : ∀ i : grid3.Coords, EltTy.bits .f32 = 32 ∨ (Rect.block (s := S1x192) S1x192.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x192.size a ≤ S25000x192.size a
  hwx3_2 : ∀ i : grid3.Coords, EltTy.bits .f32 = 32 ∨ (Rect.block (s := S25000x192) S1000x192.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x192.size a ≤ S25000x192.size a
  hwx3_3 : ∀ i : grid3.Coords, EltTy.bits .f32 = 32 ∨ (Rect.block (s := S25000x192) S1000x192.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x192.size a ≤ S25000x192.size a
  hwx4_0 : ∀ i : grid4.Coords, EltTy.bits .f32 = 32 ∨ (Rect.block (s := S25000x192) S1000x192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S192x192.size a ≤ S192x192.size a
  hwx4_1 : ∀ i : grid4.Coords, EltTy.bits .f32 = 32 ∨ (Rect.block (s := S192x192) S192x192.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x192.size a ≤ S25000x192.size a
  hwx4_2 : ∀ i : grid4.Coords, EltTy.bits .f32 = 32 ∨ (Rect.block (s := S25000x192) S1000x192.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x192.size a ≤ S25000x192.size a
  hwx5_0 : ∀ i : grid5.Coords, EltTy.bits .f32 = 32 ∨ (Rect.block (s := S25000x192) S1000x192.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x192.size a ≤ S1x192.size a
  hwx5_1 : ∀ i : grid5.Coords, EltTy.bits .f32 = 32 ∨ (Rect.block (s := S1x192) S1x192.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x192.size a ≤ S25000x192.size a
  hwx5_2 : ∀ i : grid5.Coords, EltTy.bits .f32 = 32 ∨ (Rect.block (s := S25000x192) S1000x192.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x192.size a ≤ S25000x192.size a
  hwx6_0 : ∀ i : grid6.Coords, EltTy.bits .f32 = 32 ∨ (Rect.block (s := S25000x192) S1000x192.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S192x192.size a ≤ S192x192.size a
  hwx6_1 : ∀ i : grid6.Coords, EltTy.bits .f32 = 32 ∨ (Rect.block (s := S192x192) S192x192.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x192.size a ≤ S25000x192.size a
  hwx6_2 : ∀ i : grid6.Coords, EltTy.bits .f32 = 32 ∨ (Rect.block (s := S25000x192) S1000x192.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x192.size a ≤ S25000x192.size a
  hwx7_0 : ∀ i : grid7.Coords, EltTy.bits .f32 = 32 ∨ (Rect.block (s := S25000x192) S1000x192.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x192.size a ≤ S1x192.size a
  hwx7_1 : ∀ i : grid7.Coords, EltTy.bits .f32 = 32 ∨ (Rect.block (s := S1x192) S1x192.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1000x192.size a ≤ S25000x192.size a
  hwx7_2 : ∀ i : grid7.Coords, EltTy.bits .f32 = 32 ∨ (Rect.block (s := S25000x192) S1000x192.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1000x192.size a ≤ S25000x192.size a
  hwx7_3 : ∀ i : grid7.Coords, EltTy.bits .f32 = 32 ∨ (Rect.block (s := S25000x192) S1000x192.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x192.size a ≤ S25000x192.size a
  hwx8_0 : ∀ i : grid8.Coords, EltTy.bits .f32 = 32 ∨ (Rect.block (s := S25000x192) S1000x192.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S192x192.size a ≤ S192x192.size a
  hwx8_1 : ∀ i : grid8.Coords, EltTy.bits .f32 = 32 ∨ (Rect.block (s := S192x192) S192x192.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1000x192.size a ≤ S25000x192.size a
  hwx8_2 : ∀ i : grid8.Coords, EltTy.bits .f32 = 32 ∨ (Rect.block (s := S25000x192) S1000x192.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1000x192.size a ≤ S25000x192.size a
  hwx9_0 : ∀ i : grid9.Coords, EltTy.bits .f32 = 32 ∨ (Rect.block (s := S25000x192) S1000x192.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x192.size a ≤ S1x192.size a
  hwx9_1 : ∀ i : grid9.Coords, EltTy.bits .f32 = 32 ∨ (Rect.block (s := S1x192) S1x192.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1000x192.size a ≤ S25000x192.size a
  hwx9_2 : ∀ i : grid9.Coords, EltTy.bits .f32 = 32 ∨ (Rect.block (s := S25000x192) S1000x192.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1000x192.size a ≤ S25000x192.size a
  hwx10_0 : ∀ i : grid10.Coords, EltTy.bits .f32 = 32 ∨ (Rect.block (s := S25000x192) S1000x192.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S192x192.size a ≤ S192x192.size a
  hwx10_1 : ∀ i : grid10.Coords, EltTy.bits .f32 = 32 ∨ (Rect.block (s := S192x192) S192x192.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1000x192.size a ≤ S25000x192.size a
  hwx10_2 : ∀ i : grid10.Coords, EltTy.bits .f32 = 32 ∨ (Rect.block (s := S25000x192) S1000x192.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1000x192.size a ≤ S25000x192.size a
  hwx11_0 : ∀ i : grid11.Coords, EltTy.bits .f32 = 32 ∨ (Rect.block (s := S25000x192) S1000x192.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x192.size a ≤ S1x192.size a
  hwx11_1 : ∀ i : grid11.Coords, EltTy.bits .f32 = 32 ∨ (Rect.block (s := S1x192) S1x192.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1000x192.size a ≤ S25000x192.size a
  hwx11_2 : ∀ i : grid11.Coords, EltTy.bits .f32 = 32 ∨ (Rect.block (s := S25000x192) S1000x192.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S1000x192.size a ≤ S25000x192.size a
  hwx11_3 : ∀ i : grid11.Coords, EltTy.bits .f32 = 32 ∨ (Rect.block (s := S25000x192) S1000x192.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1000x192.size a ≤ S25000x192.size a
  hwx12_0 : ∀ i : grid12.Coords, EltTy.bits .f32 = 32 ∨ (Rect.block (s := S25000x192) S1000x192.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S192x192.size a ≤ S192x192.size a
  hwx12_1 : ∀ i : grid12.Coords, EltTy.bits .f32 = 32 ∨ (Rect.block (s := S192x192) S192x192.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1000x192.size a ≤ S25000x192.size a
  hwx12_2 : ∀ i : grid12.Coords, EltTy.bits .f32 = 32 ∨ (Rect.block (s := S25000x192) S1000x192.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1000x192.size a ≤ S25000x192.size a
  hwx13_0 : ∀ i : grid13.Coords, EltTy.bits .f32 = 32 ∨ (Rect.block (s := S25000x192) S1000x192.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x192.size a ≤ S1x192.size a
  hwx13_1 : ∀ i : grid13.Coords, EltTy.bits .f32 = 32 ∨ (Rect.block (s := S1x192) S1x192.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S1000x192.size a ≤ S25000x192.size a
  hwx13_2 : ∀ i : grid13.Coords, EltTy.bits .f32 = 32 ∨ (Rect.block (s := S25000x192) S1000x192.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1000x192.size a ≤ S25000x192.size a
  hwx14_0 : ∀ i : grid14.Coords, EltTy.bits .f32 = 32 ∨ (Rect.block (s := S25000x192) S1000x192.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S192x192.size a ≤ S192x192.size a
  hwx14_1 : ∀ i : grid14.Coords, EltTy.bits .f32 = 32 ∨ (Rect.block (s := S192x192) S192x192.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S1000x192.size a ≤ S25000x192.size a
  hwx14_2 : ∀ i : grid14.Coords, EltTy.bits .f32 = 32 ∨ (Rect.block (s := S25000x192) S1000x192.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1000x192.size a ≤ S25000x192.size a
  hwx15_0 : ∀ i : grid15.Coords, EltTy.bits .f32 = 32 ∨ (Rect.block (s := S25000x192) S1000x192.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x192.size a ≤ S1x192.size a
  hwx15_1 : ∀ i : grid15.Coords, EltTy.bits .f32 = 32 ∨ (Rect.block (s := S1x192) S1x192.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S1000x192.size a ≤ S25000x192.size a
  hwx15_2 : ∀ i : grid15.Coords, EltTy.bits .f32 = 32 ∨ (Rect.block (s := S25000x192) S1000x192.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S1000x192.size a ≤ S25000x192.size a
  hwx15_3 : ∀ i : grid15.Coords, EltTy.bits .f32 = 32 ∨ (Rect.block (s := S25000x192) S1000x192.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S1000x192.size a ≤ S25000x192.size a
  hwx16_0 : ∀ i : grid16.Coords, EltTy.bits .f32 = 32 ∨ (Rect.block (s := S25000x192) S1000x192.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S192x192.size a ≤ S192x192.size a
  hwx16_1 : ∀ i : grid16.Coords, EltTy.bits .f32 = 32 ∨ (Rect.block (s := S192x192) S192x192.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S1000x192.size a ≤ S25000x192.size a
  hwx16_2 : ∀ i : grid16.Coords, EltTy.bits .f32 = 32 ∨ (Rect.block (s := S25000x192) S1000x192.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S1000x192.size a ≤ S25000x192.size a
  hwx17_0 : ∀ i : grid17.Coords, EltTy.bits .f32 = 32 ∨ (Rect.block (s := S25000x192) S1000x192.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x192.size a ≤ S1x192.size a
  hwx17_1 : ∀ i : grid17.Coords, EltTy.bits .f32 = 32 ∨ (Rect.block (s := S1x192) S1x192.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S1000x192.size a ≤ S25000x192.size a
  hwx17_2 : ∀ i : grid17.Coords, EltTy.bits .f32 = 32 ∨ (Rect.block (s := S25000x192) S1000x192.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S1000x192.size a ≤ S25000x192.size a
  hwx18_0 : ∀ i : grid18.Coords, EltTy.bits .f32 = 32 ∨ (Rect.block (s := S25000x192) S1000x192.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S192x192.size a ≤ S192x192.size a
  hwx18_1 : ∀ i : grid18.Coords, EltTy.bits .f32 = 32 ∨ (Rect.block (s := S192x192) S192x192.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S1000x192.size a ≤ S25000x192.size a
  hwx18_2 : ∀ i : grid18.Coords, EltTy.bits .f32 = 32 ∨ (Rect.block (s := S25000x192) S1000x192.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S1000x192.size a ≤ S25000x192.size a
  hwx19_0 : ∀ i : grid19.Coords, EltTy.bits .f32 = 32 ∨ (Rect.block (s := S25000x192) S1000x192.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S1x192.size a ≤ S1x192.size a
  hwx19_1 : ∀ i : grid19.Coords, EltTy.bits .f32 = 32 ∨ (Rect.block (s := S1x192) S1x192.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S1000x192.size a ≤ S25000x192.size a
  hwx19_2 : ∀ i : grid19.Coords, EltTy.bits .f32 = 32 ∨ (Rect.block (s := S25000x192) S1000x192.size (cc19_transform_2 i) (hinb19_2 i)).WholeWords (EltTy.packing .f32)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S1000x192.size a ≤ S25000x192.size a
  hwx19_3 : ∀ i : grid19.Coords, EltTy.bits .f32 = 32 ∨ (Rect.block (s := S25000x192) S1000x192.size (cc19_transform_3 i) (hinb19_3 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S1000x192.size a ≤ S25000x192.size a
  hwx20_0 : ∀ i : grid20.Coords, EltTy.bits .f32 = 32 ∨ (Rect.block (s := S25000x192) S1000x192.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S192x192.size a ≤ S192x192.size a
  hwx20_1 : ∀ i : grid20.Coords, EltTy.bits .f32 = 32 ∨ (Rect.block (s := S192x192) S192x192.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S1000x192.size a ≤ S25000x192.size a
  hwx20_2 : ∀ i : grid20.Coords, EltTy.bits .f32 = 32 ∨ (Rect.block (s := S25000x192) S1000x192.size (cc20_transform_2 i) (hinb20_2 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S1000x192.size a ≤ S25000x192.size a
  hwx21_0 : ∀ i : grid21.Coords, EltTy.bits .f32 = 32 ∨ (Rect.block (s := S25000x192) S1000x192.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S1x192.size a ≤ S1x192.size a
  hwx21_1 : ∀ i : grid21.Coords, EltTy.bits .f32 = 32 ∨ (Rect.block (s := S1x192) S1x192.size (cc21_transform_1 i) (hinb21_1 i)).WholeWords (EltTy.packing .f32)
  hstage21_2 : ∀ j, (stage21_2 j).IsWhole
  nbuf21_2 : grid21.bufCount reads21_2 false = 2
  hreads21_2 : ∀ i i' : grid21.Coords, (∀ a, reads21_2 a = true → i a = i' a) → cc21_transform_2 i = cc21_transform_2 i'
  hinb21_2 : ∀ (i : grid21.Coords) a, (cc21_transform_2 i a + 1) * S1000x192.size a ≤ S25000x192.size a
  hwx21_2 : ∀ i : grid21.Coords, EltTy.bits .f32 = 32 ∨ (Rect.block (s := S25000x192) S1000x192.size (cc21_transform_2 i) (hinb21_2 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S1000x192.size a ≤ S25000x192.size a
  hwx22_0 : ∀ i : grid22.Coords, EltTy.bits .f32 = 32 ∨ (Rect.block (s := S25000x192) S1000x192.size (cc22_transform_0 i) (hinb22_0 i)).WholeWords (EltTy.packing .f32)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S192x192.size a ≤ S192x192.size a
  hwx22_1 : ∀ i : grid22.Coords, EltTy.bits .f32 = 32 ∨ (Rect.block (s := S192x192) S192x192.size (cc22_transform_1 i) (hinb22_1 i)).WholeWords (EltTy.packing .f32)
  hstage22_2 : ∀ j, (stage22_2 j).IsWhole
  nbuf22_2 : grid22.bufCount reads22_2 false = 2
  hreads22_2 : ∀ i i' : grid22.Coords, (∀ a, reads22_2 a = true → i a = i' a) → cc22_transform_2 i = cc22_transform_2 i'
  hinb22_2 : ∀ (i : grid22.Coords) a, (cc22_transform_2 i a + 1) * S1000x192.size a ≤ S25000x192.size a
  hwx22_2 : ∀ i : grid22.Coords, EltTy.bits .f32 = 32 ∨ (Rect.block (s := S25000x192) S1000x192.size (cc22_transform_2 i) (hinb22_2 i)).WholeWords (EltTy.packing .f32)
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S1000x192.size a ≤ S25000x192.size a
  hwx23_0 : ∀ i : grid23.Coords, EltTy.bits .f32 = 32 ∨ (Rect.block (s := S25000x192) S1000x192.size (cc23_transform_0 i) (hinb23_0 i)).WholeWords (EltTy.packing .f32)
  hstage23_1 : ∀ j, (stage23_1 j).IsWhole
  nbuf23_1 : grid23.bufCount reads23_1 true = 1
  hreads23_1 : ∀ i i' : grid23.Coords, (∀ a, reads23_1 a = true → i a = i' a) → cc23_transform_1 i = cc23_transform_1 i'
  hinb23_1 : ∀ (i : grid23.Coords) a, (cc23_transform_1 i a + 1) * S1x192.size a ≤ S1x192.size a
  hwx23_1 : ∀ i : grid23.Coords, EltTy.bits .f32 = 32 ∨ (Rect.block (s := S1x192) S1x192.size (cc23_transform_1 i) (hinb23_1 i)).WholeWords (EltTy.packing .f32)
  hstage23_2 : ∀ j, (stage23_2 j).IsWhole
  nbuf23_2 : grid23.bufCount reads23_2 false = 2
  hreads23_2 : ∀ i i' : grid23.Coords, (∀ a, reads23_2 a = true → i a = i' a) → cc23_transform_2 i = cc23_transform_2 i'
  hinb23_2 : ∀ (i : grid23.Coords) a, (cc23_transform_2 i a + 1) * S1000x192.size a ≤ S25000x192.size a
  hwx23_2 : ∀ i : grid23.Coords, EltTy.bits .f32 = 32 ∨ (Rect.block (s := S25000x192) S1000x192.size (cc23_transform_2 i) (hinb23_2 i)).WholeWords (EltTy.packing .f32)
  hstage23_3 : ∀ j, (stage23_3 j).IsWhole
  nbuf23_3 : grid23.bufCount reads23_3 false = 2
  hreads23_3 : ∀ i i' : grid23.Coords, (∀ a, reads23_3 a = true → i a = i' a) → cc23_transform_3 i = cc23_transform_3 i'
  hinb23_3 : ∀ (i : grid23.Coords) a, (cc23_transform_3 i a + 1) * S1000x192.size a ≤ S25000x192.size a
  hwx23_3 : ∀ i : grid23.Coords, EltTy.bits .f32 = 32 ∨ (Rect.block (s := S25000x192) S1000x192.size (cc23_transform_3 i) (hinb23_3 i)).WholeWords (EltTy.packing .f32)
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S1000x192.size a ≤ S25000x192.size a
  hwx24_0 : ∀ i : grid24.Coords, EltTy.bits .f32 = 32 ∨ (Rect.block (s := S25000x192) S1000x192.size (cc24_transform_0 i) (hinb24_0 i)).WholeWords (EltTy.packing .f32)
  hstage24_1 : ∀ j, (stage24_1 j).IsWhole
  nbuf24_1 : grid24.bufCount reads24_1 true = 1
  hreads24_1 : ∀ i i' : grid24.Coords, (∀ a, reads24_1 a = true → i a = i' a) → cc24_transform_1 i = cc24_transform_1 i'
  hinb24_1 : ∀ (i : grid24.Coords) a, (cc24_transform_1 i a + 1) * S192x192.size a ≤ S192x192.size a
  hwx24_1 : ∀ i : grid24.Coords, EltTy.bits .f32 = 32 ∨ (Rect.block (s := S192x192) S192x192.size (cc24_transform_1 i) (hinb24_1 i)).WholeWords (EltTy.packing .f32)
  hstage24_2 : ∀ j, (stage24_2 j).IsWhole
  nbuf24_2 : grid24.bufCount reads24_2 false = 2
  hreads24_2 : ∀ i i' : grid24.Coords, (∀ a, reads24_2 a = true → i a = i' a) → cc24_transform_2 i = cc24_transform_2 i'
  hinb24_2 : ∀ (i : grid24.Coords) a, (cc24_transform_2 i a + 1) * S1000x192.size a ≤ S25000x192.size a
  hwx24_2 : ∀ i : grid24.Coords, EltTy.bits .f32 = 32 ∨ (Rect.block (s := S25000x192) S1000x192.size (cc24_transform_2 i) (hinb24_2 i)).WholeWords (EltTy.packing .f32)
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S1000x192.size a ≤ S25000x192.size a
  hwx25_0 : ∀ i : grid25.Coords, EltTy.bits .f32 = 32 ∨ (Rect.block (s := S25000x192) S1000x192.size (cc25_transform_0 i) (hinb25_0 i)).WholeWords (EltTy.packing .f32)
  hstage25_1 : ∀ j, (stage25_1 j).IsWhole
  nbuf25_1 : grid25.bufCount reads25_1 true = 1
  hreads25_1 : ∀ i i' : grid25.Coords, (∀ a, reads25_1 a = true → i a = i' a) → cc25_transform_1 i = cc25_transform_1 i'
  hinb25_1 : ∀ (i : grid25.Coords) a, (cc25_transform_1 i a + 1) * S1x192.size a ≤ S1x192.size a
  hwx25_1 : ∀ i : grid25.Coords, EltTy.bits .f32 = 32 ∨ (Rect.block (s := S1x192) S1x192.size (cc25_transform_1 i) (hinb25_1 i)).WholeWords (EltTy.packing .f32)
  hstage25_2 : ∀ j, (stage25_2 j).IsWhole
  nbuf25_2 : grid25.bufCount reads25_2 false = 2
  hreads25_2 : ∀ i i' : grid25.Coords, (∀ a, reads25_2 a = true → i a = i' a) → cc25_transform_2 i = cc25_transform_2 i'
  hinb25_2 : ∀ (i : grid25.Coords) a, (cc25_transform_2 i a + 1) * S1000x192.size a ≤ S25000x192.size a
  hwx25_2 : ∀ i : grid25.Coords, EltTy.bits .f32 = 32 ∨ (Rect.block (s := S25000x192) S1000x192.size (cc25_transform_2 i) (hinb25_2 i)).WholeWords (EltTy.packing .f32)
  hstage25_3 : ∀ j, (stage25_3 j).IsWhole
  nbuf25_3 : grid25.bufCount reads25_3 false = 2
  hreads25_3 : ∀ i i' : grid25.Coords, (∀ a, reads25_3 a = true → i a = i' a) → cc25_transform_3 i = cc25_transform_3 i'
  hinb25_3 : ∀ (i : grid25.Coords) a, (cc25_transform_3 i a + 1) * S1000x192.size a ≤ S25000x192.size a
  hwx25_3 : ∀ i : grid25.Coords, EltTy.bits .f32 = 32 ∨ (Rect.block (s := S25000x192) S1000x192.size (cc25_transform_3 i) (hinb25_3 i)).WholeWords (EltTy.packing .f32)
  hrank26 : 0 < grid26.rank
  hstage26_0 : ∀ j, (stage26_0 j).IsWhole
  nbuf26_0 : grid26.bufCount reads26_0 false = 2
  hreads26_0 : ∀ i i' : grid26.Coords, (∀ a, reads26_0 a = true → i a = i' a) → cc26_transform_0 i = cc26_transform_0 i'
  hinb26_0 : ∀ (i : grid26.Coords) a, (cc26_transform_0 i a + 1) * S1000x192.size a ≤ S25000x192.size a
  hwx26_0 : ∀ i : grid26.Coords, EltTy.bits .f32 = 32 ∨ (Rect.block (s := S25000x192) S1000x192.size (cc26_transform_0 i) (hinb26_0 i)).WholeWords (EltTy.packing .f32)
  hstage26_1 : ∀ j, (stage26_1 j).IsWhole
  nbuf26_1 : grid26.bufCount reads26_1 true = 1
  hreads26_1 : ∀ i i' : grid26.Coords, (∀ a, reads26_1 a = true → i a = i' a) → cc26_transform_1 i = cc26_transform_1 i'
  hinb26_1 : ∀ (i : grid26.Coords) a, (cc26_transform_1 i a + 1) * S192x3.size a ≤ S192x3.size a
  hwx26_1 : ∀ i : grid26.Coords, EltTy.bits .f32 = 32 ∨ (Rect.block (s := S192x3) S192x3.size (cc26_transform_1 i) (hinb26_1 i)).WholeWords (EltTy.packing .f32)
  hstage26_2 : ∀ j, (stage26_2 j).IsWhole
  nbuf26_2 : grid26.bufCount reads26_2 false = 2
  hreads26_2 : ∀ i i' : grid26.Coords, (∀ a, reads26_2 a = true → i a = i' a) → cc26_transform_2 i = cc26_transform_2 i'
  hinb26_2 : ∀ (i : grid26.Coords) a, (cc26_transform_2 i a + 1) * S1000x3.size a ≤ S25000x3.size a
  hwx26_2 : ∀ i : grid26.Coords, EltTy.bits .f32 = 32 ∨ (Rect.block (s := S25000x3) S1000x3.size (cc26_transform_2 i) (hinb26_2 i)).WholeWords (EltTy.packing .f32)
  hrank27 : 0 < grid27.rank
  hstage27_0 : ∀ j, (stage27_0 j).IsWhole
  nbuf27_0 : grid27.bufCount reads27_0 false = 2
  hreads27_0 : ∀ i i' : grid27.Coords, (∀ a, reads27_0 a = true → i a = i' a) → cc27_transform_0 i = cc27_transform_0 i'
  hinb27_0 : ∀ (i : grid27.Coords) a, (cc27_transform_0 i a + 1) * S1000x3.size a ≤ S25000x3.size a
  hwx27_0 : ∀ i : grid27.Coords, EltTy.bits .f32 = 32 ∨ (Rect.block (s := S25000x3) S1000x3.size (cc27_transform_0 i) (hinb27_0 i)).WholeWords (EltTy.packing .f32)
  hstage27_1 : ∀ j, (stage27_1 j).IsWhole
  nbuf27_1 : grid27.bufCount reads27_1 true = 1
  hreads27_1 : ∀ i i' : grid27.Coords, (∀ a, reads27_1 a = true → i a = i' a) → cc27_transform_1 i = cc27_transform_1 i'
  hinb27_1 : ∀ (i : grid27.Coords) a, (cc27_transform_1 i a + 1) * S1x3.size a ≤ S1x3.size a
  hwx27_1 : ∀ i : grid27.Coords, EltTy.bits .f32 = 32 ∨ (Rect.block (s := S1x3) S1x3.size (cc27_transform_1 i) (hinb27_1 i)).WholeWords (EltTy.packing .f32)
  hstage27_2 : ∀ j, (stage27_2 j).IsWhole
  nbuf27_2 : grid27.bufCount reads27_2 false = 2
  hreads27_2 : ∀ i i' : grid27.Coords, (∀ a, reads27_2 a = true → i a = i' a) → cc27_transform_2 i = cc27_transform_2 i'
  hinb27_2 : ∀ (i : grid27.Coords) a, (cc27_transform_2 i a + 1) * S1000x3.size a ≤ S25000x3.size a
  hwx27_2 : ∀ i : grid27.Coords, EltTy.bits .f32 = 32 ∨ (Rect.block (s := S25000x3) S1000x3.size (cc27_transform_2 i) (hinb27_2 i)).WholeWords (EltTy.packing .f32)

variable [Facts₀]

def dot_S1000x192_S192x192_S1000x192_1_0_0_1_n_n : DotDims S1000x192 S192x192 S1000x192 where
  lhsContracting := [1]
  rhsContracting := [0]
  lhsNonContracting := [0]
  rhsNonContracting := [1]
  lhsBatch := []
  rhsBatch := []
  wf := dot_S1000x192_S192x192_S1000x192_1_0_0_1_n_n_wf
def gather_S25000x192_S400000x1_S400000x192_1_0_n_n_0_1_1192 : GatherDims S25000x192 S400000x1 S400000x192 where
  offsetDims := [1]
  collapsedSliceDims := [0]
  operandBatchingDims := []
  startIndicesBatchingDims := []
  startIndexMap := [0]
  indexVectorDim := 1
  sliceSizes := ![1, 192]
  wf := gather_S25000x192_S400000x1_S400000x192_1_0_n_n_0_1_1192_wf
def scatter_S25000x192_S400000x1_S400000x192_1_0_0_1 : ScatterDims S25000x192 S400000x1 S400000x192 where
  updateWindowDims := [1]
  insertedWindowDims := [0]
  scatterDimsToOperandDims := [0]
  indexVectorDim := 1
  wf := scatter_S25000x192_S400000x1_S400000x192_1_0_0_1_wf
def dot_S1000x192_S192x3_S1000x3_1_0_0_1_n_n : DotDims S1000x192 S192x3 S1000x3 where
  lhsContracting := [1]
  rhsContracting := [0]
  lhsNonContracting := [0]
  rhsNonContracting := [1]
  lhsBatch := []
  rhsBatch := []
  wf := dot_S1000x192_S192x3_S1000x3_1_0_0_1_n_n_wf
def gather_S25000x3_S400000x1_S400000x3_1_0_n_n_0_1_13 : GatherDims S25000x3 S400000x1 S400000x3 where
  offsetDims := [1]
  collapsedSliceDims := [0]
  operandBatchingDims := []
  startIndicesBatchingDims := []
  startIndexMap := [0]
  indexVectorDim := 1
  sliceSizes := ![1, 3]
  wf := gather_S25000x3_S400000x1_S400000x3_1_0_n_n_0_1_13_wf
def scatter_S25000x3_S400000x1_S400000x3_1_0_0_1 : ScatterDims S25000x3 S400000x1 S400000x3 where
  updateWindowDims := [1]
  insertedWindowDims := [0]
  scatterDimsToOperandDims := [0]
  indexVectorDim := 1
  wf := scatter_S25000x3_S400000x1_S400000x3_1_0_0_1_wf

abbrev win0_0 : Pipeline.Window sig grid0 :=
  Pipeline.Window.ofSpec (Memref.whole main_arg0) S1000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S192x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1000x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S1000x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1000x192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S1000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S192x192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1000x192.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v37) S1000x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1x192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S1000x192.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v39) S1000x192.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v39) S1000x192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S192x192.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v44) S1000x192.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S1000x192.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S1x192.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S1000x192.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v59) S1000x192.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v61) S192x192.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v64) S1000x192.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v77) S1000x192.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v78) S1x192.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v39) S1000x192.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v79) S1000x192.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v79) S1000x192.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v81) S192x192.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v84) S1000x192.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v97) S1000x192.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v98) S1x192.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v99) S1000x192.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v99) S1000x192.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v101) S192x192.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v104) S1000x192.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v117) S1000x192.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v118) S1x192.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v79) S1000x192.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v119) S1000x192.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v119) S1000x192.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v121) S192x192.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v124) S1000x192.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v137) S1000x192.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v138) S1x192.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v139) S1000x192.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v139) S1000x192.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v141) S192x192.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v144) S1000x192.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v157) S1000x192.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v158) S1x192.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v119) S1000x192.size cc15_transform_2 reads15_2 false false 2 stage15_2 sem15_2
    hrank15 hreads15_2 hinb15_2 nbuf15_2 (Memref.isWhole_whole _) hwx15_2 hstage15_2

abbrev win15_3 : Pipeline.Window sig grid15 :=
  Pipeline.Window.ofSpec (Memref.whole main_v159) S1000x192.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v159) S1000x192.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v161) S192x192.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v164) S1000x192.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v177) S1000x192.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v178) S1x192.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v179) S1000x192.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v179) S1000x192.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v181) S192x192.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v184) S1000x192.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v197) S1000x192.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v198) S1x192.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v159) S1000x192.size cc19_transform_2 reads19_2 false false 2 stage19_2 sem19_2
    hrank19 hreads19_2 hinb19_2 nbuf19_2 (Memref.isWhole_whole _) hwx19_2 hstage19_2

abbrev win19_3 : Pipeline.Window sig grid19 :=
  Pipeline.Window.ofSpec (Memref.whole main_v199) S1000x192.size cc19_transform_3 reads19_3 true false 2 stage19_3 sem19_3
    hrank19 hreads19_3 hinb19_3 nbuf19_3 (Memref.isWhole_whole _) hwx19_3 hstage19_3

abbrev win19 : Fin 4 → Pipeline.Window sig grid19 := fun | 0 => win19_0 | 1 => win19_1 | 2 => win19_2 | 3 => win19_3 | ⟨_ + 4, h⟩ => absurd h (Nat.not_lt.2 (Nat.le_add_left _ _))
abbrev spec19 : Fin 4 → Pipeline.WinSpec sig grid19.rank := fun w => (win19 w).toWinSpec

abbrev win20_0 : Pipeline.Window sig grid20 :=
  Pipeline.Window.ofSpec (Memref.whole main_v199) S1000x192.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v201) S192x192.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v204) S1000x192.size cc20_transform_2 reads20_2 true false 2 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev win21_0 : Pipeline.Window sig grid21 :=
  Pipeline.Window.ofSpec (Memref.whole main_v217) S1000x192.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v218) S1x192.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v219) S1000x192.size cc21_transform_2 reads21_2 true false 2 stage21_2 sem21_2
    hrank21 hreads21_2 hinb21_2 nbuf21_2 (Memref.isWhole_whole _) hwx21_2 hstage21_2

abbrev win21 : Fin 3 → Pipeline.Window sig grid21 := fun | 0 => win21_0 | 1 => win21_1 | 2 => win21_2 | ⟨_ + 3, h⟩ => absurd h (Nat.not_lt.2 (Nat.le_add_left _ _))
abbrev spec21 : Fin 3 → Pipeline.WinSpec sig grid21.rank := fun w => (win21 w).toWinSpec

abbrev win22_0 : Pipeline.Window sig grid22 :=
  Pipeline.Window.ofSpec (Memref.whole main_v219) S1000x192.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v221) S192x192.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v224) S1000x192.size cc22_transform_2 reads22_2 true false 2 stage22_2 sem22_2
    hrank22 hreads22_2 hinb22_2 nbuf22_2 (Memref.isWhole_whole _) hwx22_2 hstage22_2

abbrev win22 : Fin 3 → Pipeline.Window sig grid22 := fun | 0 => win22_0 | 1 => win22_1 | 2 => win22_2 | ⟨_ + 3, h⟩ => absurd h (Nat.not_lt.2 (Nat.le_add_left _ _))
abbrev spec22 : Fin 3 → Pipeline.WinSpec sig grid22.rank := fun w => (win22 w).toWinSpec

abbrev win23_0 : Pipeline.Window sig grid23 :=
  Pipeline.Window.ofSpec (Memref.whole main_v237) S1000x192.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v238) S1x192.size cc23_transform_1 reads23_1 false true 1 stage23_1 sem23_1
    hrank23 hreads23_1 hinb23_1 nbuf23_1 (Memref.isWhole_whole _) hwx23_1 hstage23_1

abbrev win23_2 : Pipeline.Window sig grid23 :=
  Pipeline.Window.ofSpec (Memref.whole main_v199) S1000x192.size cc23_transform_2 reads23_2 false false 2 stage23_2 sem23_2
    hrank23 hreads23_2 hinb23_2 nbuf23_2 (Memref.isWhole_whole _) hwx23_2 hstage23_2

abbrev win23_3 : Pipeline.Window sig grid23 :=
  Pipeline.Window.ofSpec (Memref.whole main_v239) S1000x192.size cc23_transform_3 reads23_3 true false 2 stage23_3 sem23_3
    hrank23 hreads23_3 hinb23_3 nbuf23_3 (Memref.isWhole_whole _) hwx23_3 hstage23_3

abbrev win23 : Fin 4 → Pipeline.Window sig grid23 := fun | 0 => win23_0 | 1 => win23_1 | 2 => win23_2 | 3 => win23_3 | ⟨_ + 4, h⟩ => absurd h (Nat.not_lt.2 (Nat.le_add_left _ _))
abbrev spec23 : Fin 4 → Pipeline.WinSpec sig grid23.rank := fun w => (win23 w).toWinSpec

abbrev win24_0 : Pipeline.Window sig grid24 :=
  Pipeline.Window.ofSpec (Memref.whole main_v239) S1000x192.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_v241) S192x192.size cc24_transform_1 reads24_1 false true 1 stage24_1 sem24_1
    hrank24 hreads24_1 hinb24_1 nbuf24_1 (Memref.isWhole_whole _) hwx24_1 hstage24_1

abbrev win24_2 : Pipeline.Window sig grid24 :=
  Pipeline.Window.ofSpec (Memref.whole main_v244) S1000x192.size cc24_transform_2 reads24_2 true false 2 stage24_2 sem24_2
    hrank24 hreads24_2 hinb24_2 nbuf24_2 (Memref.isWhole_whole _) hwx24_2 hstage24_2

abbrev win24 : Fin 3 → Pipeline.Window sig grid24 := fun | 0 => win24_0 | 1 => win24_1 | 2 => win24_2 | ⟨_ + 3, h⟩ => absurd h (Nat.not_lt.2 (Nat.le_add_left _ _))
abbrev spec24 : Fin 3 → Pipeline.WinSpec sig grid24.rank := fun w => (win24 w).toWinSpec

abbrev win25_0 : Pipeline.Window sig grid25 :=
  Pipeline.Window.ofSpec (Memref.whole main_v257) S1000x192.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_v258) S1x192.size cc25_transform_1 reads25_1 false true 1 stage25_1 sem25_1
    hrank25 hreads25_1 hinb25_1 nbuf25_1 (Memref.isWhole_whole _) hwx25_1 hstage25_1

abbrev win25_2 : Pipeline.Window sig grid25 :=
  Pipeline.Window.ofSpec (Memref.whole main_v239) S1000x192.size cc25_transform_2 reads25_2 false false 2 stage25_2 sem25_2
    hrank25 hreads25_2 hinb25_2 nbuf25_2 (Memref.isWhole_whole _) hwx25_2 hstage25_2

abbrev win25_3 : Pipeline.Window sig grid25 :=
  Pipeline.Window.ofSpec (Memref.whole main_v259) S1000x192.size cc25_transform_3 reads25_3 true false 2 stage25_3 sem25_3
    hrank25 hreads25_3 hinb25_3 nbuf25_3 (Memref.isWhole_whole _) hwx25_3 hstage25_3

abbrev win25 : Fin 4 → Pipeline.Window sig grid25 := fun | 0 => win25_0 | 1 => win25_1 | 2 => win25_2 | 3 => win25_3 | ⟨_ + 4, h⟩ => absurd h (Nat.not_lt.2 (Nat.le_add_left _ _))
abbrev spec25 : Fin 4 → Pipeline.WinSpec sig grid25.rank := fun w => (win25 w).toWinSpec

abbrev win26_0 : Pipeline.Window sig grid26 :=
  Pipeline.Window.ofSpec (Memref.whole main_v259) S1000x192.size cc26_transform_0 reads26_0 false false 2 stage26_0 sem26_0
    hrank26 hreads26_0 hinb26_0 nbuf26_0 (Memref.isWhole_whole _) hwx26_0 hstage26_0

abbrev win26_1 : Pipeline.Window sig grid26 :=
  Pipeline.Window.ofSpec (Memref.whole main_arg6) S192x3.size cc26_transform_1 reads26_1 false true 1 stage26_1 sem26_1
    hrank26 hreads26_1 hinb26_1 nbuf26_1 (Memref.isWhole_whole _) hwx26_1 hstage26_1

abbrev win26_2 : Pipeline.Window sig grid26 :=
  Pipeline.Window.ofSpec (Memref.whole main_v260) S1000x3.size cc26_transform_2 reads26_2 true false 2 stage26_2 sem26_2
    hrank26 hreads26_2 hinb26_2 nbuf26_2 (Memref.isWhole_whole _) hwx26_2 hstage26_2

abbrev win26 : Fin 3 → Pipeline.Window sig grid26 := fun | 0 => win26_0 | 1 => win26_1 | 2 => win26_2 | ⟨_ + 3, h⟩ => absurd h (Nat.not_lt.2 (Nat.le_add_left _ _))
abbrev spec26 : Fin 3 → Pipeline.WinSpec sig grid26.rank := fun w => (win26 w).toWinSpec

abbrev win27_0 : Pipeline.Window sig grid27 :=
  Pipeline.Window.ofSpec (Memref.whole main_v273) S1000x3.size cc27_transform_0 reads27_0 false false 2 stage27_0 sem27_0
    hrank27 hreads27_0 hinb27_0 nbuf27_0 (Memref.isWhole_whole _) hwx27_0 hstage27_0

abbrev win27_1 : Pipeline.Window sig grid27 :=
  Pipeline.Window.ofSpec (Memref.whole main_v274) S1x3.size cc27_transform_1 reads27_1 false true 1 stage27_1 sem27_1
    hrank27 hreads27_1 hinb27_1 nbuf27_1 (Memref.isWhole_whole _) hwx27_1 hstage27_1

abbrev win27_2 : Pipeline.Window sig grid27 :=
  Pipeline.Window.ofSpec (Memref.whole main_v275) S1000x3.size cc27_transform_2 reads27_2 true false 2 stage27_2 sem27_2
    hrank27 hreads27_2 hinb27_2 nbuf27_2 (Memref.isWhole_whole _) hwx27_2 hstage27_2

abbrev win27 : Fin 3 → Pipeline.Window sig grid27 := fun | 0 => win27_0 | 1 => win27_1 | 2 => win27_2 | ⟨_ + 3, h⟩ => absurd h (Nat.not_lt.2 (Nat.le_add_left _ _))
abbrev spec27 : Fin 3 → Pipeline.WinSpec sig grid27.rank := fun w => (win27 w).toWinSpec

class Facts : Prop extends Facts₀ where

variable [Facts]
-- ==== ReferenceIdeal.lean ====
abbrev S25000x192 : Shape := ⟨2, ![25000, 192]⟩
abbrev S400000 : Shape := ⟨1, ![400000]⟩
abbrev S13x192x192 : Shape := ⟨3, ![13, 192, 192]⟩
abbrev S13x192 : Shape := ⟨2, ![13, 192]⟩
abbrev S192x3 : Shape := ⟨2, ![192, 3]⟩
abbrev S3 : Shape := ⟨1, ![3]⟩
abbrev S1x192x192 : Shape := ⟨3, ![1, 192, 192]⟩
abbrev S192x192 : Shape := ⟨2, ![192, 192]⟩
abbrev S1x192 : Shape := ⟨2, ![1, 192]⟩
abbrev S192 : Shape := ⟨1, ![192]⟩
abbrev S400000x1 : Shape := ⟨2, ![400000, 1]⟩
abbrev S_ : Shape := ⟨0, ![]⟩
abbrev S400000x192 : Shape := ⟨2, ![400000, 192]⟩
abbrev S25000x3 : Shape := ⟨2, ![25000, 3]⟩
abbrev S400000x3 : Shape := ⟨2, ![400000, 3]⟩
abbrev S1x3 : Shape := ⟨2, ![1, 3]⟩

abbrev nBuf : Space → Nat
  | .hbm => 407
  | .vmem => 0
  | .smem => 0
  | _ => 0

abbrev hbmTy0_0 (i : Nat) : BufTy := match i % 128 with
  | 0 => ⟨S25000x192, .f32⟩
  | 1 => ⟨S400000, .i32⟩
  | 2 => ⟨S400000, .i32⟩
  | 3 => ⟨S400000, .f32⟩
  | 4 => ⟨S13x192x192, .f32⟩
  | 5 => ⟨S13x192, .f32⟩
  | 6 => ⟨S192x3, .f32⟩
  | 7 => ⟨S3, .f32⟩
  | 8 => ⟨S1x192x192, .f32⟩
  | 9 => ⟨S192x192, .f32⟩
  | 10 => ⟨S1x192, .f32⟩
  | 11 => ⟨S192, .f32⟩
  | 12 => ⟨S25000x192, .f32⟩
  | 13 => ⟨S400000x1, .f32⟩
  | 14 => ⟨S_, .i32⟩
  | 15 => ⟨S400000, .i32⟩
  | 16 => ⟨S400000, .i1⟩
  | 17 => ⟨S_, .i32⟩
  | 18 => ⟨S400000, .i32⟩
  | 19 => ⟨S400000, .i32⟩
  | 20 => ⟨S400000, .i32⟩
  | 21 => ⟨S400000x1, .i32⟩
  | 22 => ⟨S400000x192, .f32⟩
  | 23 => ⟨S400000x192, .f32⟩
  | 24 => ⟨S400000x192, .f32⟩
  | 25 => ⟨S_, .f32⟩
  | 26 => ⟨S25000x192, .f32⟩
  | 27 => ⟨S400000x1, .i32⟩
  | 28 => ⟨S25000x192, .f32⟩
  | 29 => ⟨S1x192, .f32⟩
  | 30 => ⟨S25000x192, .f32⟩
  | 31 => ⟨S25000x192, .f32⟩
  | 32 => ⟨S_, .f32⟩
  | 33 => ⟨S25000x192, .f32⟩
  | 34 => ⟨S25000x192, .f32⟩
  | 35 => ⟨S1x192x192, .f32⟩
  | 36 => ⟨S192x192, .f32⟩
  | 37 => ⟨S1x192, .f32⟩
  | 38 => ⟨S192, .f32⟩
  | 39 => ⟨S25000x192, .f32⟩
  | 40 => ⟨S400000x1, .f32⟩
  | 41 => ⟨S_, .i32⟩
  | 42 => ⟨S400000, .i32⟩
  | 43 => ⟨S400000, .i1⟩
  | 44 => ⟨S_, .i32⟩
  | 45 => ⟨S400000, .i32⟩
  | 46 => ⟨S400000, .i32⟩
  | 47 => ⟨S400000, .i32⟩
  | 48 => ⟨S400000x1, .i32⟩
  | 49 => ⟨S400000x192, .f32⟩
  | 50 => ⟨S400000x192, .f32⟩
  | 51 => ⟨S400000x192, .f32⟩
  | 52 => ⟨S_, .f32⟩
  | 53 => ⟨S25000x192, .f32⟩
  | 54 => ⟨S400000x1, .i32⟩
  | 55 => ⟨S25000x192, .f32⟩
  | 56 => ⟨S1x192, .f32⟩
  | 57 => ⟨S25000x192, .f32⟩
  | 58 => ⟨S25000x192, .f32⟩
  | 59 => ⟨S_, .f32⟩
  | 60 => ⟨S25000x192, .f32⟩
  | 61 => ⟨S25000x192, .f32⟩
  | 62 => ⟨S25000x192, .f32⟩
  | 63 => ⟨S_, .f32⟩
  | 64 => ⟨S25000x192, .f32⟩
  | 65 => ⟨S25000x192, .f32⟩
  | 66 => ⟨S1x192x192, .f32⟩
  | 67 => ⟨S192x192, .f32⟩
  | 68 => ⟨S1x192, .f32⟩
  | 69 => ⟨S192, .f32⟩
  | 70 => ⟨S25000x192, .f32⟩
  | 71 => ⟨S400000x1, .f32⟩
  | 72 => ⟨S_, .i32⟩
  | 73 => ⟨S400000, .i32⟩
  | 74 => ⟨S400000, .i1⟩
  | 75 => ⟨S_, .i32⟩
  | 76 => ⟨S400000, .i32⟩
  | 77 => ⟨S400000, .i32⟩
  | 78 => ⟨S400000, .i32⟩
  | 79 => ⟨S400000x1, .i32⟩
  | 80 => ⟨S400000x192, .f32⟩
  | 81 => ⟨S400000x192, .f32⟩
  | 82 => ⟨S400000x192, .f32⟩
  | 83 => ⟨S_, .f32⟩
  | 84 => ⟨S25000x192, .f32⟩
  | 85 => ⟨S400000x1, .i32⟩
  | 86 => ⟨S25000x192, .f32⟩
  | 87 => ⟨S1x192, .f32⟩
  | 88 => ⟨S25000x192, .f32⟩
  | 89 => ⟨S25000x192, .f32⟩
  | 90 => ⟨S_, .f32⟩
  | 91 => ⟨S25000x192, .f32⟩
  | 92 => ⟨S25000x192, .f32⟩
  | 93 => ⟨S1x192x192, .f32⟩
  | 94 => ⟨S192x192, .f32⟩
  | 95 => ⟨S1x192, .f32⟩
  | 96 => ⟨S192, .f32⟩
  | 97 => ⟨S25000x192, .f32⟩
  | 98 => ⟨S400000x1, .f32⟩
  | 99 => ⟨S_, .i32⟩
  | 100 => ⟨S400000, .i32⟩
  | 101 => ⟨S400000, .i1⟩
  | 102 => ⟨S_, .i32⟩
  | 103 => ⟨S400000, .i32⟩
  | 104 => ⟨S400000, .i32⟩
  | 105 => ⟨S400000, .i32⟩
  | 106 => ⟨S400000x1, .i32⟩
  | 107 => ⟨S400000x192, .f32⟩
  | 108 => ⟨S400000x192, .f32⟩
  | 109 => ⟨S400000x192, .f32⟩
  | 110 => ⟨S_, .f32⟩
  | 111 => ⟨S25000x192, .f32⟩
  | 112 => ⟨S400000x1, .i32⟩
  | 113 => ⟨S25000x192, .f32⟩
  | 114 => ⟨S1x192, .f32⟩
  | 115 => ⟨S25000x192, .f32⟩
  | 116 => ⟨S25000x192, .f32⟩
  | 117 => ⟨S_, .f32⟩
  | 118 => ⟨S25000x192, .f32⟩
  | 119 => ⟨S25000x192, .f32⟩
  | 120 => ⟨S25000x192, .f32⟩
  | 121 => ⟨S_, .f32⟩
  | 122 => ⟨S25000x192, .f32⟩
  | 123 => ⟨S25000x192, .f32⟩
  | 124 => ⟨S1x192x192, .f32⟩
  | 125 => ⟨S192x192, .f32⟩
  | 126 => ⟨S1x192, .f32⟩
  | 127 => ⟨S192, .f32⟩
  | _ => ⟨S25000x192, .f32⟩

abbrev hbmTy0_1 (i : Nat) : BufTy := match i % 128 with
  | 0 => ⟨S25000x192, .f32⟩
  | 1 => ⟨S400000x1, .f32⟩
  | 2 => ⟨S_, .i32⟩
  | 3 => ⟨S400000, .i32⟩
  | 4 => ⟨S400000, .i1⟩
  | 5 => ⟨S_, .i32⟩
  | 6 => ⟨S400000, .i32⟩
  | 7 => ⟨S400000, .i32⟩
  | 8 => ⟨S400000, .i32⟩
  | 9 => ⟨S400000x1, .i32⟩
  | 10 => ⟨S400000x192, .f32⟩
  | 11 => ⟨S400000x192, .f32⟩
  | 12 => ⟨S400000x192, .f32⟩
  | 13 => ⟨S_, .f32⟩
  | 14 => ⟨S25000x192, .f32⟩
  | 15 => ⟨S400000x1, .i32⟩
  | 16 => ⟨S25000x192, .f32⟩
  | 17 => ⟨S1x192, .f32⟩
  | 18 => ⟨S25000x192, .f32⟩
  | 19 => ⟨S25000x192, .f32⟩
  | 20 => ⟨S_, .f32⟩
  | 21 => ⟨S25000x192, .f32⟩
  | 22 => ⟨S25000x192, .f32⟩
  | 23 => ⟨S1x192x192, .f32⟩
  | 24 => ⟨S192x192, .f32⟩
  | 25 => ⟨S1x192, .f32⟩
  | 26 => ⟨S192, .f32⟩
  | 27 => ⟨S25000x192, .f32⟩
  | 28 => ⟨S400000x1, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x192, .f32⟩
  | 38 => ⟨S400000x192, .f32⟩
  | 39 => ⟨S400000x192, .f32⟩
  | 40 => ⟨S_, .f32⟩
  | 41 => ⟨S25000x192, .f32⟩
  | 42 => ⟨S400000x1, .i32⟩
  | 43 => ⟨S25000x192, .f32⟩
  | 44 => ⟨S1x192, .f32⟩
  | 45 => ⟨S25000x192, .f32⟩
  | 46 => ⟨S25000x192, .f32⟩
  | 47 => ⟨S_, .f32⟩
  | 48 => ⟨S25000x192, .f32⟩
  | 49 => ⟨S25000x192, .f32⟩
  | 50 => ⟨S25000x192, .f32⟩
  | 51 => ⟨S_, .f32⟩
  | 52 => ⟨S25000x192, .f32⟩
  | 53 => ⟨S25000x192, .f32⟩
  | 54 => ⟨S1x192x192, .f32⟩
  | 55 => ⟨S192x192, .f32⟩
  | 56 => ⟨S1x192, .f32⟩
  | 57 => ⟨S192, .f32⟩
  | 58 => ⟨S25000x192, .f32⟩
  | 59 => ⟨S400000x1, .f32⟩
  | 60 => ⟨S_, .i32⟩
  | 61 => ⟨S400000, .i32⟩
  | 62 => ⟨S400000, .i1⟩
  | 63 => ⟨S_, .i32⟩
  | 64 => ⟨S400000, .i32⟩
  | 65 => ⟨S400000, .i32⟩
  | 66 => ⟨S400000, .i32⟩
  | 67 => ⟨S400000x1, .i32⟩
  | 68 => ⟨S400000x192, .f32⟩
  | 69 => ⟨S400000x192, .f32⟩
  | 70 => ⟨S400000x192, .f32⟩
  | 71 => ⟨S_, .f32⟩
  | 72 => ⟨S25000x192, .f32⟩
  | 73 => ⟨S400000x1, .i32⟩
  | 74 => ⟨S25000x192, .f32⟩
  | 75 => ⟨S1x192, .f32⟩
  | 76 => ⟨S25000x192, .f32⟩
  | 77 => ⟨S25000x192, .f32⟩
  | 78 => ⟨S_, .f32⟩
  | 79 => ⟨S25000x192, .f32⟩
  | 80 => ⟨S25000x192, .f32⟩
  | 81 => ⟨S1x192x192, .f32⟩
  | 82 => ⟨S192x192, .f32⟩
  | 83 => ⟨S1x192, .f32⟩
  | 84 => ⟨S192, .f32⟩
  | 85 => ⟨S25000x192, .f32⟩
  | 86 => ⟨S400000x1, .f32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S400000x192, .f32⟩
  | 96 => ⟨S400000x192, .f32⟩
  | 97 => ⟨S400000x192, .f32⟩
  | 98 => ⟨S_, .f32⟩
  | 99 => ⟨S25000x192, .f32⟩
  | 100 => ⟨S400000x1, .i32⟩
  | 101 => ⟨S25000x192, .f32⟩
  | 102 => ⟨S1x192, .f32⟩
  | 103 => ⟨S25000x192, .f32⟩
  | 104 => ⟨S25000x192, .f32⟩
  | 105 => ⟨S_, .f32⟩
  | 106 => ⟨S25000x192, .f32⟩
  | 107 => ⟨S25000x192, .f32⟩
  | 108 => ⟨S25000x192, .f32⟩
  | 109 => ⟨S_, .f32⟩
  | 110 => ⟨S25000x192, .f32⟩
  | 111 => ⟨S25000x192, .f32⟩
  | 112 => ⟨S1x192x192, .f32⟩
  | 113 => ⟨S192x192, .f32⟩
  | 114 => ⟨S1x192, .f32⟩
  | 115 => ⟨S192, .f32⟩
  | 116 => ⟨S25000x192, .f32⟩
  | 117 => ⟨S400000x1, .f32⟩
  | 118 => ⟨S_, .i32⟩
  | 119 => ⟨S400000, .i32⟩
  | 120 => ⟨S400000, .i1⟩
  | 121 => ⟨S_, .i32⟩
  | 122 => ⟨S400000, .i32⟩
  | 123 => ⟨S400000, .i32⟩
  | 124 => ⟨S400000, .i32⟩
  | 125 => ⟨S400000x1, .i32⟩
  | 126 => ⟨S400000x192, .f32⟩
  | 127 => ⟨S400000x192, .f32⟩
  | _ => ⟨S25000x192, .f32⟩

abbrev hbmTy0_2 (i : Nat) : BufTy := match i % 128 with
  | 0 => ⟨S400000x192, .f32⟩
  | 1 => ⟨S_, .f32⟩
  | 2 => ⟨S25000x192, .f32⟩
  | 3 => ⟨S400000x1, .i32⟩
  | 4 => ⟨S25000x192, .f32⟩
  | 5 => ⟨S1x192, .f32⟩
  | 6 => ⟨S25000x192, .f32⟩
  | 7 => ⟨S25000x192, .f32⟩
  | 8 => ⟨S_, .f32⟩
  | 9 => ⟨S25000x192, .f32⟩
  | 10 => ⟨S25000x192, .f32⟩
  | 11 => ⟨S1x192x192, .f32⟩
  | 12 => ⟨S192x192, .f32⟩
  | 13 => ⟨S1x192, .f32⟩
  | 14 => ⟨S192, .f32⟩
  | 15 => ⟨S25000x192, .f32⟩
  | 16 => ⟨S400000x1, .f32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S400000x192, .f32⟩
  | 26 => ⟨S400000x192, .f32⟩
  | 27 => ⟨S400000x192, .f32⟩
  | 28 => ⟨S_, .f32⟩
  | 29 => ⟨S25000x192, .f32⟩
  | 30 => ⟨S400000x1, .i32⟩
  | 31 => ⟨S25000x192, .f32⟩
  | 32 => ⟨S1x192, .f32⟩
  | 33 => ⟨S25000x192, .f32⟩
  | 34 => ⟨S25000x192, .f32⟩
  | 35 => ⟨S_, .f32⟩
  | 36 => ⟨S25000x192, .f32⟩
  | 37 => ⟨S25000x192, .f32⟩
  | 38 => ⟨S25000x192, .f32⟩
  | 39 => ⟨S_, .f32⟩
  | 40 => ⟨S25000x192, .f32⟩
  | 41 => ⟨S25000x192, .f32⟩
  | 42 => ⟨S1x192x192, .f32⟩
  | 43 => ⟨S192x192, .f32⟩
  | 44 => ⟨S1x192, .f32⟩
  | 45 => ⟨S192, .f32⟩
  | 46 => ⟨S25000x192, .f32⟩
  | 47 => ⟨S400000x1, .f32⟩
  | 48 => ⟨S_, .i32⟩
  | 49 => ⟨S400000, .i32⟩
  | 50 => ⟨S400000, .i1⟩
  | 51 => ⟨S_, .i32⟩
  | 52 => ⟨S400000, .i32⟩
  | 53 => ⟨S400000, .i32⟩
  | 54 => ⟨S400000, .i32⟩
  | 55 => ⟨S400000x1, .i32⟩
  | 56 => ⟨S400000x192, .f32⟩
  | 57 => ⟨S400000x192, .f32⟩
  | 58 => ⟨S400000x192, .f32⟩
  | 59 => ⟨S_, .f32⟩
  | 60 => ⟨S25000x192, .f32⟩
  | 61 => ⟨S400000x1, .i32⟩
  | 62 => ⟨S25000x192, .f32⟩
  | 63 => ⟨S1x192, .f32⟩
  | 64 => ⟨S25000x192, .f32⟩
  | 65 => ⟨S25000x192, .f32⟩
  | 66 => ⟨S_, .f32⟩
  | 67 => ⟨S25000x192, .f32⟩
  | 68 => ⟨S25000x192, .f32⟩
  | 69 => ⟨S1x192x192, .f32⟩
  | 70 => ⟨S192x192, .f32⟩
  | 71 => ⟨S1x192, .f32⟩
  | 72 => ⟨S192, .f32⟩
  | 73 => ⟨S25000x192, .f32⟩
  | 74 => ⟨S400000x1, .f32⟩
  | 75 => ⟨S_, .i32⟩
  | 76 => ⟨S400000, .i32⟩
  | 77 => ⟨S400000, .i1⟩
  | 78 => ⟨S_, .i32⟩
  | 79 => ⟨S400000, .i32⟩
  | 80 => ⟨S400000, .i32⟩
  | 81 => ⟨S400000, .i32⟩
  | 82 => ⟨S400000x1, .i32⟩
  | 83 => ⟨S400000x192, .f32⟩
  | 84 => ⟨S400000x192, .f32⟩
  | 85 => ⟨S400000x192, .f32⟩
  | 86 => ⟨S_, .f32⟩
  | 87 => ⟨S25000x192, .f32⟩
  | 88 => ⟨S400000x1, .i32⟩
  | 89 => ⟨S25000x192, .f32⟩
  | 90 => ⟨S1x192, .f32⟩
  | 91 => ⟨S25000x192, .f32⟩
  | 92 => ⟨S25000x192, .f32⟩
  | 93 => ⟨S_, .f32⟩
  | 94 => ⟨S25000x192, .f32⟩
  | 95 => ⟨S25000x192, .f32⟩
  | 96 => ⟨S25000x192, .f32⟩
  | 97 => ⟨S_, .f32⟩
  | 98 => ⟨S25000x192, .f32⟩
  | 99 => ⟨S25000x192, .f32⟩
  | 100 => ⟨S1x192x192, .f32⟩
  | 101 => ⟨S192x192, .f32⟩
  | 102 => ⟨S1x192, .f32⟩
  | 103 => ⟨S192, .f32⟩
  | 104 => ⟨S25000x192, .f32⟩
  | 105 => ⟨S400000x1, .f32⟩
  | 106 => ⟨S_, .i32⟩
  | 107 => ⟨S400000, .i32⟩
  | 108 => ⟨S400000, .i1⟩
  | 109 => ⟨S_, .i32⟩
  | 110 => ⟨S400000, .i32⟩
  | 111 => ⟨S400000, .i32⟩
  | 112 => ⟨S400000, .i32⟩
  | 113 => ⟨S400000x1, .i32⟩
  | 114 => ⟨S400000x192, .f32⟩
  | 115 => ⟨S400000x192, .f32⟩
  | 116 => ⟨S400000x192, .f32⟩
  | 117 => ⟨S_, .f32⟩
  | 118 => ⟨S25000x192, .f32⟩
  | 119 => ⟨S400000x1, .i32⟩
  | 120 => ⟨S25000x192, .f32⟩
  | 121 => ⟨S1x192, .f32⟩
  | 122 => ⟨S25000x192, .f32⟩
  | 123 => ⟨S25000x192, .f32⟩
  | 124 => ⟨S_, .f32⟩
  | 125 => ⟨S25000x192, .f32⟩
  | 126 => ⟨S25000x192, .f32⟩
  | 127 => ⟨S25000x192, .f32⟩
  | _ => ⟨S25000x192, .f32⟩

abbrev hbmTy0_3 (i : Nat) : BufTy := match i % 128 with
  | 0 => ⟨S_, .f32⟩
  | 1 => ⟨S25000x192, .f32⟩
  | 2 => ⟨S25000x192, .f32⟩
  | 3 => ⟨S25000x3, .f32⟩
  | 4 => ⟨S400000x1, .f32⟩
  | 5 => ⟨S_, .i32⟩
  | 6 => ⟨S400000, .i32⟩
  | 7 => ⟨S400000, .i1⟩
  | 8 => ⟨S_, .i32⟩
  | 9 => ⟨S400000, .i32⟩
  | 10 => ⟨S400000, .i32⟩
  | 11 => ⟨S400000, .i32⟩
  | 12 => ⟨S400000x1, .i32⟩
  | 13 => ⟨S400000x3, .f32⟩
  | 14 => ⟨S400000x3, .f32⟩
  | 15 => ⟨S400000x3, .f32⟩
  | 16 => ⟨S_, .f32⟩
  | 17 => ⟨S25000x3, .f32⟩
  | 18 => ⟨S400000x1, .i32⟩
  | 19 => ⟨S25000x3, .f32⟩
  | 20 => ⟨S1x3, .f32⟩
  | 21 => ⟨S25000x3, .f32⟩
  | 22 => ⟨S25000x3, .f32⟩
  | _ => ⟨S25000x192, .f32⟩

abbrev hbmTy (i : Nat) : BufTy := match i / 128 with
  | 0 => hbmTy0_0 i
  | 1 => hbmTy0_1 i
  | 2 => hbmTy0_2 i
  | 3 => hbmTy0_3 i
  | _ => ⟨S25000x192, .f32⟩

abbrev bufTy : (tb : Table) → Fin (tcTables nBuf tb) → BufTy
  | .hbm, ⟨i, _⟩ => hbmTy i
  | _, _ => ⟨S25000x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_cst : Ref sig .tc := ⟨.hbm, 32, rfl⟩
abbrev main_call0_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_1 : Ref sig .tc := ⟨.hbm, 41, rfl⟩
abbrev main_v28 : Ref sig .tc := ⟨.hbm, 42, rfl⟩
abbrev main_v29 : Ref sig .tc := ⟨.hbm, 43, rfl⟩
abbrev main_c_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call1_cst : Ref sig .tc := ⟨.hbm, 59, rfl⟩
abbrev main_call1_v0 : Ref sig .tc := ⟨.hbm, 60, rfl⟩
abbrev main_v43 : Ref sig .tc := ⟨.hbm, 61, rfl⟩
abbrev main_v44 : Ref sig .tc := ⟨.hbm, 62, rfl⟩
abbrev main_cst_4 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_5 : Ref sig .tc := ⟨.hbm, 72, rfl⟩
abbrev main_v53 : Ref sig .tc := ⟨.hbm, 73, rfl⟩
abbrev main_v54 : Ref sig .tc := ⟨.hbm, 74, rfl⟩
abbrev main_c_6 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_7 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call2_cst : Ref sig .tc := ⟨.hbm, 90, rfl⟩
abbrev main_call2_v0 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_8 : Ref sig .tc := ⟨.hbm, 99, rfl⟩
abbrev main_v75 : Ref sig .tc := ⟨.hbm, 100, rfl⟩
abbrev main_v76 : Ref sig .tc := ⟨.hbm, 101, rfl⟩
abbrev main_c_9 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_10 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_call3_cst : Ref sig .tc := ⟨.hbm, 117, rfl⟩
abbrev main_call3_v0 : Ref sig .tc := ⟨.hbm, 118, rfl⟩
abbrev main_v90 : Ref sig .tc := ⟨.hbm, 119, rfl⟩
abbrev main_v91 : Ref sig .tc := ⟨.hbm, 120, rfl⟩
abbrev main_cst_11 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_c_12 : Ref sig .tc := ⟨.hbm, 130, rfl⟩
abbrev main_v100 : Ref sig .tc := ⟨.hbm, 131, rfl⟩
abbrev main_v101 : Ref sig .tc := ⟨.hbm, 132, rfl⟩
abbrev main_c_13 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_14 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_call4_cst : Ref sig .tc := ⟨.hbm, 148, rfl⟩
abbrev main_call4_v0 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_c_15 : Ref sig .tc := ⟨.hbm, 157, rfl⟩
abbrev main_v122 : Ref sig .tc := ⟨.hbm, 158, rfl⟩
abbrev main_v123 : Ref sig .tc := ⟨.hbm, 159, rfl⟩
abbrev main_c_16 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_17 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_call5_cst : Ref sig .tc := ⟨.hbm, 175, rfl⟩
abbrev main_call5_v0 : Ref sig .tc := ⟨.hbm, 176, rfl⟩
abbrev main_v137 : Ref sig .tc := ⟨.hbm, 177, rfl⟩
abbrev main_v138 : Ref sig .tc := ⟨.hbm, 178, rfl⟩
abbrev main_cst_18 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_c_19 : Ref sig .tc := ⟨.hbm, 188, rfl⟩
abbrev main_v147 : Ref sig .tc := ⟨.hbm, 189, rfl⟩
abbrev main_v148 : Ref sig .tc := ⟨.hbm, 190, rfl⟩
abbrev main_c_20 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_cst_21 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_call6_cst : Ref sig .tc := ⟨.hbm, 206, rfl⟩
abbrev main_call6_v0 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_c_22 : Ref sig .tc := ⟨.hbm, 215, rfl⟩
abbrev main_v169 : Ref sig .tc := ⟨.hbm, 216, rfl⟩
abbrev main_v170 : Ref sig .tc := ⟨.hbm, 217, rfl⟩
abbrev main_c_23 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_cst_24 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_call7_cst : Ref sig .tc := ⟨.hbm, 233, rfl⟩
abbrev main_call7_v0 : Ref sig .tc := ⟨.hbm, 234, rfl⟩
abbrev main_v184 : Ref sig .tc := ⟨.hbm, 235, rfl⟩
abbrev main_v185 : Ref sig .tc := ⟨.hbm, 236, rfl⟩
abbrev main_cst_25 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_c_26 : Ref sig .tc := ⟨.hbm, 246, rfl⟩
abbrev main_v194 : Ref sig .tc := ⟨.hbm, 247, rfl⟩
abbrev main_v195 : Ref sig .tc := ⟨.hbm, 248, rfl⟩
abbrev main_c_27 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_cst_28 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_call8_cst : Ref sig .tc := ⟨.hbm, 264, rfl⟩
abbrev main_call8_v0 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_c_29 : Ref sig .tc := ⟨.hbm, 273, rfl⟩
abbrev main_v216 : Ref sig .tc := ⟨.hbm, 274, rfl⟩
abbrev main_v217 : Ref sig .tc := ⟨.hbm, 275, rfl⟩
abbrev main_c_30 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_cst_31 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_call9_cst : Ref sig .tc := ⟨.hbm, 291, rfl⟩
abbrev main_call9_v0 : Ref sig .tc := ⟨.hbm, 292, rfl⟩
abbrev main_v231 : Ref sig .tc := ⟨.hbm, 293, rfl⟩
abbrev main_v232 : Ref sig .tc := ⟨.hbm, 294, rfl⟩
abbrev main_cst_32 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_c_33 : Ref sig .tc := ⟨.hbm, 304, rfl⟩
abbrev main_v241 : Ref sig .tc := ⟨.hbm, 305, rfl⟩
abbrev main_v242 : Ref sig .tc := ⟨.hbm, 306, rfl⟩
abbrev main_c_34 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_cst_35 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_v254 : Ref sig .tc := ⟨.hbm, 320, rfl⟩
abbrev main_v255 : Ref sig .tc := ⟨.hbm, 321, rfl⟩
abbrev main_call10_cst : Ref sig .tc := ⟨.hbm, 322, rfl⟩
abbrev main_call10_v0 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_c_36 : Ref sig .tc := ⟨.hbm, 331, rfl⟩
abbrev main_v263 : Ref sig .tc := ⟨.hbm, 332, rfl⟩
abbrev main_v264 : Ref sig .tc := ⟨.hbm, 333, rfl⟩
abbrev main_c_37 : Ref sig .tc := ⟨.hbm, 334, rfl⟩
abbrev main_v265 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_cst_38 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_call11_cst : Ref sig .tc := ⟨.hbm, 349, rfl⟩
abbrev main_call11_v0 : Ref sig .tc := ⟨.hbm, 350, rfl⟩
abbrev main_v278 : Ref sig .tc := ⟨.hbm, 351, rfl⟩
abbrev main_v279 : Ref sig .tc := ⟨.hbm, 352, rfl⟩
abbrev main_cst_39 : Ref sig .tc := ⟨.hbm, 353, rfl⟩
abbrev main_v280 : Ref sig .tc := ⟨.hbm, 354, rfl⟩
abbrev main_v281 : Ref sig .tc := ⟨.hbm, 355, rfl⟩
abbrev main_v282 : Ref sig .tc := ⟨.hbm, 356, rfl⟩
abbrev main_v283 : Ref sig .tc := ⟨.hbm, 357, rfl⟩
abbrev main_v284 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_c_40 : Ref sig .tc := ⟨.hbm, 362, rfl⟩
abbrev main_v288 : Ref sig .tc := ⟨.hbm, 363, rfl⟩
abbrev main_v289 : Ref sig .tc := ⟨.hbm, 364, rfl⟩
abbrev main_c_41 : Ref sig .tc := ⟨.hbm, 365, rfl⟩
abbrev main_v290 : Ref sig .tc := ⟨.hbm, 366, rfl⟩
abbrev main_v291 : Ref sig .tc := ⟨.hbm, 367, rfl⟩
abbrev main_v292 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩
abbrev main_v296 : Ref sig .tc := ⟨.hbm, 372, rfl⟩
abbrev main_cst_42 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩
abbrev main_v301 : Ref sig .tc := ⟨.hbm, 378, rfl⟩
abbrev main_v302 : Ref sig .tc := ⟨.hbm, 379, rfl⟩
abbrev main_call12_cst : Ref sig .tc := ⟨.hbm, 380, rfl⟩
abbrev main_call12_v0 : Ref sig .tc := ⟨.hbm, 381, rfl⟩
abbrev main_v303 : Ref sig .tc := ⟨.hbm, 382, rfl⟩
abbrev main_v304 : Ref sig .tc := ⟨.hbm, 383, rfl⟩
abbrev main_cst_43 : Ref sig .tc := ⟨.hbm, 384, rfl⟩
abbrev main_v305 : Ref sig .tc := ⟨.hbm, 385, rfl⟩
abbrev main_v306 : Ref sig .tc := ⟨.hbm, 386, rfl⟩
abbrev main_v307 : Ref sig .tc := ⟨.hbm, 387, rfl⟩
abbrev main_v308 : Ref sig .tc := ⟨.hbm, 388, rfl⟩
abbrev main_c_44 : Ref sig .tc := ⟨.hbm, 389, rfl⟩
abbrev main_v309 : Ref sig .tc := ⟨.hbm, 390, rfl⟩
abbrev main_v310 : Ref sig .tc := ⟨.hbm, 391, rfl⟩
abbrev main_c_45 : Ref sig .tc := ⟨.hbm, 392, rfl⟩
abbrev main_v311 : Ref sig .tc := ⟨.hbm, 393, rfl⟩
abbrev main_v312 : Ref sig .tc := ⟨.hbm, 394, rfl⟩
abbrev main_v313 : Ref sig .tc := ⟨.hbm, 395, rfl⟩
abbrev main_v314 : Ref sig .tc := ⟨.hbm, 396, rfl⟩
abbrev main_v315 : Ref sig .tc := ⟨.hbm, 397, rfl⟩
abbrev main_v316 : Ref sig .tc := ⟨.hbm, 398, rfl⟩
abbrev main_v317 : Ref sig .tc := ⟨.hbm, 399, rfl⟩
abbrev main_cst_46 : Ref sig .tc := ⟨.hbm, 400, rfl⟩
abbrev main_v318 : Ref sig .tc := ⟨.hbm, 401, rfl⟩
abbrev main_v319 : Ref sig .tc := ⟨.hbm, 402, rfl⟩
abbrev main_v320 : Ref sig .tc := ⟨.hbm, 403, rfl⟩
abbrev main_v321 : Ref sig .tc := ⟨.hbm, 404, rfl⟩
abbrev main_v322 : Ref sig .tc := ⟨.hbm, 405, rfl⟩
abbrev main_v323 : Ref sig .tc := ⟨.hbm, 406, rfl⟩

abbrev nD : Nat := 1
abbrev τ : Topo := Topo.v7x

variable {F : FTy → Type} [FloatOps F]

class Facts₀ : Prop where
  slices_S13x192x192_S1x192x192_0_0_0 : S13x192x192.Slices ![0, 0, 0] S1x192x192
  shapeCasts_S1x192x192_S192x192 : S1x192x192.ShapeCasts S192x192
  slices_S13x192_S1x192_0_0 : S13x192.Slices ![0, 0] S1x192
  shapeCasts_S1x192_S192 : S1x192.ShapeCasts S192
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x192_0_1 : S400000x1.BroadcastsInDim S400000x192 (![0, 1] : Fin 2 → Fin S400000x192.rank)
  bcast_S_S25000x192 : S_.BroadcastsInDim S25000x192 (![] : Fin 0 → Fin S25000x192.rank)
  bcast_S192_S1x192_1 : S192.BroadcastsInDim S1x192 (![1] : Fin 1 → Fin S1x192.rank)
  bcast_S1x192_S25000x192_0_1 : S1x192.BroadcastsInDim S25000x192 (![0, 1] : Fin 2 → Fin S25000x192.rank)
  slices_S13x192x192_S1x192x192_1_0_0 : S13x192x192.Slices ![1, 0, 0] S1x192x192
  slices_S13x192_S1x192_1_0 : S13x192.Slices ![1, 0] S1x192
  slices_S13x192x192_S1x192x192_2_0_0 : S13x192x192.Slices ![2, 0, 0] S1x192x192
  slices_S13x192_S1x192_2_0 : S13x192.Slices ![2, 0] S1x192
  slices_S13x192x192_S1x192x192_3_0_0 : S13x192x192.Slices ![3, 0, 0] S1x192x192
  slices_S13x192_S1x192_3_0 : S13x192.Slices ![3, 0] S1x192
  slices_S13x192x192_S1x192x192_4_0_0 : S13x192x192.Slices ![4, 0, 0] S1x192x192
  slices_S13x192_S1x192_4_0 : S13x192.Slices ![4, 0] S1x192
  slices_S13x192x192_S1x192x192_5_0_0 : S13x192x192.Slices ![5, 0, 0] S1x192x192
  slices_S13x192_S1x192_5_0 : S13x192.Slices ![5, 0] S1x192
  slices_S13x192x192_S1x192x192_6_0_0 : S13x192x192.Slices ![6, 0, 0] S1x192x192
  slices_S13x192_S1x192_6_0 : S13x192.Slices ![6, 0] S1x192
  slices_S13x192x192_S1x192x192_7_0_0 : S13x192x192.Slices ![7, 0, 0] S1x192x192
  slices_S13x192_S1x192_7_0 : S13x192.Slices ![7, 0] S1x192
  slices_S13x192x192_S1x192x192_8_0_0 : S13x192x192.Slices ![8, 0, 0] S1x192x192
  slices_S13x192_S1x192_8_0 : S13x192.Slices ![8, 0] S1x192
  slices_S13x192x192_S1x192x192_9_0_0 : S13x192x192.Slices ![9, 0, 0] S1x192x192
  slices_S13x192_S1x192_9_0 : S13x192.Slices ![9, 0] S1x192
  slices_S13x192x192_S1x192x192_10_0_0 : S13x192x192.Slices ![10, 0, 0] S1x192x192
  slices_S13x192_S1x192_10_0 : S13x192.Slices ![10, 0] S1x192
  slices_S13x192x192_S1x192x192_11_0_0 : S13x192x192.Slices ![11, 0, 0] S1x192x192
  slices_S13x192_S1x192_11_0 : S13x192.Slices ![11, 0] S1x192
  slices_S13x192x192_S1x192x192_12_0_0 : S13x192x192.Slices ![12, 0, 0] S1x192x192
  slices_S13x192_S1x192_12_0 : S13x192.Slices ![12, 0] S1x192
  bcast_S400000x1_S400000x3_0_1 : S400000x1.BroadcastsInDim S400000x3 (![0, 1] : Fin 2 → Fin S400000x3.rank)
  bcast_S_S25000x3 : S_.BroadcastsInDim S25000x3 (![] : Fin 0 → Fin S25000x3.rank)
  bcast_S3_S1x3_1 : S3.BroadcastsInDim S1x3 (![1] : Fin 1 → Fin S1x3.rank)
  bcast_S1x3_S25000x3_0_1 : S1x3.BroadcastsInDim S25000x3 (![0, 1] : Fin 2 → Fin S25000x3.rank)
  dot_S25000x192_S192x192_S25000x192_1_0_0_1_n_n_wf : DotDims.WF S25000x192 S192x192 S25000x192 [1] [0] [0] [1] [] []
  gather_S25000x192_S400000x1_S400000x192_1_0_n_n_0_1_1192_wf : GatherDims.WF S25000x192 S400000x1 S400000x192 [1] [0] [] [0] [] 1 ![1, 192]
  scatter_S25000x192_S400000x1_S400000x192_1_0_0_1_wf : ScatterDims.WF S25000x192 S400000x1 S400000x192 [1] [0] [0] 1
  dot_S25000x192_S192x3_S25000x3_1_0_0_1_n_n_wf : DotDims.WF S25000x192 S192x3 S25000x3 [1] [0] [0] [1] [] []
  gather_S25000x3_S400000x1_S400000x3_1_0_n_n_0_1_13_wf : GatherDims.WF S25000x3 S400000x1 S400000x3 [1] [0] [] [0] [] 1 ![1, 3]
  scatter_S25000x3_S400000x1_S400000x3_1_0_0_1_wf : ScatterDims.WF S25000x3 S400000x1 S400000x3 [1] [0] [0] 1

variable [Facts₀]

def dot_S25000x192_S192x192_S25000x192_1_0_0_1_n_n : DotDims S25000x192 S192x192 S25000x192 where
  lhsContracting := [1]
  rhsContracting := [0]
  lhsNonContracting := [0]
  rhsNonContracting := [1]
  lhsBatch := []
  rhsBatch := []
  wf := dot_S25000x192_S192x192_S25000x192_1_0_0_1_n_n_wf
def gather_S25000x192_S400000x1_S400000x192_1_0_n_n_0_1_1192 : GatherDims S25000x192 S400000x1 S400000x192 where
  offsetDims := [1]
  collapsedSliceDims := [0]
  operandBatchingDims := []
  startIndicesBatchingDims := []
  startIndexMap := [0]
  indexVectorDim := 1
  sliceSizes := ![1, 192]
  wf := gather_S25000x192_S400000x1_S400000x192_1_0_n_n_0_1_1192_wf
def scatter_S25000x192_S400000x1_S400000x192_1_0_0_1 : ScatterDims S25000x192 S400000x1 S400000x192 where
  updateWindowDims := [1]
  insertedWindowDims := [0]
  scatterDimsToOperandDims := [0]
  indexVectorDim := 1
  wf := scatter_S25000x192_S400000x1_S400000x192_1_0_0_1_wf
def dot_S25000x192_S192x3_S25000x3_1_0_0_1_n_n : DotDims S25000x192 S192x3 S25000x3 where
  lhsContracting := [1]
  rhsContracting := [0]
  lhsNonContracting := [0]
  rhsNonContracting := [1]
  lhsBatch := []
  rhsBatch := []
  wf := dot_S25000x192_S192x3_S25000x3_1_0_0_1_n_n_wf
def gather_S25000x3_S400000x1_S400000x3_1_0_n_n_0_1_13 : GatherDims S25000x3 S400000x1 S400000x3 where
  offsetDims := [1]
  collapsedSliceDims := [0]
  operandBatchingDims := []
  startIndicesBatchingDims := []
  startIndexMap := [0]
  indexVectorDim := 1
  sliceSizes := ![1, 3]
  wf := gather_S25000x3_S400000x1_S400000x3_1_0_n_n_0_1_13_wf
def scatter_S25000x3_S400000x1_S400000x3_1_0_0_1 : ScatterDims S25000x3 S400000x1 S400000x3 where
  updateWindowDims := [1]
  insertedWindowDims := [0]
  scatterDimsToOperandDims := [0]
  indexVectorDim := 1
  wf := scatter_S25000x3_S400000x1_S400000x3_1_0_0_1_wf

class Facts : Prop extends Facts₀ where

variable [Facts]
-- ==== Proof.Spec.lean ====
/-
  The network both programs compute, written once in the reference's own host operations.

  A graph-convolution layer sends node features x (25000 × 192) to  A · (x · W) + b,  where the sparse
  adjacency A is given as an edge list: row e of the product x · W is gathered at the edge's source node,
  scaled by the edge's weight, and added into the row of the edge's destination node.  The gather, the
  scaling and the scatter-add are carried as ONE function `agg` of the product: nothing in this certificate
  depends on what they compute, only on both programs applying the same function to equal products.

  The network: two layers and an average with the input, five times two layers and an average with the
  block's input, one layer and an average, and a head of width 3 with no activation.
-/
import proofs.«171734_j42872363549123_1_alg».proof.ReferenceIdeal

noncomputable section

namespace Cert.Spec

open Cert.ReferenceIdeal Cert.ReferenceIdeal.Facts₀ Idealize.ShloMosaic

variable {F : FTy → Type} [FloatOps F] [Cert.ReferenceIdeal.Facts₀]

/-- Node features, 25000 × 192. -/
abbrev Feat (F : FTy → Type) [FloatOps F] := (⟨S25000x192, .f32⟩ : BufTy).Contents (Elt F)
/-- Head outputs, 25000 × 3. -/
abbrev Out (F : FTy → Type) [FloatOps F] := (⟨S25000x3, .f32⟩ : BufTy).Contents (Elt F)
/-- Edge endpoints (400000 node numbers) and edge weights. -/
abbrev EdgeI (F : FTy → Type) [FloatOps F] := (⟨S400000, .i32⟩ : BufTy).Contents (Elt F)
abbrev EdgeW (F : FTy → Type) [FloatOps F] := (⟨S400000, .f32⟩ : BufTy).Contents (Elt F)

/-- The source node of each edge as a gather index: a negative number counts from the end. -/
def srcIdx (src : EdgeI F) : (⟨S400000x1, .i32⟩ : BufTy).Contents (Elt F) :=
  broadcastInDim S400000x1 ![0] bcast_S400000_S400000x1_0 (select (cmpi .slt src (broadcastInDim S400000 ![] bcast_S_S400000 (constantI S_ 32 0#32))) (addi src (broadcastInDim S400000 ![] bcast_S_S400000 (constantI S_ 32 25000#32))) src)

/-- A · s for 192 columns: gather the rows of `s` at the edges' sources, scale each by its edge's weight, add
    each into the row of its edge's destination. -/
def agg (src dst : EdgeI F) (ew : EdgeW F) (s : Feat F) : Feat F :=
  Host.scatterAdd scatter_S25000x192_S400000x1_S400000x192_1_0_0_1 (broadcastInDim S25000x192 ![] bcast_S_S25000x192 (constant S_ .f32 0x00000000#32)) (broadcastInDim S400000x1 ![0] bcast_S400000_S400000x1_0 dst) (mulf (broadcastInDim S400000x192 ![0, 1] bcast_S400000x1_S400000x192_0_1 (broadcastInDim S400000x1 ![0] bcast_S400000_S400000x1_0 ew)) (Host.gather gather_S25000x192_S400000x1_S400000x192_1_0_n_n_0_1_1192 s (srcIdx src)))

/-- A · s for the head's 3 columns. -/
def agg3 (src dst : EdgeI F) (ew : EdgeW F) (s : Out F) : Out F :=
  Host.scatterAdd scatter_S25000x3_S400000x1_S400000x3_1_0_0_1 (broadcastInDim S25000x3 ![] bcast_S_S25000x3 (constant S_ .f32 0x00000000#32)) (broadcastInDim S400000x1 ![0] bcast_S400000_S400000x1_0 dst) (mulf (broadcastInDim S400000x3 ![0, 1] bcast_S400000x1_S400000x3_0_1 (broadcastInDim S400000x1 ![0] bcast_S400000_S400000x1_0 ew)) (Host.gather gather_S25000x3_S400000x1_S400000x3_1_0_n_n_0_1_13 s (srcIdx src)))

/-- The bias vector repeated down the 25000 rows. -/
def rows (b : (⟨S192, .f32⟩ : BufTy).Contents (Elt F)) : Feat F :=
  broadcastInDim S25000x192 ![0, 1] bcast_S1x192_S25000x192_0_1 (broadcastInDim S1x192 ![1] bcast_S192_S1x192_1 b)
def rows3 (b : (⟨S3, .f32⟩ : BufTy).Contents (Elt F)) : Out F :=
  broadcastInDim S25000x3 ![0, 1] bcast_S1x3_S25000x3_0_1 (broadcastInDim S1x3 ![1] bcast_S3_S1x3_1 b)

/-- One graph convolution: A · (x · W) + b. -/
def gcn (src dst : EdgeI F) (ew : EdgeW F) (x : Feat F) (W : (⟨S192x192, .f32⟩ : BufTy).Contents (Elt F)) (b : (⟨S192, .f32⟩ : BufTy).Contents (Elt F)) : Feat F :=
  addf (agg src dst ew (Host.dotGeneral dot_S25000x192_S192x192_S25000x192_1_0_0_1_n_n none x W)) (rows b)

/-- max(·, 0), entry by entry. -/
def relu (a : Feat F) : Feat F :=
  maximumf a (broadcastInDim S25000x192 ![] bcast_S_S25000x192 (constant S_ .f32 0x00000000#32))

/-- The average of a block's input and its output: (f + x) / 2. -/
def avg (f x : Feat F) : Feat F :=
  Host.divf (addf f x) (broadcastInDim S25000x192 ![] bcast_S_S25000x192 (constant S_ .f32 0x40000000#32))

/-- Layer 0's weight matrix: slab 0 of the stacked weights, as a 192 × 192 matrix. -/
def w0 (Ws : (⟨S13x192x192, .f32⟩ : BufTy).Contents (Elt F)) : (⟨S192x192, .f32⟩ : BufTy).Contents (Elt F) :=
  shapeCast _ (extractStridedSlice S1x192x192 ![0, 0, 0] Ws slices_S13x192x192_S1x192x192_0_0_0) shapeCasts_S1x192x192_S192x192
/-- Layer 0's bias: row 0 of the stacked biases, as a vector of 192 entries. -/
def b0 (bs : (⟨S13x192, .f32⟩ : BufTy).Contents (Elt F)) : (⟨S192, .f32⟩ : BufTy).Contents (Elt F) :=
  shapeCast _ (extractStridedSlice S1x192 ![0, 0] bs slices_S13x192_S1x192_0_0) shapeCasts_S1x192_S192
/-- Layer 1's weight matrix: slab 1 of the stacked weights, as a 192 × 192 matrix. -/
def w1 (Ws : (⟨S13x192x192, .f32⟩ : BufTy).Contents (Elt F)) : (⟨S192x192, .f32⟩ : BufTy).Contents (Elt F) :=
  shapeCast _ (extractStridedSlice S1x192x192 ![1, 0, 0] Ws slices_S13x192x192_S1x192x192_1_0_0) shapeCasts_S1x192x192_S192x192
/-- Layer 1's bias: row 1 of the stacked biases, as a vector of 192 entries. -/
def b1 (bs : (⟨S13x192, .f32⟩ : BufTy).Contents (Elt F)) : (⟨S192, .f32⟩ : BufTy).Contents (Elt F) :=
  shapeCast _ (extractStridedSlice S1x192 ![1, 0] bs slices_S13x192_S1x192_1_0) shapeCasts_S1x192_S192
/-- Layer 2's weight matrix: slab 2 of the stacked weights, as a 192 × 192 matrix. -/
def w2 (Ws : (⟨S13x192x192, .f32⟩ : BufTy).Contents (Elt F)) : (⟨S192x192, .f32⟩ : BufTy).Contents (Elt F) :=
  shapeCast _ (extractStridedSlice S1x192x192 ![2, 0, 0] Ws slices_S13x192x192_S1x192x192_2_0_0) shapeCasts_S1x192x192_S192x192
/-- Layer 2's bias: row 2 of the stacked biases, as a vector of 192 entries. -/
def b2 (bs : (⟨S13x192, .f32⟩ : BufTy).Contents (Elt F)) : (⟨S192, .f32⟩ : BufTy).Contents (Elt F) :=
  shapeCast _ (extractStridedSlice S1x192 ![2, 0] bs slices_S13x192_S1x192_2_0) shapeCasts_S1x192_S192
/-- Layer 3's weight matrix: slab 3 of the stacked weights, as a 192 × 192 matrix. -/
def w3 (Ws : (⟨S13x192x192, .f32⟩ : BufTy).Contents (Elt F)) : (⟨S192x192, .f32⟩ : BufTy).Contents (Elt F) :=
  shapeCast _ (extractStridedSlice S1x192x192 ![3, 0, 0] Ws slices_S13x192x192_S1x192x192_3_0_0) shapeCasts_S1x192x192_S192x192
/-- Layer 3's bias: row 3 of the stacked biases, as a vector of 192 entries. -/
def b3 (bs : (⟨S13x192, .f32⟩ : BufTy).Contents (Elt F)) : (⟨S192, .f32⟩ : BufTy).Contents (Elt F) :=
  shapeCast _ (extractStridedSlice S1x192 ![3, 0] bs slices_S13x192_S1x192_3_0) shapeCasts_S1x192_S192
/-- Layer 4's weight matrix: slab 4 of the stacked weights, as a 192 × 192 matrix. -/
def w4 (Ws : (⟨S13x192x192, .f32⟩ : BufTy).Contents (Elt F)) : (⟨S192x192, .f32⟩ : BufTy).Contents (Elt F) :=
  shapeCast _ (extractStridedSlice S1x192x192 ![4, 0, 0] Ws slices_S13x192x192_S1x192x192_4_0_0) shapeCasts_S1x192x192_S192x192
/-- Layer 4's bias: row 4 of the stacked biases, as a vector of 192 entries. -/
def b4 (bs : (⟨S13x192, .f32⟩ : BufTy).Contents (Elt F)) : (⟨S192, .f32⟩ : BufTy).Contents (Elt F) :=
  shapeCast _ (extractStridedSlice S1x192 ![4, 0] bs slices_S13x192_S1x192_4_0) shapeCasts_S1x192_S192
/-- Layer 5's weight matrix: slab 5 of the stacked weights, as a 192 × 192 matrix. -/
def w5 (Ws : (⟨S13x192x192, .f32⟩ : BufTy).Contents (Elt F)) : (⟨S192x192, .f32⟩ : BufTy).Contents (Elt F) :=
  shapeCast _ (extractStridedSlice S1x192x192 ![5, 0, 0] Ws slices_S13x192x192_S1x192x192_5_0_0) shapeCasts_S1x192x192_S192x192
/-- Layer 5's bias: row 5 of the stacked biases, as a vector of 192 entries. -/
def b5 (bs : (⟨S13x192, .f32⟩ : BufTy).Contents (Elt F)) : (⟨S192, .f32⟩ : BufTy).Contents (Elt F) :=
  shapeCast _ (extractStridedSlice S1x192 ![5, 0] bs slices_S13x192_S1x192_5_0) shapeCasts_S1x192_S192
/-- Layer 6's weight matrix: slab 6 of the stacked weights, as a 192 × 192 matrix. -/
def w6 (Ws : (⟨S13x192x192, .f32⟩ : BufTy).Contents (Elt F)) : (⟨S192x192, .f32⟩ : BufTy).Contents (Elt F) :=
  shapeCast _ (extractStridedSlice S1x192x192 ![6, 0, 0] Ws slices_S13x192x192_S1x192x192_6_0_0) shapeCasts_S1x192x192_S192x192
/-- Layer 6's bias: row 6 of the stacked biases, as a vector of 192 entries. -/
def b6 (bs : (⟨S13x192, .f32⟩ : BufTy).Contents (Elt F)) : (⟨S192, .f32⟩ : BufTy).Contents (Elt F) :=
  shapeCast _ (extractStridedSlice S1x192 ![6, 0] bs slices_S13x192_S1x192_6_0) shapeCasts_S1x192_S192
/-- Layer 7's weight matrix: slab 7 of the stacked weights, as a 192 × 192 matrix. -/
def w7 (Ws : (⟨S13x192x192, .f32⟩ : BufTy).Contents (Elt F)) : (⟨S192x192, .f32⟩ : BufTy).Contents (Elt F) :=
  shapeCast _ (extractStridedSlice S1x192x192 ![7, 0, 0] Ws slices_S13x192x192_S1x192x192_7_0_0) shapeCasts_S1x192x192_S192x192
/-- Layer 7's bias: row 7 of the stacked biases, as a vector of 192 entries. -/
def b7 (bs : (⟨S13x192, .f32⟩ : BufTy).Contents (Elt F)) : (⟨S192, .f32⟩ : BufTy).Contents (Elt F) :=
  shapeCast _ (extractStridedSlice S1x192 ![7, 0] bs slices_S13x192_S1x192_7_0) shapeCasts_S1x192_S192
/-- Layer 8's weight matrix: slab 8 of the stacked weights, as a 192 × 192 matrix. -/
def w8 (Ws : (⟨S13x192x192, .f32⟩ : BufTy).Contents (Elt F)) : (⟨S192x192, .f32⟩ : BufTy).Contents (Elt F) :=
  shapeCast _ (extractStridedSlice S1x192x192 ![8, 0, 0] Ws slices_S13x192x192_S1x192x192_8_0_0) shapeCasts_S1x192x192_S192x192
/-- Layer 8's bias: row 8 of the stacked biases, as a vector of 192 entries. -/
def b8 (bs : (⟨S13x192, .f32⟩ : BufTy).Contents (Elt F)) : (⟨S192, .f32⟩ : BufTy).Contents (Elt F) :=
  shapeCast _ (extractStridedSlice S1x192 ![8, 0] bs slices_S13x192_S1x192_8_0) shapeCasts_S1x192_S192
/-- Layer 9's weight matrix: slab 9 of the stacked weights, as a 192 × 192 matrix. -/
def w9 (Ws : (⟨S13x192x192, .f32⟩ : BufTy).Contents (Elt F)) : (⟨S192x192, .f32⟩ : BufTy).Contents (Elt F) :=
  shapeCast _ (extractStridedSlice S1x192x192 ![9, 0, 0] Ws slices_S13x192x192_S1x192x192_9_0_0) shapeCasts_S1x192x192_S192x192
/-- Layer 9's bias: row 9 of the stacked biases, as a vector of 192 entries. -/
def b9 (bs : (⟨S13x192, .f32⟩ : BufTy).Contents (Elt F)) : (⟨S192, .f32⟩ : BufTy).Contents (Elt F) :=
  shapeCast _ (extractStridedSlice S1x192 ![9, 0] bs slices_S13x192_S1x192_9_0) shapeCasts_S1x192_S192
/-- Layer 10's weight matrix: slab 10 of the stacked weights, as a 192 × 192 matrix. -/
def w10 (Ws : (⟨S13x192x192, .f32⟩ : BufTy).Contents (Elt F)) : (⟨S192x192, .f32⟩ : BufTy).Contents (Elt F) :=
  shapeCast _ (extractStridedSlice S1x192x192 ![10, 0, 0] Ws slices_S13x192x192_S1x192x192_10_0_0) shapeCasts_S1x192x192_S192x192
/-- Layer 10's bias: row 10 of the stacked biases, as a vector of 192 entries. -/
def b10 (bs : (⟨S13x192, .f32⟩ : BufTy).Contents (Elt F)) : (⟨S192, .f32⟩ : BufTy).Contents (Elt F) :=
  shapeCast _ (extractStridedSlice S1x192 ![10, 0] bs slices_S13x192_S1x192_10_0) shapeCasts_S1x192_S192
/-- Layer 11's weight matrix: slab 11 of the stacked weights, as a 192 × 192 matrix. -/
def w11 (Ws : (⟨S13x192x192, .f32⟩ : BufTy).Contents (Elt F)) : (⟨S192x192, .f32⟩ : BufTy).Contents (Elt F) :=
  shapeCast _ (extractStridedSlice S1x192x192 ![11, 0, 0] Ws slices_S13x192x192_S1x192x192_11_0_0) shapeCasts_S1x192x192_S192x192
/-- Layer 11's bias: row 11 of the stacked biases, as a vector of 192 entries. -/
def b11 (bs : (⟨S13x192, .f32⟩ : BufTy).Contents (Elt F)) : (⟨S192, .f32⟩ : BufTy).Contents (Elt F) :=
  shapeCast _ (extractStridedSlice S1x192 ![11, 0] bs slices_S13x192_S1x192_11_0) shapeCasts_S1x192_S192
/-- Layer 12's weight matrix: slab 12 of the stacked weights, as a 192 × 192 matrix. -/
def w12 (Ws : (⟨S13x192x192, .f32⟩ : BufTy).Contents (Elt F)) : (⟨S192x192, .f32⟩ : BufTy).Contents (Elt F) :=
  shapeCast _ (extractStridedSlice S1x192x192 ![12, 0, 0] Ws slices_S13x192x192_S1x192x192_12_0_0) shapeCasts_S1x192x192_S192x192
/-- Layer 12's bias: row 12 of the stacked biases, as a vector of 192 entries. -/
def b12 (bs : (⟨S13x192, .f32⟩ : BufTy).Contents (Elt F)) : (⟨S192, .f32⟩ : BufTy).Contents (Elt F) :=
  shapeCast _ (extractStridedSlice S1x192 ![12, 0] bs slices_S13x192_S1x192_12_0) shapeCasts_S1x192_S192

section Net
variable (f0 : Feat F) (src dst : EdgeI F) (ew : EdgeW F) (Ws : (⟨S13x192x192, .f32⟩ : BufTy).Contents (Elt F)) (bs : (⟨S13x192, .f32⟩ : BufTy).Contents (Elt F))

/-- The hidden activations, layer by layer: `hN` is what layer N (counting from 0) hands on. -/
def h0 : Feat F := relu (gcn src dst ew f0 (w0 Ws) (b0 bs))
def h1 : Feat F := avg f0 (relu (gcn src dst ew (h0 f0 src dst ew Ws bs) (w1 Ws) (b1 bs)))
def h2 : Feat F := relu (gcn src dst ew (h1 f0 src dst ew Ws bs) (w2 Ws) (b2 bs))
def h3 : Feat F := avg (h1 f0 src dst ew Ws bs) (relu (gcn src dst ew (h2 f0 src dst ew Ws bs) (w3 Ws) (b3 bs)))
def h4 : Feat F := relu (gcn src dst ew (h3 f0 src dst ew Ws bs) (w4 Ws) (b4 bs))
def h5 : Feat F := avg (h3 f0 src dst ew Ws bs) (relu (gcn src dst ew (h4 f0 src dst ew Ws bs) (w5 Ws) (b5 bs)))
def h6 : Feat F := relu (gcn src dst ew (h5 f0 src dst ew Ws bs) (w6 Ws) (b6 bs))
def h7 : Feat F := avg (h5 f0 src dst ew Ws bs) (relu (gcn src dst ew (h6 f0 src dst ew Ws bs) (w7 Ws) (b7 bs)))
def h8 : Feat F := relu (gcn src dst ew (h7 f0 src dst ew Ws bs) (w8 Ws) (b8 bs))
def h9 : Feat F := avg (h7 f0 src dst ew Ws bs) (relu (gcn src dst ew (h8 f0 src dst ew Ws bs) (w9 Ws) (b9 bs)))
def h10 : Feat F := relu (gcn src dst ew (h9 f0 src dst ew Ws bs) (w10 Ws) (b10 bs))
def h11 : Feat F := avg (h9 f0 src dst ew Ws bs) (relu (gcn src dst ew (h10 f0 src dst ew Ws bs) (w11 Ws) (b11 bs)))
/-- The last hidden layer averages with its own input: the second result of the network. -/
def h12 : Feat F := avg (h11 f0 src dst ew Ws bs) (relu (gcn src dst ew (h11 f0 src dst ew Ws bs) (w12 Ws) (b12 bs)))

/-- The head: one graph convolution of width 3, no activation: the first result of the network. -/
def head (Wo : (⟨S192x3, .f32⟩ : BufTy).Contents (Elt F)) (bo : (⟨S3, .f32⟩ : BufTy).Contents (Elt F)) : Out F :=
  addf (agg3 src dst ew (Host.dotGeneral dot_S25000x192_S192x3_S25000x3_1_0_0_1_n_n none (h12 f0 src dst ew Ws bs) Wo)) (rows3 bo)
end Net

end Cert.Spec

end
-- ==== Proof.RefIsSpec.lean ====
/-
  The reference computes the network of Spec.lean: its run's two result terms — the composition of its host
  operations, written out in full — are `Spec.head` and `Spec.h12` of its argument arrays.  Nothing is computed
  here: the specification was written in the reference's own operations, layer by layer, and unfolding its
  thirteen hidden layers gives the run's term back.  The two sides differ only in how the shape of each array is
  written (the run's term reads it off the program's signature, the specification writes the literal 25000 × 192),
  so each equation holds by reflexivity once both are evaluated.
-/
import proofs.«171734_j42872363549123_1_alg».proof.Proof.RunP
import proofs.«171734_j42872363549123_1_alg».proof.Proof.Spec
import Idealize.ShloMosaic.Lib.Tactic

set_option maxRecDepth 16384

noncomputable section

namespace Cert.RefIsSpec

open Cert.ReferenceIdeal Cert.ReferenceIdeal.Gen Cert.ReferenceIdeal.ValueP Idealize.ShloMosaic Idealize.ShloMosaic.TcCoe Idealize.SL.Sem

variable {F : FTy → Type} [FloatOps F]

/-- The second result (the last hidden features) is the thirteenth hidden layer of the specification. -/
theorem feats_eq (m : (ℓ : Loc nD τ sig) → Buf (Elt F) ℓ) (c : Dev nD) :
    res_main_v306 (F := F) m c
      = Cert.Spec.h12 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  sl_kernel_rfl

/-- The first result (the output coordinates) is the specification's head applied to those features. -/
theorem coords_eq (m : (ℓ : Loc nD τ sig) → Buf (Elt F) ℓ) (c : Dev nD) :
    res_main_v323 (F := F) m c
      = Cert.Spec.head (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  sl_kernel_rfl

end Cert.RefIsSpec

end
-- ==== Proof.KernelRun.lean ====
/-
  Where the idealized kernel's run ends: every weakly fair execution of its @main terminates, nothing faulting,
  with EVERY buffer that is not scoped to a kernel region holding what the last segment boundary's contents say
  — the fold, segment by segment, of the host stretches' operations and of each region's arrays after its
  write-backs.  The results and the arguments are such buffers, so every later statement about a result is a
  statement about that fold.
-/
import proofs.«171734_j42872363549123_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each unscoped
    buffer `b` of each core `c` holds the last boundary's contents `W55 m ρ c b`: the segments chained from the launch
    memory, the last thread state read against the final state. -/
theorem ends : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W55 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W55 m ρ c b)
    (hfin := fun c s' => by
      iintro ⟨⟨Hh, -⟩, HSI⟩
      unfold StableHlo.held
      imodintro
      iapply (pointsTo_read_all (Pipeline.ucRefs τ sig) (fun b => (((c : Thread nD τ)).1, b)) (W55 m ρ c) s')
      isplitl [Hh] <;> iassumption)
    (hQ := fun s h c b hb => h c _ (mem_uc b hb))

end Cert.KernelRun

end
-- ==== Proof.Forms.lean ====
/-
  The four block computations of the kernel, each as ONE function of whole arrays read index by index.

  A matrix product reads row i of the left factor and column j of the right one; the three post-processing
  bodies read entry (i, j) of the aggregate, entry j of the bias (stored as one row), and, for the averaging
  body, entry (i, j) of the residual.  The index constructors below spell those positions out over the literal
  shapes, so that every later lemma is stated over the same terms.
-/
import proofs.«171734_j42872363549123_1_alg».proof.KernelIdeal
import Idealize.ShloMosaic.PureOps.Ideal

noncomputable section

namespace Cert.Forms

open Cert.KernelIdeal Idealize.ShloMosaic

/-! ## Positions -/

/-- Row `i 0`, column `k` of a 25000 × 192 array. -/
abbrev rowK (i0 : Fin 25000) (k : Fin 192) : S25000x192.Idx := fun a => match a with
  | ⟨0, _⟩ => ⟨i0.val, i0.isLt⟩
  | ⟨1, _⟩ => ⟨k.val, k.isLt⟩
/-- Row `k`, column `j` of a 192 × 192 matrix. -/
abbrev kCol (k : Fin 192) (j : Fin 192) : S192x192.Idx := fun a => match a with
  | ⟨0, _⟩ => ⟨k.val, k.isLt⟩
  | ⟨1, _⟩ => ⟨j.val, j.isLt⟩
/-- Row `k`, column `j` of the head's 192 × 3 matrix. -/
abbrev kCol3 (k : Fin 192) (j : Fin 3) : S192x3.Idx := fun a => match a with
  | ⟨0, _⟩ => ⟨k.val, k.isLt⟩
  | ⟨1, _⟩ => ⟨j.val, j.isLt⟩
/-- Column `j` of a bias stored as one row of 192. -/
abbrev biasAt (j : Fin 192) : S1x192.Idx := fun a => match a with
  | ⟨0, _⟩ => ⟨0, Nat.one_pos⟩
  | ⟨1, _⟩ => ⟨j.val, j.isLt⟩
/-- Column `j` of the head's bias stored as one row of 3. -/
abbrev biasAt3 (j : Fin 3) : S1x3.Idx := fun a => match a with
  | ⟨0, _⟩ => ⟨0, Nat.one_pos⟩
  | ⟨1, _⟩ => ⟨j.val, j.isLt⟩

/-- The two coordinates of an index, at their literal bounds. -/
abbrev r192 (i : S25000x192.Idx) : Fin 25000 := ⟨(i 0).val, (i 0).isLt⟩
abbrev c192 (i : S25000x192.Idx) : Fin 192 := ⟨(i 1).val, (i 1).isLt⟩
abbrev r3 (i : S25000x3.Idx) : Fin 25000 := ⟨(i 0).val, (i 0).isLt⟩
abbrev c3 (i : S25000x3.Idx) : Fin 3 := ⟨(i 1).val, (i 1).isLt⟩

/-! ## The matrix products, on the extended reals -/

/-- (x · w)(i, j) = Σₖ x(i, k) · w(k, j), 192 columns. -/
def mmG (x : (⟨S25000x192, .f32⟩ : BufTy).Contents (Elt Ideal)) (w : (⟨S192x192, .f32⟩ : BufTy).Contents (Elt Ideal)) :
    (⟨S25000x192, .f32⟩ : BufTy).Contents (Elt Ideal) :=
  fun i => ∑ k : Fin 192, x (rowK (r192 i) k) * w (kCol k (c192 i))

/-- (x · w)(i, j) = Σₖ x(i, k) · w(k, j), the head's 3 columns. -/
def mmG3 (x : (⟨S25000x192, .f32⟩ : BufTy).Contents (Elt Ideal)) (w : (⟨S192x3, .f32⟩ : BufTy).Contents (Elt Ideal)) :
    (⟨S25000x3, .f32⟩ : BufTy).Contents (Elt Ideal) :=
  fun i => ∑ k : Fin 192, x (rowK (r3 i) k) * w (kCol3 k (c3 i))

/-! ## The post-processing bodies, at any float instance -/

variable {F : FTy → Type} [FloatOps F]

/-- max(a + b, 0), the bias read along the row. -/
def reluG (a : (⟨S25000x192, .f32⟩ : BufTy).Contents (Elt F)) (b : (⟨S1x192, .f32⟩ : BufTy).Contents (Elt F)) :
    (⟨S25000x192, .f32⟩ : BufTy).Contents (Elt F) :=
  fun i => FloatOps.maximumf (FloatOps.addf (a i) (b (biasAt (c192 i)))) (Scalar.ofBits .f32 0x00000000#32)

/-- (r + max(a + b, 0)) · ½. -/
def avgG (a : (⟨S25000x192, .f32⟩ : BufTy).Contents (Elt F)) (b : (⟨S1x192, .f32⟩ : BufTy).Contents (Elt F))
    (r : (⟨S25000x192, .f32⟩ : BufTy).Contents (Elt F)) : (⟨S25000x192, .f32⟩ : BufTy).Contents (Elt F) :=
  fun i => FloatOps.mulf (FloatOps.addf (r i) (FloatOps.maximumf (FloatOps.addf (a i) (b (biasAt (c192 i)))) (Scalar.ofBits .f32 0x00000000#32)))
    (Scalar.ofBits .f32 0x3F000000#32)

/-- a + b, the head's bias read along the row. -/
def plainG (a : (⟨S25000x3, .f32⟩ : BufTy).Contents (Elt F)) (b : (⟨S1x3, .f32⟩ : BufTy).Contents (Elt F)) :
    (⟨S25000x3, .f32⟩ : BufTy).Contents (Elt F) :=
  fun i => FloatOps.addf (a i) (b (biasAt3 (c3 i)))

/-! ## The forms read at an index -/

theorem mmG_apply (x : (⟨S25000x192, .f32⟩ : BufTy).Contents (Elt Ideal)) (w : (⟨S192x192, .f32⟩ : BufTy).Contents (Elt Ideal)) (i : S25000x192.Idx) :
    mmG x w i = ∑ k : Fin 192, x (rowK (r192 i) k) * w (kCol k (c192 i)) := rfl

theorem mmG3_apply (x : (⟨S25000x192, .f32⟩ : BufTy).Contents (Elt Ideal)) (w : (⟨S192x3, .f32⟩ : BufTy).Contents (Elt Ideal)) (i : S25000x3.Idx) :
    mmG3 x w i = ∑ k : Fin 192, x (rowK (r3 i) k) * w (kCol3 k (c3 i)) := rfl

theorem reluG_apply (a : (⟨S25000x192, .f32⟩ : BufTy).Contents (Elt F)) (b : (⟨S1x192, .f32⟩ : BufTy).Contents (Elt F)) (i : S25000x192.Idx) :
    reluG a b i = FloatOps.maximumf (FloatOps.addf (a i) (b (biasAt (c192 i)))) (Scalar.ofBits .f32 0x00000000#32) := rfl

theorem avgG_apply (a : (⟨S25000x192, .f32⟩ : BufTy).Contents (Elt F)) (b : (⟨S1x192, .f32⟩ : BufTy).Contents (Elt F))
    (r : (⟨S25000x192, .f32⟩ : BufTy).Contents (Elt F)) (i : S25000x192.Idx) :
    avgG a b r i = FloatOps.mulf (FloatOps.addf (r i) (FloatOps.maximumf (FloatOps.addf (a i) (b (biasAt (c192 i)))) (Scalar.ofBits .f32 0x00000000#32)))
      (Scalar.ofBits .f32 0x3F000000#32) := rfl

theorem plainG_apply (a : (⟨S25000x3, .f32⟩ : BufTy).Contents (Elt F)) (b : (⟨S1x3, .f32⟩ : BufTy).Contents (Elt F)) (i : S25000x3.Idx) :
    plainG a b i = FloatOps.addf (a i) (b (biasAt3 (c3 i))) := rfl

end Cert.Forms

end
-- ==== Proof.MatMul.lean ====
/-
  The matrix products of the network, read entry by entry.

  On the extended reals a product of a 25000 × 192 (or 1000 × 192) array with a 192 × 192 (or 192 × 3) matrix has
  entry (i, j) equal to Σₖ x(i, k) · w(k, j): rounding an operand to a shorter format is the identity there, and a
  product accumulated into zero is the plain sum.  The lemmas below say so for the host's product on whole arrays
  and for the product each block body computes on one block of rows.
-/
import proofs.«171734_j42872363549123_1_alg».proof.Proof.Forms
import proofs.«171734_j42872363549123_1_alg».proof.ReferenceIdeal
import proofs.«171734_j42872363549123_1_alg».proof.Proof.Gen.KernelIdeal
import proofs.«171734_j42872363549123_1_alg».proof.Proof.Gen.ReferenceIdeal
import proofs.«171734_j42872363549123_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.MatMul

open Idealize.ShloMosaic Idealize.SL.Sem

/-! ## The product of one block of rows -/

/-- Row `y0`, column `k` of a 1000 × 192 block. -/
abbrev blkRowK (y0 : Fin 1000) (k : Fin 192) : Cert.KernelIdeal.S1000x192.Idx := fun a => match a with
  | ⟨0, _⟩ => ⟨y0.val, y0.isLt⟩
  | ⟨1, _⟩ => ⟨k.val, k.isLt⟩

local notation "dK" => Cert.KernelIdeal.dot_S1000x192_S192x192_S1000x192_1_0_0_1_n_n
local notation "dK3" => Cert.KernelIdeal.dot_S1000x192_S192x3_S1000x3_1_0_0_1_n_n

/-- The left operand of the block product is read at row `y 0`. -/
theorem lhsK_0 (y : Cert.KernelIdeal.S1000x192.Idx) (q : (dK).contr.Idx) : ((dK).lhsIdx y q 0).val = (y 0).val := by
  unfold DotDims.lhsIdx
  rw [dif_neg (show ¬(0 : Fin Cert.KernelIdeal.S1000x192.rank) ∈ (dK).lhsBatch by decide),
    dif_pos (show (0 : Fin Cert.KernelIdeal.S1000x192.rank) ∈ (dK).lhsNonContracting by decide)]
  rfl
/-- … and at the contraction index along its columns. -/
theorem lhsK_1 (y : Cert.KernelIdeal.S1000x192.Idx) (q : (dK).contr.Idx) : ((dK).lhsIdx y q 1).val = (q ⟨0, by decide⟩).val :=
  (dK).lhsIdx_val_of_single rfl y q
/-- The right operand is read at the contraction index along its rows. -/
theorem rhsK_0 (y : Cert.KernelIdeal.S1000x192.Idx) (q : (dK).contr.Idx) : ((dK).rhsIdx y q 0).val = (q ⟨0, by decide⟩).val :=
  (dK).rhsIdx_val_of_single rfl y q
/-- … and at column `y 1`. -/
theorem rhsK_1 (y : Cert.KernelIdeal.S1000x192.Idx) (q : (dK).contr.Idx) : ((dK).rhsIdx y q 1).val = (y 1).val := by
  unfold DotDims.rhsIdx
  rw [dif_neg (show ¬(1 : Fin Cert.KernelIdeal.S192x192.rank) ∈ (dK).rhsBatch by decide),
    dif_pos (show (1 : Fin Cert.KernelIdeal.S192x192.rank) ∈ (dK).rhsNonContracting by decide)]
  rfl

/-- A block product into the zero accumulator: entry (y₀, y₁) is Σₖ l(y₀, k) · r(k, y₁). -/
theorem blockDot_apply {φ₁ φ₂ : FTy} (l : FVec Ideal Cert.KernelIdeal.S1000x192 φ₁) (r : FVec Ideal Cert.KernelIdeal.S192x192 φ₂)
    (y : Cert.KernelIdeal.S1000x192.Idx) :
    FloatOps.matmul dK none l r (constant Cert.KernelIdeal.S1000x192 .f32 0x00000000#32) y
      = ∑ k : Fin 192, l (blkRowK ⟨(y 0).val, (y 0).isLt⟩ k) * r (Cert.Forms.kCol k ⟨(y 1).val, (y 1).isLt⟩) := by
  rw [Ideal.matmul_constant_zero_apply, ← Equiv.sum_comp (ValueIdx.contrEquiv1 dK 192 rfl rfl).symm]
  refine Finset.sum_congr rfl fun k _ => ?_
  have hk := ValueIdx.contrEquiv1_symm_val dK 192 rfl rfl k
  have el : (dK).lhsIdx y ((ValueIdx.contrEquiv1 dK 192 rfl rfl).symm k) = blkRowK ⟨(y 0).val, (y 0).isLt⟩ k :=
    funext fun a => Fin.ext (by
      match a with
      | ⟨0, _⟩ => exact lhsK_0 _ _
      | ⟨1, _⟩ => exact (lhsK_1 _ _).trans hk)
  have er : (dK).rhsIdx y ((ValueIdx.contrEquiv1 dK 192 rfl rfl).symm k) = Cert.Forms.kCol k ⟨(y 1).val, (y 1).isLt⟩ :=
    funext fun a => Fin.ext (by
      match a with
      | ⟨0, _⟩ => exact (rhsK_0 _ _).trans hk
      | ⟨1, _⟩ => exact rhsK_1 _ _)
  rw [el, er]

/-- The first layer's block body: rounding both operands is the identity, so entry (y₀, y₁) of its product is
    Σₖ x₀(y₀, k) · x₁(k, y₁). -/
theorem pay0_apply (x0 : Vec Ideal Cert.KernelIdeal.S1000x192 .f32) (x1 : Vec Ideal Cert.KernelIdeal.S192x192 .f32)
    (y : Cert.KernelIdeal.S1000x192.Idx) :
    Cert.KernelIdeal.Gen.k0_pay1 (F := Ideal) x0 x1 y
      = ∑ k : Fin 192, x0 (blkRowK ⟨(y 0).val, (y 0).isLt⟩ k) * x1 (Cert.Forms.kCol k ⟨(y 1).val, (y 1).isLt⟩) := by
  unfold Cert.KernelIdeal.Gen.k0_pay1
  rw [shapeCast_self]
  exact blockDot_apply (φ₁ := .bf16) (φ₂ := .bf16) x0 x1 y

/-- The later layers' block body, whose left operand also passes through a reshaping to its own shape: the same sum. -/
theorem pay2_apply (x0 : Vec Ideal Cert.KernelIdeal.S1000x192 .f32) (x1 : Vec Ideal Cert.KernelIdeal.S192x192 .f32)
    (y : Cert.KernelIdeal.S1000x192.Idx) :
    Cert.KernelIdeal.Gen.k2_pay1 (F := Ideal) x0 x1 y
      = ∑ k : Fin 192, x0 (blkRowK ⟨(y 0).val, (y 0).isLt⟩ k) * x1 (Cert.Forms.kCol k ⟨(y 1).val, (y 1).isLt⟩) := by
  unfold Cert.KernelIdeal.Gen.k2_pay1
  rw [shapeCast_self, shapeCast_self]
  exact blockDot_apply (φ₁ := .bf16) (φ₂ := .bf16) x0 x1 y

/-! The remaining 192 × 192 layers have the same block body. -/

/-- The block body of a later layer: entry (y₀, y₁) of its product is Σₖ x₀(y₀, k) · x₁(k, y₁). -/
theorem pay4_apply (x0 : Vec Ideal Cert.KernelIdeal.S1000x192 .f32) (x1 : Vec Ideal Cert.KernelIdeal.S192x192 .f32)
    (y : Cert.KernelIdeal.S1000x192.Idx) :
    Cert.KernelIdeal.Gen.k4_pay1 (F := Ideal) x0 x1 y
      = ∑ k : Fin 192, x0 (blkRowK ⟨(y 0).val, (y 0).isLt⟩ k) * x1 (Cert.Forms.kCol k ⟨(y 1).val, (y 1).isLt⟩) :=
  pay2_apply x0 x1 y

/-- The block body of a later layer: entry (y₀, y₁) of its product is Σₖ x₀(y₀, k) · x₁(k, y₁). -/
theorem pay6_apply (x0 : Vec Ideal Cert.KernelIdeal.S1000x192 .f32) (x1 : Vec Ideal Cert.KernelIdeal.S192x192 .f32)
    (y : Cert.KernelIdeal.S1000x192.Idx) :
    Cert.KernelIdeal.Gen.k6_pay1 (F := Ideal) x0 x1 y
      = ∑ k : Fin 192, x0 (blkRowK ⟨(y 0).val, (y 0).isLt⟩ k) * x1 (Cert.Forms.kCol k ⟨(y 1).val, (y 1).isLt⟩) :=
  pay2_apply x0 x1 y

/-- The block body of a later layer: entry (y₀, y₁) of its product is Σₖ x₀(y₀, k) · x₁(k, y₁). -/
theorem pay8_apply (x0 : Vec Ideal Cert.KernelIdeal.S1000x192 .f32) (x1 : Vec Ideal Cert.KernelIdeal.S192x192 .f32)
    (y : Cert.KernelIdeal.S1000x192.Idx) :
    Cert.KernelIdeal.Gen.k8_pay1 (F := Ideal) x0 x1 y
      = ∑ k : Fin 192, x0 (blkRowK ⟨(y 0).val, (y 0).isLt⟩ k) * x1 (Cert.Forms.kCol k ⟨(y 1).val, (y 1).isLt⟩) :=
  pay2_apply x0 x1 y

/-- The block body of a later layer: entry (y₀, y₁) of its product is Σₖ x₀(y₀, k) · x₁(k, y₁). -/
theorem pay10_apply (x0 : Vec Ideal Cert.KernelIdeal.S1000x192 .f32) (x1 : Vec Ideal Cert.KernelIdeal.S192x192 .f32)
    (y : Cert.KernelIdeal.S1000x192.Idx) :
    Cert.KernelIdeal.Gen.k10_pay1 (F := Ideal) x0 x1 y
      = ∑ k : Fin 192, x0 (blkRowK ⟨(y 0).val, (y 0).isLt⟩ k) * x1 (Cert.Forms.kCol k ⟨(y 1).val, (y 1).isLt⟩) :=
  pay2_apply x0 x1 y

/-- The block body of a later layer: entry (y₀, y₁) of its product is Σₖ x₀(y₀, k) · x₁(k, y₁). -/
theorem pay12_apply (x0 : Vec Ideal Cert.KernelIdeal.S1000x192 .f32) (x1 : Vec Ideal Cert.KernelIdeal.S192x192 .f32)
    (y : Cert.KernelIdeal.S1000x192.Idx) :
    Cert.KernelIdeal.Gen.k12_pay1 (F := Ideal) x0 x1 y
      = ∑ k : Fin 192, x0 (blkRowK ⟨(y 0).val, (y 0).isLt⟩ k) * x1 (Cert.Forms.kCol k ⟨(y 1).val, (y 1).isLt⟩) :=
  pay2_apply x0 x1 y

/-- The block body of a later layer: entry (y₀, y₁) of its product is Σₖ x₀(y₀, k) · x₁(k, y₁). -/
theorem pay14_apply (x0 : Vec Ideal Cert.KernelIdeal.S1000x192 .f32) (x1 : Vec Ideal Cert.KernelIdeal.S192x192 .f32)
    (y : Cert.KernelIdeal.S1000x192.Idx) :
    Cert.KernelIdeal.Gen.k14_pay1 (F := Ideal) x0 x1 y
      = ∑ k : Fin 192, x0 (blkRowK ⟨(y 0).val, (y 0).isLt⟩ k) * x1 (Cert.Forms.kCol k ⟨(y 1).val, (y 1).isLt⟩) :=
  pay2_apply x0 x1 y

/-- The block body of a later layer: entry (y₀, y₁) of its product is Σₖ x₀(y₀, k) · x₁(k, y₁). -/
theorem pay16_apply (x0 : Vec Ideal Cert.KernelIdeal.S1000x192 .f32) (x1 : Vec Ideal Cert.KernelIdeal.S192x192 .f32)
    (y : Cert.KernelIdeal.S1000x192.Idx) :
    Cert.KernelIdeal.Gen.k16_pay1 (F := Ideal) x0 x1 y
      = ∑ k : Fin 192, x0 (blkRowK ⟨(y 0).val, (y 0).isLt⟩ k) * x1 (Cert.Forms.kCol k ⟨(y 1).val, (y 1).isLt⟩) :=
  pay2_apply x0 x1 y

/-- The block body of a later layer: entry (y₀, y₁) of its product is Σₖ x₀(y₀, k) · x₁(k, y₁). -/
theorem pay18_apply (x0 : Vec Ideal Cert.KernelIdeal.S1000x192 .f32) (x1 : Vec Ideal Cert.KernelIdeal.S192x192 .f32)
    (y : Cert.KernelIdeal.S1000x192.Idx) :
    Cert.KernelIdeal.Gen.k18_pay1 (F := Ideal) x0 x1 y
      = ∑ k : Fin 192, x0 (blkRowK ⟨(y 0).val, (y 0).isLt⟩ k) * x1 (Cert.Forms.kCol k ⟨(y 1).val, (y 1).isLt⟩) :=
  pay2_apply x0 x1 y

/-- The block body of a later layer: entry (y₀, y₁) of its product is Σₖ x₀(y₀, k) · x₁(k, y₁). -/
theorem pay20_apply (x0 : Vec Ideal Cert.KernelIdeal.S1000x192 .f32) (x1 : Vec Ideal Cert.KernelIdeal.S192x192 .f32)
    (y : Cert.KernelIdeal.S1000x192.Idx) :
    Cert.KernelIdeal.Gen.k20_pay1 (F := Ideal) x0 x1 y
      = ∑ k : Fin 192, x0 (blkRowK ⟨(y 0).val, (y 0).isLt⟩ k) * x1 (Cert.Forms.kCol k ⟨(y 1).val, (y 1).isLt⟩) :=
  pay2_apply x0 x1 y

/-- The block body of a later layer: entry (y₀, y₁) of its product is Σₖ x₀(y₀, k) · x₁(k, y₁). -/
theorem pay22_apply (x0 : Vec Ideal Cert.KernelIdeal.S1000x192 .f32) (x1 : Vec Ideal Cert.KernelIdeal.S192x192 .f32)
    (y : Cert.KernelIdeal.S1000x192.Idx) :
    Cert.KernelIdeal.Gen.k22_pay1 (F := Ideal) x0 x1 y
      = ∑ k : Fin 192, x0 (blkRowK ⟨(y 0).val, (y 0).isLt⟩ k) * x1 (Cert.Forms.kCol k ⟨(y 1).val, (y 1).isLt⟩) :=
  pay2_apply x0 x1 y

/-- The block body of a later layer: entry (y₀, y₁) of its product is Σₖ x₀(y₀, k) · x₁(k, y₁). -/
theorem pay24_apply (x0 : Vec Ideal Cert.KernelIdeal.S1000x192 .f32) (x1 : Vec Ideal Cert.KernelIdeal.S192x192 .f32)
    (y : Cert.KernelIdeal.S1000x192.Idx) :
    Cert.KernelIdeal.Gen.k24_pay1 (F := Ideal) x0 x1 y
      = ∑ k : Fin 192, x0 (blkRowK ⟨(y 0).val, (y 0).isLt⟩ k) * x1 (Cert.Forms.kCol k ⟨(y 1).val, (y 1).isLt⟩) :=
  pay2_apply x0 x1 y

/-! ### The head's block, with the 192 × 3 matrix -/

/-- The left operand of the head's block product is read at row `y 0`. -/
theorem lhsK3_0 (y : Cert.KernelIdeal.S1000x3.Idx) (q : (dK3).contr.Idx) : ((dK3).lhsIdx y q 0).val = (y 0).val := by
  unfold DotDims.lhsIdx
  rw [dif_neg (show ¬(0 : Fin Cert.KernelIdeal.S1000x192.rank) ∈ (dK3).lhsBatch by decide),
    dif_pos (show (0 : Fin Cert.KernelIdeal.S1000x192.rank) ∈ (dK3).lhsNonContracting by decide)]
  rfl
/-- … and at the contraction index along its columns. -/
theorem lhsK3_1 (y : Cert.KernelIdeal.S1000x3.Idx) (q : (dK3).contr.Idx) : ((dK3).lhsIdx y q 1).val = (q ⟨0, by decide⟩).val :=
  (dK3).lhsIdx_val_of_single rfl y q
/-- The right operand is read at the contraction index along its rows. -/
theorem rhsK3_0 (y : Cert.KernelIdeal.S1000x3.Idx) (q : (dK3).contr.Idx) : ((dK3).rhsIdx y q 0).val = (q ⟨0, by decide⟩).val :=
  (dK3).rhsIdx_val_of_single rfl y q
/-- … and at column `y 1`. -/
theorem rhsK3_1 (y : Cert.KernelIdeal.S1000x3.Idx) (q : (dK3).contr.Idx) : ((dK3).rhsIdx y q 1).val = (y 1).val := by
  unfold DotDims.rhsIdx
  rw [dif_neg (show ¬(1 : Fin Cert.KernelIdeal.S192x3.rank) ∈ (dK3).rhsBatch by decide),
    dif_pos (show (1 : Fin Cert.KernelIdeal.S192x3.rank) ∈ (dK3).rhsNonContracting by decide)]
  rfl

/-- A block product with the 192 × 3 matrix into the zero accumulator: entry (y₀, y₁) is Σₖ l(y₀, k) · r(k, y₁). -/
theorem blockDot3_apply {φ₁ φ₂ : FTy} (l : FVec Ideal Cert.KernelIdeal.S1000x192 φ₁) (r : FVec Ideal Cert.KernelIdeal.S192x3 φ₂)
    (y : Cert.KernelIdeal.S1000x3.Idx) :
    FloatOps.matmul dK3 none l r (constant Cert.KernelIdeal.S1000x3 .f32 0x00000000#32) y
      = ∑ k : Fin 192, l (blkRowK ⟨(y 0).val, (y 0).isLt⟩ k) * r (Cert.Forms.kCol3 k ⟨(y 1).val, (y 1).isLt⟩) := by
  rw [Ideal.matmul_constant_zero_apply, ← Equiv.sum_comp (ValueIdx.contrEquiv1 dK3 192 rfl rfl).symm]
  refine Finset.sum_congr rfl fun k _ => ?_
  have hk := ValueIdx.contrEquiv1_symm_val dK3 192 rfl rfl k
  have el : (dK3).lhsIdx y ((ValueIdx.contrEquiv1 dK3 192 rfl rfl).symm k) = blkRowK ⟨(y 0).val, (y 0).isLt⟩ k :=
    funext fun a => Fin.ext (by
      match a with
      | ⟨0, _⟩ => exact lhsK3_0 _ _
      | ⟨1, _⟩ => exact (lhsK3_1 _ _).trans hk)
  have er : (dK3).rhsIdx y ((ValueIdx.contrEquiv1 dK3 192 rfl rfl).symm k) = Cert.Forms.kCol3 k ⟨(y 1).val, (y 1).isLt⟩ :=
    funext fun a => Fin.ext (by
      match a with
      | ⟨0, _⟩ => exact (rhsK3_0 _ _).trans hk
      | ⟨1, _⟩ => exact rhsK3_1 _ _)
  rw [el, er]

/-- The head's block body: rounding both operands is the identity, so entry (y₀, y₁) of its product is
    Σₖ x₀(y₀, k) · x₁(k, y₁), over the three columns of the head's matrix. -/
theorem pay26_apply (x0 : Vec Ideal Cert.KernelIdeal.S1000x192 .f32) (x1 : Vec Ideal Cert.KernelIdeal.S192x3 .f32)
    (y : Cert.KernelIdeal.S1000x3.Idx) :
    Cert.KernelIdeal.Gen.k26_pay1 (F := Ideal) x0 x1 y
      = ∑ k : Fin 192, x0 (blkRowK ⟨(y 0).val, (y 0).isLt⟩ k) * x1 (Cert.Forms.kCol3 k ⟨(y 1).val, (y 1).isLt⟩) := by
  unfold Cert.KernelIdeal.Gen.k26_pay1
  rw [shapeCast_self]
  exact blockDot3_apply (φ₁ := .bf16) (φ₂ := .bf16) x0 x1 y

/-! ## The host's product of whole arrays -/

local notation "dR" => Cert.ReferenceIdeal.dot_S25000x192_S192x192_S25000x192_1_0_0_1_n_n
local notation "dR3" => Cert.ReferenceIdeal.dot_S25000x192_S192x3_S25000x3_1_0_0_1_n_n

/-- The left operand of the host's product is read at row `i 0`. -/
theorem lhsR_0 (i : Cert.ReferenceIdeal.S25000x192.Idx) (q : (dR).contr.Idx) : ((dR).lhsIdx i q 0).val = (i 0).val := by
  unfold DotDims.lhsIdx
  rw [dif_neg (show ¬(0 : Fin Cert.ReferenceIdeal.S25000x192.rank) ∈ (dR).lhsBatch by decide),
    dif_pos (show (0 : Fin Cert.ReferenceIdeal.S25000x192.rank) ∈ (dR).lhsNonContracting by decide)]
  rfl
/-- … and at the contraction index along its columns. -/
theorem lhsR_1 (i : Cert.ReferenceIdeal.S25000x192.Idx) (q : (dR).contr.Idx) : ((dR).lhsIdx i q 1).val = (q ⟨0, by decide⟩).val :=
  (dR).lhsIdx_val_of_single rfl i q
/-- The right operand is read at the contraction index along its rows. -/
theorem rhsR_0 (i : Cert.ReferenceIdeal.S25000x192.Idx) (q : (dR).contr.Idx) : ((dR).rhsIdx i q 0).val = (q ⟨0, by decide⟩).val :=
  (dR).rhsIdx_val_of_single rfl i q
/-- … and at column `i 1`. -/
theorem rhsR_1 (i : Cert.ReferenceIdeal.S25000x192.Idx) (q : (dR).contr.Idx) : ((dR).rhsIdx i q 1).val = (i 1).val := by
  unfold DotDims.rhsIdx
  rw [dif_neg (show ¬(1 : Fin Cert.ReferenceIdeal.S192x192.rank) ∈ (dR).rhsBatch by decide),
    dif_pos (show (1 : Fin Cert.ReferenceIdeal.S192x192.rank) ∈ (dR).rhsNonContracting by decide)]
  rfl

/-- The host's product with a 192 × 192 matrix, read at (i₀, i₁): Σₖ x(i₀, k) · w(k, i₁). -/
theorem hostDot_apply (x : (⟨Cert.ReferenceIdeal.S25000x192, .f32⟩ : BufTy).Contents (Elt Ideal))
    (w : (⟨Cert.ReferenceIdeal.S192x192, .f32⟩ : BufTy).Contents (Elt Ideal)) (i : Cert.ReferenceIdeal.S25000x192.Idx) :
    Host.dotGeneral (F := Ideal) (φ₁ := .f32) (φ₂ := .f32) dR none x w i
      = ∑ k : Fin 192, x (Cert.Forms.rowK (Cert.Forms.r192 i) k) * w (Cert.Forms.kCol k (Cert.Forms.c192 i)) := by
  simp only [Host.dotGeneral]
  rw [Ideal.dotGeneral_apply, ← Equiv.sum_comp (ValueIdx.contrEquiv1 dR 192 rfl rfl).symm]
  refine Finset.sum_congr rfl fun k _ => ?_
  have hk := ValueIdx.contrEquiv1_symm_val dR 192 rfl rfl k
  have el : (dR).lhsIdx i ((ValueIdx.contrEquiv1 dR 192 rfl rfl).symm k) = Cert.Forms.rowK (Cert.Forms.r192 i) k :=
    funext fun a => Fin.ext (by
      match a with
      | ⟨0, _⟩ => exact lhsR_0 _ _
      | ⟨1, _⟩ => exact (lhsR_1 _ _).trans hk)
  have er : (dR).rhsIdx i ((ValueIdx.contrEquiv1 dR 192 rfl rfl).symm k) = Cert.Forms.kCol k (Cert.Forms.c192 i) :=
    funext fun a => Fin.ext (by
      match a with
      | ⟨0, _⟩ => exact (rhsR_0 _ _).trans hk
      | ⟨1, _⟩ => exact rhsR_1 _ _)
  rw [el, er]

/-- The host's product with a 192 × 192 matrix is the whole-array product (x · w)(i, j) = Σₖ x(i, k) · w(k, j). -/
theorem hostDot_eq (x : (⟨Cert.ReferenceIdeal.S25000x192, .f32⟩ : BufTy).Contents (Elt Ideal))
    (w : (⟨Cert.ReferenceIdeal.S192x192, .f32⟩ : BufTy).Contents (Elt Ideal)) :
    Host.dotGeneral (F := Ideal) (φ₁ := .f32) (φ₂ := .f32) dR none x w = Cert.Forms.mmG x w :=
  funext fun i => hostDot_apply x w i

/-- The left operand of the host's product with the head's matrix is read at row `i 0`. -/
theorem lhsR3_0 (i : Cert.ReferenceIdeal.S25000x3.Idx) (q : (dR3).contr.Idx) : ((dR3).lhsIdx i q 0).val = (i 0).val := by
  unfold DotDims.lhsIdx
  rw [dif_neg (show ¬(0 : Fin Cert.ReferenceIdeal.S25000x192.rank) ∈ (dR3).lhsBatch by decide),
    dif_pos (show (0 : Fin Cert.ReferenceIdeal.S25000x192.rank) ∈ (dR3).lhsNonContracting by decide)]
  rfl
/-- … and at the contraction index along its columns. -/
theorem lhsR3_1 (i : Cert.ReferenceIdeal.S25000x3.Idx) (q : (dR3).contr.Idx) : ((dR3).lhsIdx i q 1).val = (q ⟨0, by decide⟩).val :=
  (dR3).lhsIdx_val_of_single rfl i q
/-- The right operand is read at the contraction index along its rows. -/
theorem rhsR3_0 (i : Cert.ReferenceIdeal.S25000x3.Idx) (q : (dR3).contr.Idx) : ((dR3).rhsIdx i q 0).val = (q ⟨0, by decide⟩).val :=
  (dR3).rhsIdx_val_of_single rfl i q
/-- … and at column `i 1`. -/
theorem rhsR3_1 (i : Cert.ReferenceIdeal.S25000x3.Idx) (q : (dR3).contr.Idx) : ((dR3).rhsIdx i q 1).val = (i 1).val := by
  unfold DotDims.rhsIdx
  rw [dif_neg (show ¬(1 : Fin Cert.ReferenceIdeal.S192x3.rank) ∈ (dR3).rhsBatch by decide),
    dif_pos (show (1 : Fin Cert.ReferenceIdeal.S192x3.rank) ∈ (dR3).rhsNonContracting by decide)]
  rfl

/-- The host's product with the head's 192 × 3 matrix, read at (i₀, i₁): Σₖ x(i₀, k) · w(k, i₁). -/
theorem hostDot3_apply (x : (⟨Cert.ReferenceIdeal.S25000x192, .f32⟩ : BufTy).Contents (Elt Ideal))
    (w : (⟨Cert.ReferenceIdeal.S192x3, .f32⟩ : BufTy).Contents (Elt Ideal)) (i : Cert.ReferenceIdeal.S25000x3.Idx) :
    Host.dotGeneral (F := Ideal) (φ₁ := .f32) (φ₂ := .f32) dR3 none x w i
      = ∑ k : Fin 192, x (Cert.Forms.rowK (Cert.Forms.r3 i) k) * w (Cert.Forms.kCol3 k (Cert.Forms.c3 i)) := by
  simp only [Host.dotGeneral]
  rw [Ideal.dotGeneral_apply, ← Equiv.sum_comp (ValueIdx.contrEquiv1 dR3 192 rfl rfl).symm]
  refine Finset.sum_congr rfl fun k _ => ?_
  have hk := ValueIdx.contrEquiv1_symm_val dR3 192 rfl rfl k
  have el : (dR3).lhsIdx i ((ValueIdx.contrEquiv1 dR3 192 rfl rfl).symm k) = Cert.Forms.rowK (Cert.Forms.r3 i) k :=
    funext fun a => Fin.ext (by
      match a with
      | ⟨0, _⟩ => exact lhsR3_0 _ _
      | ⟨1, _⟩ => exact (lhsR3_1 _ _).trans hk)
  have er : (dR3).rhsIdx i ((ValueIdx.contrEquiv1 dR3 192 rfl rfl).symm k) = Cert.Forms.kCol3 k (Cert.Forms.c3 i) :=
    funext fun a => Fin.ext (by
      match a with
      | ⟨0, _⟩ => exact (rhsR3_0 _ _).trans hk
      | ⟨1, _⟩ => exact rhsR3_1 _ _)
  rw [el, er]

/-- The host's product with the head's 192 × 3 matrix is the whole-array product (x · w)(i, j) = Σₖ x(i, k) · w(k, j). -/
theorem hostDot3_eq (x : (⟨Cert.ReferenceIdeal.S25000x192, .f32⟩ : BufTy).Contents (Elt Ideal))
    (w : (⟨Cert.ReferenceIdeal.S192x3, .f32⟩ : BufTy).Contents (Elt Ideal)) :
    Host.dotGeneral (F := Ideal) (φ₁ := .f32) (φ₂ := .f32) dR3 none x w = Cert.Forms.mmG3 x w :=
  funext fun i => hostDot3_apply x w i

end Cert.MatMul

end
-- ==== Proof.Post.lean ====
/-
  The kernel's three post-processing bodies and its host glue, against the reference's host operations.

  A post-processing body works on a 1000 × 192 block a of the aggregate, the bias b stored as one row, and, for the
  averaging body, a block r of the residual:  max(a + b, 0);  (r + max(a + b, 0)) · ½;  and, for the head
  (1000 × 3 blocks), a + b.  The reference computes the same on whole arrays: the bias vector broadcast to a row
  and then down the rows, a maximum with a splat of zero, and a DIVISION by a splat of two.  On the extended reals
  z / 2 = z · ½ for every z, the infinities included; everything else is unfolding.
-/
import proofs.«171734_j42872363549123_1_alg».proof.Proof.Forms
import proofs.«171734_j42872363549123_1_alg».proof.Proof.Spec
import proofs.«171734_j42872363549123_1_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal

noncomputable section

namespace Cert.Post

open Idealize.ShloMosaic

/-! ## The block payloads read at an index -/

section Payloads
variable {F : FTy → Type} [FloatOps F] {α : Type}

/-- One row of 192 broadcast down 1000 rows reads, at (p, c), the row at c. -/
theorem bcastRow_apply (v : Cert.KernelIdeal.S1x192.Idx → α) (h : Cert.KernelIdeal.S1x192.Broadcasts Cert.KernelIdeal.S1000x192)
    (y : Cert.KernelIdeal.S1000x192.Idx) :
    broadcastTo Cert.KernelIdeal.S1000x192 v h y = v (Cert.Forms.biasAt ⟨(y 1).val, (y 1).isLt⟩) := by
  refine broadcastTo_apply v h y _ fun ax => ?_
  match ax with
  | ⟨0, _⟩ => rfl
  | ⟨1, _⟩ => rfl

/-- One row of 3 broadcast down 1000 rows reads, at (p, c), the row at c. -/
theorem bcastRow3_apply (v : Cert.KernelIdeal.S1x3.Idx → α) (h : Cert.KernelIdeal.S1x3.Broadcasts Cert.KernelIdeal.S1000x3)
    (y : Cert.KernelIdeal.S1000x3.Idx) :
    broadcastTo Cert.KernelIdeal.S1000x3 v h y = v (Cert.Forms.biasAt3 ⟨(y 1).val, (y 1).isLt⟩) := by
  refine broadcastTo_apply v h y _ fun ax => ?_
  match ax with
  | ⟨0, _⟩ => rfl
  | ⟨1, _⟩ => rfl

/-- The rectifying body at an index: max(a + b, 0), the bias read along the row. -/
theorem pay1_apply (b : Vec F Cert.KernelIdeal.S1x192 .f32) (a : Vec F Cert.KernelIdeal.S1000x192 .f32) (y : Cert.KernelIdeal.S1000x192.Idx) :
    Cert.KernelIdeal.Gen.k1_pay1 b a y
      = FloatOps.maximumf (FloatOps.addf (a y) (b (Cert.Forms.biasAt ⟨(y 1).val, (y 1).isLt⟩))) (Scalar.ofBits .f32 0x00000000#32) := by
  unfold Cert.KernelIdeal.Gen.k1_pay1
  simp only [shapeCast_self]
  exact congrArg (fun z => FloatOps.maximumf (FloatOps.addf (a y) z) (Scalar.ofBits .f32 0x00000000#32)) (bcastRow_apply b _ y)

/-- The averaging body at an index: (r + max(a + b, 0)) · ½. -/
theorem pay3_apply (b : Vec F Cert.KernelIdeal.S1x192 .f32) (a : Vec F Cert.KernelIdeal.S1000x192 .f32) (r : Vec F Cert.KernelIdeal.S1000x192 .f32)
    (y : Cert.KernelIdeal.S1000x192.Idx) :
    Cert.KernelIdeal.Gen.k3_pay1 b a r y
      = FloatOps.mulf (FloatOps.addf (r y) (FloatOps.maximumf (FloatOps.addf (a y) (b (Cert.Forms.biasAt ⟨(y 1).val, (y 1).isLt⟩))) (Scalar.ofBits .f32 0x00000000#32))) (Scalar.ofBits .f32 0x3F000000#32) := by
  unfold Cert.KernelIdeal.Gen.k3_pay1
  simp only [shapeCast_self]
  exact congrArg (fun z => FloatOps.mulf (FloatOps.addf (r y) (FloatOps.maximumf (FloatOps.addf (a y) z) (Scalar.ofBits .f32 0x00000000#32))) (Scalar.ofBits .f32 0x3F000000#32)) (bcastRow_apply b _ y)

/-- The head's body at an index: a + b, the bias read along the row. -/
theorem pay27_apply (b : Vec F Cert.KernelIdeal.S1x3 .f32) (a : Vec F Cert.KernelIdeal.S1000x3 .f32) (y : Cert.KernelIdeal.S1000x3.Idx) :
    Cert.KernelIdeal.Gen.k27_pay1 b a y = FloatOps.addf (a y) (b (Cert.Forms.biasAt3 ⟨(y 1).val, (y 1).isLt⟩)) := by
  unfold Cert.KernelIdeal.Gen.k27_pay1
  simp only [shapeCast_self]
  exact congrArg (fun z => FloatOps.addf (a y) z) (bcastRow3_apply b _ y)

/-! ### The later layers' bodies: the same text, layer after layer -/

/-- The rectifying body of a later layer at an index: max(a + b, 0). -/
theorem pay5_apply (b : Vec F Cert.KernelIdeal.S1x192 .f32) (a : Vec F Cert.KernelIdeal.S1000x192 .f32) (y : Cert.KernelIdeal.S1000x192.Idx) :
    Cert.KernelIdeal.Gen.k5_pay1 b a y
      = FloatOps.maximumf (FloatOps.addf (a y) (b (Cert.Forms.biasAt ⟨(y 1).val, (y 1).isLt⟩))) (Scalar.ofBits .f32 0x00000000#32) :=
  pay1_apply b a y

/-- The rectifying body of a later layer at an index: max(a + b, 0). -/
theorem pay9_apply (b : Vec F Cert.KernelIdeal.S1x192 .f32) (a : Vec F Cert.KernelIdeal.S1000x192 .f32) (y : Cert.KernelIdeal.S1000x192.Idx) :
    Cert.KernelIdeal.Gen.k9_pay1 b a y
      = FloatOps.maximumf (FloatOps.addf (a y) (b (Cert.Forms.biasAt ⟨(y 1).val, (y 1).isLt⟩))) (Scalar.ofBits .f32 0x00000000#32) :=
  pay1_apply b a y

/-- The rectifying body of a later layer at an index: max(a + b, 0). -/
theorem pay13_apply (b : Vec F Cert.KernelIdeal.S1x192 .f32) (a : Vec F Cert.KernelIdeal.S1000x192 .f32) (y : Cert.KernelIdeal.S1000x192.Idx) :
    Cert.KernelIdeal.Gen.k13_pay1 b a y
      = FloatOps.maximumf (FloatOps.addf (a y) (b (Cert.Forms.biasAt ⟨(y 1).val, (y 1).isLt⟩))) (Scalar.ofBits .f32 0x00000000#32) :=
  pay1_apply b a y

/-- The rectifying body of a later layer at an index: max(a + b, 0). -/
theorem pay17_apply (b : Vec F Cert.KernelIdeal.S1x192 .f32) (a : Vec F Cert.KernelIdeal.S1000x192 .f32) (y : Cert.KernelIdeal.S1000x192.Idx) :
    Cert.KernelIdeal.Gen.k17_pay1 b a y
      = FloatOps.maximumf (FloatOps.addf (a y) (b (Cert.Forms.biasAt ⟨(y 1).val, (y 1).isLt⟩))) (Scalar.ofBits .f32 0x00000000#32) :=
  pay1_apply b a y

/-- The rectifying body of a later layer at an index: max(a + b, 0). -/
theorem pay21_apply (b : Vec F Cert.KernelIdeal.S1x192 .f32) (a : Vec F Cert.KernelIdeal.S1000x192 .f32) (y : Cert.KernelIdeal.S1000x192.Idx) :
    Cert.KernelIdeal.Gen.k21_pay1 b a y
      = FloatOps.maximumf (FloatOps.addf (a y) (b (Cert.Forms.biasAt ⟨(y 1).val, (y 1).isLt⟩))) (Scalar.ofBits .f32 0x00000000#32) :=
  pay1_apply b a y

/-- The averaging body of a later layer at an index: (r + max(a + b, 0)) · ½; the residual block passes through one more
    shape cast to its own shape, the identity. -/
theorem pay7_apply (b : Vec F Cert.KernelIdeal.S1x192 .f32) (a : Vec F Cert.KernelIdeal.S1000x192 .f32) (r : Vec F Cert.KernelIdeal.S1000x192 .f32)
    (y : Cert.KernelIdeal.S1000x192.Idx) :
    Cert.KernelIdeal.Gen.k7_pay1 b a r y
      = FloatOps.mulf (FloatOps.addf (r y) (FloatOps.maximumf (FloatOps.addf (a y) (b (Cert.Forms.biasAt ⟨(y 1).val, (y 1).isLt⟩))) (Scalar.ofBits .f32 0x00000000#32))) (Scalar.ofBits .f32 0x3F000000#32) := by
  unfold Cert.KernelIdeal.Gen.k7_pay1
  simp only [shapeCast_self]
  exact congrArg (fun z => FloatOps.mulf (FloatOps.addf (r y) (FloatOps.maximumf (FloatOps.addf (a y) z) (Scalar.ofBits .f32 0x00000000#32))) (Scalar.ofBits .f32 0x3F000000#32)) (bcastRow_apply b _ y)

/-- The averaging body of a later layer at an index: (r + max(a + b, 0)) · ½. -/
theorem pay11_apply (b : Vec F Cert.KernelIdeal.S1x192 .f32) (a : Vec F Cert.KernelIdeal.S1000x192 .f32) (r : Vec F Cert.KernelIdeal.S1000x192 .f32)
    (y : Cert.KernelIdeal.S1000x192.Idx) :
    Cert.KernelIdeal.Gen.k11_pay1 b a r y
      = FloatOps.mulf (FloatOps.addf (r y) (FloatOps.maximumf (FloatOps.addf (a y) (b (Cert.Forms.biasAt ⟨(y 1).val, (y 1).isLt⟩))) (Scalar.ofBits .f32 0x00000000#32))) (Scalar.ofBits .f32 0x3F000000#32) :=
  pay7_apply b a r y

/-- The averaging body of a later layer at an index: (r + max(a + b, 0)) · ½. -/
theorem pay15_apply (b : Vec F Cert.KernelIdeal.S1x192 .f32) (a : Vec F Cert.KernelIdeal.S1000x192 .f32) (r : Vec F Cert.KernelIdeal.S1000x192 .f32)
    (y : Cert.KernelIdeal.S1000x192.Idx) :
    Cert.KernelIdeal.Gen.k15_pay1 b a r y
      = FloatOps.mulf (FloatOps.addf (r y) (FloatOps.maximumf (FloatOps.addf (a y) (b (Cert.Forms.biasAt ⟨(y 1).val, (y 1).isLt⟩))) (Scalar.ofBits .f32 0x00000000#32))) (Scalar.ofBits .f32 0x3F000000#32) :=
  pay7_apply b a r y

/-- The averaging body of a later layer at an index: (r + max(a + b, 0)) · ½. -/
theorem pay19_apply (b : Vec F Cert.KernelIdeal.S1x192 .f32) (a : Vec F Cert.KernelIdeal.S1000x192 .f32) (r : Vec F Cert.KernelIdeal.S1000x192 .f32)
    (y : Cert.KernelIdeal.S1000x192.Idx) :
    Cert.KernelIdeal.Gen.k19_pay1 b a r y
      = FloatOps.mulf (FloatOps.addf (r y) (FloatOps.maximumf (FloatOps.addf (a y) (b (Cert.Forms.biasAt ⟨(y 1).val, (y 1).isLt⟩))) (Scalar.ofBits .f32 0x00000000#32))) (Scalar.ofBits .f32 0x3F000000#32) :=
  pay7_apply b a r y

/-- The averaging body of a later layer at an index: (r + max(a + b, 0)) · ½. -/
theorem pay23_apply (b : Vec F Cert.KernelIdeal.S1x192 .f32) (a : Vec F Cert.KernelIdeal.S1000x192 .f32) (r : Vec F Cert.KernelIdeal.S1000x192 .f32)
    (y : Cert.KernelIdeal.S1000x192.Idx) :
    Cert.KernelIdeal.Gen.k23_pay1 b a r y
      = FloatOps.mulf (FloatOps.addf (r y) (FloatOps.maximumf (FloatOps.addf (a y) (b (Cert.Forms.biasAt ⟨(y 1).val, (y 1).isLt⟩))) (Scalar.ofBits .f32 0x00000000#32))) (Scalar.ofBits .f32 0x3F000000#32) :=
  pay7_apply b a r y

/-- The averaging body of a later layer at an index: (r + max(a + b, 0)) · ½. -/
theorem pay25_apply (b : Vec F Cert.KernelIdeal.S1x192 .f32) (a : Vec F Cert.KernelIdeal.S1000x192 .f32) (r : Vec F Cert.KernelIdeal.S1000x192 .f32)
    (y : Cert.KernelIdeal.S1000x192.Idx) :
    Cert.KernelIdeal.Gen.k25_pay1 b a r y
      = FloatOps.mulf (FloatOps.addf (r y) (FloatOps.maximumf (FloatOps.addf (a y) (b (Cert.Forms.biasAt ⟨(y 1).val, (y 1).isLt⟩))) (Scalar.ofBits .f32 0x00000000#32))) (Scalar.ofBits .f32 0x3F000000#32) :=
  pay7_apply b a r y

end Payloads

/-! ## The host glue: the kernel's aggregation is the reference's -/

section Glue
variable {F : FTy → Type} [FloatOps F] [Cert.KernelIdeal.Facts] [Cert.ReferenceIdeal.Facts]

open Cert.KernelIdeal Cert.KernelIdeal.Facts₀ in
/-- The kernel's host code aggregates 192 columns as the reference does: the same gather at the edges' sources, the same
    scaling by the edges' weights, the same scatter-add into the edges' destinations. -/
theorem agg_eq (src dst : Cert.Spec.EdgeI F) (ew : Cert.Spec.EdgeW F) (s : Cert.Spec.Feat F) :
    Host.scatterAdd scatter_S25000x192_S400000x1_S400000x192_1_0_0_1 (broadcastInDim S25000x192 ![] bcast_S_S25000x192 (constant S_ .f32 0x00000000#32)) (broadcastInDim S400000x1 ![0] bcast_S400000_S400000x1_0 dst) (mulf (broadcastInDim S400000x192 ![0, 1] bcast_S400000x1_S400000x192_0_1 (broadcastInDim S400000x1 ![0] bcast_S400000_S400000x1_0 ew)) (Host.gather gather_S25000x192_S400000x1_S400000x192_1_0_n_n_0_1_1192 s (broadcastInDim S400000x1 ![0] bcast_S400000_S400000x1_0 (select (cmpi .slt src (broadcastInDim S400000 ![] bcast_S_S400000 (constantI S_ 32 0#32))) (addi src (broadcastInDim S400000 ![] bcast_S_S400000 (constantI S_ 32 25000#32))) src))))
      = Cert.Spec.agg src dst ew s := by
  unfold Cert.Spec.agg Cert.Spec.srcIdx
  rfl

open Cert.KernelIdeal Cert.KernelIdeal.Facts₀ in
/-- The same for the head's 3 columns. -/
theorem agg3_eq (src dst : Cert.Spec.EdgeI F) (ew : Cert.Spec.EdgeW F) (s : Cert.Spec.Out F) :
    Host.scatterAdd scatter_S25000x3_S400000x1_S400000x3_1_0_0_1 (broadcastInDim S25000x3 ![] bcast_S_S25000x3 (constant S_ .f32 0x00000000#32)) (broadcastInDim S400000x1 ![0] bcast_S400000_S400000x1_0 dst) (mulf (broadcastInDim S400000x3 ![0, 1] bcast_S400000x1_S400000x3_0_1 (broadcastInDim S400000x1 ![0] bcast_S400000_S400000x1_0 ew)) (Host.gather gather_S25000x3_S400000x1_S400000x3_1_0_n_n_0_1_13 s (broadcastInDim S400000x1 ![0] bcast_S400000_S400000x1_0 (select (cmpi .slt src (broadcastInDim S400000 ![] bcast_S_S400000 (constantI S_ 32 0#32))) (addi src (broadcastInDim S400000 ![] bcast_S_S400000 (constantI S_ 32 25000#32))) src))))
      = Cert.Spec.agg3 src dst ew s := by
  unfold Cert.Spec.agg3 Cert.Spec.srcIdx
  rfl

end Glue

/-! ## The whole-array forms against the reference's host operations -/

section Whole
variable {F : FTy → Type} [FloatOps F] [Cert.KernelIdeal.Facts] [Cert.ReferenceIdeal.Facts] {α : Type}

open ValueIdx in
/-- A vector of 192 entries reshaped to one row reads, at (0, c), the vector at c. -/
theorem castRow_apply (b : Cert.KernelIdeal.S192.Idx → α) (h : Cert.KernelIdeal.S192.ShapeCasts Cert.KernelIdeal.S1x192) (c : Fin 192) :
    shapeCast Cert.KernelIdeal.S1x192 b h (Cert.Forms.biasAt c) = b (ix1 c) :=
  shapeCast_apply b h _ _ (by
    rw [Shape.rowMajor_val_two, Shape.rowMajor_val_one]
    show c.val = 0 * 192 + c.val
    omega)

open ValueIdx in
/-- A vector of 3 entries reshaped to one row reads, at (0, c), the vector at c. -/
theorem castRow3_apply (b : Cert.KernelIdeal.S3.Idx → α) (h : Cert.KernelIdeal.S3.ShapeCasts Cert.KernelIdeal.S1x3) (c : Fin 3) :
    shapeCast Cert.KernelIdeal.S1x3 b h (Cert.Forms.biasAt3 c) = b (ix1 c) :=
  shapeCast_apply b h _ _ (by
    rw [Shape.rowMajor_val_two, Shape.rowMajor_val_one]
    show c.val = 0 * 3 + c.val
    omega)

open ValueIdx in
/-- The bias repeated down the rows reads, at (p, c), the vector at c. -/
theorem rows_apply (b : (⟨Cert.ReferenceIdeal.S192, .f32⟩ : BufTy).Contents (Elt F)) (i : Cert.ReferenceIdeal.S25000x192.Idx) :
    Cert.Spec.rows b i = b (ix1 ⟨(i 1).val, (i 1).isLt⟩) := by
  unfold Cert.Spec.rows
  refine (broadcastInDim_apply _ _ _ i (Cert.Forms.biasAt ⟨(i 1).val, (i 1).isLt⟩) fun ax => ?_).trans ?_
  · match ax with
    | ⟨0, _⟩ => rfl
    | ⟨1, _⟩ => rfl
  · refine broadcastInDim_apply _ _ _ _ _ fun ax => ?_
    match ax with
    | ⟨0, _⟩ => rfl

open ValueIdx in
/-- The head's bias repeated down the rows reads, at (p, c), the vector at c. -/
theorem rows3_apply (b : (⟨Cert.ReferenceIdeal.S3, .f32⟩ : BufTy).Contents (Elt F)) (i : Cert.ReferenceIdeal.S25000x3.Idx) :
    Cert.Spec.rows3 b i = b (ix1 ⟨(i 1).val, (i 1).isLt⟩) := by
  unfold Cert.Spec.rows3
  refine (broadcastInDim_apply _ _ _ i (Cert.Forms.biasAt3 ⟨(i 1).val, (i 1).isLt⟩) fun ax => ?_).trans ?_
  · match ax with
    | ⟨0, _⟩ => rfl
    | ⟨1, _⟩ => rfl
  · refine broadcastInDim_apply _ _ _ _ _ fun ax => ?_
    match ax with
    | ⟨0, _⟩ => rfl

/-- max(a + b, 0) with the bias read along the row is the reference's maximum of a plus the bias repeated down the rows
    with a splat of zero. -/
theorem reluG_eq (a : Cert.Spec.Feat F) (b : (⟨Cert.KernelIdeal.S192, .f32⟩ : BufTy).Contents (Elt F)) :
    Cert.Forms.reluG a (shapeCast Cert.KernelIdeal.S1x192 b Cert.KernelIdeal.Facts₀.shapeCasts_S192_S1x192)
      = Cert.Spec.relu (addf a (Cert.Spec.rows b)) := by
  funext i
  show FloatOps.maximumf (FloatOps.addf (a i) (shapeCast Cert.KernelIdeal.S1x192 b _ (Cert.Forms.biasAt (Cert.Forms.c192 i)))) (Scalar.ofBits .f32 0x00000000#32)
    = FloatOps.maximumf (FloatOps.addf (a i) (Cert.Spec.rows b i)) (Scalar.ofBits .f32 0x00000000#32)
  rw [castRow_apply, rows_apply]

/-- a + b with the head's bias read along the row is a plus the bias repeated down the rows. -/
theorem plainG_eq (a : Cert.Spec.Out F) (b : (⟨Cert.KernelIdeal.S3, .f32⟩ : BufTy).Contents (Elt F)) :
    Cert.Forms.plainG a (shapeCast Cert.KernelIdeal.S1x3 b Cert.KernelIdeal.Facts₀.shapeCasts_S3_S1x3)
      = addf a (Cert.Spec.rows3 b) := by
  funext i
  show FloatOps.addf (a i) (shapeCast Cert.KernelIdeal.S1x3 b _ (Cert.Forms.biasAt3 (Cert.Forms.c3 i)))
    = FloatOps.addf (a i) (Cert.Spec.rows3 b i)
  rw [castRow3_apply, rows3_apply]

end Whole

/-! ## The averaging body: a division by two is a product with one half -/

section Avg
variable [Cert.KernelIdeal.Facts] [Cert.ReferenceIdeal.Facts]

/-- The word 0x40000000 denotes the real 2. -/
theorem ofBits_two : Ideal.ofBits .f32 0x40000000#32 = ((2 : ℝ) : EReal) := by
  simp [Ideal.ofBits, Ideal.ieee, -EReal.coe_mul]; norm_num

/-- The word 0x3F000000 denotes the real 1/2. -/
theorem ofBits_half : Ideal.ofBits .f32 0x3F000000#32 = ((1 / 2 : ℝ) : EReal) := by
  simp [Ideal.ofBits, Ideal.ieee, -EReal.coe_mul]; norm_num

/-- (r + max(a + b, 0)) · ½ is the reference's (r + max(a + b, 0)) / 2: on the extended reals z / 2 = z · ½ for every z,
    the infinities included. -/
theorem avgG_eq (a r : Cert.Spec.Feat Ideal) (b : (⟨Cert.KernelIdeal.S192, .f32⟩ : BufTy).Contents (Elt Ideal)) :
    Cert.Forms.avgG a (shapeCast Cert.KernelIdeal.S1x192 b Cert.KernelIdeal.Facts₀.shapeCasts_S192_S1x192) r
      = Cert.Spec.avg r (Cert.Spec.relu (addf a (Cert.Spec.rows b))) := by
  funext i
  show FloatOps.mulf (FloatOps.addf (r i) (FloatOps.maximumf (FloatOps.addf (a i) (shapeCast Cert.KernelIdeal.S1x192 b _ (Cert.Forms.biasAt (Cert.Forms.c192 i)))) (Scalar.ofBits .f32 0x00000000#32))) (Scalar.ofBits .f32 0x3F000000#32)
    = FloatOps.hostDivf (FloatOps.addf (r i) (FloatOps.maximumf (FloatOps.addf (a i) (Cert.Spec.rows b i)) (Scalar.ofBits .f32 0x00000000#32))) (Scalar.ofBits .f32 0x40000000#32)
  rw [castRow_apply, rows_apply]
  simp only [Ideal.mulf_def, Ideal.hostDivf_def, Ideal.ofBits_def, ofBits_two, ofBits_half,
    Ideal.div_coe (by norm_num : (2 : ℝ) ≠ 0)]

end Avg

end Cert.Post

end
-- ==== Proof.Region0.lean ====
/-
  Kernel region 0 as a function of whole arrays: after the region, its output array is, index by index,
  the matrix product of the 25000 × 192 array in window 0 with the 192 × 192 matrix in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.MatMul
import Idealize.ShloMosaic.Lib.Pipeline.Value

set_option maxRecDepth 16384

noncomputable section

namespace Cert.Region0

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the whole-array function. -/
theorem flushed_eq (c : Dev nD) (t : Fin cfg0.N) :
    (dat0 V c).flushed 2 t = ((cfg0.win 2).blk t).view.read (Elt Ideal) (mmG (V c main_arg0) (V c main_v1)) := by
  show (cfg0.win 2).cut (grid0.coords t) ((dat0 V c).after 2 t) = _
  rw [after0_2]
  unfold out0_2
  rw [View.canon_unit_zero hz]
  simp only [View.ld_unit_zero (S := S1000x192) hz, View.ld_unit_zero (S := S192x192) hz]
  obtain ⟨e00, e01, e10, e11, e20, e21⟩ := idx_facts t
  funext j
  refine (Cert.MatMul.pay0_apply _ _ j).trans ?_
  refine Eq.trans ?_ (mmG_apply _ _ _).symm
  refine Finset.sum_congr rfl fun q _ => ?_
  have hl : iblk0 V c 0 t (Cert.MatMul.blkRowK ⟨(j 0).val, (j 0).isLt⟩ q) = V c main_arg0 (rowK (r192 (((cfg0.win 2).blk t).view.emb j)) q) :=
    congrArg (V c main_arg0) (a₁ := ((cfg0.win 0).blk t).view.emb (Cert.MatMul.blkRowK ⟨(j 0).val, (j 0).isLt⟩ q)) (a₂ := rowK (r192 (((cfg0.win 2).blk t).view.emb j)) q) (funext fun a => Fin.ext (by
      match a with
      | ⟨0, _⟩ => show win0_0.index t (0 : Fin 2) * 1000 + 1 * (j 0).val = win0_2.index t (0 : Fin 2) * 1000 + 1 * (j 0).val; omega
      | ⟨1, _⟩ => show win0_0.index t (1 : Fin 2) * 192 + 1 * q.val = q.val; omega))
  have hr : iblk0 V c 1 t (kCol q ⟨(j 1).val, (j 1).isLt⟩) = V c main_v1 (kCol q (c192 (((cfg0.win 2).blk t).view.emb j))) :=
    congrArg (V c main_v1) (a₁ := ((cfg0.win 1).blk t).view.emb (kCol q ⟨(j 1).val, (j 1).isLt⟩)) (a₂ := kCol q (c192 (((cfg0.win 2).blk t).view.emb j))) (funext fun a => Fin.ext (by
      match a with
      | ⟨0, _⟩ => show win0_1.index t (0 : Fin 2) * 192 + 1 * q.val = q.val; omega
      | ⟨1, _⟩ => show win0_1.index t (1 : Fin 2) * 192 + 1 * (j 1).val = win0_2.index t (1 : Fin 2) * 192 + 1 * (j 1).val; omega))
  exact congrArg₂ (· * ·) hl hr

/-- An index is in point t's block iff each coordinate is in the block's range on its axis. -/
theorem mem_blk (t : Fin cfg0.N) (i : S25000x192.Idx) :
    i ∈ ((cfg0.win 2).blk t).view.set ↔ ∀ a : Fin 2, win0_2.index t a * S1000x192.size a ≤ (i a).val ∧ (i a).val < win0_2.index t a * S1000x192.size a + S1000x192.size a := by
  show i ∈ ((View.whole main_v4).slice (win0_2.rect t)).set ↔ _
  rw [View.set_slice_whole, Rect.mem_set_unit]
  exact Iff.rfl

/-- Row r of the output lies in the block of point r / 1000. -/
theorem cover (i : S25000x192.Idx) : ∃ t : Fin cfg0.N, (cfg0.win 2).flush t = true ∧ i ∈ ((cfg0.win 2).blk t).view.set := by
  have hi0 : (i 0).val < 25000 := (i 0).isLt
  have hi1 : (i 1).val < 192 := (i 1).isLt
  have hN : (i 0).val / 1000 < cfg0.N := lt_of_lt_of_eq (by omega : (i 0).val / 1000 < 25) N_0.symm
  refine ⟨⟨(i 0).val / 1000, hN⟩, flush0_2 _, ?_⟩
  rw [mem_blk]
  have f0 : win0_2.index ⟨(i 0).val / 1000, hN⟩ (0 : Fin 2) = (i 0).val / 1000 := (idx_facts ⟨(i 0).val / 1000, hN⟩).2.2.2.2.1
  have f1 : win0_2.index ⟨(i 0).val / 1000, hN⟩ (1 : Fin 2) = 0 := (idx_facts ⟨(i 0).val / 1000, hN⟩).2.2.2.2.2
  intro a
  match a with
  | ⟨0, _⟩ => show win0_2.index ⟨(i 0).val / 1000, hN⟩ (0 : Fin 2) * 1000 ≤ (i 0).val ∧ (i 0).val < win0_2.index ⟨(i 0).val / 1000, hN⟩ (0 : Fin 2) * 1000 + 1000; rw [f0]; omega
  | ⟨1, _⟩ => show win0_2.index ⟨(i 0).val / 1000, hN⟩ (1 : Fin 2) * 192 ≤ (i 1).val ∧ (i 1).val < win0_2.index ⟨(i 0).val / 1000, hN⟩ (1 : Fin 2) * 192 + 192; rw [f1]; omega

/-- The output array after the region. -/
theorem final (c : Dev nD) : (dat0 V c).arrAt 2 cfg0.N = mmG (V c main_arg0) (V c main_v1) :=
  (dat0 V c).arrAt_eq_of_cover 2 _ (fun t _ => flushed_eq V c t) (cover)

end Cert.Region0

end
-- ==== Proof.Region1.lean ====
/-
  Kernel region 1 as a function of whole arrays: after the region, its output array is, index by index,
  max(a + b, 0) of the aggregate a in window 0 and the bias row b in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.Post
import Idealize.ShloMosaic.Lib.Pipeline.Value

set_option maxRecDepth 16384

noncomputable section

namespace Cert.Region1

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point t writes back is block t of the whole-array function. -/
theorem flushed_eq (c : Dev nD) (t : Fin cfg1.N) :
    (dat1 V c).flushed 2 t = ((cfg1.win 2).blk t).view.read (Elt Ideal) (reluG (V c main_v17) (V c main_v18)) := by
  show (cfg1.win 2).cut (grid1.coords t) ((dat1 V c).after 2 t) = _
  rw [after1_2]
  unfold out1_2
  rw [View.canon_unit_zero hz]
  simp only [View.ld_unit_zero (S := S1000x192) hz, View.ld_unit_zero (S := S1x192) hz]
  obtain ⟨e00, e01, e10, e11, e20, e21⟩ := idx_facts t
  funext j
  refine (Cert.Post.pay1_apply _ _ j).trans ?_
  refine Eq.trans ?_ (reluG_apply _ _ _).symm
  have ha : iblk1 V c 0 t j = V c main_v17 (((cfg1.win 2).blk t).view.emb j) :=
    congrArg (V c main_v17) (a₁ := ((cfg1.win 0).blk t).view.emb (j)) (a₂ := (((cfg1.win 2).blk t).view.emb j)) (funext fun a => Fin.ext (by
      match a with
      | ⟨0, _⟩ => show win1_0.index t (0 : Fin 2) * 1000 + 1 * (j 0).val = win1_2.index t (0 : Fin 2) * 1000 + 1 * (j 0).val; omega
      | ⟨1, _⟩ => show win1_0.index t (1 : Fin 2) * 192 + 1 * (j 1).val = win1_2.index t (1 : Fin 2) * 192 + 1 * (j 1).val; omega))
  have hb : iblk1 V c 1 t (biasAt ⟨(j 1).val, (j 1).isLt⟩) = V c main_v18 (biasAt (c192 (((cfg1.win 2).blk t).view.emb j))) :=
    congrArg (V c main_v18) (a₁ := ((cfg1.win 1).blk t).view.emb (biasAt ⟨(j 1).val, (j 1).isLt⟩)) (a₂ := biasAt (c192 (((cfg1.win 2).blk t).view.emb j))) (funext fun a => Fin.ext (by
      match a with
      | ⟨0, _⟩ => show win1_1.index t (0 : Fin 2) * 1 + 1 * 0 = 0; omega
      | ⟨1, _⟩ => show win1_1.index t (1 : Fin 2) * 192 + 1 * (j 1).val = win1_2.index t (1 : Fin 2) * 192 + 1 * (j 1).val; omega))

  rw [ha, hb]

/-- An index is in point t's block iff each coordinate is in the block's range on its axis. -/
theorem mem_blk (t : Fin cfg1.N) (i : S25000x192.Idx) :
    i ∈ ((cfg1.win 2).blk t).view.set ↔ ∀ a : Fin 2, win1_2.index t a * S1000x192.size a ≤ (i a).val ∧ (i a).val < win1_2.index t a * S1000x192.size a + S1000x192.size a := by
  show i ∈ ((View.whole main_v19).slice (win1_2.rect t)).set ↔ _
  rw [View.set_slice_whole, Rect.mem_set_unit]
  exact Iff.rfl

/-- Row r of the output lies in the block of point r / 1000. -/
theorem cover (i : S25000x192.Idx) : ∃ t : Fin cfg1.N, (cfg1.win 2).flush t = true ∧ i ∈ ((cfg1.win 2).blk t).view.set := by
  have hi0 : (i 0).val < 25000 := (i 0).isLt
  have hi1 : (i 1).val < 192 := (i 1).isLt
  have hN : (i 0).val / 1000 < cfg1.N := lt_of_lt_of_eq (by omega : (i 0).val / 1000 < 25) N_1.symm
  refine ⟨⟨(i 0).val / 1000, hN⟩, flush1_2 _, ?_⟩
  rw [mem_blk]
  have f0 : win1_2.index ⟨(i 0).val / 1000, hN⟩ (0 : Fin 2) = (i 0).val / 1000 := (idx_facts ⟨(i 0).val / 1000, hN⟩).2.2.2.2.1
  have f1 : win1_2.index ⟨(i 0).val / 1000, hN⟩ (1 : Fin 2) = 0 := (idx_facts ⟨(i 0).val / 1000, hN⟩).2.2.2.2.2
  intro a
  match a with
  | ⟨0, _⟩ => show win1_2.index ⟨(i 0).val / 1000, hN⟩ (0 : Fin 2) * 1000 ≤ (i 0).val ∧ (i 0).val < win1_2.index ⟨(i 0).val / 1000, hN⟩ (0 : Fin 2) * 1000 + 1000; rw [f0]; omega
  | ⟨1, _⟩ => show win1_2.index ⟨(i 0).val / 1000, hN⟩ (1 : Fin 2) * 192 ≤ (i 1).val ∧ (i 1).val < win1_2.index ⟨(i 0).val / 1000, hN⟩ (1 : Fin 2) * 192 + 192; rw [f1]; omega

/-- The output array after the region. -/
theorem final (c : Dev nD) : (dat1 V c).arrAt 2 cfg1.N = reluG (V c main_v17) (V c main_v18) :=
  (dat1 V c).arrAt_eq_of_cover 2 _ (fun t _ => flushed_eq V c t) (cover)

end Cert.Region1

end
-- ==== Proof.Invs.lean ====
/-
  What each segment boundary after a layer holds, as a statement: the layer's output buffer is that hidden layer of
  the specification (the head, after the last), as a function of the launch contents of the arguments; a feature
  array that a later layer still reads as its residual is there too; and the eight arguments are as launched.
-/
import proofs.«171734_j42872363549123_1_alg».proof.Proof.Gen.KernelIdeal.Frame
import proofs.«171734_j42872363549123_1_alg».proof.Proof.Gen.ReferenceIdeal
import proofs.«171734_j42872363549123_1_alg».proof.Proof.Spec
import Idealize.ShloMosaic.PureOps.Ideal

set_option maxRecDepth 16384

noncomputable section

namespace Cert.Invs

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- What the boundary after layer 0 holds. -/
structure Inv0 (c : Dev nD) : Prop where
  out : W4 m ρ c (Proc.devRef .tc main_v19) = (Cert.Spec.h0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
  a0 : W4 m ρ c (Proc.devRef .tc main_arg0) = m ((c : Thread nD τ).loc main_arg0)
  a1 : W4 m ρ c (Proc.devRef .tc main_arg1) = m ((c : Thread nD τ).loc main_arg1)
  a2 : W4 m ρ c (Proc.devRef .tc main_arg2) = m ((c : Thread nD τ).loc main_arg2)
  a3 : W4 m ρ c (Proc.devRef .tc main_arg3) = m ((c : Thread nD τ).loc main_arg3)
  a4 : W4 m ρ c (Proc.devRef .tc main_arg4) = m ((c : Thread nD τ).loc main_arg4)
  a5 : W4 m ρ c (Proc.devRef .tc main_arg5) = m ((c : Thread nD τ).loc main_arg5)
  a6 : W4 m ρ c (Proc.devRef .tc main_arg6) = m ((c : Thread nD τ).loc main_arg6)
  a7 : W4 m ρ c (Proc.devRef .tc main_arg7) = m ((c : Thread nD τ).loc main_arg7)

/-- What the boundary after layer 1 holds. -/
structure Inv1 (c : Dev nD) : Prop where
  out : W8 m ρ c (Proc.devRef .tc main_v39) = (Cert.Spec.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
  a0 : W8 m ρ c (Proc.devRef .tc main_arg0) = m ((c : Thread nD τ).loc main_arg0)
  a1 : W8 m ρ c (Proc.devRef .tc main_arg1) = m ((c : Thread nD τ).loc main_arg1)
  a2 : W8 m ρ c (Proc.devRef .tc main_arg2) = m ((c : Thread nD τ).loc main_arg2)
  a3 : W8 m ρ c (Proc.devRef .tc main_arg3) = m ((c : Thread nD τ).loc main_arg3)
  a4 : W8 m ρ c (Proc.devRef .tc main_arg4) = m ((c : Thread nD τ).loc main_arg4)
  a5 : W8 m ρ c (Proc.devRef .tc main_arg5) = m ((c : Thread nD τ).loc main_arg5)
  a6 : W8 m ρ c (Proc.devRef .tc main_arg6) = m ((c : Thread nD τ).loc main_arg6)
  a7 : W8 m ρ c (Proc.devRef .tc main_arg7) = m ((c : Thread nD τ).loc main_arg7)

/-- What the boundary after layer 2 holds. -/
structure Inv2 (c : Dev nD) : Prop where
  out : W12 m ρ c (Proc.devRef .tc main_v59) = (Cert.Spec.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
  car : W12 m ρ c (Proc.devRef .tc main_v39) = (Cert.Spec.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
  a0 : W12 m ρ c (Proc.devRef .tc main_arg0) = m ((c : Thread nD τ).loc main_arg0)
  a1 : W12 m ρ c (Proc.devRef .tc main_arg1) = m ((c : Thread nD τ).loc main_arg1)
  a2 : W12 m ρ c (Proc.devRef .tc main_arg2) = m ((c : Thread nD τ).loc main_arg2)
  a3 : W12 m ρ c (Proc.devRef .tc main_arg3) = m ((c : Thread nD τ).loc main_arg3)
  a4 : W12 m ρ c (Proc.devRef .tc main_arg4) = m ((c : Thread nD τ).loc main_arg4)
  a5 : W12 m ρ c (Proc.devRef .tc main_arg5) = m ((c : Thread nD τ).loc main_arg5)
  a6 : W12 m ρ c (Proc.devRef .tc main_arg6) = m ((c : Thread nD τ).loc main_arg6)
  a7 : W12 m ρ c (Proc.devRef .tc main_arg7) = m ((c : Thread nD τ).loc main_arg7)

/-- What the boundary after layer 3 holds. -/
structure Inv3 (c : Dev nD) : Prop where
  out : W16 m ρ c (Proc.devRef .tc main_v79) = (Cert.Spec.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
  a0 : W16 m ρ c (Proc.devRef .tc main_arg0) = m ((c : Thread nD τ).loc main_arg0)
  a1 : W16 m ρ c (Proc.devRef .tc main_arg1) = m ((c : Thread nD τ).loc main_arg1)
  a2 : W16 m ρ c (Proc.devRef .tc main_arg2) = m ((c : Thread nD τ).loc main_arg2)
  a3 : W16 m ρ c (Proc.devRef .tc main_arg3) = m ((c : Thread nD τ).loc main_arg3)
  a4 : W16 m ρ c (Proc.devRef .tc main_arg4) = m ((c : Thread nD τ).loc main_arg4)
  a5 : W16 m ρ c (Proc.devRef .tc main_arg5) = m ((c : Thread nD τ).loc main_arg5)
  a6 : W16 m ρ c (Proc.devRef .tc main_arg6) = m ((c : Thread nD τ).loc main_arg6)
  a7 : W16 m ρ c (Proc.devRef .tc main_arg7) = m ((c : Thread nD τ).loc main_arg7)

/-- What the boundary after layer 4 holds. -/
structure Inv4 (c : Dev nD) : Prop where
  out : W20 m ρ c (Proc.devRef .tc main_v99) = (Cert.Spec.h4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
  car : W20 m ρ c (Proc.devRef .tc main_v79) = (Cert.Spec.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
  a0 : W20 m ρ c (Proc.devRef .tc main_arg0) = m ((c : Thread nD τ).loc main_arg0)
  a1 : W20 m ρ c (Proc.devRef .tc main_arg1) = m ((c : Thread nD τ).loc main_arg1)
  a2 : W20 m ρ c (Proc.devRef .tc main_arg2) = m ((c : Thread nD τ).loc main_arg2)
  a3 : W20 m ρ c (Proc.devRef .tc main_arg3) = m ((c : Thread nD τ).loc main_arg3)
  a4 : W20 m ρ c (Proc.devRef .tc main_arg4) = m ((c : Thread nD τ).loc main_arg4)
  a5 : W20 m ρ c (Proc.devRef .tc main_arg5) = m ((c : Thread nD τ).loc main_arg5)
  a6 : W20 m ρ c (Proc.devRef .tc main_arg6) = m ((c : Thread nD τ).loc main_arg6)
  a7 : W20 m ρ c (Proc.devRef .tc main_arg7) = m ((c : Thread nD τ).loc main_arg7)

/-- What the boundary after layer 5 holds. -/
structure Inv5 (c : Dev nD) : Prop where
  out : W24 m ρ c (Proc.devRef .tc main_v119) = (Cert.Spec.h5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
  a0 : W24 m ρ c (Proc.devRef .tc main_arg0) = m ((c : Thread nD τ).loc main_arg0)
  a1 : W24 m ρ c (Proc.devRef .tc main_arg1) = m ((c : Thread nD τ).loc main_arg1)
  a2 : W24 m ρ c (Proc.devRef .tc main_arg2) = m ((c : Thread nD τ).loc main_arg2)
  a3 : W24 m ρ c (Proc.devRef .tc main_arg3) = m ((c : Thread nD τ).loc main_arg3)
  a4 : W24 m ρ c (Proc.devRef .tc main_arg4) = m ((c : Thread nD τ).loc main_arg4)
  a5 : W24 m ρ c (Proc.devRef .tc main_arg5) = m ((c : Thread nD τ).loc main_arg5)
  a6 : W24 m ρ c (Proc.devRef .tc main_arg6) = m ((c : Thread nD τ).loc main_arg6)
  a7 : W24 m ρ c (Proc.devRef .tc main_arg7) = m ((c : Thread nD τ).loc main_arg7)

/-- What the boundary after layer 6 holds. -/
structure Inv6 (c : Dev nD) : Prop where
  out : W28 m ρ c (Proc.devRef .tc main_v139) = (Cert.Spec.h6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
  car : W28 m ρ c (Proc.devRef .tc main_v119) = (Cert.Spec.h5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
  a0 : W28 m ρ c (Proc.devRef .tc main_arg0) = m ((c : Thread nD τ).loc main_arg0)
  a1 : W28 m ρ c (Proc.devRef .tc main_arg1) = m ((c : Thread nD τ).loc main_arg1)
  a2 : W28 m ρ c (Proc.devRef .tc main_arg2) = m ((c : Thread nD τ).loc main_arg2)
  a3 : W28 m ρ c (Proc.devRef .tc main_arg3) = m ((c : Thread nD τ).loc main_arg3)
  a4 : W28 m ρ c (Proc.devRef .tc main_arg4) = m ((c : Thread nD τ).loc main_arg4)
  a5 : W28 m ρ c (Proc.devRef .tc main_arg5) = m ((c : Thread nD τ).loc main_arg5)
  a6 : W28 m ρ c (Proc.devRef .tc main_arg6) = m ((c : Thread nD τ).loc main_arg6)
  a7 : W28 m ρ c (Proc.devRef .tc main_arg7) = m ((c : Thread nD τ).loc main_arg7)

/-- What the boundary after layer 7 holds. -/
structure Inv7 (c : Dev nD) : Prop where
  out : W32 m ρ c (Proc.devRef .tc main_v159) = (Cert.Spec.h7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
  a0 : W32 m ρ c (Proc.devRef .tc main_arg0) = m ((c : Thread nD τ).loc main_arg0)
  a1 : W32 m ρ c (Proc.devRef .tc main_arg1) = m ((c : Thread nD τ).loc main_arg1)
  a2 : W32 m ρ c (Proc.devRef .tc main_arg2) = m ((c : Thread nD τ).loc main_arg2)
  a3 : W32 m ρ c (Proc.devRef .tc main_arg3) = m ((c : Thread nD τ).loc main_arg3)
  a4 : W32 m ρ c (Proc.devRef .tc main_arg4) = m ((c : Thread nD τ).loc main_arg4)
  a5 : W32 m ρ c (Proc.devRef .tc main_arg5) = m ((c : Thread nD τ).loc main_arg5)
  a6 : W32 m ρ c (Proc.devRef .tc main_arg6) = m ((c : Thread nD τ).loc main_arg6)
  a7 : W32 m ρ c (Proc.devRef .tc main_arg7) = m ((c : Thread nD τ).loc main_arg7)

/-- What the boundary after layer 8 holds. -/
structure Inv8 (c : Dev nD) : Prop where
  out : W36 m ρ c (Proc.devRef .tc main_v179) = (Cert.Spec.h8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
  car : W36 m ρ c (Proc.devRef .tc main_v159) = (Cert.Spec.h7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
  a0 : W36 m ρ c (Proc.devRef .tc main_arg0) = m ((c : Thread nD τ).loc main_arg0)
  a1 : W36 m ρ c (Proc.devRef .tc main_arg1) = m ((c : Thread nD τ).loc main_arg1)
  a2 : W36 m ρ c (Proc.devRef .tc main_arg2) = m ((c : Thread nD τ).loc main_arg2)
  a3 : W36 m ρ c (Proc.devRef .tc main_arg3) = m ((c : Thread nD τ).loc main_arg3)
  a4 : W36 m ρ c (Proc.devRef .tc main_arg4) = m ((c : Thread nD τ).loc main_arg4)
  a5 : W36 m ρ c (Proc.devRef .tc main_arg5) = m ((c : Thread nD τ).loc main_arg5)
  a6 : W36 m ρ c (Proc.devRef .tc main_arg6) = m ((c : Thread nD τ).loc main_arg6)
  a7 : W36 m ρ c (Proc.devRef .tc main_arg7) = m ((c : Thread nD τ).loc main_arg7)

/-- What the boundary after layer 9 holds. -/
structure Inv9 (c : Dev nD) : Prop where
  out : W40 m ρ c (Proc.devRef .tc main_v199) = (Cert.Spec.h9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
  a0 : W40 m ρ c (Proc.devRef .tc main_arg0) = m ((c : Thread nD τ).loc main_arg0)
  a1 : W40 m ρ c (Proc.devRef .tc main_arg1) = m ((c : Thread nD τ).loc main_arg1)
  a2 : W40 m ρ c (Proc.devRef .tc main_arg2) = m ((c : Thread nD τ).loc main_arg2)
  a3 : W40 m ρ c (Proc.devRef .tc main_arg3) = m ((c : Thread nD τ).loc main_arg3)
  a4 : W40 m ρ c (Proc.devRef .tc main_arg4) = m ((c : Thread nD τ).loc main_arg4)
  a5 : W40 m ρ c (Proc.devRef .tc main_arg5) = m ((c : Thread nD τ).loc main_arg5)
  a6 : W40 m ρ c (Proc.devRef .tc main_arg6) = m ((c : Thread nD τ).loc main_arg6)
  a7 : W40 m ρ c (Proc.devRef .tc main_arg7) = m ((c : Thread nD τ).loc main_arg7)

/-- What the boundary after layer 10 holds. -/
structure Inv10 (c : Dev nD) : Prop where
  out : W44 m ρ c (Proc.devRef .tc main_v219) = (Cert.Spec.h10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
  car : W44 m ρ c (Proc.devRef .tc main_v199) = (Cert.Spec.h9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
  a0 : W44 m ρ c (Proc.devRef .tc main_arg0) = m ((c : Thread nD τ).loc main_arg0)
  a1 : W44 m ρ c (Proc.devRef .tc main_arg1) = m ((c : Thread nD τ).loc main_arg1)
  a2 : W44 m ρ c (Proc.devRef .tc main_arg2) = m ((c : Thread nD τ).loc main_arg2)
  a3 : W44 m ρ c (Proc.devRef .tc main_arg3) = m ((c : Thread nD τ).loc main_arg3)
  a4 : W44 m ρ c (Proc.devRef .tc main_arg4) = m ((c : Thread nD τ).loc main_arg4)
  a5 : W44 m ρ c (Proc.devRef .tc main_arg5) = m ((c : Thread nD τ).loc main_arg5)
  a6 : W44 m ρ c (Proc.devRef .tc main_arg6) = m ((c : Thread nD τ).loc main_arg6)
  a7 : W44 m ρ c (Proc.devRef .tc main_arg7) = m ((c : Thread nD τ).loc main_arg7)

/-- What the boundary after layer 11 holds. -/
structure Inv11 (c : Dev nD) : Prop where
  out : W48 m ρ c (Proc.devRef .tc main_v239) = (Cert.Spec.h11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
  a0 : W48 m ρ c (Proc.devRef .tc main_arg0) = m ((c : Thread nD τ).loc main_arg0)
  a1 : W48 m ρ c (Proc.devRef .tc main_arg1) = m ((c : Thread nD τ).loc main_arg1)
  a2 : W48 m ρ c (Proc.devRef .tc main_arg2) = m ((c : Thread nD τ).loc main_arg2)
  a3 : W48 m ρ c (Proc.devRef .tc main_arg3) = m ((c : Thread nD τ).loc main_arg3)
  a4 : W48 m ρ c (Proc.devRef .tc main_arg4) = m ((c : Thread nD τ).loc main_arg4)
  a5 : W48 m ρ c (Proc.devRef .tc main_arg5) = m ((c : Thread nD τ).loc main_arg5)
  a6 : W48 m ρ c (Proc.devRef .tc main_arg6) = m ((c : Thread nD τ).loc main_arg6)
  a7 : W48 m ρ c (Proc.devRef .tc main_arg7) = m ((c : Thread nD τ).loc main_arg7)

/-- What the boundary after layer 12 holds. -/
structure Inv12 (c : Dev nD) : Prop where
  out : W52 m ρ c (Proc.devRef .tc main_v259) = (Cert.Spec.h12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
  a0 : W52 m ρ c (Proc.devRef .tc main_arg0) = m ((c : Thread nD τ).loc main_arg0)
  a1 : W52 m ρ c (Proc.devRef .tc main_arg1) = m ((c : Thread nD τ).loc main_arg1)
  a2 : W52 m ρ c (Proc.devRef .tc main_arg2) = m ((c : Thread nD τ).loc main_arg2)
  a3 : W52 m ρ c (Proc.devRef .tc main_arg3) = m ((c : Thread nD τ).loc main_arg3)
  a4 : W52 m ρ c (Proc.devRef .tc main_arg4) = m ((c : Thread nD τ).loc main_arg4)
  a5 : W52 m ρ c (Proc.devRef .tc main_arg5) = m ((c : Thread nD τ).loc main_arg5)
  a6 : W52 m ρ c (Proc.devRef .tc main_arg6) = m ((c : Thread nD τ).loc main_arg6)
  a7 : W52 m ρ c (Proc.devRef .tc main_arg7) = m ((c : Thread nD τ).loc main_arg7)

/-- What the boundary after layer 13 holds. -/
structure Inv13 (c : Dev nD) : Prop where
  out : W55 m ρ c (Proc.devRef .tc main_v275) = (Cert.Spec.head (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
  car : W55 m ρ c (Proc.devRef .tc main_v259) = (Cert.Spec.h12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
  a0 : W55 m ρ c (Proc.devRef .tc main_arg0) = m ((c : Thread nD τ).loc main_arg0)
  a1 : W55 m ρ c (Proc.devRef .tc main_arg1) = m ((c : Thread nD τ).loc main_arg1)
  a2 : W55 m ρ c (Proc.devRef .tc main_arg2) = m ((c : Thread nD τ).loc main_arg2)
  a3 : W55 m ρ c (Proc.devRef .tc main_arg3) = m ((c : Thread nD τ).loc main_arg3)
  a4 : W55 m ρ c (Proc.devRef .tc main_arg4) = m ((c : Thread nD τ).loc main_arg4)
  a5 : W55 m ρ c (Proc.devRef .tc main_arg5) = m ((c : Thread nD τ).loc main_arg5)
  a6 : W55 m ρ c (Proc.devRef .tc main_arg6) = m ((c : Thread nD τ).loc main_arg6)
  a7 : W55 m ρ c (Proc.devRef .tc main_arg7) = m ((c : Thread nD τ).loc main_arg7)

end Cert.Invs

end
-- ==== Proof.Layer0.lean ====
/-
  Layer 0 of the idealized kernel: at the segment boundary after its second region the layer's output buffer holds
  hidden layer 0 of the specification — max(A·(x·W) + b, 0) of the layer's input —, as a function of the launch contents of
  the arguments; the arguments, and the earlier features a later layer still reads, are unchanged there.
  The boundary's contents are a fold: a host stretch slices this layer's weight and bias, the first region multiplies,
  a host stretch gathers, scales and scatter-adds, the second region adds the bias and clamps.
-/
import proofs.«171734_j42872363549123_1_alg».proof.Proof.Gen.KernelIdeal.Frame
import proofs.«171734_j42872363549123_1_alg».proof.Proof.Gen.ReferenceIdeal
import proofs.«171734_j42872363549123_1_alg».proof.Proof.Spec
import proofs.«171734_j42872363549123_1_alg».proof.Proof.Forms
import proofs.«171734_j42872363549123_1_alg».proof.Proof.MatMul
import proofs.«171734_j42872363549123_1_alg».proof.Proof.Post
import proofs.«171734_j42872363549123_1_alg».proof.Proof.Region0
import proofs.«171734_j42872363549123_1_alg».proof.Proof.Region1
import proofs.«171734_j42872363549123_1_alg».proof.Proof.Invs
import Idealize.ShloMosaic.Lib.StableHlo.Run

set_option maxRecDepth 16384

noncomputable section

namespace Cert.Layer0

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

open Lean in
/-- A buffer that no operation of a host stretch writes keeps its contents across the stretch. -/
macro "kept_by " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

set_option maxHeartbeats 40000000 in
/-- From what the boundary before layer 0 holds to what the boundary after it holds. -/
theorem step (c : Dev nD) : Cert.Invs.Inv0 m ρ c := by
  have s1_arg0 : W1 m ρ c (Proc.devRef .tc main_arg0) = (m ((c : Thread nD τ).loc main_arg0)) :=
    Eq.trans (by kept_by hostOps0) (rfl : W0 m ρ c (Proc.devRef .tc main_arg0) = (m ((c : Thread nD τ).loc main_arg0)))
  have s1_arg1 : W1 m ρ c (Proc.devRef .tc main_arg1) = (m ((c : Thread nD τ).loc main_arg1)) :=
    Eq.trans (by kept_by hostOps0) (rfl : W0 m ρ c (Proc.devRef .tc main_arg1) = (m ((c : Thread nD τ).loc main_arg1)))
  have s1_arg2 : W1 m ρ c (Proc.devRef .tc main_arg2) = (m ((c : Thread nD τ).loc main_arg2)) :=
    Eq.trans (by kept_by hostOps0) (rfl : W0 m ρ c (Proc.devRef .tc main_arg2) = (m ((c : Thread nD τ).loc main_arg2)))
  have s1_arg3 : W1 m ρ c (Proc.devRef .tc main_arg3) = (m ((c : Thread nD τ).loc main_arg3)) :=
    Eq.trans (by kept_by hostOps0) (rfl : W0 m ρ c (Proc.devRef .tc main_arg3) = (m ((c : Thread nD τ).loc main_arg3)))
  have s1_arg4 : W1 m ρ c (Proc.devRef .tc main_arg4) = (m ((c : Thread nD τ).loc main_arg4)) :=
    Eq.trans (by kept_by hostOps0) (rfl : W0 m ρ c (Proc.devRef .tc main_arg4) = (m ((c : Thread nD τ).loc main_arg4)))
  have s1_arg5 : W1 m ρ c (Proc.devRef .tc main_arg5) = (m ((c : Thread nD τ).loc main_arg5)) :=
    Eq.trans (by kept_by hostOps0) (rfl : W0 m ρ c (Proc.devRef .tc main_arg5) = (m ((c : Thread nD τ).loc main_arg5)))
  have s1_arg6 : W1 m ρ c (Proc.devRef .tc main_arg6) = (m ((c : Thread nD τ).loc main_arg6)) :=
    Eq.trans (by kept_by hostOps0) (rfl : W0 m ρ c (Proc.devRef .tc main_arg6) = (m ((c : Thread nD τ).loc main_arg6)))
  have s1_arg7 : W1 m ρ c (Proc.devRef .tc main_arg7) = (m ((c : Thread nD τ).loc main_arg7)) :=
    Eq.trans (by kept_by hostOps0) (rfl : W0 m ρ c (Proc.devRef .tc main_arg7) = (m ((c : Thread nD τ).loc main_arg7)))
  have s1_WM : W1 m ρ c (Proc.devRef .tc main_v1) = Cert.Spec.w0 (m ((c : Thread nD τ).loc main_arg4)) := by
    have e : W1 m ρ c (Proc.devRef .tc main_v1) = Cert.Spec.w0 (W0 m ρ c (Proc.devRef .tc main_arg4)) := by
      show StableHlo.after hostOps0 (W0 m ρ c) (Proc.devRef .tc main_v1) = _
      after_results; rfl
    exact e.trans (congrArg Cert.Spec.w0 rfl)
  have s1_B1D : W1 m ρ c (Proc.devRef .tc main_v3) = Cert.Spec.b0 (m ((c : Thread nD τ).loc main_arg5)) := by
    have e : W1 m ρ c (Proc.devRef .tc main_v3) = Cert.Spec.b0 (W0 m ρ c (Proc.devRef .tc main_arg5)) := by
      show StableHlo.after hostOps0 (W0 m ρ c) (Proc.devRef .tc main_v3) = _
      after_results; rfl
    exact e.trans (congrArg Cert.Spec.b0 rfl)
  have s2_arg0 : W2 m ρ c (Proc.devRef .tc main_arg0) = (m ((c : Thread nD τ).loc main_arg0)) :=
    Eq.trans ((W2_arr m ρ c 0).trans (((dat0 (V1 m ρ) c).arrAt_in 0 rfl _).trans (A_eq0 (V1 m ρ) c 0))) s1_arg0
  have s2_arg1 : W2 m ρ c (Proc.devRef .tc main_arg1) = (m ((c : Thread nD τ).loc main_arg1)) :=
    Eq.trans (W2_of_ne m ρ c main_arg1 (by decide)) s1_arg1
  have s2_arg2 : W2 m ρ c (Proc.devRef .tc main_arg2) = (m ((c : Thread nD τ).loc main_arg2)) :=
    Eq.trans (W2_of_ne m ρ c main_arg2 (by decide)) s1_arg2
  have s2_arg3 : W2 m ρ c (Proc.devRef .tc main_arg3) = (m ((c : Thread nD τ).loc main_arg3)) :=
    Eq.trans (W2_of_ne m ρ c main_arg3 (by decide)) s1_arg3
  have s2_arg4 : W2 m ρ c (Proc.devRef .tc main_arg4) = (m ((c : Thread nD τ).loc main_arg4)) :=
    Eq.trans (W2_of_ne m ρ c main_arg4 (by decide)) s1_arg4
  have s2_arg5 : W2 m ρ c (Proc.devRef .tc main_arg5) = (m ((c : Thread nD τ).loc main_arg5)) :=
    Eq.trans (W2_of_ne m ρ c main_arg5 (by decide)) s1_arg5
  have s2_arg6 : W2 m ρ c (Proc.devRef .tc main_arg6) = (m ((c : Thread nD τ).loc main_arg6)) :=
    Eq.trans (W2_of_ne m ρ c main_arg6 (by decide)) s1_arg6
  have s2_arg7 : W2 m ρ c (Proc.devRef .tc main_arg7) = (m ((c : Thread nD τ).loc main_arg7)) :=
    Eq.trans (W2_of_ne m ρ c main_arg7 (by decide)) s1_arg7
  have s2_v3 : W2 m ρ c (Proc.devRef .tc main_v3) = (Cert.Spec.b0 (m ((c : Thread nD τ).loc main_arg5))) :=
    Eq.trans (W2_of_ne m ρ c main_v3 (by decide)) s1_B1D
  have s2_SUP : W2 m ρ c (Proc.devRef .tc main_v4) = Host.dotGeneral (F := Ideal) (φ₁ := .f32) (φ₂ := .f32) Cert.ReferenceIdeal.dot_S25000x192_S192x192_S25000x192_1_0_0_1_n_n none (m ((c : Thread nD τ).loc main_arg0)) (Cert.Spec.w0 (m ((c : Thread nD τ).loc main_arg4))) := by
    refine (W2_arr m ρ c 2).trans ?_
    refine (Cert.Region0.final (V1 m ρ) c).trans ?_
    show Cert.Forms.mmG (W1 m ρ c (Proc.devRef .tc main_arg0)) (W1 m ρ c (Proc.devRef .tc main_v1)) = _
    rw [s1_arg0, s1_WM]
    exact (Cert.MatMul.hostDot_eq _ _).symm
  have s3_arg0 : W3 m ρ c (Proc.devRef .tc main_arg0) = (m ((c : Thread nD τ).loc main_arg0)) :=
    Eq.trans (by kept_by hostOps1) s2_arg0
  have s3_arg1 : W3 m ρ c (Proc.devRef .tc main_arg1) = (m ((c : Thread nD τ).loc main_arg1)) :=
    Eq.trans (by kept_by hostOps1) s2_arg1
  have s3_arg2 : W3 m ρ c (Proc.devRef .tc main_arg2) = (m ((c : Thread nD τ).loc main_arg2)) :=
    Eq.trans (by kept_by hostOps1) s2_arg2
  have s3_arg3 : W3 m ρ c (Proc.devRef .tc main_arg3) = (m ((c : Thread nD τ).loc main_arg3)) :=
    Eq.trans (by kept_by hostOps1) s2_arg3
  have s3_arg4 : W3 m ρ c (Proc.devRef .tc main_arg4) = (m ((c : Thread nD τ).loc main_arg4)) :=
    Eq.trans (by kept_by hostOps1) s2_arg4
  have s3_arg5 : W3 m ρ c (Proc.devRef .tc main_arg5) = (m ((c : Thread nD τ).loc main_arg5)) :=
    Eq.trans (by kept_by hostOps1) s2_arg5
  have s3_arg6 : W3 m ρ c (Proc.devRef .tc main_arg6) = (m ((c : Thread nD τ).loc main_arg6)) :=
    Eq.trans (by kept_by hostOps1) s2_arg6
  have s3_arg7 : W3 m ρ c (Proc.devRef .tc main_arg7) = (m ((c : Thread nD τ).loc main_arg7)) :=
    Eq.trans (by kept_by hostOps1) s2_arg7
  have s3_AGG : W3 m ρ c (Proc.devRef .tc main_v17) = Cert.Spec.agg (m ((c : Thread nD τ).loc main_arg1)) (m ((c : Thread nD τ).loc main_arg2)) (m ((c : Thread nD τ).loc main_arg3)) (Host.dotGeneral (F := Ideal) (φ₁ := .f32) (φ₂ := .f32) Cert.ReferenceIdeal.dot_S25000x192_S192x192_S25000x192_1_0_0_1_n_n none (m ((c : Thread nD τ).loc main_arg0)) (Cert.Spec.w0 (m ((c : Thread nD τ).loc main_arg4)))) := by
    have e : W3 m ρ c (Proc.devRef .tc main_v17) = Cert.Spec.agg (W2 m ρ c (Proc.devRef .tc main_arg1)) (W2 m ρ c (Proc.devRef .tc main_arg2)) (W2 m ρ c (Proc.devRef .tc main_arg3)) (W2 m ρ c (Proc.devRef .tc main_v4)) := by
      show StableHlo.after hostOps1 (W2 m ρ c) (Proc.devRef .tc main_v17) = _
      after_results
      exact Cert.Post.agg_eq _ _ _ _
    rw [e, s2_arg1, s2_arg2, s2_arg3, s2_SUP]
  have s3_B2 : W3 m ρ c (Proc.devRef .tc main_v18) = shapeCast S1x192 (Cert.Spec.b0 (m ((c : Thread nD τ).loc main_arg5))) Cert.KernelIdeal.Facts₀.shapeCasts_S192_S1x192 := by
    have e : W3 m ρ c (Proc.devRef .tc main_v18) = shapeCast S1x192 (W2 m ρ c (Proc.devRef .tc main_v3)) Cert.KernelIdeal.Facts₀.shapeCasts_S192_S1x192 := by
      show StableHlo.after hostOps1 (W2 m ρ c) (Proc.devRef .tc main_v18) = _
      after_results; rfl
    rw [e, s2_v3]
  have s4_arg0 : W4 m ρ c (Proc.devRef .tc main_arg0) = (m ((c : Thread nD τ).loc main_arg0)) :=
    Eq.trans (W4_of_ne m ρ c main_arg0 (by decide)) s3_arg0
  have s4_arg1 : W4 m ρ c (Proc.devRef .tc main_arg1) = (m ((c : Thread nD τ).loc main_arg1)) :=
    Eq.trans (W4_of_ne m ρ c main_arg1 (by decide)) s3_arg1
  have s4_arg2 : W4 m ρ c (Proc.devRef .tc main_arg2) = (m ((c : Thread nD τ).loc main_arg2)) :=
    Eq.trans (W4_of_ne m ρ c main_arg2 (by decide)) s3_arg2
  have s4_arg3 : W4 m ρ c (Proc.devRef .tc main_arg3) = (m ((c : Thread nD τ).loc main_arg3)) :=
    Eq.trans (W4_of_ne m ρ c main_arg3 (by decide)) s3_arg3
  have s4_arg4 : W4 m ρ c (Proc.devRef .tc main_arg4) = (m ((c : Thread nD τ).loc main_arg4)) :=
    Eq.trans (W4_of_ne m ρ c main_arg4 (by decide)) s3_arg4
  have s4_arg5 : W4 m ρ c (Proc.devRef .tc main_arg5) = (m ((c : Thread nD τ).loc main_arg5)) :=
    Eq.trans (W4_of_ne m ρ c main_arg5 (by decide)) s3_arg5
  have s4_arg6 : W4 m ρ c (Proc.devRef .tc main_arg6) = (m ((c : Thread nD τ).loc main_arg6)) :=
    Eq.trans (W4_of_ne m ρ c main_arg6 (by decide)) s3_arg6
  have s4_arg7 : W4 m ρ c (Proc.devRef .tc main_arg7) = (m ((c : Thread nD τ).loc main_arg7)) :=
    Eq.trans (W4_of_ne m ρ c main_arg7 (by decide)) s3_arg7
  have s4_OUT : W4 m ρ c (Proc.devRef .tc main_v19) = (Cert.Spec.h0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    refine (W4_arr m ρ c 2).trans ?_
    refine (Cert.Region1.final (V3 m ρ) c).trans ?_
    show Cert.Forms.reluG (W3 m ρ c (Proc.devRef .tc main_v17)) (W3 m ρ c (Proc.devRef .tc main_v18)) = _
    rw [s3_AGG, s3_B2]
    refine (Cert.Post.reluG_eq _ _).trans ?_
    rfl
  exact ⟨s4_OUT, s4_arg0, s4_arg1, s4_arg2, s4_arg3, s4_arg4, s4_arg5, s4_arg6, s4_arg7⟩

end Cert.Layer0

end
-- ==== Proof.Region2.lean ====
/-
  Kernel region 2 as a function of whole arrays: after the region, its output array is, index by index,
  the matrix product of the 25000 × 192 array in window 0 with the 192 × 192 matrix in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.MatMul
import Idealize.ShloMosaic.Lib.Pipeline.Value

set_option maxRecDepth 16384

noncomputable section

namespace Cert.Region2

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the whole-array function. -/
theorem flushed_eq (c : Dev nD) (t : Fin cfg2.N) :
    (dat2 V c).flushed 2 t = ((cfg2.win 2).blk t).view.read (Elt Ideal) (mmG (V c main_v19) (V c main_v21)) := by
  show (cfg2.win 2).cut (grid2.coords t) ((dat2 V c).after 2 t) = _
  rw [after2_2]
  unfold out2_2
  rw [View.canon_unit_zero hz]
  simp only [View.ld_unit_zero (S := S1000x192) hz, View.ld_unit_zero (S := S192x192) hz]
  obtain ⟨e00, e01, e10, e11, e20, e21⟩ := idx_facts t
  funext j
  refine (Cert.MatMul.pay2_apply _ _ j).trans ?_
  refine Eq.trans ?_ (mmG_apply _ _ _).symm
  refine Finset.sum_congr rfl fun q _ => ?_
  have hl : iblk2 V c 0 t (Cert.MatMul.blkRowK ⟨(j 0).val, (j 0).isLt⟩ q) = V c main_v19 (rowK (r192 (((cfg2.win 2).blk t).view.emb j)) q) :=
    congrArg (V c main_v19) (a₁ := ((cfg2.win 0).blk t).view.emb (Cert.MatMul.blkRowK ⟨(j 0).val, (j 0).isLt⟩ q)) (a₂ := rowK (r192 (((cfg2.win 2).blk t).view.emb j)) q) (funext fun a => Fin.ext (by
      match a with
      | ⟨0, _⟩ => show win2_0.index t (0 : Fin 2) * 1000 + 1 * (j 0).val = win2_2.index t (0 : Fin 2) * 1000 + 1 * (j 0).val; omega
      | ⟨1, _⟩ => show win2_0.index t (1 : Fin 2) * 192 + 1 * q.val = q.val; omega))
  have hr : iblk2 V c 1 t (kCol q ⟨(j 1).val, (j 1).isLt⟩) = V c main_v21 (kCol q (c192 (((cfg2.win 2).blk t).view.emb j))) :=
    congrArg (V c main_v21) (a₁ := ((cfg2.win 1).blk t).view.emb (kCol q ⟨(j 1).val, (j 1).isLt⟩)) (a₂ := kCol q (c192 (((cfg2.win 2).blk t).view.emb j))) (funext fun a => Fin.ext (by
      match a with
      | ⟨0, _⟩ => show win2_1.index t (0 : Fin 2) * 192 + 1 * q.val = q.val; omega
      | ⟨1, _⟩ => show win2_1.index t (1 : Fin 2) * 192 + 1 * (j 1).val = win2_2.index t (1 : Fin 2) * 192 + 1 * (j 1).val; omega))
  exact congrArg₂ (· * ·) hl hr

/-- An index is in point t's block iff each coordinate is in the block's range on its axis. -/
theorem mem_blk (t : Fin cfg2.N) (i : S25000x192.Idx) :
    i ∈ ((cfg2.win 2).blk t).view.set ↔ ∀ a : Fin 2, win2_2.index t a * S1000x192.size a ≤ (i a).val ∧ (i a).val < win2_2.index t a * S1000x192.size a + S1000x192.size a := by
  show i ∈ ((View.whole main_v24).slice (win2_2.rect t)).set ↔ _
  rw [View.set_slice_whole, Rect.mem_set_unit]
  exact Iff.rfl

/-- Row r of the output lies in the block of point r / 1000. -/
theorem cover (i : S25000x192.Idx) : ∃ t : Fin cfg2.N, (cfg2.win 2).flush t = true ∧ i ∈ ((cfg2.win 2).blk t).view.set := by
  have hi0 : (i 0).val < 25000 := (i 0).isLt
  have hi1 : (i 1).val < 192 := (i 1).isLt
  have hN : (i 0).val / 1000 < cfg2.N := lt_of_lt_of_eq (by omega : (i 0).val / 1000 < 25) N_2.symm
  refine ⟨⟨(i 0).val / 1000, hN⟩, flush2_2 _, ?_⟩
  rw [mem_blk]
  have f0 : win2_2.index ⟨(i 0).val / 1000, hN⟩ (0 : Fin 2) = (i 0).val / 1000 := (idx_facts ⟨(i 0).val / 1000, hN⟩).2.2.2.2.1
  have f1 : win2_2.index ⟨(i 0).val / 1000, hN⟩ (1 : Fin 2) = 0 := (idx_facts ⟨(i 0).val / 1000, hN⟩).2.2.2.2.2
  intro a
  match a with
  | ⟨0, _⟩ => show win2_2.index ⟨(i 0).val / 1000, hN⟩ (0 : Fin 2) * 1000 ≤ (i 0).val ∧ (i 0).val < win2_2.index ⟨(i 0).val / 1000, hN⟩ (0 : Fin 2) * 1000 + 1000; rw [f0]; omega
  | ⟨1, _⟩ => show win2_2.index ⟨(i 0).val / 1000, hN⟩ (1 : Fin 2) * 192 ≤ (i 1).val ∧ (i 1).val < win2_2.index ⟨(i 0).val / 1000, hN⟩ (1 : Fin 2) * 192 + 192; rw [f1]; omega

/-- The output array after the region. -/
theorem final (c : Dev nD) : (dat2 V c).arrAt 2 cfg2.N = mmG (V c main_v19) (V c main_v21) :=
  (dat2 V c).arrAt_eq_of_cover 2 _ (fun t _ => flushed_eq V c t) (cover)

end Cert.Region2

end
-- ==== Proof.Region3.lean ====
/-
  Kernel region 3 as a function of whole arrays: after the region, its output array is, index by index,
  (r + max(a + b, 0)) · ½ of the aggregate a in window 0, the bias row b in window 1 and the residual r in window 2, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.Post
import Idealize.ShloMosaic.Lib.Pipeline.Value

set_option maxRecDepth 16384

noncomputable section

namespace Cert.Region3

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0
    ∧ win3_3.index t (0 : Fin 2) = t.val
    ∧ win3_3.index t (1 : Fin 2) = 0 :=
  (by decide +kernel : ∀ t : Fin grid3.N, _)

/-- What point t writes back is block t of the whole-array function. -/
theorem flushed_eq (c : Dev nD) (t : Fin cfg3.N) :
    (dat3 V c).flushed 3 t = ((cfg3.win 3).blk t).view.read (Elt Ideal) (avgG (V c main_v37) (V c main_v38) (V c main_arg0)) := by
  show (cfg3.win 3).cut (grid3.coords t) ((dat3 V c).after 3 t) = _
  rw [after3_3]
  unfold out3_3
  rw [View.canon_unit_zero hz]
  simp only [View.ld_unit_zero (S := S1000x192) hz, View.ld_unit_zero (S := S1x192) hz]
  obtain ⟨e00, e01, e10, e11, e20, e21, e30, e31⟩ := idx_facts t
  funext j
  refine (Cert.Post.pay3_apply _ _ _ j).trans ?_
  refine Eq.trans ?_ (avgG_apply _ _ _ _).symm
  have ha : iblk3 V c 0 t j = V c main_v37 (((cfg3.win 3).blk t).view.emb j) :=
    congrArg (V c main_v37) (a₁ := ((cfg3.win 0).blk t).view.emb (j)) (a₂ := (((cfg3.win 3).blk t).view.emb j)) (funext fun a => Fin.ext (by
      match a with
      | ⟨0, _⟩ => show win3_0.index t (0 : Fin 2) * 1000 + 1 * (j 0).val = win3_3.index t (0 : Fin 2) * 1000 + 1 * (j 0).val; omega
      | ⟨1, _⟩ => show win3_0.index t (1 : Fin 2) * 192 + 1 * (j 1).val = win3_3.index t (1 : Fin 2) * 192 + 1 * (j 1).val; omega))
  have hb : iblk3 V c 1 t (biasAt ⟨(j 1).val, (j 1).isLt⟩) = V c main_v38 (biasAt (c192 (((cfg3.win 3).blk t).view.emb j))) :=
    congrArg (V c main_v38) (a₁ := ((cfg3.win 1).blk t).view.emb (biasAt ⟨(j 1).val, (j 1).isLt⟩)) (a₂ := biasAt (c192 (((cfg3.win 3).blk t).view.emb j))) (funext fun a => Fin.ext (by
      match a with
      | ⟨0, _⟩ => show win3_1.index t (0 : Fin 2) * 1 + 1 * 0 = 0; omega
      | ⟨1, _⟩ => show win3_1.index t (1 : Fin 2) * 192 + 1 * (j 1).val = win3_3.index t (1 : Fin 2) * 192 + 1 * (j 1).val; omega))
  have hr : iblk3 V c 2 t j = V c main_arg0 (((cfg3.win 3).blk t).view.emb j) :=
    congrArg (V c main_arg0) (a₁ := ((cfg3.win 2).blk t).view.emb (j)) (a₂ := (((cfg3.win 3).blk t).view.emb j)) (funext fun a => Fin.ext (by
      match a with
      | ⟨0, _⟩ => show win3_2.index t (0 : Fin 2) * 1000 + 1 * (j 0).val = win3_3.index t (0 : Fin 2) * 1000 + 1 * (j 0).val; omega
      | ⟨1, _⟩ => show win3_2.index t (1 : Fin 2) * 192 + 1 * (j 1).val = win3_3.index t (1 : Fin 2) * 192 + 1 * (j 1).val; omega))
  rw [ha, hb, hr]

/-- An index is in point t's block iff each coordinate is in the block's range on its axis. -/
theorem mem_blk (t : Fin cfg3.N) (i : S25000x192.Idx) :
    i ∈ ((cfg3.win 3).blk t).view.set ↔ ∀ a : Fin 2, win3_3.index t a * S1000x192.size a ≤ (i a).val ∧ (i a).val < win3_3.index t a * S1000x192.size a + S1000x192.size a := by
  show i ∈ ((View.whole main_v39).slice (win3_3.rect t)).set ↔ _
  rw [View.set_slice_whole, Rect.mem_set_unit]
  exact Iff.rfl

/-- Row r of the output lies in the block of point r / 1000. -/
theorem cover (i : S25000x192.Idx) : ∃ t : Fin cfg3.N, (cfg3.win 3).flush t = true ∧ i ∈ ((cfg3.win 3).blk t).view.set := by
  have hi0 : (i 0).val < 25000 := (i 0).isLt
  have hi1 : (i 1).val < 192 := (i 1).isLt
  have hN : (i 0).val / 1000 < cfg3.N := lt_of_lt_of_eq (by omega : (i 0).val / 1000 < 25) N_3.symm
  refine ⟨⟨(i 0).val / 1000, hN⟩, flush3_3 _, ?_⟩
  rw [mem_blk]
  have f0 : win3_3.index ⟨(i 0).val / 1000, hN⟩ (0 : Fin 2) = (i 0).val / 1000 := (idx_facts ⟨(i 0).val / 1000, hN⟩).2.2.2.2.2.2.1
  have f1 : win3_3.index ⟨(i 0).val / 1000, hN⟩ (1 : Fin 2) = 0 := (idx_facts ⟨(i 0).val / 1000, hN⟩).2.2.2.2.2.2.2
  intro a
  match a with
  | ⟨0, _⟩ => show win3_3.index ⟨(i 0).val / 1000, hN⟩ (0 : Fin 2) * 1000 ≤ (i 0).val ∧ (i 0).val < win3_3.index ⟨(i 0).val / 1000, hN⟩ (0 : Fin 2) * 1000 + 1000; rw [f0]; omega
  | ⟨1, _⟩ => show win3_3.index ⟨(i 0).val / 1000, hN⟩ (1 : Fin 2) * 192 ≤ (i 1).val ∧ (i 1).val < win3_3.index ⟨(i 0).val / 1000, hN⟩ (1 : Fin 2) * 192 + 192; rw [f1]; omega

/-- The output array after the region. -/
theorem final (c : Dev nD) : (dat3 V c).arrAt 3 cfg3.N = avgG (V c main_v37) (V c main_v38) (V c main_arg0) :=
  (dat3 V c).arrAt_eq_of_cover 3 _ (fun t _ => flushed_eq V c t) (cover)

end Cert.Region3

end
-- ==== Proof.Layer1.lean ====
/-
  Layer 1 of the idealized kernel: at the segment boundary after its second region the layer's output buffer holds
  hidden layer 1 of the specification — (r + max(A·(x·W) + b, 0)) · ½, which on the extended reals is (r + max(…))/2 of the layer's input —, as a function of the launch contents of
  the arguments; the arguments, and the earlier features a later layer still reads, are unchanged there.
  The boundary's contents are a fold: a host stretch slices this layer's weight and bias, the first region multiplies,
  a host stretch gathers, scales and scatter-adds, the second region adds the bias and clamps and averages.
-/
import proofs.«171734_j42872363549123_1_alg».proof.Proof.Gen.KernelIdeal.Frame
import proofs.«171734_j42872363549123_1_alg».proof.Proof.Gen.ReferenceIdeal
import proofs.«171734_j42872363549123_1_alg».proof.Proof.Spec
import proofs.«171734_j42872363549123_1_alg».proof.Proof.Forms
import proofs.«171734_j42872363549123_1_alg».proof.Proof.MatMul
import proofs.«171734_j42872363549123_1_alg».proof.Proof.Post
import proofs.«171734_j42872363549123_1_alg».proof.Proof.Region2
import proofs.«171734_j42872363549123_1_alg».proof.Proof.Region3
import proofs.«171734_j42872363549123_1_alg».proof.Proof.Invs
import Idealize.ShloMosaic.Lib.StableHlo.Run

set_option maxRecDepth 16384

noncomputable section

namespace Cert.Layer1

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

open Lean in
/-- A buffer that no operation of a host stretch writes keeps its contents across the stretch. -/
macro "kept_by " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

set_option maxHeartbeats 40000000 in
/-- From what the boundary before layer 1 holds to what the boundary after it holds. -/
theorem step (c : Dev nD) (P : Cert.Invs.Inv0 m ρ c) : Cert.Invs.Inv1 m ρ c := by
  have s1_arg0 : W5 m ρ c (Proc.devRef .tc main_arg0) = (m ((c : Thread nD τ).loc main_arg0)) :=
    Eq.trans (by kept_by hostOps2) P.a0
  have s1_arg1 : W5 m ρ c (Proc.devRef .tc main_arg1) = (m ((c : Thread nD τ).loc main_arg1)) :=
    Eq.trans (by kept_by hostOps2) P.a1
  have s1_arg2 : W5 m ρ c (Proc.devRef .tc main_arg2) = (m ((c : Thread nD τ).loc main_arg2)) :=
    Eq.trans (by kept_by hostOps2) P.a2
  have s1_arg3 : W5 m ρ c (Proc.devRef .tc main_arg3) = (m ((c : Thread nD τ).loc main_arg3)) :=
    Eq.trans (by kept_by hostOps2) P.a3
  have s1_arg4 : W5 m ρ c (Proc.devRef .tc main_arg4) = (m ((c : Thread nD τ).loc main_arg4)) :=
    Eq.trans (by kept_by hostOps2) P.a4
  have s1_arg5 : W5 m ρ c (Proc.devRef .tc main_arg5) = (m ((c : Thread nD τ).loc main_arg5)) :=
    Eq.trans (by kept_by hostOps2) P.a5
  have s1_arg6 : W5 m ρ c (Proc.devRef .tc main_arg6) = (m ((c : Thread nD τ).loc main_arg6)) :=
    Eq.trans (by kept_by hostOps2) P.a6
  have s1_arg7 : W5 m ρ c (Proc.devRef .tc main_arg7) = (m ((c : Thread nD τ).loc main_arg7)) :=
    Eq.trans (by kept_by hostOps2) P.a7
  have s1_v19 : W5 m ρ c (Proc.devRef .tc main_v19) = (Cert.Spec.h0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps2) P.out
  have s1_WM : W5 m ρ c (Proc.devRef .tc main_v21) = Cert.Spec.w1 (m ((c : Thread nD τ).loc main_arg4)) := by
    have e : W5 m ρ c (Proc.devRef .tc main_v21) = Cert.Spec.w1 (W4 m ρ c (Proc.devRef .tc main_arg4)) := by
      show StableHlo.after hostOps2 (W4 m ρ c) (Proc.devRef .tc main_v21) = _
      after_results; rfl
    exact e.trans (congrArg Cert.Spec.w1 P.a4)
  have s1_B1D : W5 m ρ c (Proc.devRef .tc main_v23) = Cert.Spec.b1 (m ((c : Thread nD τ).loc main_arg5)) := by
    have e : W5 m ρ c (Proc.devRef .tc main_v23) = Cert.Spec.b1 (W4 m ρ c (Proc.devRef .tc main_arg5)) := by
      show StableHlo.after hostOps2 (W4 m ρ c) (Proc.devRef .tc main_v23) = _
      after_results; rfl
    exact e.trans (congrArg Cert.Spec.b1 P.a5)
  have s2_arg0 : W6 m ρ c (Proc.devRef .tc main_arg0) = (m ((c : Thread nD τ).loc main_arg0)) :=
    Eq.trans (W6_of_ne m ρ c main_arg0 (by decide)) s1_arg0
  have s2_arg1 : W6 m ρ c (Proc.devRef .tc main_arg1) = (m ((c : Thread nD τ).loc main_arg1)) :=
    Eq.trans (W6_of_ne m ρ c main_arg1 (by decide)) s1_arg1
  have s2_arg2 : W6 m ρ c (Proc.devRef .tc main_arg2) = (m ((c : Thread nD τ).loc main_arg2)) :=
    Eq.trans (W6_of_ne m ρ c main_arg2 (by decide)) s1_arg2
  have s2_arg3 : W6 m ρ c (Proc.devRef .tc main_arg3) = (m ((c : Thread nD τ).loc main_arg3)) :=
    Eq.trans (W6_of_ne m ρ c main_arg3 (by decide)) s1_arg3
  have s2_arg4 : W6 m ρ c (Proc.devRef .tc main_arg4) = (m ((c : Thread nD τ).loc main_arg4)) :=
    Eq.trans (W6_of_ne m ρ c main_arg4 (by decide)) s1_arg4
  have s2_arg5 : W6 m ρ c (Proc.devRef .tc main_arg5) = (m ((c : Thread nD τ).loc main_arg5)) :=
    Eq.trans (W6_of_ne m ρ c main_arg5 (by decide)) s1_arg5
  have s2_arg6 : W6 m ρ c (Proc.devRef .tc main_arg6) = (m ((c : Thread nD τ).loc main_arg6)) :=
    Eq.trans (W6_of_ne m ρ c main_arg6 (by decide)) s1_arg6
  have s2_arg7 : W6 m ρ c (Proc.devRef .tc main_arg7) = (m ((c : Thread nD τ).loc main_arg7)) :=
    Eq.trans (W6_of_ne m ρ c main_arg7 (by decide)) s1_arg7
  have s2_v19 : W6 m ρ c (Proc.devRef .tc main_v19) = (Cert.Spec.h0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans ((W6_arr m ρ c 0).trans (((dat2 (V5 m ρ) c).arrAt_in 0 rfl _).trans (A_eq2 (V5 m ρ) c 0))) s1_v19
  have s2_v23 : W6 m ρ c (Proc.devRef .tc main_v23) = (Cert.Spec.b1 (m ((c : Thread nD τ).loc main_arg5))) :=
    Eq.trans (W6_of_ne m ρ c main_v23 (by decide)) s1_B1D
  have s2_SUP : W6 m ρ c (Proc.devRef .tc main_v24) = Host.dotGeneral (F := Ideal) (φ₁ := .f32) (φ₂ := .f32) Cert.ReferenceIdeal.dot_S25000x192_S192x192_S25000x192_1_0_0_1_n_n none (Cert.Spec.h0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w1 (m ((c : Thread nD τ).loc main_arg4))) := by
    refine (W6_arr m ρ c 2).trans ?_
    refine (Cert.Region2.final (V5 m ρ) c).trans ?_
    show Cert.Forms.mmG (W5 m ρ c (Proc.devRef .tc main_v19)) (W5 m ρ c (Proc.devRef .tc main_v21)) = _
    rw [s1_v19, s1_WM]
    exact (Cert.MatMul.hostDot_eq _ _).symm
  have s3_arg0 : W7 m ρ c (Proc.devRef .tc main_arg0) = (m ((c : Thread nD τ).loc main_arg0)) :=
    Eq.trans (by kept_by hostOps3) s2_arg0
  have s3_arg1 : W7 m ρ c (Proc.devRef .tc main_arg1) = (m ((c : Thread nD τ).loc main_arg1)) :=
    Eq.trans (by kept_by hostOps3) s2_arg1
  have s3_arg2 : W7 m ρ c (Proc.devRef .tc main_arg2) = (m ((c : Thread nD τ).loc main_arg2)) :=
    Eq.trans (by kept_by hostOps3) s2_arg2
  have s3_arg3 : W7 m ρ c (Proc.devRef .tc main_arg3) = (m ((c : Thread nD τ).loc main_arg3)) :=
    Eq.trans (by kept_by hostOps3) s2_arg3
  have s3_arg4 : W7 m ρ c (Proc.devRef .tc main_arg4) = (m ((c : Thread nD τ).loc main_arg4)) :=
    Eq.trans (by kept_by hostOps3) s2_arg4
  have s3_arg5 : W7 m ρ c (Proc.devRef .tc main_arg5) = (m ((c : Thread nD τ).loc main_arg5)) :=
    Eq.trans (by kept_by hostOps3) s2_arg5
  have s3_arg6 : W7 m ρ c (Proc.devRef .tc main_arg6) = (m ((c : Thread nD τ).loc main_arg6)) :=
    Eq.trans (by kept_by hostOps3) s2_arg6
  have s3_arg7 : W7 m ρ c (Proc.devRef .tc main_arg7) = (m ((c : Thread nD τ).loc main_arg7)) :=
    Eq.trans (by kept_by hostOps3) s2_arg7
  have s3_v19 : W7 m ρ c (Proc.devRef .tc main_v19) = (Cert.Spec.h0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps3) s2_v19
  have s3_AGG : W7 m ρ c (Proc.devRef .tc main_v37) = Cert.Spec.agg (m ((c : Thread nD τ).loc main_arg1)) (m ((c : Thread nD τ).loc main_arg2)) (m ((c : Thread nD τ).loc main_arg3)) (Host.dotGeneral (F := Ideal) (φ₁ := .f32) (φ₂ := .f32) Cert.ReferenceIdeal.dot_S25000x192_S192x192_S25000x192_1_0_0_1_n_n none (Cert.Spec.h0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w1 (m ((c : Thread nD τ).loc main_arg4)))) := by
    have e : W7 m ρ c (Proc.devRef .tc main_v37) = Cert.Spec.agg (W6 m ρ c (Proc.devRef .tc main_arg1)) (W6 m ρ c (Proc.devRef .tc main_arg2)) (W6 m ρ c (Proc.devRef .tc main_arg3)) (W6 m ρ c (Proc.devRef .tc main_v24)) := by
      show StableHlo.after hostOps3 (W6 m ρ c) (Proc.devRef .tc main_v37) = _
      after_results
      exact Cert.Post.agg_eq _ _ _ _
    rw [e, s2_arg1, s2_arg2, s2_arg3, s2_SUP]
  have s3_B2 : W7 m ρ c (Proc.devRef .tc main_v38) = shapeCast S1x192 (Cert.Spec.b1 (m ((c : Thread nD τ).loc main_arg5))) Cert.KernelIdeal.Facts₀.shapeCasts_S192_S1x192 := by
    have e : W7 m ρ c (Proc.devRef .tc main_v38) = shapeCast S1x192 (W6 m ρ c (Proc.devRef .tc main_v23)) Cert.KernelIdeal.Facts₀.shapeCasts_S192_S1x192 := by
      show StableHlo.after hostOps3 (W6 m ρ c) (Proc.devRef .tc main_v38) = _
      after_results; rfl
    rw [e, s2_v23]
  have s4_arg0 : W8 m ρ c (Proc.devRef .tc main_arg0) = (m ((c : Thread nD τ).loc main_arg0)) :=
    Eq.trans ((W8_arr m ρ c 2).trans (((dat3 (V7 m ρ) c).arrAt_in 2 rfl _).trans (A_eq3 (V7 m ρ) c 2))) s3_arg0
  have s4_arg1 : W8 m ρ c (Proc.devRef .tc main_arg1) = (m ((c : Thread nD τ).loc main_arg1)) :=
    Eq.trans (W8_of_ne m ρ c main_arg1 (by decide)) s3_arg1
  have s4_arg2 : W8 m ρ c (Proc.devRef .tc main_arg2) = (m ((c : Thread nD τ).loc main_arg2)) :=
    Eq.trans (W8_of_ne m ρ c main_arg2 (by decide)) s3_arg2
  have s4_arg3 : W8 m ρ c (Proc.devRef .tc main_arg3) = (m ((c : Thread nD τ).loc main_arg3)) :=
    Eq.trans (W8_of_ne m ρ c main_arg3 (by decide)) s3_arg3
  have s4_arg4 : W8 m ρ c (Proc.devRef .tc main_arg4) = (m ((c : Thread nD τ).loc main_arg4)) :=
    Eq.trans (W8_of_ne m ρ c main_arg4 (by decide)) s3_arg4
  have s4_arg5 : W8 m ρ c (Proc.devRef .tc main_arg5) = (m ((c : Thread nD τ).loc main_arg5)) :=
    Eq.trans (W8_of_ne m ρ c main_arg5 (by decide)) s3_arg5
  have s4_arg6 : W8 m ρ c (Proc.devRef .tc main_arg6) = (m ((c : Thread nD τ).loc main_arg6)) :=
    Eq.trans (W8_of_ne m ρ c main_arg6 (by decide)) s3_arg6
  have s4_arg7 : W8 m ρ c (Proc.devRef .tc main_arg7) = (m ((c : Thread nD τ).loc main_arg7)) :=
    Eq.trans (W8_of_ne m ρ c main_arg7 (by decide)) s3_arg7
  have s4_OUT : W8 m ρ c (Proc.devRef .tc main_v39) = (Cert.Spec.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    refine (W8_arr m ρ c 3).trans ?_
    refine (Cert.Region3.final (V7 m ρ) c).trans ?_
    show Cert.Forms.avgG (W7 m ρ c (Proc.devRef .tc main_v37)) (W7 m ρ c (Proc.devRef .tc main_v38)) (W7 m ρ c (Proc.devRef .tc main_arg0)) = _
    rw [s3_AGG, s3_B2, s3_arg0]
    refine (Cert.Post.avgG_eq _ _ _).trans ?_
    rfl
  exact ⟨s4_OUT, s4_arg0, s4_arg1, s4_arg2, s4_arg3, s4_arg4, s4_arg5, s4_arg6, s4_arg7⟩

end Cert.Layer1

end
-- ==== Proof.Region4.lean ====
/-
  Kernel region 4 as a function of whole arrays: after the region, its output array is, index by index,
  the matrix product of the 25000 × 192 array in window 0 with the 192 × 192 matrix in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.MatMul
import Idealize.ShloMosaic.Lib.Pipeline.Value

set_option maxRecDepth 16384

noncomputable section

namespace Cert.Region4

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point t writes back is block t of the whole-array function. -/
theorem flushed_eq (c : Dev nD) (t : Fin cfg4.N) :
    (dat4 V c).flushed 2 t = ((cfg4.win 2).blk t).view.read (Elt Ideal) (mmG (V c main_v39) (V c main_v41)) := by
  show (cfg4.win 2).cut (grid4.coords t) ((dat4 V c).after 2 t) = _
  rw [after4_2]
  unfold out4_2
  rw [View.canon_unit_zero hz]
  simp only [View.ld_unit_zero (S := S1000x192) hz, View.ld_unit_zero (S := S192x192) hz]
  obtain ⟨e00, e01, e10, e11, e20, e21⟩ := idx_facts t
  funext j
  refine (Cert.MatMul.pay4_apply _ _ j).trans ?_
  refine Eq.trans ?_ (mmG_apply _ _ _).symm
  refine Finset.sum_congr rfl fun q _ => ?_
  have hl : iblk4 V c 0 t (Cert.MatMul.blkRowK ⟨(j 0).val, (j 0).isLt⟩ q) = V c main_v39 (rowK (r192 (((cfg4.win 2).blk t).view.emb j)) q) :=
    congrArg (V c main_v39) (a₁ := ((cfg4.win 0).blk t).view.emb (Cert.MatMul.blkRowK ⟨(j 0).val, (j 0).isLt⟩ q)) (a₂ := rowK (r192 (((cfg4.win 2).blk t).view.emb j)) q) (funext fun a => Fin.ext (by
      match a with
      | ⟨0, _⟩ => show win4_0.index t (0 : Fin 2) * 1000 + 1 * (j 0).val = win4_2.index t (0 : Fin 2) * 1000 + 1 * (j 0).val; omega
      | ⟨1, _⟩ => show win4_0.index t (1 : Fin 2) * 192 + 1 * q.val = q.val; omega))
  have hr : iblk4 V c 1 t (kCol q ⟨(j 1).val, (j 1).isLt⟩) = V c main_v41 (kCol q (c192 (((cfg4.win 2).blk t).view.emb j))) :=
    congrArg (V c main_v41) (a₁ := ((cfg4.win 1).blk t).view.emb (kCol q ⟨(j 1).val, (j 1).isLt⟩)) (a₂ := kCol q (c192 (((cfg4.win 2).blk t).view.emb j))) (funext fun a => Fin.ext (by
      match a with
      | ⟨0, _⟩ => show win4_1.index t (0 : Fin 2) * 192 + 1 * q.val = q.val; omega
      | ⟨1, _⟩ => show win4_1.index t (1 : Fin 2) * 192 + 1 * (j 1).val = win4_2.index t (1 : Fin 2) * 192 + 1 * (j 1).val; omega))
  exact congrArg₂ (· * ·) hl hr

/-- An index is in point t's block iff each coordinate is in the block's range on its axis. -/
theorem mem_blk (t : Fin cfg4.N) (i : S25000x192.Idx) :
    i ∈ ((cfg4.win 2).blk t).view.set ↔ ∀ a : Fin 2, win4_2.index t a * S1000x192.size a ≤ (i a).val ∧ (i a).val < win4_2.index t a * S1000x192.size a + S1000x192.size a := by
  show i ∈ ((View.whole main_v44).slice (win4_2.rect t)).set ↔ _
  rw [View.set_slice_whole, Rect.mem_set_unit]
  exact Iff.rfl

/-- Row r of the output lies in the block of point r / 1000. -/
theorem cover (i : S25000x192.Idx) : ∃ t : Fin cfg4.N, (cfg4.win 2).flush t = true ∧ i ∈ ((cfg4.win 2).blk t).view.set := by
  have hi0 : (i 0).val < 25000 := (i 0).isLt
  have hi1 : (i 1).val < 192 := (i 1).isLt
  have hN : (i 0).val / 1000 < cfg4.N := lt_of_lt_of_eq (by omega : (i 0).val / 1000 < 25) N_4.symm
  refine ⟨⟨(i 0).val / 1000, hN⟩, flush4_2 _, ?_⟩
  rw [mem_blk]
  have f0 : win4_2.index ⟨(i 0).val / 1000, hN⟩ (0 : Fin 2) = (i 0).val / 1000 := (idx_facts ⟨(i 0).val / 1000, hN⟩).2.2.2.2.1
  have f1 : win4_2.index ⟨(i 0).val / 1000, hN⟩ (1 : Fin 2) = 0 := (idx_facts ⟨(i 0).val / 1000, hN⟩).2.2.2.2.2
  intro a
  match a with
  | ⟨0, _⟩ => show win4_2.index ⟨(i 0).val / 1000, hN⟩ (0 : Fin 2) * 1000 ≤ (i 0).val ∧ (i 0).val < win4_2.index ⟨(i 0).val / 1000, hN⟩ (0 : Fin 2) * 1000 + 1000; rw [f0]; omega
  | ⟨1, _⟩ => show win4_2.index ⟨(i 0).val / 1000, hN⟩ (1 : Fin 2) * 192 ≤ (i 1).val ∧ (i 1).val < win4_2.index ⟨(i 0).val / 1000, hN⟩ (1 : Fin 2) * 192 + 192; rw [f1]; omega

/-- The output array after the region. -/
theorem final (c : Dev nD) : (dat4 V c).arrAt 2 cfg4.N = mmG (V c main_v39) (V c main_v41) :=
  (dat4 V c).arrAt_eq_of_cover 2 _ (fun t _ => flushed_eq V c t) (cover)

end Cert.Region4

end
-- ==== Proof.Region5.lean ====
/-
  Kernel region 5 as a function of whole arrays: after the region, its output array is, index by index,
  max(a + b, 0) of the aggregate a in window 0 and the bias row b in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.Post
import Idealize.ShloMosaic.Lib.Pipeline.Value

set_option maxRecDepth 16384

noncomputable section

namespace Cert.Region5

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- What point t writes back is block t of the whole-array function. -/
theorem flushed_eq (c : Dev nD) (t : Fin cfg5.N) :
    (dat5 V c).flushed 2 t = ((cfg5.win 2).blk t).view.read (Elt Ideal) (reluG (V c main_v57) (V c main_v58)) := by
  show (cfg5.win 2).cut (grid5.coords t) ((dat5 V c).after 2 t) = _
  rw [after5_2]
  unfold out5_2
  rw [View.canon_unit_zero hz]
  simp only [View.ld_unit_zero (S := S1000x192) hz, View.ld_unit_zero (S := S1x192) hz]
  obtain ⟨e00, e01, e10, e11, e20, e21⟩ := idx_facts t
  funext j
  refine (Cert.Post.pay5_apply _ _ j).trans ?_
  refine Eq.trans ?_ (reluG_apply _ _ _).symm
  have ha : iblk5 V c 0 t j = V c main_v57 (((cfg5.win 2).blk t).view.emb j) :=
    congrArg (V c main_v57) (a₁ := ((cfg5.win 0).blk t).view.emb (j)) (a₂ := (((cfg5.win 2).blk t).view.emb j)) (funext fun a => Fin.ext (by
      match a with
      | ⟨0, _⟩ => show win5_0.index t (0 : Fin 2) * 1000 + 1 * (j 0).val = win5_2.index t (0 : Fin 2) * 1000 + 1 * (j 0).val; omega
      | ⟨1, _⟩ => show win5_0.index t (1 : Fin 2) * 192 + 1 * (j 1).val = win5_2.index t (1 : Fin 2) * 192 + 1 * (j 1).val; omega))
  have hb : iblk5 V c 1 t (biasAt ⟨(j 1).val, (j 1).isLt⟩) = V c main_v58 (biasAt (c192 (((cfg5.win 2).blk t).view.emb j))) :=
    congrArg (V c main_v58) (a₁ := ((cfg5.win 1).blk t).view.emb (biasAt ⟨(j 1).val, (j 1).isLt⟩)) (a₂ := biasAt (c192 (((cfg5.win 2).blk t).view.emb j))) (funext fun a => Fin.ext (by
      match a with
      | ⟨0, _⟩ => show win5_1.index t (0 : Fin 2) * 1 + 1 * 0 = 0; omega
      | ⟨1, _⟩ => show win5_1.index t (1 : Fin 2) * 192 + 1 * (j 1).val = win5_2.index t (1 : Fin 2) * 192 + 1 * (j 1).val; omega))

  rw [ha, hb]

/-- An index is in point t's block iff each coordinate is in the block's range on its axis. -/
theorem mem_blk (t : Fin cfg5.N) (i : S25000x192.Idx) :
    i ∈ ((cfg5.win 2).blk t).view.set ↔ ∀ a : Fin 2, win5_2.index t a * S1000x192.size a ≤ (i a).val ∧ (i a).val < win5_2.index t a * S1000x192.size a + S1000x192.size a := by
  show i ∈ ((View.whole main_v59).slice (win5_2.rect t)).set ↔ _
  rw [View.set_slice_whole, Rect.mem_set_unit]
  exact Iff.rfl

/-- Row r of the output lies in the block of point r / 1000. -/
theorem cover (i : S25000x192.Idx) : ∃ t : Fin cfg5.N, (cfg5.win 2).flush t = true ∧ i ∈ ((cfg5.win 2).blk t).view.set := by
  have hi0 : (i 0).val < 25000 := (i 0).isLt
  have hi1 : (i 1).val < 192 := (i 1).isLt
  have hN : (i 0).val / 1000 < cfg5.N := lt_of_lt_of_eq (by omega : (i 0).val / 1000 < 25) N_5.symm
  refine ⟨⟨(i 0).val / 1000, hN⟩, flush5_2 _, ?_⟩
  rw [mem_blk]
  have f0 : win5_2.index ⟨(i 0).val / 1000, hN⟩ (0 : Fin 2) = (i 0).val / 1000 := (idx_facts ⟨(i 0).val / 1000, hN⟩).2.2.2.2.1
  have f1 : win5_2.index ⟨(i 0).val / 1000, hN⟩ (1 : Fin 2) = 0 := (idx_facts ⟨(i 0).val / 1000, hN⟩).2.2.2.2.2
  intro a
  match a with
  | ⟨0, _⟩ => show win5_2.index ⟨(i 0).val / 1000, hN⟩ (0 : Fin 2) * 1000 ≤ (i 0).val ∧ (i 0).val < win5_2.index ⟨(i 0).val / 1000, hN⟩ (0 : Fin 2) * 1000 + 1000; rw [f0]; omega
  | ⟨1, _⟩ => show win5_2.index ⟨(i 0).val / 1000, hN⟩ (1 : Fin 2) * 192 ≤ (i 1).val ∧ (i 1).val < win5_2.index ⟨(i 0).val / 1000, hN⟩ (1 : Fin 2) * 192 + 192; rw [f1]; omega

/-- The output array after the region. -/
theorem final (c : Dev nD) : (dat5 V c).arrAt 2 cfg5.N = reluG (V c main_v57) (V c main_v58) :=
  (dat5 V c).arrAt_eq_of_cover 2 _ (fun t _ => flushed_eq V c t) (cover)

end Cert.Region5

end
-- ==== Proof.Layer2.lean ====
/-
  Layer 2 of the idealized kernel: at the segment boundary after its second region the layer's output buffer holds
  hidden layer 2 of the specification — max(A·(x·W) + b, 0) of the layer's input —, as a function of the launch contents of
  the arguments; the arguments, and the earlier features a later layer still reads, are unchanged there.
  The boundary's contents are a fold: a host stretch slices this layer's weight and bias, the first region multiplies,
  a host stretch gathers, scales and scatter-adds, the second region adds the bias and clamps.
-/
import proofs.«171734_j42872363549123_1_alg».proof.Proof.Gen.KernelIdeal.Frame
import proofs.«171734_j42872363549123_1_alg».proof.Proof.Gen.ReferenceIdeal
import proofs.«171734_j42872363549123_1_alg».proof.Proof.Spec
import proofs.«171734_j42872363549123_1_alg».proof.Proof.Forms
import proofs.«171734_j42872363549123_1_alg».proof.Proof.MatMul
import proofs.«171734_j42872363549123_1_alg».proof.Proof.Post
import proofs.«171734_j42872363549123_1_alg».proof.Proof.Region4
import proofs.«171734_j42872363549123_1_alg».proof.Proof.Region5
import proofs.«171734_j42872363549123_1_alg».proof.Proof.Invs
import Idealize.ShloMosaic.Lib.StableHlo.Run

set_option maxRecDepth 16384

noncomputable section

namespace Cert.Layer2

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

open Lean in
/-- A buffer that no operation of a host stretch writes keeps its contents across the stretch. -/
macro "kept_by " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

set_option maxHeartbeats 40000000 in
/-- From what the boundary before layer 2 holds to what the boundary after it holds. -/
theorem step (c : Dev nD) (P : Cert.Invs.Inv1 m ρ c) : Cert.Invs.Inv2 m ρ c := by
  have s1_arg0 : W9 m ρ c (Proc.devRef .tc main_arg0) = (m ((c : Thread nD τ).loc main_arg0)) :=
    Eq.trans (by kept_by hostOps4) P.a0
  have s1_arg1 : W9 m ρ c (Proc.devRef .tc main_arg1) = (m ((c : Thread nD τ).loc main_arg1)) :=
    Eq.trans (by kept_by hostOps4) P.a1
  have s1_arg2 : W9 m ρ c (Proc.devRef .tc main_arg2) = (m ((c : Thread nD τ).loc main_arg2)) :=
    Eq.trans (by kept_by hostOps4) P.a2
  have s1_arg3 : W9 m ρ c (Proc.devRef .tc main_arg3) = (m ((c : Thread nD τ).loc main_arg3)) :=
    Eq.trans (by kept_by hostOps4) P.a3
  have s1_arg4 : W9 m ρ c (Proc.devRef .tc main_arg4) = (m ((c : Thread nD τ).loc main_arg4)) :=
    Eq.trans (by kept_by hostOps4) P.a4
  have s1_arg5 : W9 m ρ c (Proc.devRef .tc main_arg5) = (m ((c : Thread nD τ).loc main_arg5)) :=
    Eq.trans (by kept_by hostOps4) P.a5
  have s1_arg6 : W9 m ρ c (Proc.devRef .tc main_arg6) = (m ((c : Thread nD τ).loc main_arg6)) :=
    Eq.trans (by kept_by hostOps4) P.a6
  have s1_arg7 : W9 m ρ c (Proc.devRef .tc main_arg7) = (m ((c : Thread nD τ).loc main_arg7)) :=
    Eq.trans (by kept_by hostOps4) P.a7
  have s1_v39 : W9 m ρ c (Proc.devRef .tc main_v39) = (Cert.Spec.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps4) P.out
  have s1_WM : W9 m ρ c (Proc.devRef .tc main_v41) = Cert.Spec.w2 (m ((c : Thread nD τ).loc main_arg4)) := by
    have e : W9 m ρ c (Proc.devRef .tc main_v41) = Cert.Spec.w2 (W8 m ρ c (Proc.devRef .tc main_arg4)) := by
      show StableHlo.after hostOps4 (W8 m ρ c) (Proc.devRef .tc main_v41) = _
      after_results; rfl
    exact e.trans (congrArg Cert.Spec.w2 P.a4)
  have s1_B1D : W9 m ρ c (Proc.devRef .tc main_v43) = Cert.Spec.b2 (m ((c : Thread nD τ).loc main_arg5)) := by
    have e : W9 m ρ c (Proc.devRef .tc main_v43) = Cert.Spec.b2 (W8 m ρ c (Proc.devRef .tc main_arg5)) := by
      show StableHlo.after hostOps4 (W8 m ρ c) (Proc.devRef .tc main_v43) = _
      after_results; rfl
    exact e.trans (congrArg Cert.Spec.b2 P.a5)
  have s2_arg0 : W10 m ρ c (Proc.devRef .tc main_arg0) = (m ((c : Thread nD τ).loc main_arg0)) :=
    Eq.trans (W10_of_ne m ρ c main_arg0 (by decide)) s1_arg0
  have s2_arg1 : W10 m ρ c (Proc.devRef .tc main_arg1) = (m ((c : Thread nD τ).loc main_arg1)) :=
    Eq.trans (W10_of_ne m ρ c main_arg1 (by decide)) s1_arg1
  have s2_arg2 : W10 m ρ c (Proc.devRef .tc main_arg2) = (m ((c : Thread nD τ).loc main_arg2)) :=
    Eq.trans (W10_of_ne m ρ c main_arg2 (by decide)) s1_arg2
  have s2_arg3 : W10 m ρ c (Proc.devRef .tc main_arg3) = (m ((c : Thread nD τ).loc main_arg3)) :=
    Eq.trans (W10_of_ne m ρ c main_arg3 (by decide)) s1_arg3
  have s2_arg4 : W10 m ρ c (Proc.devRef .tc main_arg4) = (m ((c : Thread nD τ).loc main_arg4)) :=
    Eq.trans (W10_of_ne m ρ c main_arg4 (by decide)) s1_arg4
  have s2_arg5 : W10 m ρ c (Proc.devRef .tc main_arg5) = (m ((c : Thread nD τ).loc main_arg5)) :=
    Eq.trans (W10_of_ne m ρ c main_arg5 (by decide)) s1_arg5
  have s2_arg6 : W10 m ρ c (Proc.devRef .tc main_arg6) = (m ((c : Thread nD τ).loc main_arg6)) :=
    Eq.trans (W10_of_ne m ρ c main_arg6 (by decide)) s1_arg6
  have s2_arg7 : W10 m ρ c (Proc.devRef .tc main_arg7) = (m ((c : Thread nD τ).loc main_arg7)) :=
    Eq.trans (W10_of_ne m ρ c main_arg7 (by decide)) s1_arg7
  have s2_v39 : W10 m ρ c (Proc.devRef .tc main_v39) = (Cert.Spec.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans ((W10_arr m ρ c 0).trans (((dat4 (V9 m ρ) c).arrAt_in 0 rfl _).trans (A_eq4 (V9 m ρ) c 0))) s1_v39
  have s2_v43 : W10 m ρ c (Proc.devRef .tc main_v43) = (Cert.Spec.b2 (m ((c : Thread nD τ).loc main_arg5))) :=
    Eq.trans (W10_of_ne m ρ c main_v43 (by decide)) s1_B1D
  have s2_SUP : W10 m ρ c (Proc.devRef .tc main_v44) = Host.dotGeneral (F := Ideal) (φ₁ := .f32) (φ₂ := .f32) Cert.ReferenceIdeal.dot_S25000x192_S192x192_S25000x192_1_0_0_1_n_n none (Cert.Spec.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w2 (m ((c : Thread nD τ).loc main_arg4))) := by
    refine (W10_arr m ρ c 2).trans ?_
    refine (Cert.Region4.final (V9 m ρ) c).trans ?_
    show Cert.Forms.mmG (W9 m ρ c (Proc.devRef .tc main_v39)) (W9 m ρ c (Proc.devRef .tc main_v41)) = _
    rw [s1_v39, s1_WM]
    exact (Cert.MatMul.hostDot_eq _ _).symm
  have s3_arg0 : W11 m ρ c (Proc.devRef .tc main_arg0) = (m ((c : Thread nD τ).loc main_arg0)) :=
    Eq.trans (by kept_by hostOps5) s2_arg0
  have s3_arg1 : W11 m ρ c (Proc.devRef .tc main_arg1) = (m ((c : Thread nD τ).loc main_arg1)) :=
    Eq.trans (by kept_by hostOps5) s2_arg1
  have s3_arg2 : W11 m ρ c (Proc.devRef .tc main_arg2) = (m ((c : Thread nD τ).loc main_arg2)) :=
    Eq.trans (by kept_by hostOps5) s2_arg2
  have s3_arg3 : W11 m ρ c (Proc.devRef .tc main_arg3) = (m ((c : Thread nD τ).loc main_arg3)) :=
    Eq.trans (by kept_by hostOps5) s2_arg3
  have s3_arg4 : W11 m ρ c (Proc.devRef .tc main_arg4) = (m ((c : Thread nD τ).loc main_arg4)) :=
    Eq.trans (by kept_by hostOps5) s2_arg4
  have s3_arg5 : W11 m ρ c (Proc.devRef .tc main_arg5) = (m ((c : Thread nD τ).loc main_arg5)) :=
    Eq.trans (by kept_by hostOps5) s2_arg5
  have s3_arg6 : W11 m ρ c (Proc.devRef .tc main_arg6) = (m ((c : Thread nD τ).loc main_arg6)) :=
    Eq.trans (by kept_by hostOps5) s2_arg6
  have s3_arg7 : W11 m ρ c (Proc.devRef .tc main_arg7) = (m ((c : Thread nD τ).loc main_arg7)) :=
    Eq.trans (by kept_by hostOps5) s2_arg7
  have s3_v39 : W11 m ρ c (Proc.devRef .tc main_v39) = (Cert.Spec.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps5) s2_v39
  have s3_AGG : W11 m ρ c (Proc.devRef .tc main_v57) = Cert.Spec.agg (m ((c : Thread nD τ).loc main_arg1)) (m ((c : Thread nD τ).loc main_arg2)) (m ((c : Thread nD τ).loc main_arg3)) (Host.dotGeneral (F := Ideal) (φ₁ := .f32) (φ₂ := .f32) Cert.ReferenceIdeal.dot_S25000x192_S192x192_S25000x192_1_0_0_1_n_n none (Cert.Spec.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w2 (m ((c : Thread nD τ).loc main_arg4)))) := by
    have e : W11 m ρ c (Proc.devRef .tc main_v57) = Cert.Spec.agg (W10 m ρ c (Proc.devRef .tc main_arg1)) (W10 m ρ c (Proc.devRef .tc main_arg2)) (W10 m ρ c (Proc.devRef .tc main_arg3)) (W10 m ρ c (Proc.devRef .tc main_v44)) := by
      show StableHlo.after hostOps5 (W10 m ρ c) (Proc.devRef .tc main_v57) = _
      after_results
      exact Cert.Post.agg_eq _ _ _ _
    rw [e, s2_arg1, s2_arg2, s2_arg3, s2_SUP]
  have s3_B2 : W11 m ρ c (Proc.devRef .tc main_v58) = shapeCast S1x192 (Cert.Spec.b2 (m ((c : Thread nD τ).loc main_arg5))) Cert.KernelIdeal.Facts₀.shapeCasts_S192_S1x192 := by
    have e : W11 m ρ c (Proc.devRef .tc main_v58) = shapeCast S1x192 (W10 m ρ c (Proc.devRef .tc main_v43)) Cert.KernelIdeal.Facts₀.shapeCasts_S192_S1x192 := by
      show StableHlo.after hostOps5 (W10 m ρ c) (Proc.devRef .tc main_v58) = _
      after_results; rfl
    rw [e, s2_v43]
  have s4_arg0 : W12 m ρ c (Proc.devRef .tc main_arg0) = (m ((c : Thread nD τ).loc main_arg0)) :=
    Eq.trans (W12_of_ne m ρ c main_arg0 (by decide)) s3_arg0
  have s4_arg1 : W12 m ρ c (Proc.devRef .tc main_arg1) = (m ((c : Thread nD τ).loc main_arg1)) :=
    Eq.trans (W12_of_ne m ρ c main_arg1 (by decide)) s3_arg1
  have s4_arg2 : W12 m ρ c (Proc.devRef .tc main_arg2) = (m ((c : Thread nD τ).loc main_arg2)) :=
    Eq.trans (W12_of_ne m ρ c main_arg2 (by decide)) s3_arg2
  have s4_arg3 : W12 m ρ c (Proc.devRef .tc main_arg3) = (m ((c : Thread nD τ).loc main_arg3)) :=
    Eq.trans (W12_of_ne m ρ c main_arg3 (by decide)) s3_arg3
  have s4_arg4 : W12 m ρ c (Proc.devRef .tc main_arg4) = (m ((c : Thread nD τ).loc main_arg4)) :=
    Eq.trans (W12_of_ne m ρ c main_arg4 (by decide)) s3_arg4
  have s4_arg5 : W12 m ρ c (Proc.devRef .tc main_arg5) = (m ((c : Thread nD τ).loc main_arg5)) :=
    Eq.trans (W12_of_ne m ρ c main_arg5 (by decide)) s3_arg5
  have s4_arg6 : W12 m ρ c (Proc.devRef .tc main_arg6) = (m ((c : Thread nD τ).loc main_arg6)) :=
    Eq.trans (W12_of_ne m ρ c main_arg6 (by decide)) s3_arg6
  have s4_arg7 : W12 m ρ c (Proc.devRef .tc main_arg7) = (m ((c : Thread nD τ).loc main_arg7)) :=
    Eq.trans (W12_of_ne m ρ c main_arg7 (by decide)) s3_arg7
  have s4_v39 : W12 m ρ c (Proc.devRef .tc main_v39) = (Cert.Spec.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (W12_of_ne m ρ c main_v39 (by decide)) s3_v39
  have s4_OUT : W12 m ρ c (Proc.devRef .tc main_v59) = (Cert.Spec.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    refine (W12_arr m ρ c 2).trans ?_
    refine (Cert.Region5.final (V11 m ρ) c).trans ?_
    show Cert.Forms.reluG (W11 m ρ c (Proc.devRef .tc main_v57)) (W11 m ρ c (Proc.devRef .tc main_v58)) = _
    rw [s3_AGG, s3_B2]
    refine (Cert.Post.reluG_eq _ _).trans ?_
    rfl
  exact ⟨s4_OUT, s4_v39, s4_arg0, s4_arg1, s4_arg2, s4_arg3, s4_arg4, s4_arg5, s4_arg6, s4_arg7⟩

end Cert.Layer2

end
-- ==== Proof.Region6.lean ====
/-
  Kernel region 6 as a function of whole arrays: after the region, its output array is, index by index,
  the matrix product of the 25000 × 192 array in window 0 with the 192 × 192 matrix in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.MatMul
import Idealize.ShloMosaic.Lib.Pipeline.Value

set_option maxRecDepth 16384

noncomputable section

namespace Cert.Region6

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- What point t writes back is block t of the whole-array function. -/
theorem flushed_eq (c : Dev nD) (t : Fin cfg6.N) :
    (dat6 V c).flushed 2 t = ((cfg6.win 2).blk t).view.read (Elt Ideal) (mmG (V c main_v59) (V c main_v61)) := by
  show (cfg6.win 2).cut (grid6.coords t) ((dat6 V c).after 2 t) = _
  rw [after6_2]
  unfold out6_2
  rw [View.canon_unit_zero hz]
  simp only [View.ld_unit_zero (S := S1000x192) hz, View.ld_unit_zero (S := S192x192) hz]
  obtain ⟨e00, e01, e10, e11, e20, e21⟩ := idx_facts t
  funext j
  refine (Cert.MatMul.pay6_apply _ _ j).trans ?_
  refine Eq.trans ?_ (mmG_apply _ _ _).symm
  refine Finset.sum_congr rfl fun q _ => ?_
  have hl : iblk6 V c 0 t (Cert.MatMul.blkRowK ⟨(j 0).val, (j 0).isLt⟩ q) = V c main_v59 (rowK (r192 (((cfg6.win 2).blk t).view.emb j)) q) :=
    congrArg (V c main_v59) (a₁ := ((cfg6.win 0).blk t).view.emb (Cert.MatMul.blkRowK ⟨(j 0).val, (j 0).isLt⟩ q)) (a₂ := rowK (r192 (((cfg6.win 2).blk t).view.emb j)) q) (funext fun a => Fin.ext (by
      match a with
      | ⟨0, _⟩ => show win6_0.index t (0 : Fin 2) * 1000 + 1 * (j 0).val = win6_2.index t (0 : Fin 2) * 1000 + 1 * (j 0).val; omega
      | ⟨1, _⟩ => show win6_0.index t (1 : Fin 2) * 192 + 1 * q.val = q.val; omega))
  have hr : iblk6 V c 1 t (kCol q ⟨(j 1).val, (j 1).isLt⟩) = V c main_v61 (kCol q (c192 (((cfg6.win 2).blk t).view.emb j))) :=
    congrArg (V c main_v61) (a₁ := ((cfg6.win 1).blk t).view.emb (kCol q ⟨(j 1).val, (j 1).isLt⟩)) (a₂ := kCol q (c192 (((cfg6.win 2).blk t).view.emb j))) (funext fun a => Fin.ext (by
      match a with
      | ⟨0, _⟩ => show win6_1.index t (0 : Fin 2) * 192 + 1 * q.val = q.val; omega
      | ⟨1, _⟩ => show win6_1.index t (1 : Fin 2) * 192 + 1 * (j 1).val = win6_2.index t (1 : Fin 2) * 192 + 1 * (j 1).val; omega))
  exact congrArg₂ (· * ·) hl hr

/-- An index is in point t's block iff each coordinate is in the block's range on its axis. -/
theorem mem_blk (t : Fin cfg6.N) (i : S25000x192.Idx) :
    i ∈ ((cfg6.win 2).blk t).view.set ↔ ∀ a : Fin 2, win6_2.index t a * S1000x192.size a ≤ (i a).val ∧ (i a).val < win6_2.index t a * S1000x192.size a + S1000x192.size a := by
  show i ∈ ((View.whole main_v64).slice (win6_2.rect t)).set ↔ _
  rw [View.set_slice_whole, Rect.mem_set_unit]
  exact Iff.rfl

/-- Row r of the output lies in the block of point r / 1000. -/
theorem cover (i : S25000x192.Idx) : ∃ t : Fin cfg6.N, (cfg6.win 2).flush t = true ∧ i ∈ ((cfg6.win 2).blk t).view.set := by
  have hi0 : (i 0).val < 25000 := (i 0).isLt
  have hi1 : (i 1).val < 192 := (i 1).isLt
  have hN : (i 0).val / 1000 < cfg6.N := lt_of_lt_of_eq (by omega : (i 0).val / 1000 < 25) N_6.symm
  refine ⟨⟨(i 0).val / 1000, hN⟩, flush6_2 _, ?_⟩
  rw [mem_blk]
  have f0 : win6_2.index ⟨(i 0).val / 1000, hN⟩ (0 : Fin 2) = (i 0).val / 1000 := (idx_facts ⟨(i 0).val / 1000, hN⟩).2.2.2.2.1
  have f1 : win6_2.index ⟨(i 0).val / 1000, hN⟩ (1 : Fin 2) = 0 := (idx_facts ⟨(i 0).val / 1000, hN⟩).2.2.2.2.2
  intro a
  match a with
  | ⟨0, _⟩ => show win6_2.index ⟨(i 0).val / 1000, hN⟩ (0 : Fin 2) * 1000 ≤ (i 0).val ∧ (i 0).val < win6_2.index ⟨(i 0).val / 1000, hN⟩ (0 : Fin 2) * 1000 + 1000; rw [f0]; omega
  | ⟨1, _⟩ => show win6_2.index ⟨(i 0).val / 1000, hN⟩ (1 : Fin 2) * 192 ≤ (i 1).val ∧ (i 1).val < win6_2.index ⟨(i 0).val / 1000, hN⟩ (1 : Fin 2) * 192 + 192; rw [f1]; omega

/-- The output array after the region. -/
theorem final (c : Dev nD) : (dat6 V c).arrAt 2 cfg6.N = mmG (V c main_v59) (V c main_v61) :=
  (dat6 V c).arrAt_eq_of_cover 2 _ (fun t _ => flushed_eq V c t) (cover)

end Cert.Region6

end
-- ==== Proof.Region7.lean ====
/-
  Kernel region 7 as a function of whole arrays: after the region, its output array is, index by index,
  (r + max(a + b, 0)) · ½ of the aggregate a in window 0, the bias row b in window 1 and the residual r in window 2, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.Post
import Idealize.ShloMosaic.Lib.Pipeline.Value

set_option maxRecDepth 16384

noncomputable section

namespace Cert.Region7

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = t.val
    ∧ win7_2.index t (1 : Fin 2) = 0
    ∧ win7_3.index t (0 : Fin 2) = t.val
    ∧ win7_3.index t (1 : Fin 2) = 0 :=
  (by decide +kernel : ∀ t : Fin grid7.N, _)

/-- What point t writes back is block t of the whole-array function. -/
theorem flushed_eq (c : Dev nD) (t : Fin cfg7.N) :
    (dat7 V c).flushed 3 t = ((cfg7.win 3).blk t).view.read (Elt Ideal) (avgG (V c main_v77) (V c main_v78) (V c main_v39)) := by
  show (cfg7.win 3).cut (grid7.coords t) ((dat7 V c).after 3 t) = _
  rw [after7_3]
  unfold out7_3
  rw [View.canon_unit_zero hz]
  simp only [View.ld_unit_zero (S := S1000x192) hz, View.ld_unit_zero (S := S1x192) hz]
  obtain ⟨e00, e01, e10, e11, e20, e21, e30, e31⟩ := idx_facts t
  funext j
  refine (Cert.Post.pay7_apply _ _ _ j).trans ?_
  refine Eq.trans ?_ (avgG_apply _ _ _ _).symm
  have ha : iblk7 V c 0 t j = V c main_v77 (((cfg7.win 3).blk t).view.emb j) :=
    congrArg (V c main_v77) (a₁ := ((cfg7.win 0).blk t).view.emb (j)) (a₂ := (((cfg7.win 3).blk t).view.emb j)) (funext fun a => Fin.ext (by
      match a with
      | ⟨0, _⟩ => show win7_0.index t (0 : Fin 2) * 1000 + 1 * (j 0).val = win7_3.index t (0 : Fin 2) * 1000 + 1 * (j 0).val; omega
      | ⟨1, _⟩ => show win7_0.index t (1 : Fin 2) * 192 + 1 * (j 1).val = win7_3.index t (1 : Fin 2) * 192 + 1 * (j 1).val; omega))
  have hb : iblk7 V c 1 t (biasAt ⟨(j 1).val, (j 1).isLt⟩) = V c main_v78 (biasAt (c192 (((cfg7.win 3).blk t).view.emb j))) :=
    congrArg (V c main_v78) (a₁ := ((cfg7.win 1).blk t).view.emb (biasAt ⟨(j 1).val, (j 1).isLt⟩)) (a₂ := biasAt (c192 (((cfg7.win 3).blk t).view.emb j))) (funext fun a => Fin.ext (by
      match a with
      | ⟨0, _⟩ => show win7_1.index t (0 : Fin 2) * 1 + 1 * 0 = 0; omega
      | ⟨1, _⟩ => show win7_1.index t (1 : Fin 2) * 192 + 1 * (j 1).val = win7_3.index t (1 : Fin 2) * 192 + 1 * (j 1).val; omega))
  have hr : iblk7 V c 2 t j = V c main_v39 (((cfg7.win 3).blk t).view.emb j) :=
    congrArg (V c main_v39) (a₁ := ((cfg7.win 2).blk t).view.emb (j)) (a₂ := (((cfg7.win 3).blk t).view.emb j)) (funext fun a => Fin.ext (by
      match a with
      | ⟨0, _⟩ => show win7_2.index t (0 : Fin 2) * 1000 + 1 * (j 0).val = win7_3.index t (0 : Fin 2) * 1000 + 1 * (j 0).val; omega
      | ⟨1, _⟩ => show win7_2.index t (1 : Fin 2) * 192 + 1 * (j 1).val = win7_3.index t (1 : Fin 2) * 192 + 1 * (j 1).val; omega))
  rw [ha, hb, hr]

/-- An index is in point t's block iff each coordinate is in the block's range on its axis. -/
theorem mem_blk (t : Fin cfg7.N) (i : S25000x192.Idx) :
    i ∈ ((cfg7.win 3).blk t).view.set ↔ ∀ a : Fin 2, win7_3.index t a * S1000x192.size a ≤ (i a).val ∧ (i a).val < win7_3.index t a * S1000x192.size a + S1000x192.size a := by
  show i ∈ ((View.whole main_v79).slice (win7_3.rect t)).set ↔ _
  rw [View.set_slice_whole, Rect.mem_set_unit]
  exact Iff.rfl

/-- Row r of the output lies in the block of point r / 1000. -/
theorem cover (i : S25000x192.Idx) : ∃ t : Fin cfg7.N, (cfg7.win 3).flush t = true ∧ i ∈ ((cfg7.win 3).blk t).view.set := by
  have hi0 : (i 0).val < 25000 := (i 0).isLt
  have hi1 : (i 1).val < 192 := (i 1).isLt
  have hN : (i 0).val / 1000 < cfg7.N := lt_of_lt_of_eq (by omega : (i 0).val / 1000 < 25) N_7.symm
  refine ⟨⟨(i 0).val / 1000, hN⟩, flush7_3 _, ?_⟩
  rw [mem_blk]
  have f0 : win7_3.index ⟨(i 0).val / 1000, hN⟩ (0 : Fin 2) = (i 0).val / 1000 := (idx_facts ⟨(i 0).val / 1000, hN⟩).2.2.2.2.2.2.1
  have f1 : win7_3.index ⟨(i 0).val / 1000, hN⟩ (1 : Fin 2) = 0 := (idx_facts ⟨(i 0).val / 1000, hN⟩).2.2.2.2.2.2.2
  intro a
  match a with
  | ⟨0, _⟩ => show win7_3.index ⟨(i 0).val / 1000, hN⟩ (0 : Fin 2) * 1000 ≤ (i 0).val ∧ (i 0).val < win7_3.index ⟨(i 0).val / 1000, hN⟩ (0 : Fin 2) * 1000 + 1000; rw [f0]; omega
  | ⟨1, _⟩ => show win7_3.index ⟨(i 0).val / 1000, hN⟩ (1 : Fin 2) * 192 ≤ (i 1).val ∧ (i 1).val < win7_3.index ⟨(i 0).val / 1000, hN⟩ (1 : Fin 2) * 192 + 192; rw [f1]; omega

/-- The output array after the region. -/
theorem final (c : Dev nD) : (dat7 V c).arrAt 3 cfg7.N = avgG (V c main_v77) (V c main_v78) (V c main_v39) :=
  (dat7 V c).arrAt_eq_of_cover 3 _ (fun t _ => flushed_eq V c t) (cover)

end Cert.Region7

end
-- ==== Proof.Layer3.lean ====
/-
  Layer 3 of the idealized kernel: at the segment boundary after its second region the layer's output buffer holds
  hidden layer 3 of the specification — (r + max(A·(x·W) + b, 0)) · ½, which on the extended reals is (r + max(…))/2 of the layer's input —, as a function of the launch contents of
  the arguments; the arguments, and the earlier features a later layer still reads, are unchanged there.
  The boundary's contents are a fold: a host stretch slices this layer's weight and bias, the first region multiplies,
  a host stretch gathers, scales and scatter-adds, the second region adds the bias and clamps and averages.
-/
import proofs.«171734_j42872363549123_1_alg».proof.Proof.Gen.KernelIdeal.Frame
import proofs.«171734_j42872363549123_1_alg».proof.Proof.Gen.ReferenceIdeal
import proofs.«171734_j42872363549123_1_alg».proof.Proof.Spec
import proofs.«171734_j42872363549123_1_alg».proof.Proof.Forms
import proofs.«171734_j42872363549123_1_alg».proof.Proof.MatMul
import proofs.«171734_j42872363549123_1_alg».proof.Proof.Post
import proofs.«171734_j42872363549123_1_alg».proof.Proof.Region6
import proofs.«171734_j42872363549123_1_alg».proof.Proof.Region7
import proofs.«171734_j42872363549123_1_alg».proof.Proof.Invs
import Idealize.ShloMosaic.Lib.StableHlo.Run

set_option maxRecDepth 16384

noncomputable section

namespace Cert.Layer3

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

open Lean in
/-- A buffer that no operation of a host stretch writes keeps its contents across the stretch. -/
macro "kept_by " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

set_option maxHeartbeats 40000000 in
/-- From what the boundary before layer 3 holds to what the boundary after it holds. -/
theorem step (c : Dev nD) (P : Cert.Invs.Inv2 m ρ c) : Cert.Invs.Inv3 m ρ c := by
  have s1_arg0 : W13 m ρ c (Proc.devRef .tc main_arg0) = (m ((c : Thread nD τ).loc main_arg0)) :=
    Eq.trans (by kept_by hostOps6) P.a0
  have s1_arg1 : W13 m ρ c (Proc.devRef .tc main_arg1) = (m ((c : Thread nD τ).loc main_arg1)) :=
    Eq.trans (by kept_by hostOps6) P.a1
  have s1_arg2 : W13 m ρ c (Proc.devRef .tc main_arg2) = (m ((c : Thread nD τ).loc main_arg2)) :=
    Eq.trans (by kept_by hostOps6) P.a2
  have s1_arg3 : W13 m ρ c (Proc.devRef .tc main_arg3) = (m ((c : Thread nD τ).loc main_arg3)) :=
    Eq.trans (by kept_by hostOps6) P.a3
  have s1_arg4 : W13 m ρ c (Proc.devRef .tc main_arg4) = (m ((c : Thread nD τ).loc main_arg4)) :=
    Eq.trans (by kept_by hostOps6) P.a4
  have s1_arg5 : W13 m ρ c (Proc.devRef .tc main_arg5) = (m ((c : Thread nD τ).loc main_arg5)) :=
    Eq.trans (by kept_by hostOps6) P.a5
  have s1_arg6 : W13 m ρ c (Proc.devRef .tc main_arg6) = (m ((c : Thread nD τ).loc main_arg6)) :=
    Eq.trans (by kept_by hostOps6) P.a6
  have s1_arg7 : W13 m ρ c (Proc.devRef .tc main_arg7) = (m ((c : Thread nD τ).loc main_arg7)) :=
    Eq.trans (by kept_by hostOps6) P.a7
  have s1_v59 : W13 m ρ c (Proc.devRef .tc main_v59) = (Cert.Spec.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps6) P.out
  have s1_v39 : W13 m ρ c (Proc.devRef .tc main_v39) = (Cert.Spec.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps6) P.car
  have s1_WM : W13 m ρ c (Proc.devRef .tc main_v61) = Cert.Spec.w3 (m ((c : Thread nD τ).loc main_arg4)) := by
    have e : W13 m ρ c (Proc.devRef .tc main_v61) = Cert.Spec.w3 (W12 m ρ c (Proc.devRef .tc main_arg4)) := by
      show StableHlo.after hostOps6 (W12 m ρ c) (Proc.devRef .tc main_v61) = _
      after_results; rfl
    exact e.trans (congrArg Cert.Spec.w3 P.a4)
  have s1_B1D : W13 m ρ c (Proc.devRef .tc main_v63) = Cert.Spec.b3 (m ((c : Thread nD τ).loc main_arg5)) := by
    have e : W13 m ρ c (Proc.devRef .tc main_v63) = Cert.Spec.b3 (W12 m ρ c (Proc.devRef .tc main_arg5)) := by
      show StableHlo.after hostOps6 (W12 m ρ c) (Proc.devRef .tc main_v63) = _
      after_results; rfl
    exact e.trans (congrArg Cert.Spec.b3 P.a5)
  have s2_arg0 : W14 m ρ c (Proc.devRef .tc main_arg0) = (m ((c : Thread nD τ).loc main_arg0)) :=
    Eq.trans (W14_of_ne m ρ c main_arg0 (by decide)) s1_arg0
  have s2_arg1 : W14 m ρ c (Proc.devRef .tc main_arg1) = (m ((c : Thread nD τ).loc main_arg1)) :=
    Eq.trans (W14_of_ne m ρ c main_arg1 (by decide)) s1_arg1
  have s2_arg2 : W14 m ρ c (Proc.devRef .tc main_arg2) = (m ((c : Thread nD τ).loc main_arg2)) :=
    Eq.trans (W14_of_ne m ρ c main_arg2 (by decide)) s1_arg2
  have s2_arg3 : W14 m ρ c (Proc.devRef .tc main_arg3) = (m ((c : Thread nD τ).loc main_arg3)) :=
    Eq.trans (W14_of_ne m ρ c main_arg3 (by decide)) s1_arg3
  have s2_arg4 : W14 m ρ c (Proc.devRef .tc main_arg4) = (m ((c : Thread nD τ).loc main_arg4)) :=
    Eq.trans (W14_of_ne m ρ c main_arg4 (by decide)) s1_arg4
  have s2_arg5 : W14 m ρ c (Proc.devRef .tc main_arg5) = (m ((c : Thread nD τ).loc main_arg5)) :=
    Eq.trans (W14_of_ne m ρ c main_arg5 (by decide)) s1_arg5
  have s2_arg6 : W14 m ρ c (Proc.devRef .tc main_arg6) = (m ((c : Thread nD τ).loc main_arg6)) :=
    Eq.trans (W14_of_ne m ρ c main_arg6 (by decide)) s1_arg6
  have s2_arg7 : W14 m ρ c (Proc.devRef .tc main_arg7) = (m ((c : Thread nD τ).loc main_arg7)) :=
    Eq.trans (W14_of_ne m ρ c main_arg7 (by decide)) s1_arg7
  have s2_v59 : W14 m ρ c (Proc.devRef .tc main_v59) = (Cert.Spec.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans ((W14_arr m ρ c 0).trans (((dat6 (V13 m ρ) c).arrAt_in 0 rfl _).trans (A_eq6 (V13 m ρ) c 0))) s1_v59
  have s2_v39 : W14 m ρ c (Proc.devRef .tc main_v39) = (Cert.Spec.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (W14_of_ne m ρ c main_v39 (by decide)) s1_v39
  have s2_v63 : W14 m ρ c (Proc.devRef .tc main_v63) = (Cert.Spec.b3 (m ((c : Thread nD τ).loc main_arg5))) :=
    Eq.trans (W14_of_ne m ρ c main_v63 (by decide)) s1_B1D
  have s2_SUP : W14 m ρ c (Proc.devRef .tc main_v64) = Host.dotGeneral (F := Ideal) (φ₁ := .f32) (φ₂ := .f32) Cert.ReferenceIdeal.dot_S25000x192_S192x192_S25000x192_1_0_0_1_n_n none (Cert.Spec.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w3 (m ((c : Thread nD τ).loc main_arg4))) := by
    refine (W14_arr m ρ c 2).trans ?_
    refine (Cert.Region6.final (V13 m ρ) c).trans ?_
    show Cert.Forms.mmG (W13 m ρ c (Proc.devRef .tc main_v59)) (W13 m ρ c (Proc.devRef .tc main_v61)) = _
    rw [s1_v59, s1_WM]
    exact (Cert.MatMul.hostDot_eq _ _).symm
  have s3_arg0 : W15 m ρ c (Proc.devRef .tc main_arg0) = (m ((c : Thread nD τ).loc main_arg0)) :=
    Eq.trans (by kept_by hostOps7) s2_arg0
  have s3_arg1 : W15 m ρ c (Proc.devRef .tc main_arg1) = (m ((c : Thread nD τ).loc main_arg1)) :=
    Eq.trans (by kept_by hostOps7) s2_arg1
  have s3_arg2 : W15 m ρ c (Proc.devRef .tc main_arg2) = (m ((c : Thread nD τ).loc main_arg2)) :=
    Eq.trans (by kept_by hostOps7) s2_arg2
  have s3_arg3 : W15 m ρ c (Proc.devRef .tc main_arg3) = (m ((c : Thread nD τ).loc main_arg3)) :=
    Eq.trans (by kept_by hostOps7) s2_arg3
  have s3_arg4 : W15 m ρ c (Proc.devRef .tc main_arg4) = (m ((c : Thread nD τ).loc main_arg4)) :=
    Eq.trans (by kept_by hostOps7) s2_arg4
  have s3_arg5 : W15 m ρ c (Proc.devRef .tc main_arg5) = (m ((c : Thread nD τ).loc main_arg5)) :=
    Eq.trans (by kept_by hostOps7) s2_arg5
  have s3_arg6 : W15 m ρ c (Proc.devRef .tc main_arg6) = (m ((c : Thread nD τ).loc main_arg6)) :=
    Eq.trans (by kept_by hostOps7) s2_arg6
  have s3_arg7 : W15 m ρ c (Proc.devRef .tc main_arg7) = (m ((c : Thread nD τ).loc main_arg7)) :=
    Eq.trans (by kept_by hostOps7) s2_arg7
  have s3_v59 : W15 m ρ c (Proc.devRef .tc main_v59) = (Cert.Spec.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps7) s2_v59
  have s3_v39 : W15 m ρ c (Proc.devRef .tc main_v39) = (Cert.Spec.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps7) s2_v39
  have s3_AGG : W15 m ρ c (Proc.devRef .tc main_v77) = Cert.Spec.agg (m ((c : Thread nD τ).loc main_arg1)) (m ((c : Thread nD τ).loc main_arg2)) (m ((c : Thread nD τ).loc main_arg3)) (Host.dotGeneral (F := Ideal) (φ₁ := .f32) (φ₂ := .f32) Cert.ReferenceIdeal.dot_S25000x192_S192x192_S25000x192_1_0_0_1_n_n none (Cert.Spec.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w3 (m ((c : Thread nD τ).loc main_arg4)))) := by
    have e : W15 m ρ c (Proc.devRef .tc main_v77) = Cert.Spec.agg (W14 m ρ c (Proc.devRef .tc main_arg1)) (W14 m ρ c (Proc.devRef .tc main_arg2)) (W14 m ρ c (Proc.devRef .tc main_arg3)) (W14 m ρ c (Proc.devRef .tc main_v64)) := by
      show StableHlo.after hostOps7 (W14 m ρ c) (Proc.devRef .tc main_v77) = _
      after_results
      exact Cert.Post.agg_eq _ _ _ _
    rw [e, s2_arg1, s2_arg2, s2_arg3, s2_SUP]
  have s3_B2 : W15 m ρ c (Proc.devRef .tc main_v78) = shapeCast S1x192 (Cert.Spec.b3 (m ((c : Thread nD τ).loc main_arg5))) Cert.KernelIdeal.Facts₀.shapeCasts_S192_S1x192 := by
    have e : W15 m ρ c (Proc.devRef .tc main_v78) = shapeCast S1x192 (W14 m ρ c (Proc.devRef .tc main_v63)) Cert.KernelIdeal.Facts₀.shapeCasts_S192_S1x192 := by
      show StableHlo.after hostOps7 (W14 m ρ c) (Proc.devRef .tc main_v78) = _
      after_results; rfl
    rw [e, s2_v63]
  have s4_arg0 : W16 m ρ c (Proc.devRef .tc main_arg0) = (m ((c : Thread nD τ).loc main_arg0)) :=
    Eq.trans (W16_of_ne m ρ c main_arg0 (by decide)) s3_arg0
  have s4_arg1 : W16 m ρ c (Proc.devRef .tc main_arg1) = (m ((c : Thread nD τ).loc main_arg1)) :=
    Eq.trans (W16_of_ne m ρ c main_arg1 (by decide)) s3_arg1
  have s4_arg2 : W16 m ρ c (Proc.devRef .tc main_arg2) = (m ((c : Thread nD τ).loc main_arg2)) :=
    Eq.trans (W16_of_ne m ρ c main_arg2 (by decide)) s3_arg2
  have s4_arg3 : W16 m ρ c (Proc.devRef .tc main_arg3) = (m ((c : Thread nD τ).loc main_arg3)) :=
    Eq.trans (W16_of_ne m ρ c main_arg3 (by decide)) s3_arg3
  have s4_arg4 : W16 m ρ c (Proc.devRef .tc main_arg4) = (m ((c : Thread nD τ).loc main_arg4)) :=
    Eq.trans (W16_of_ne m ρ c main_arg4 (by decide)) s3_arg4
  have s4_arg5 : W16 m ρ c (Proc.devRef .tc main_arg5) = (m ((c : Thread nD τ).loc main_arg5)) :=
    Eq.trans (W16_of_ne m ρ c main_arg5 (by decide)) s3_arg5
  have s4_arg6 : W16 m ρ c (Proc.devRef .tc main_arg6) = (m ((c : Thread nD τ).loc main_arg6)) :=
    Eq.trans (W16_of_ne m ρ c main_arg6 (by decide)) s3_arg6
  have s4_arg7 : W16 m ρ c (Proc.devRef .tc main_arg7) = (m ((c : Thread nD τ).loc main_arg7)) :=
    Eq.trans (W16_of_ne m ρ c main_arg7 (by decide)) s3_arg7
  have s4_OUT : W16 m ρ c (Proc.devRef .tc main_v79) = (Cert.Spec.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    refine (W16_arr m ρ c 3).trans ?_
    refine (Cert.Region7.final (V15 m ρ) c).trans ?_
    show Cert.Forms.avgG (W15 m ρ c (Proc.devRef .tc main_v77)) (W15 m ρ c (Proc.devRef .tc main_v78)) (W15 m ρ c (Proc.devRef .tc main_v39)) = _
    rw [s3_AGG, s3_B2, s3_v39]
    refine (Cert.Post.avgG_eq _ _ _).trans ?_
    rfl
  exact ⟨s4_OUT, s4_arg0, s4_arg1, s4_arg2, s4_arg3, s4_arg4, s4_arg5, s4_arg6, s4_arg7⟩

end Cert.Layer3

end
-- ==== Proof.Region8.lean ====
/-
  Kernel region 8 as a function of whole arrays: after the region, its output array is, index by index,
  the matrix product of the 25000 × 192 array in window 0 with the 192 × 192 matrix in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.MatMul
import Idealize.ShloMosaic.Lib.Pipeline.Value

set_option maxRecDepth 16384

noncomputable section

namespace Cert.Region8

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg8.N, win8_0.index t (0 : Fin 2) = t.val
    ∧ win8_0.index t (1 : Fin 2) = 0
    ∧ win8_1.index t (0 : Fin 2) = 0
    ∧ win8_1.index t (1 : Fin 2) = 0
    ∧ win8_2.index t (0 : Fin 2) = t.val
    ∧ win8_2.index t (1 : Fin 2) = 0 :=
  (by decide +kernel : ∀ t : Fin grid8.N, _)

/-- What point t writes back is block t of the whole-array function. -/
theorem flushed_eq (c : Dev nD) (t : Fin cfg8.N) :
    (dat8 V c).flushed 2 t = ((cfg8.win 2).blk t).view.read (Elt Ideal) (mmG (V c main_v79) (V c main_v81)) := by
  show (cfg8.win 2).cut (grid8.coords t) ((dat8 V c).after 2 t) = _
  rw [after8_2]
  unfold out8_2
  rw [View.canon_unit_zero hz]
  simp only [View.ld_unit_zero (S := S1000x192) hz, View.ld_unit_zero (S := S192x192) hz]
  obtain ⟨e00, e01, e10, e11, e20, e21⟩ := idx_facts t
  funext j
  refine (Cert.MatMul.pay8_apply _ _ j).trans ?_
  refine Eq.trans ?_ (mmG_apply _ _ _).symm
  refine Finset.sum_congr rfl fun q _ => ?_
  have hl : iblk8 V c 0 t (Cert.MatMul.blkRowK ⟨(j 0).val, (j 0).isLt⟩ q) = V c main_v79 (rowK (r192 (((cfg8.win 2).blk t).view.emb j)) q) :=
    congrArg (V c main_v79) (a₁ := ((cfg8.win 0).blk t).view.emb (Cert.MatMul.blkRowK ⟨(j 0).val, (j 0).isLt⟩ q)) (a₂ := rowK (r192 (((cfg8.win 2).blk t).view.emb j)) q) (funext fun a => Fin.ext (by
      match a with
      | ⟨0, _⟩ => show win8_0.index t (0 : Fin 2) * 1000 + 1 * (j 0).val = win8_2.index t (0 : Fin 2) * 1000 + 1 * (j 0).val; omega
      | ⟨1, _⟩ => show win8_0.index t (1 : Fin 2) * 192 + 1 * q.val = q.val; omega))
  have hr : iblk8 V c 1 t (kCol q ⟨(j 1).val, (j 1).isLt⟩) = V c main_v81 (kCol q (c192 (((cfg8.win 2).blk t).view.emb j))) :=
    congrArg (V c main_v81) (a₁ := ((cfg8.win 1).blk t).view.emb (kCol q ⟨(j 1).val, (j 1).isLt⟩)) (a₂ := kCol q (c192 (((cfg8.win 2).blk t).view.emb j))) (funext fun a => Fin.ext (by
      match a with
      | ⟨0, _⟩ => show win8_1.index t (0 : Fin 2) * 192 + 1 * q.val = q.val; omega
      | ⟨1, _⟩ => show win8_1.index t (1 : Fin 2) * 192 + 1 * (j 1).val = win8_2.index t (1 : Fin 2) * 192 + 1 * (j 1).val; omega))
  exact congrArg₂ (· * ·) hl hr

/-- An index is in point t's block iff each coordinate is in the block's range on its axis. -/
theorem mem_blk (t : Fin cfg8.N) (i : S25000x192.Idx) :
    i ∈ ((cfg8.win 2).blk t).view.set ↔ ∀ a : Fin 2, win8_2.index t a * S1000x192.size a ≤ (i a).val ∧ (i a).val < win8_2.index t a * S1000x192.size a + S1000x192.size a := by
  show i ∈ ((View.whole main_v84).slice (win8_2.rect t)).set ↔ _
  rw [View.set_slice_whole, Rect.mem_set_unit]
  exact Iff.rfl

/-- Row r of the output lies in the block of point r / 1000. -/
theorem cover (i : S25000x192.Idx) : ∃ t : Fin cfg8.N, (cfg8.win 2).flush t = true ∧ i ∈ ((cfg8.win 2).blk t).view.set := by
  have hi0 : (i 0).val < 25000 := (i 0).isLt
  have hi1 : (i 1).val < 192 := (i 1).isLt
  have hN : (i 0).val / 1000 < cfg8.N := lt_of_lt_of_eq (by omega : (i 0).val / 1000 < 25) N_8.symm
  refine ⟨⟨(i 0).val / 1000, hN⟩, flush8_2 _, ?_⟩
  rw [mem_blk]
  have f0 : win8_2.index ⟨(i 0).val / 1000, hN⟩ (0 : Fin 2) = (i 0).val / 1000 := (idx_facts ⟨(i 0).val / 1000, hN⟩).2.2.2.2.1
  have f1 : win8_2.index ⟨(i 0).val / 1000, hN⟩ (1 : Fin 2) = 0 := (idx_facts ⟨(i 0).val / 1000, hN⟩).2.2.2.2.2
  intro a
  match a with
  | ⟨0, _⟩ => show win8_2.index ⟨(i 0).val / 1000, hN⟩ (0 : Fin 2) * 1000 ≤ (i 0).val ∧ (i 0).val < win8_2.index ⟨(i 0).val / 1000, hN⟩ (0 : Fin 2) * 1000 + 1000; rw [f0]; omega
  | ⟨1, _⟩ => show win8_2.index ⟨(i 0).val / 1000, hN⟩ (1 : Fin 2) * 192 ≤ (i 1).val ∧ (i 1).val < win8_2.index ⟨(i 0).val / 1000, hN⟩ (1 : Fin 2) * 192 + 192; rw [f1]; omega

/-- The output array after the region. -/
theorem final (c : Dev nD) : (dat8 V c).arrAt 2 cfg8.N = mmG (V c main_v79) (V c main_v81) :=
  (dat8 V c).arrAt_eq_of_cover 2 _ (fun t _ => flushed_eq V c t) (cover)

end Cert.Region8

end
-- ==== Proof.Region9.lean ====
/-
  Kernel region 9 as a function of whole arrays: after the region, its output array is, index by index,
  max(a + b, 0) of the aggregate a in window 0 and the bias row b in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.Post
import Idealize.ShloMosaic.Lib.Pipeline.Value

set_option maxRecDepth 16384

noncomputable section

namespace Cert.Region9

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg9.N, win9_0.index t (0 : Fin 2) = t.val
    ∧ win9_0.index t (1 : Fin 2) = 0
    ∧ win9_1.index t (0 : Fin 2) = 0
    ∧ win9_1.index t (1 : Fin 2) = 0
    ∧ win9_2.index t (0 : Fin 2) = t.val
    ∧ win9_2.index t (1 : Fin 2) = 0 :=
  (by decide +kernel : ∀ t : Fin grid9.N, _)

/-- What point t writes back is block t of the whole-array function. -/
theorem flushed_eq (c : Dev nD) (t : Fin cfg9.N) :
    (dat9 V c).flushed 2 t = ((cfg9.win 2).blk t).view.read (Elt Ideal) (reluG (V c main_v97) (V c main_v98)) := by
  show (cfg9.win 2).cut (grid9.coords t) ((dat9 V c).after 2 t) = _
  rw [after9_2]
  unfold out9_2
  rw [View.canon_unit_zero hz]
  simp only [View.ld_unit_zero (S := S1000x192) hz, View.ld_unit_zero (S := S1x192) hz]
  obtain ⟨e00, e01, e10, e11, e20, e21⟩ := idx_facts t
  funext j
  refine (Cert.Post.pay9_apply _ _ j).trans ?_
  refine Eq.trans ?_ (reluG_apply _ _ _).symm
  have ha : iblk9 V c 0 t j = V c main_v97 (((cfg9.win 2).blk t).view.emb j) :=
    congrArg (V c main_v97) (a₁ := ((cfg9.win 0).blk t).view.emb (j)) (a₂ := (((cfg9.win 2).blk t).view.emb j)) (funext fun a => Fin.ext (by
      match a with
      | ⟨0, _⟩ => show win9_0.index t (0 : Fin 2) * 1000 + 1 * (j 0).val = win9_2.index t (0 : Fin 2) * 1000 + 1 * (j 0).val; omega
      | ⟨1, _⟩ => show win9_0.index t (1 : Fin 2) * 192 + 1 * (j 1).val = win9_2.index t (1 : Fin 2) * 192 + 1 * (j 1).val; omega))
  have hb : iblk9 V c 1 t (biasAt ⟨(j 1).val, (j 1).isLt⟩) = V c main_v98 (biasAt (c192 (((cfg9.win 2).blk t).view.emb j))) :=
    congrArg (V c main_v98) (a₁ := ((cfg9.win 1).blk t).view.emb (biasAt ⟨(j 1).val, (j 1).isLt⟩)) (a₂ := biasAt (c192 (((cfg9.win 2).blk t).view.emb j))) (funext fun a => Fin.ext (by
      match a with
      | ⟨0, _⟩ => show win9_1.index t (0 : Fin 2) * 1 + 1 * 0 = 0; omega
      | ⟨1, _⟩ => show win9_1.index t (1 : Fin 2) * 192 + 1 * (j 1).val = win9_2.index t (1 : Fin 2) * 192 + 1 * (j 1).val; omega))

  rw [ha, hb]

/-- An index is in point t's block iff each coordinate is in the block's range on its axis. -/
theorem mem_blk (t : Fin cfg9.N) (i : S25000x192.Idx) :
    i ∈ ((cfg9.win 2).blk t).view.set ↔ ∀ a : Fin 2, win9_2.index t a * S1000x192.size a ≤ (i a).val ∧ (i a).val < win9_2.index t a * S1000x192.size a + S1000x192.size a := by
  show i ∈ ((View.whole main_v99).slice (win9_2.rect t)).set ↔ _
  rw [View.set_slice_whole, Rect.mem_set_unit]
  exact Iff.rfl

/-- Row r of the output lies in the block of point r / 1000. -/
theorem cover (i : S25000x192.Idx) : ∃ t : Fin cfg9.N, (cfg9.win 2).flush t = true ∧ i ∈ ((cfg9.win 2).blk t).view.set := by
  have hi0 : (i 0).val < 25000 := (i 0).isLt
  have hi1 : (i 1).val < 192 := (i 1).isLt
  have hN : (i 0).val / 1000 < cfg9.N := lt_of_lt_of_eq (by omega : (i 0).val / 1000 < 25) N_9.symm
  refine ⟨⟨(i 0).val / 1000, hN⟩, flush9_2 _, ?_⟩
  rw [mem_blk]
  have f0 : win9_2.index ⟨(i 0).val / 1000, hN⟩ (0 : Fin 2) = (i 0).val / 1000 := (idx_facts ⟨(i 0).val / 1000, hN⟩).2.2.2.2.1
  have f1 : win9_2.index ⟨(i 0).val / 1000, hN⟩ (1 : Fin 2) = 0 := (idx_facts ⟨(i 0).val / 1000, hN⟩).2.2.2.2.2
  intro a
  match a with
  | ⟨0, _⟩ => show win9_2.index ⟨(i 0).val / 1000, hN⟩ (0 : Fin 2) * 1000 ≤ (i 0).val ∧ (i 0).val < win9_2.index ⟨(i 0).val / 1000, hN⟩ (0 : Fin 2) * 1000 + 1000; rw [f0]; omega
  | ⟨1, _⟩ => show win9_2.index ⟨(i 0).val / 1000, hN⟩ (1 : Fin 2) * 192 ≤ (i 1).val ∧ (i 1).val < win9_2.index ⟨(i 0).val / 1000, hN⟩ (1 : Fin 2) * 192 + 192; rw [f1]; omega

/-- The output array after the region. -/
theorem final (c : Dev nD) : (dat9 V c).arrAt 2 cfg9.N = reluG (V c main_v97) (V c main_v98) :=
  (dat9 V c).arrAt_eq_of_cover 2 _ (fun t _ => flushed_eq V c t) (cover)

end Cert.Region9

end
-- ==== Proof.Layer4.lean ====
/-
  Layer 4 of the idealized kernel: at the segment boundary after its second region the layer's output buffer holds
  hidden layer 4 of the specification — max(A·(x·W) + b, 0) of the layer's input —, as a function of the launch contents of
  the arguments; the arguments, and the earlier features a later layer still reads, are unchanged there.
  The boundary's contents are a fold: a host stretch slices this layer's weight and bias, the first region multiplies,
  a host stretch gathers, scales and scatter-adds, the second region adds the bias and clamps.
-/
import proofs.«171734_j42872363549123_1_alg».proof.Proof.Gen.KernelIdeal.Frame
import proofs.«171734_j42872363549123_1_alg».proof.Proof.Gen.ReferenceIdeal
import proofs.«171734_j42872363549123_1_alg».proof.Proof.Spec
import proofs.«171734_j42872363549123_1_alg».proof.Proof.Forms
import proofs.«171734_j42872363549123_1_alg».proof.Proof.MatMul
import proofs.«171734_j42872363549123_1_alg».proof.Proof.Post
import proofs.«171734_j42872363549123_1_alg».proof.Proof.Region8
import proofs.«171734_j42872363549123_1_alg».proof.Proof.Region9
import proofs.«171734_j42872363549123_1_alg».proof.Proof.Invs
import Idealize.ShloMosaic.Lib.StableHlo.Run

set_option maxRecDepth 16384

noncomputable section

namespace Cert.Layer4

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

open Lean in
/-- A buffer that no operation of a host stretch writes keeps its contents across the stretch. -/
macro "kept_by " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

set_option maxHeartbeats 40000000 in
/-- From what the boundary before layer 4 holds to what the boundary after it holds. -/
theorem step (c : Dev nD) (P : Cert.Invs.Inv3 m ρ c) : Cert.Invs.Inv4 m ρ c := by
  have s1_arg0 : W17 m ρ c (Proc.devRef .tc main_arg0) = (m ((c : Thread nD τ).loc main_arg0)) :=
    Eq.trans (by kept_by hostOps8) P.a0
  have s1_arg1 : W17 m ρ c (Proc.devRef .tc main_arg1) = (m ((c : Thread nD τ).loc main_arg1)) :=
    Eq.trans (by kept_by hostOps8) P.a1
  have s1_arg2 : W17 m ρ c (Proc.devRef .tc main_arg2) = (m ((c : Thread nD τ).loc main_arg2)) :=
    Eq.trans (by kept_by hostOps8) P.a2
  have s1_arg3 : W17 m ρ c (Proc.devRef .tc main_arg3) = (m ((c : Thread nD τ).loc main_arg3)) :=
    Eq.trans (by kept_by hostOps8) P.a3
  have s1_arg4 : W17 m ρ c (Proc.devRef .tc main_arg4) = (m ((c : Thread nD τ).loc main_arg4)) :=
    Eq.trans (by kept_by hostOps8) P.a4
  have s1_arg5 : W17 m ρ c (Proc.devRef .tc main_arg5) = (m ((c : Thread nD τ).loc main_arg5)) :=
    Eq.trans (by kept_by hostOps8) P.a5
  have s1_arg6 : W17 m ρ c (Proc.devRef .tc main_arg6) = (m ((c : Thread nD τ).loc main_arg6)) :=
    Eq.trans (by kept_by hostOps8) P.a6
  have s1_arg7 : W17 m ρ c (Proc.devRef .tc main_arg7) = (m ((c : Thread nD τ).loc main_arg7)) :=
    Eq.trans (by kept_by hostOps8) P.a7
  have s1_v79 : W17 m ρ c (Proc.devRef .tc main_v79) = (Cert.Spec.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps8) P.out
  have s1_WM : W17 m ρ c (Proc.devRef .tc main_v81) = Cert.Spec.w4 (m ((c : Thread nD τ).loc main_arg4)) := by
    have e : W17 m ρ c (Proc.devRef .tc main_v81) = Cert.Spec.w4 (W16 m ρ c (Proc.devRef .tc main_arg4)) := by
      show StableHlo.after hostOps8 (W16 m ρ c) (Proc.devRef .tc main_v81) = _
      after_results; rfl
    exact e.trans (congrArg Cert.Spec.w4 P.a4)
  have s1_B1D : W17 m ρ c (Proc.devRef .tc main_v83) = Cert.Spec.b4 (m ((c : Thread nD τ).loc main_arg5)) := by
    have e : W17 m ρ c (Proc.devRef .tc main_v83) = Cert.Spec.b4 (W16 m ρ c (Proc.devRef .tc main_arg5)) := by
      show StableHlo.after hostOps8 (W16 m ρ c) (Proc.devRef .tc main_v83) = _
      after_results; rfl
    exact e.trans (congrArg Cert.Spec.b4 P.a5)
  have s2_arg0 : W18 m ρ c (Proc.devRef .tc main_arg0) = (m ((c : Thread nD τ).loc main_arg0)) :=
    Eq.trans (W18_of_ne m ρ c main_arg0 (by decide)) s1_arg0
  have s2_arg1 : W18 m ρ c (Proc.devRef .tc main_arg1) = (m ((c : Thread nD τ).loc main_arg1)) :=
    Eq.trans (W18_of_ne m ρ c main_arg1 (by decide)) s1_arg1
  have s2_arg2 : W18 m ρ c (Proc.devRef .tc main_arg2) = (m ((c : Thread nD τ).loc main_arg2)) :=
    Eq.trans (W18_of_ne m ρ c main_arg2 (by decide)) s1_arg2
  have s2_arg3 : W18 m ρ c (Proc.devRef .tc main_arg3) = (m ((c : Thread nD τ).loc main_arg3)) :=
    Eq.trans (W18_of_ne m ρ c main_arg3 (by decide)) s1_arg3
  have s2_arg4 : W18 m ρ c (Proc.devRef .tc main_arg4) = (m ((c : Thread nD τ).loc main_arg4)) :=
    Eq.trans (W18_of_ne m ρ c main_arg4 (by decide)) s1_arg4
  have s2_arg5 : W18 m ρ c (Proc.devRef .tc main_arg5) = (m ((c : Thread nD τ).loc main_arg5)) :=
    Eq.trans (W18_of_ne m ρ c main_arg5 (by decide)) s1_arg5
  have s2_arg6 : W18 m ρ c (Proc.devRef .tc main_arg6) = (m ((c : Thread nD τ).loc main_arg6)) :=
    Eq.trans (W18_of_ne m ρ c main_arg6 (by decide)) s1_arg6
  have s2_arg7 : W18 m ρ c (Proc.devRef .tc main_arg7) = (m ((c : Thread nD τ).loc main_arg7)) :=
    Eq.trans (W18_of_ne m ρ c main_arg7 (by decide)) s1_arg7
  have s2_v79 : W18 m ρ c (Proc.devRef .tc main_v79) = (Cert.Spec.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans ((W18_arr m ρ c 0).trans (((dat8 (V17 m ρ) c).arrAt_in 0 rfl _).trans (A_eq8 (V17 m ρ) c 0))) s1_v79
  have s2_v83 : W18 m ρ c (Proc.devRef .tc main_v83) = (Cert.Spec.b4 (m ((c : Thread nD τ).loc main_arg5))) :=
    Eq.trans (W18_of_ne m ρ c main_v83 (by decide)) s1_B1D
  have s2_SUP : W18 m ρ c (Proc.devRef .tc main_v84) = Host.dotGeneral (F := Ideal) (φ₁ := .f32) (φ₂ := .f32) Cert.ReferenceIdeal.dot_S25000x192_S192x192_S25000x192_1_0_0_1_n_n none (Cert.Spec.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w4 (m ((c : Thread nD τ).loc main_arg4))) := by
    refine (W18_arr m ρ c 2).trans ?_
    refine (Cert.Region8.final (V17 m ρ) c).trans ?_
    show Cert.Forms.mmG (W17 m ρ c (Proc.devRef .tc main_v79)) (W17 m ρ c (Proc.devRef .tc main_v81)) = _
    rw [s1_v79, s1_WM]
    exact (Cert.MatMul.hostDot_eq _ _).symm
  have s3_arg0 : W19 m ρ c (Proc.devRef .tc main_arg0) = (m ((c : Thread nD τ).loc main_arg0)) :=
    Eq.trans (by kept_by hostOps9) s2_arg0
  have s3_arg1 : W19 m ρ c (Proc.devRef .tc main_arg1) = (m ((c : Thread nD τ).loc main_arg1)) :=
    Eq.trans (by kept_by hostOps9) s2_arg1
  have s3_arg2 : W19 m ρ c (Proc.devRef .tc main_arg2) = (m ((c : Thread nD τ).loc main_arg2)) :=
    Eq.trans (by kept_by hostOps9) s2_arg2
  have s3_arg3 : W19 m ρ c (Proc.devRef .tc main_arg3) = (m ((c : Thread nD τ).loc main_arg3)) :=
    Eq.trans (by kept_by hostOps9) s2_arg3
  have s3_arg4 : W19 m ρ c (Proc.devRef .tc main_arg4) = (m ((c : Thread nD τ).loc main_arg4)) :=
    Eq.trans (by kept_by hostOps9) s2_arg4
  have s3_arg5 : W19 m ρ c (Proc.devRef .tc main_arg5) = (m ((c : Thread nD τ).loc main_arg5)) :=
    Eq.trans (by kept_by hostOps9) s2_arg5
  have s3_arg6 : W19 m ρ c (Proc.devRef .tc main_arg6) = (m ((c : Thread nD τ).loc main_arg6)) :=
    Eq.trans (by kept_by hostOps9) s2_arg6
  have s3_arg7 : W19 m ρ c (Proc.devRef .tc main_arg7) = (m ((c : Thread nD τ).loc main_arg7)) :=
    Eq.trans (by kept_by hostOps9) s2_arg7
  have s3_v79 : W19 m ρ c (Proc.devRef .tc main_v79) = (Cert.Spec.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps9) s2_v79
  have s3_AGG : W19 m ρ c (Proc.devRef .tc main_v97) = Cert.Spec.agg (m ((c : Thread nD τ).loc main_arg1)) (m ((c : Thread nD τ).loc main_arg2)) (m ((c : Thread nD τ).loc main_arg3)) (Host.dotGeneral (F := Ideal) (φ₁ := .f32) (φ₂ := .f32) Cert.ReferenceIdeal.dot_S25000x192_S192x192_S25000x192_1_0_0_1_n_n none (Cert.Spec.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w4 (m ((c : Thread nD τ).loc main_arg4)))) := by
    have e : W19 m ρ c (Proc.devRef .tc main_v97) = Cert.Spec.agg (W18 m ρ c (Proc.devRef .tc main_arg1)) (W18 m ρ c (Proc.devRef .tc main_arg2)) (W18 m ρ c (Proc.devRef .tc main_arg3)) (W18 m ρ c (Proc.devRef .tc main_v84)) := by
      show StableHlo.after hostOps9 (W18 m ρ c) (Proc.devRef .tc main_v97) = _
      after_results
      exact Cert.Post.agg_eq _ _ _ _
    rw [e, s2_arg1, s2_arg2, s2_arg3, s2_SUP]
  have s3_B2 : W19 m ρ c (Proc.devRef .tc main_v98) = shapeCast S1x192 (Cert.Spec.b4 (m ((c : Thread nD τ).loc main_arg5))) Cert.KernelIdeal.Facts₀.shapeCasts_S192_S1x192 := by
    have e : W19 m ρ c (Proc.devRef .tc main_v98) = shapeCast S1x192 (W18 m ρ c (Proc.devRef .tc main_v83)) Cert.KernelIdeal.Facts₀.shapeCasts_S192_S1x192 := by
      show StableHlo.after hostOps9 (W18 m ρ c) (Proc.devRef .tc main_v98) = _
      after_results; rfl
    rw [e, s2_v83]
  have s4_arg0 : W20 m ρ c (Proc.devRef .tc main_arg0) = (m ((c : Thread nD τ).loc main_arg0)) :=
    Eq.trans (W20_of_ne m ρ c main_arg0 (by decide)) s3_arg0
  have s4_arg1 : W20 m ρ c (Proc.devRef .tc main_arg1) = (m ((c : Thread nD τ).loc main_arg1)) :=
    Eq.trans (W20_of_ne m ρ c main_arg1 (by decide)) s3_arg1
  have s4_arg2 : W20 m ρ c (Proc.devRef .tc main_arg2) = (m ((c : Thread nD τ).loc main_arg2)) :=
    Eq.trans (W20_of_ne m ρ c main_arg2 (by decide)) s3_arg2
  have s4_arg3 : W20 m ρ c (Proc.devRef .tc main_arg3) = (m ((c : Thread nD τ).loc main_arg3)) :=
    Eq.trans (W20_of_ne m ρ c main_arg3 (by decide)) s3_arg3
  have s4_arg4 : W20 m ρ c (Proc.devRef .tc main_arg4) = (m ((c : Thread nD τ).loc main_arg4)) :=
    Eq.trans (W20_of_ne m ρ c main_arg4 (by decide)) s3_arg4
  have s4_arg5 : W20 m ρ c (Proc.devRef .tc main_arg5) = (m ((c : Thread nD τ).loc main_arg5)) :=
    Eq.trans (W20_of_ne m ρ c main_arg5 (by decide)) s3_arg5
  have s4_arg6 : W20 m ρ c (Proc.devRef .tc main_arg6) = (m ((c : Thread nD τ).loc main_arg6)) :=
    Eq.trans (W20_of_ne m ρ c main_arg6 (by decide)) s3_arg6
  have s4_arg7 : W20 m ρ c (Proc.devRef .tc main_arg7) = (m ((c : Thread nD τ).loc main_arg7)) :=
    Eq.trans (W20_of_ne m ρ c main_arg7 (by decide)) s3_arg7
  have s4_v79 : W20 m ρ c (Proc.devRef .tc main_v79) = (Cert.Spec.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (W20_of_ne m ρ c main_v79 (by decide)) s3_v79
  have s4_OUT : W20 m ρ c (Proc.devRef .tc main_v99) = (Cert.Spec.h4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    refine (W20_arr m ρ c 2).trans ?_
    refine (Cert.Region9.final (V19 m ρ) c).trans ?_
    show Cert.Forms.reluG (W19 m ρ c (Proc.devRef .tc main_v97)) (W19 m ρ c (Proc.devRef .tc main_v98)) = _
    rw [s3_AGG, s3_B2]
    refine (Cert.Post.reluG_eq _ _).trans ?_
    rfl
  exact ⟨s4_OUT, s4_v79, s4_arg0, s4_arg1, s4_arg2, s4_arg3, s4_arg4, s4_arg5, s4_arg6, s4_arg7⟩

end Cert.Layer4

end
-- ==== Proof.Region10.lean ====
/-
  Kernel region 10 as a function of whole arrays: after the region, its output array is, index by index,
  the matrix product of the 25000 × 192 array in window 0 with the 192 × 192 matrix in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.MatMul
import Idealize.ShloMosaic.Lib.Pipeline.Value

set_option maxRecDepth 16384

noncomputable section

namespace Cert.Region10

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg10.N, win10_0.index t (0 : Fin 2) = t.val
    ∧ win10_0.index t (1 : Fin 2) = 0
    ∧ win10_1.index t (0 : Fin 2) = 0
    ∧ win10_1.index t (1 : Fin 2) = 0
    ∧ win10_2.index t (0 : Fin 2) = t.val
    ∧ win10_2.index t (1 : Fin 2) = 0 :=
  (by decide +kernel : ∀ t : Fin grid10.N, _)

/-- What point t writes back is block t of the whole-array function. -/
theorem flushed_eq (c : Dev nD) (t : Fin cfg10.N) :
    (dat10 V c).flushed 2 t = ((cfg10.win 2).blk t).view.read (Elt Ideal) (mmG (V c main_v99) (V c main_v101)) := by
  show (cfg10.win 2).cut (grid10.coords t) ((dat10 V c).after 2 t) = _
  rw [after10_2]
  unfold out10_2
  rw [View.canon_unit_zero hz]
  simp only [View.ld_unit_zero (S := S1000x192) hz, View.ld_unit_zero (S := S192x192) hz]
  obtain ⟨e00, e01, e10, e11, e20, e21⟩ := idx_facts t
  funext j
  refine (Cert.MatMul.pay10_apply _ _ j).trans ?_
  refine Eq.trans ?_ (mmG_apply _ _ _).symm
  refine Finset.sum_congr rfl fun q _ => ?_
  have hl : iblk10 V c 0 t (Cert.MatMul.blkRowK ⟨(j 0).val, (j 0).isLt⟩ q) = V c main_v99 (rowK (r192 (((cfg10.win 2).blk t).view.emb j)) q) :=
    congrArg (V c main_v99) (a₁ := ((cfg10.win 0).blk t).view.emb (Cert.MatMul.blkRowK ⟨(j 0).val, (j 0).isLt⟩ q)) (a₂ := rowK (r192 (((cfg10.win 2).blk t).view.emb j)) q) (funext fun a => Fin.ext (by
      match a with
      | ⟨0, _⟩ => show win10_0.index t (0 : Fin 2) * 1000 + 1 * (j 0).val = win10_2.index t (0 : Fin 2) * 1000 + 1 * (j 0).val; omega
      | ⟨1, _⟩ => show win10_0.index t (1 : Fin 2) * 192 + 1 * q.val = q.val; omega))
  have hr : iblk10 V c 1 t (kCol q ⟨(j 1).val, (j 1).isLt⟩) = V c main_v101 (kCol q (c192 (((cfg10.win 2).blk t).view.emb j))) :=
    congrArg (V c main_v101) (a₁ := ((cfg10.win 1).blk t).view.emb (kCol q ⟨(j 1).val, (j 1).isLt⟩)) (a₂ := kCol q (c192 (((cfg10.win 2).blk t).view.emb j))) (funext fun a => Fin.ext (by
      match a with
      | ⟨0, _⟩ => show win10_1.index t (0 : Fin 2) * 192 + 1 * q.val = q.val; omega
      | ⟨1, _⟩ => show win10_1.index t (1 : Fin 2) * 192 + 1 * (j 1).val = win10_2.index t (1 : Fin 2) * 192 + 1 * (j 1).val; omega))
  exact congrArg₂ (· * ·) hl hr

/-- An index is in point t's block iff each coordinate is in the block's range on its axis. -/
theorem mem_blk (t : Fin cfg10.N) (i : S25000x192.Idx) :
    i ∈ ((cfg10.win 2).blk t).view.set ↔ ∀ a : Fin 2, win10_2.index t a * S1000x192.size a ≤ (i a).val ∧ (i a).val < win10_2.index t a * S1000x192.size a + S1000x192.size a := by
  show i ∈ ((View.whole main_v104).slice (win10_2.rect t)).set ↔ _
  rw [View.set_slice_whole, Rect.mem_set_unit]
  exact Iff.rfl

/-- Row r of the output lies in the block of point r / 1000. -/
theorem cover (i : S25000x192.Idx) : ∃ t : Fin cfg10.N, (cfg10.win 2).flush t = true ∧ i ∈ ((cfg10.win 2).blk t).view.set := by
  have hi0 : (i 0).val < 25000 := (i 0).isLt
  have hi1 : (i 1).val < 192 := (i 1).isLt
  have hN : (i 0).val / 1000 < cfg10.N := lt_of_lt_of_eq (by omega : (i 0).val / 1000 < 25) N_10.symm
  refine ⟨⟨(i 0).val / 1000, hN⟩, flush10_2 _, ?_⟩
  rw [mem_blk]
  have f0 : win10_2.index ⟨(i 0).val / 1000, hN⟩ (0 : Fin 2) = (i 0).val / 1000 := (idx_facts ⟨(i 0).val / 1000, hN⟩).2.2.2.2.1
  have f1 : win10_2.index ⟨(i 0).val / 1000, hN⟩ (1 : Fin 2) = 0 := (idx_facts ⟨(i 0).val / 1000, hN⟩).2.2.2.2.2
  intro a
  match a with
  | ⟨0, _⟩ => show win10_2.index ⟨(i 0).val / 1000, hN⟩ (0 : Fin 2) * 1000 ≤ (i 0).val ∧ (i 0).val < win10_2.index ⟨(i 0).val / 1000, hN⟩ (0 : Fin 2) * 1000 + 1000; rw [f0]; omega
  | ⟨1, _⟩ => show win10_2.index ⟨(i 0).val / 1000, hN⟩ (1 : Fin 2) * 192 ≤ (i 1).val ∧ (i 1).val < win10_2.index ⟨(i 0).val / 1000, hN⟩ (1 : Fin 2) * 192 + 192; rw [f1]; omega

/-- The output array after the region. -/
theorem final (c : Dev nD) : (dat10 V c).arrAt 2 cfg10.N = mmG (V c main_v99) (V c main_v101) :=
  (dat10 V c).arrAt_eq_of_cover 2 _ (fun t _ => flushed_eq V c t) (cover)

end Cert.Region10

end
-- ==== Proof.Region11.lean ====
/-
  Kernel region 11 as a function of whole arrays: after the region, its output array is, index by index,
  (r + max(a + b, 0)) · ½ of the aggregate a in window 0, the bias row b in window 1 and the residual r in window 2, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.Post
import Idealize.ShloMosaic.Lib.Pipeline.Value

set_option maxRecDepth 16384

noncomputable section

namespace Cert.Region11

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg11.N, win11_0.index t (0 : Fin 2) = t.val
    ∧ win11_0.index t (1 : Fin 2) = 0
    ∧ win11_1.index t (0 : Fin 2) = 0
    ∧ win11_1.index t (1 : Fin 2) = 0
    ∧ win11_2.index t (0 : Fin 2) = t.val
    ∧ win11_2.index t (1 : Fin 2) = 0
    ∧ win11_3.index t (0 : Fin 2) = t.val
    ∧ win11_3.index t (1 : Fin 2) = 0 :=
  (by decide +kernel : ∀ t : Fin grid11.N, _)

/-- What point t writes back is block t of the whole-array function. -/
theorem flushed_eq (c : Dev nD) (t : Fin cfg11.N) :
    (dat11 V c).flushed 3 t = ((cfg11.win 3).blk t).view.read (Elt Ideal) (avgG (V c main_v117) (V c main_v118) (V c main_v79)) := by
  show (cfg11.win 3).cut (grid11.coords t) ((dat11 V c).after 3 t) = _
  rw [after11_3]
  unfold out11_3
  rw [View.canon_unit_zero hz]
  simp only [View.ld_unit_zero (S := S1000x192) hz, View.ld_unit_zero (S := S1x192) hz]
  obtain ⟨e00, e01, e10, e11, e20, e21, e30, e31⟩ := idx_facts t
  funext j
  refine (Cert.Post.pay11_apply _ _ _ j).trans ?_
  refine Eq.trans ?_ (avgG_apply _ _ _ _).symm
  have ha : iblk11 V c 0 t j = V c main_v117 (((cfg11.win 3).blk t).view.emb j) :=
    congrArg (V c main_v117) (a₁ := ((cfg11.win 0).blk t).view.emb (j)) (a₂ := (((cfg11.win 3).blk t).view.emb j)) (funext fun a => Fin.ext (by
      match a with
      | ⟨0, _⟩ => show win11_0.index t (0 : Fin 2) * 1000 + 1 * (j 0).val = win11_3.index t (0 : Fin 2) * 1000 + 1 * (j 0).val; omega
      | ⟨1, _⟩ => show win11_0.index t (1 : Fin 2) * 192 + 1 * (j 1).val = win11_3.index t (1 : Fin 2) * 192 + 1 * (j 1).val; omega))
  have hb : iblk11 V c 1 t (biasAt ⟨(j 1).val, (j 1).isLt⟩) = V c main_v118 (biasAt (c192 (((cfg11.win 3).blk t).view.emb j))) :=
    congrArg (V c main_v118) (a₁ := ((cfg11.win 1).blk t).view.emb (biasAt ⟨(j 1).val, (j 1).isLt⟩)) (a₂ := biasAt (c192 (((cfg11.win 3).blk t).view.emb j))) (funext fun a => Fin.ext (by
      match a with
      | ⟨0, _⟩ => show win11_1.index t (0 : Fin 2) * 1 + 1 * 0 = 0; omega
      | ⟨1, _⟩ => show win11_1.index t (1 : Fin 2) * 192 + 1 * (j 1).val = win11_3.index t (1 : Fin 2) * 192 + 1 * (j 1).val; omega))
  have hr : iblk11 V c 2 t j = V c main_v79 (((cfg11.win 3).blk t).view.emb j) :=
    congrArg (V c main_v79) (a₁ := ((cfg11.win 2).blk t).view.emb (j)) (a₂ := (((cfg11.win 3).blk t).view.emb j)) (funext fun a => Fin.ext (by
      match a with
      | ⟨0, _⟩ => show win11_2.index t (0 : Fin 2) * 1000 + 1 * (j 0).val = win11_3.index t (0 : Fin 2) * 1000 + 1 * (j 0).val; omega
      | ⟨1, _⟩ => show win11_2.index t (1 : Fin 2) * 192 + 1 * (j 1).val = win11_3.index t (1 : Fin 2) * 192 + 1 * (j 1).val; omega))
  rw [ha, hb, hr]

/-- An index is in point t's block iff each coordinate is in the block's range on its axis. -/
theorem mem_blk (t : Fin cfg11.N) (i : S25000x192.Idx) :
    i ∈ ((cfg11.win 3).blk t).view.set ↔ ∀ a : Fin 2, win11_3.index t a * S1000x192.size a ≤ (i a).val ∧ (i a).val < win11_3.index t a * S1000x192.size a + S1000x192.size a := by
  show i ∈ ((View.whole main_v119).slice (win11_3.rect t)).set ↔ _
  rw [View.set_slice_whole, Rect.mem_set_unit]
  exact Iff.rfl

/-- Row r of the output lies in the block of point r / 1000. -/
theorem cover (i : S25000x192.Idx) : ∃ t : Fin cfg11.N, (cfg11.win 3).flush t = true ∧ i ∈ ((cfg11.win 3).blk t).view.set := by
  have hi0 : (i 0).val < 25000 := (i 0).isLt
  have hi1 : (i 1).val < 192 := (i 1).isLt
  have hN : (i 0).val / 1000 < cfg11.N := lt_of_lt_of_eq (by omega : (i 0).val / 1000 < 25) N_11.symm
  refine ⟨⟨(i 0).val / 1000, hN⟩, flush11_3 _, ?_⟩
  rw [mem_blk]
  have f0 : win11_3.index ⟨(i 0).val / 1000, hN⟩ (0 : Fin 2) = (i 0).val / 1000 := (idx_facts ⟨(i 0).val / 1000, hN⟩).2.2.2.2.2.2.1
  have f1 : win11_3.index ⟨(i 0).val / 1000, hN⟩ (1 : Fin 2) = 0 := (idx_facts ⟨(i 0).val / 1000, hN⟩).2.2.2.2.2.2.2
  intro a
  match a with
  | ⟨0, _⟩ => show win11_3.index ⟨(i 0).val / 1000, hN⟩ (0 : Fin 2) * 1000 ≤ (i 0).val ∧ (i 0).val < win11_3.index ⟨(i 0).val / 1000, hN⟩ (0 : Fin 2) * 1000 + 1000; rw [f0]; omega
  | ⟨1, _⟩ => show win11_3.index ⟨(i 0).val / 1000, hN⟩ (1 : Fin 2) * 192 ≤ (i 1).val ∧ (i 1).val < win11_3.index ⟨(i 0).val / 1000, hN⟩ (1 : Fin 2) * 192 + 192; rw [f1]; omega

/-- The output array after the region. -/
theorem final (c : Dev nD) : (dat11 V c).arrAt 3 cfg11.N = avgG (V c main_v117) (V c main_v118) (V c main_v79) :=
  (dat11 V c).arrAt_eq_of_cover 3 _ (fun t _ => flushed_eq V c t) (cover)

end Cert.Region11

end
-- ==== Proof.Layer5.lean ====
/-
  Layer 5 of the idealized kernel: at the segment boundary after its second region the layer's output buffer holds
  hidden layer 5 of the specification — (r + max(A·(x·W) + b, 0)) · ½, which on the extended reals is (r + max(…))/2 of the layer's input —, as a function of the launch contents of
  the arguments; the arguments, and the earlier features a later layer still reads, are unchanged there.
  The boundary's contents are a fold: a host stretch slices this layer's weight and bias, the first region multiplies,
  a host stretch gathers, scales and scatter-adds, the second region adds the bias and clamps and averages.
-/
import proofs.«171734_j42872363549123_1_alg».proof.Proof.Gen.KernelIdeal.Frame
import proofs.«171734_j42872363549123_1_alg».proof.Proof.Gen.ReferenceIdeal
import proofs.«171734_j42872363549123_1_alg».proof.Proof.Spec
import proofs.«171734_j42872363549123_1_alg».proof.Proof.Forms
import proofs.«171734_j42872363549123_1_alg».proof.Proof.MatMul
import proofs.«171734_j42872363549123_1_alg».proof.Proof.Post
import proofs.«171734_j42872363549123_1_alg».proof.Proof.Region10
import proofs.«171734_j42872363549123_1_alg».proof.Proof.Region11
import proofs.«171734_j42872363549123_1_alg».proof.Proof.Invs
import Idealize.ShloMosaic.Lib.StableHlo.Run

set_option maxRecDepth 16384

noncomputable section

namespace Cert.Layer5

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

open Lean in
/-- A buffer that no operation of a host stretch writes keeps its contents across the stretch. -/
macro "kept_by " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

set_option maxHeartbeats 40000000 in
/-- From what the boundary before layer 5 holds to what the boundary after it holds. -/
theorem step (c : Dev nD) (P : Cert.Invs.Inv4 m ρ c) : Cert.Invs.Inv5 m ρ c := by
  have s1_arg0 : W21 m ρ c (Proc.devRef .tc main_arg0) = (m ((c : Thread nD τ).loc main_arg0)) :=
    Eq.trans (by kept_by hostOps10) P.a0
  have s1_arg1 : W21 m ρ c (Proc.devRef .tc main_arg1) = (m ((c : Thread nD τ).loc main_arg1)) :=
    Eq.trans (by kept_by hostOps10) P.a1
  have s1_arg2 : W21 m ρ c (Proc.devRef .tc main_arg2) = (m ((c : Thread nD τ).loc main_arg2)) :=
    Eq.trans (by kept_by hostOps10) P.a2
  have s1_arg3 : W21 m ρ c (Proc.devRef .tc main_arg3) = (m ((c : Thread nD τ).loc main_arg3)) :=
    Eq.trans (by kept_by hostOps10) P.a3
  have s1_arg4 : W21 m ρ c (Proc.devRef .tc main_arg4) = (m ((c : Thread nD τ).loc main_arg4)) :=
    Eq.trans (by kept_by hostOps10) P.a4
  have s1_arg5 : W21 m ρ c (Proc.devRef .tc main_arg5) = (m ((c : Thread nD τ).loc main_arg5)) :=
    Eq.trans (by kept_by hostOps10) P.a5
  have s1_arg6 : W21 m ρ c (Proc.devRef .tc main_arg6) = (m ((c : Thread nD τ).loc main_arg6)) :=
    Eq.trans (by kept_by hostOps10) P.a6
  have s1_arg7 : W21 m ρ c (Proc.devRef .tc main_arg7) = (m ((c : Thread nD τ).loc main_arg7)) :=
    Eq.trans (by kept_by hostOps10) P.a7
  have s1_v99 : W21 m ρ c (Proc.devRef .tc main_v99) = (Cert.Spec.h4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps10) P.out
  have s1_v79 : W21 m ρ c (Proc.devRef .tc main_v79) = (Cert.Spec.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps10) P.car
  have s1_WM : W21 m ρ c (Proc.devRef .tc main_v101) = Cert.Spec.w5 (m ((c : Thread nD τ).loc main_arg4)) := by
    have e : W21 m ρ c (Proc.devRef .tc main_v101) = Cert.Spec.w5 (W20 m ρ c (Proc.devRef .tc main_arg4)) := by
      show StableHlo.after hostOps10 (W20 m ρ c) (Proc.devRef .tc main_v101) = _
      after_results; rfl
    exact e.trans (congrArg Cert.Spec.w5 P.a4)
  have s1_B1D : W21 m ρ c (Proc.devRef .tc main_v103) = Cert.Spec.b5 (m ((c : Thread nD τ).loc main_arg5)) := by
    have e : W21 m ρ c (Proc.devRef .tc main_v103) = Cert.Spec.b5 (W20 m ρ c (Proc.devRef .tc main_arg5)) := by
      show StableHlo.after hostOps10 (W20 m ρ c) (Proc.devRef .tc main_v103) = _
      after_results; rfl
    exact e.trans (congrArg Cert.Spec.b5 P.a5)
  have s2_arg0 : W22 m ρ c (Proc.devRef .tc main_arg0) = (m ((c : Thread nD τ).loc main_arg0)) :=
    Eq.trans (W22_of_ne m ρ c main_arg0 (by decide)) s1_arg0
  have s2_arg1 : W22 m ρ c (Proc.devRef .tc main_arg1) = (m ((c : Thread nD τ).loc main_arg1)) :=
    Eq.trans (W22_of_ne m ρ c main_arg1 (by decide)) s1_arg1
  have s2_arg2 : W22 m ρ c (Proc.devRef .tc main_arg2) = (m ((c : Thread nD τ).loc main_arg2)) :=
    Eq.trans (W22_of_ne m ρ c main_arg2 (by decide)) s1_arg2
  have s2_arg3 : W22 m ρ c (Proc.devRef .tc main_arg3) = (m ((c : Thread nD τ).loc main_arg3)) :=
    Eq.trans (W22_of_ne m ρ c main_arg3 (by decide)) s1_arg3
  have s2_arg4 : W22 m ρ c (Proc.devRef .tc main_arg4) = (m ((c : Thread nD τ).loc main_arg4)) :=
    Eq.trans (W22_of_ne m ρ c main_arg4 (by decide)) s1_arg4
  have s2_arg5 : W22 m ρ c (Proc.devRef .tc main_arg5) = (m ((c : Thread nD τ).loc main_arg5)) :=
    Eq.trans (W22_of_ne m ρ c main_arg5 (by decide)) s1_arg5
  have s2_arg6 : W22 m ρ c (Proc.devRef .tc main_arg6) = (m ((c : Thread nD τ).loc main_arg6)) :=
    Eq.trans (W22_of_ne m ρ c main_arg6 (by decide)) s1_arg6
  have s2_arg7 : W22 m ρ c (Proc.devRef .tc main_arg7) = (m ((c : Thread nD τ).loc main_arg7)) :=
    Eq.trans (W22_of_ne m ρ c main_arg7 (by decide)) s1_arg7
  have s2_v99 : W22 m ρ c (Proc.devRef .tc main_v99) = (Cert.Spec.h4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans ((W22_arr m ρ c 0).trans (((dat10 (V21 m ρ) c).arrAt_in 0 rfl _).trans (A_eq10 (V21 m ρ) c 0))) s1_v99
  have s2_v79 : W22 m ρ c (Proc.devRef .tc main_v79) = (Cert.Spec.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (W22_of_ne m ρ c main_v79 (by decide)) s1_v79
  have s2_v103 : W22 m ρ c (Proc.devRef .tc main_v103) = (Cert.Spec.b5 (m ((c : Thread nD τ).loc main_arg5))) :=
    Eq.trans (W22_of_ne m ρ c main_v103 (by decide)) s1_B1D
  have s2_SUP : W22 m ρ c (Proc.devRef .tc main_v104) = Host.dotGeneral (F := Ideal) (φ₁ := .f32) (φ₂ := .f32) Cert.ReferenceIdeal.dot_S25000x192_S192x192_S25000x192_1_0_0_1_n_n none (Cert.Spec.h4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w5 (m ((c : Thread nD τ).loc main_arg4))) := by
    refine (W22_arr m ρ c 2).trans ?_
    refine (Cert.Region10.final (V21 m ρ) c).trans ?_
    show Cert.Forms.mmG (W21 m ρ c (Proc.devRef .tc main_v99)) (W21 m ρ c (Proc.devRef .tc main_v101)) = _
    rw [s1_v99, s1_WM]
    exact (Cert.MatMul.hostDot_eq _ _).symm
  have s3_arg0 : W23 m ρ c (Proc.devRef .tc main_arg0) = (m ((c : Thread nD τ).loc main_arg0)) :=
    Eq.trans (by kept_by hostOps11) s2_arg0
  have s3_arg1 : W23 m ρ c (Proc.devRef .tc main_arg1) = (m ((c : Thread nD τ).loc main_arg1)) :=
    Eq.trans (by kept_by hostOps11) s2_arg1
  have s3_arg2 : W23 m ρ c (Proc.devRef .tc main_arg2) = (m ((c : Thread nD τ).loc main_arg2)) :=
    Eq.trans (by kept_by hostOps11) s2_arg2
  have s3_arg3 : W23 m ρ c (Proc.devRef .tc main_arg3) = (m ((c : Thread nD τ).loc main_arg3)) :=
    Eq.trans (by kept_by hostOps11) s2_arg3
  have s3_arg4 : W23 m ρ c (Proc.devRef .tc main_arg4) = (m ((c : Thread nD τ).loc main_arg4)) :=
    Eq.trans (by kept_by hostOps11) s2_arg4
  have s3_arg5 : W23 m ρ c (Proc.devRef .tc main_arg5) = (m ((c : Thread nD τ).loc main_arg5)) :=
    Eq.trans (by kept_by hostOps11) s2_arg5
  have s3_arg6 : W23 m ρ c (Proc.devRef .tc main_arg6) = (m ((c : Thread nD τ).loc main_arg6)) :=
    Eq.trans (by kept_by hostOps11) s2_arg6
  have s3_arg7 : W23 m ρ c (Proc.devRef .tc main_arg7) = (m ((c : Thread nD τ).loc main_arg7)) :=
    Eq.trans (by kept_by hostOps11) s2_arg7
  have s3_v99 : W23 m ρ c (Proc.devRef .tc main_v99) = (Cert.Spec.h4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps11) s2_v99
  have s3_v79 : W23 m ρ c (Proc.devRef .tc main_v79) = (Cert.Spec.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps11) s2_v79
  have s3_AGG : W23 m ρ c (Proc.devRef .tc main_v117) = Cert.Spec.agg (m ((c : Thread nD τ).loc main_arg1)) (m ((c : Thread nD τ).loc main_arg2)) (m ((c : Thread nD τ).loc main_arg3)) (Host.dotGeneral (F := Ideal) (φ₁ := .f32) (φ₂ := .f32) Cert.ReferenceIdeal.dot_S25000x192_S192x192_S25000x192_1_0_0_1_n_n none (Cert.Spec.h4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w5 (m ((c : Thread nD τ).loc main_arg4)))) := by
    have e : W23 m ρ c (Proc.devRef .tc main_v117) = Cert.Spec.agg (W22 m ρ c (Proc.devRef .tc main_arg1)) (W22 m ρ c (Proc.devRef .tc main_arg2)) (W22 m ρ c (Proc.devRef .tc main_arg3)) (W22 m ρ c (Proc.devRef .tc main_v104)) := by
      show StableHlo.after hostOps11 (W22 m ρ c) (Proc.devRef .tc main_v117) = _
      after_results
      exact Cert.Post.agg_eq _ _ _ _
    rw [e, s2_arg1, s2_arg2, s2_arg3, s2_SUP]
  have s3_B2 : W23 m ρ c (Proc.devRef .tc main_v118) = shapeCast S1x192 (Cert.Spec.b5 (m ((c : Thread nD τ).loc main_arg5))) Cert.KernelIdeal.Facts₀.shapeCasts_S192_S1x192 := by
    have e : W23 m ρ c (Proc.devRef .tc main_v118) = shapeCast S1x192 (W22 m ρ c (Proc.devRef .tc main_v103)) Cert.KernelIdeal.Facts₀.shapeCasts_S192_S1x192 := by
      show StableHlo.after hostOps11 (W22 m ρ c) (Proc.devRef .tc main_v118) = _
      after_results; rfl
    rw [e, s2_v103]
  have s4_arg0 : W24 m ρ c (Proc.devRef .tc main_arg0) = (m ((c : Thread nD τ).loc main_arg0)) :=
    Eq.trans (W24_of_ne m ρ c main_arg0 (by decide)) s3_arg0
  have s4_arg1 : W24 m ρ c (Proc.devRef .tc main_arg1) = (m ((c : Thread nD τ).loc main_arg1)) :=
    Eq.trans (W24_of_ne m ρ c main_arg1 (by decide)) s3_arg1
  have s4_arg2 : W24 m ρ c (Proc.devRef .tc main_arg2) = (m ((c : Thread nD τ).loc main_arg2)) :=
    Eq.trans (W24_of_ne m ρ c main_arg2 (by decide)) s3_arg2
  have s4_arg3 : W24 m ρ c (Proc.devRef .tc main_arg3) = (m ((c : Thread nD τ).loc main_arg3)) :=
    Eq.trans (W24_of_ne m ρ c main_arg3 (by decide)) s3_arg3
  have s4_arg4 : W24 m ρ c (Proc.devRef .tc main_arg4) = (m ((c : Thread nD τ).loc main_arg4)) :=
    Eq.trans (W24_of_ne m ρ c main_arg4 (by decide)) s3_arg4
  have s4_arg5 : W24 m ρ c (Proc.devRef .tc main_arg5) = (m ((c : Thread nD τ).loc main_arg5)) :=
    Eq.trans (W24_of_ne m ρ c main_arg5 (by decide)) s3_arg5
  have s4_arg6 : W24 m ρ c (Proc.devRef .tc main_arg6) = (m ((c : Thread nD τ).loc main_arg6)) :=
    Eq.trans (W24_of_ne m ρ c main_arg6 (by decide)) s3_arg6
  have s4_arg7 : W24 m ρ c (Proc.devRef .tc main_arg7) = (m ((c : Thread nD τ).loc main_arg7)) :=
    Eq.trans (W24_of_ne m ρ c main_arg7 (by decide)) s3_arg7
  have s4_OUT : W24 m ρ c (Proc.devRef .tc main_v119) = (Cert.Spec.h5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    refine (W24_arr m ρ c 3).trans ?_
    refine (Cert.Region11.final (V23 m ρ) c).trans ?_
    show Cert.Forms.avgG (W23 m ρ c (Proc.devRef .tc main_v117)) (W23 m ρ c (Proc.devRef .tc main_v118)) (W23 m ρ c (Proc.devRef .tc main_v79)) = _
    rw [s3_AGG, s3_B2, s3_v79]
    refine (Cert.Post.avgG_eq _ _ _).trans ?_
    rfl
  exact ⟨s4_OUT, s4_arg0, s4_arg1, s4_arg2, s4_arg3, s4_arg4, s4_arg5, s4_arg6, s4_arg7⟩

end Cert.Layer5

end
-- ==== Proof.Region12.lean ====
/-
  Kernel region 12 as a function of whole arrays: after the region, its output array is, index by index,
  the matrix product of the 25000 × 192 array in window 0 with the 192 × 192 matrix in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.MatMul
import Idealize.ShloMosaic.Lib.Pipeline.Value

set_option maxRecDepth 16384

noncomputable section

namespace Cert.Region12

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg12.N, win12_0.index t (0 : Fin 2) = t.val
    ∧ win12_0.index t (1 : Fin 2) = 0
    ∧ win12_1.index t (0 : Fin 2) = 0
    ∧ win12_1.index t (1 : Fin 2) = 0
    ∧ win12_2.index t (0 : Fin 2) = t.val
    ∧ win12_2.index t (1 : Fin 2) = 0 :=
  (by decide +kernel : ∀ t : Fin grid12.N, _)

/-- What point t writes back is block t of the whole-array function. -/
theorem flushed_eq (c : Dev nD) (t : Fin cfg12.N) :
    (dat12 V c).flushed 2 t = ((cfg12.win 2).blk t).view.read (Elt Ideal) (mmG (V c main_v119) (V c main_v121)) := by
  show (cfg12.win 2).cut (grid12.coords t) ((dat12 V c).after 2 t) = _
  rw [after12_2]
  unfold out12_2
  rw [View.canon_unit_zero hz]
  simp only [View.ld_unit_zero (S := S1000x192) hz, View.ld_unit_zero (S := S192x192) hz]
  obtain ⟨e00, e01, e10, e11, e20, e21⟩ := idx_facts t
  funext j
  refine (Cert.MatMul.pay12_apply _ _ j).trans ?_
  refine Eq.trans ?_ (mmG_apply _ _ _).symm
  refine Finset.sum_congr rfl fun q _ => ?_
  have hl : iblk12 V c 0 t (Cert.MatMul.blkRowK ⟨(j 0).val, (j 0).isLt⟩ q) = V c main_v119 (rowK (r192 (((cfg12.win 2).blk t).view.emb j)) q) :=
    congrArg (V c main_v119) (a₁ := ((cfg12.win 0).blk t).view.emb (Cert.MatMul.blkRowK ⟨(j 0).val, (j 0).isLt⟩ q)) (a₂ := rowK (r192 (((cfg12.win 2).blk t).view.emb j)) q) (funext fun a => Fin.ext (by
      match a with
      | ⟨0, _⟩ => show win12_0.index t (0 : Fin 2) * 1000 + 1 * (j 0).val = win12_2.index t (0 : Fin 2) * 1000 + 1 * (j 0).val; omega
      | ⟨1, _⟩ => show win12_0.index t (1 : Fin 2) * 192 + 1 * q.val = q.val; omega))
  have hr : iblk12 V c 1 t (kCol q ⟨(j 1).val, (j 1).isLt⟩) = V c main_v121 (kCol q (c192 (((cfg12.win 2).blk t).view.emb j))) :=
    congrArg (V c main_v121) (a₁ := ((cfg12.win 1).blk t).view.emb (kCol q ⟨(j 1).val, (j 1).isLt⟩)) (a₂ := kCol q (c192 (((cfg12.win 2).blk t).view.emb j))) (funext fun a => Fin.ext (by
      match a with
      | ⟨0, _⟩ => show win12_1.index t (0 : Fin 2) * 192 + 1 * q.val = q.val; omega
      | ⟨1, _⟩ => show win12_1.index t (1 : Fin 2) * 192 + 1 * (j 1).val = win12_2.index t (1 : Fin 2) * 192 + 1 * (j 1).val; omega))
  exact congrArg₂ (· * ·) hl hr

/-- An index is in point t's block iff each coordinate is in the block's range on its axis. -/
theorem mem_blk (t : Fin cfg12.N) (i : S25000x192.Idx) :
    i ∈ ((cfg12.win 2).blk t).view.set ↔ ∀ a : Fin 2, win12_2.index t a * S1000x192.size a ≤ (i a).val ∧ (i a).val < win12_2.index t a * S1000x192.size a + S1000x192.size a := by
  show i ∈ ((View.whole main_v124).slice (win12_2.rect t)).set ↔ _
  rw [View.set_slice_whole, Rect.mem_set_unit]
  exact Iff.rfl

/-- Row r of the output lies in the block of point r / 1000. -/
theorem cover (i : S25000x192.Idx) : ∃ t : Fin cfg12.N, (cfg12.win 2).flush t = true ∧ i ∈ ((cfg12.win 2).blk t).view.set := by
  have hi0 : (i 0).val < 25000 := (i 0).isLt
  have hi1 : (i 1).val < 192 := (i 1).isLt
  have hN : (i 0).val / 1000 < cfg12.N := lt_of_lt_of_eq (by omega : (i 0).val / 1000 < 25) N_12.symm
  refine ⟨⟨(i 0).val / 1000, hN⟩, flush12_2 _, ?_⟩
  rw [mem_blk]
  have f0 : win12_2.index ⟨(i 0).val / 1000, hN⟩ (0 : Fin 2) = (i 0).val / 1000 := (idx_facts ⟨(i 0).val / 1000, hN⟩).2.2.2.2.1
  have f1 : win12_2.index ⟨(i 0).val / 1000, hN⟩ (1 : Fin 2) = 0 := (idx_facts ⟨(i 0).val / 1000, hN⟩).2.2.2.2.2
  intro a
  match a with
  | ⟨0, _⟩ => show win12_2.index ⟨(i 0).val / 1000, hN⟩ (0 : Fin 2) * 1000 ≤ (i 0).val ∧ (i 0).val < win12_2.index ⟨(i 0).val / 1000, hN⟩ (0 : Fin 2) * 1000 + 1000; rw [f0]; omega
  | ⟨1, _⟩ => show win12_2.index ⟨(i 0).val / 1000, hN⟩ (1 : Fin 2) * 192 ≤ (i 1).val ∧ (i 1).val < win12_2.index ⟨(i 0).val / 1000, hN⟩ (1 : Fin 2) * 192 + 192; rw [f1]; omega

/-- The output array after the region. -/
theorem final (c : Dev nD) : (dat12 V c).arrAt 2 cfg12.N = mmG (V c main_v119) (V c main_v121) :=
  (dat12 V c).arrAt_eq_of_cover 2 _ (fun t _ => flushed_eq V c t) (cover)

end Cert.Region12

end
-- ==== Proof.Region13.lean ====
/-
  Kernel region 13 as a function of whole arrays: after the region, its output array is, index by index,
  max(a + b, 0) of the aggregate a in window 0 and the bias row b in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.Post
import Idealize.ShloMosaic.Lib.Pipeline.Value

set_option maxRecDepth 16384

noncomputable section

namespace Cert.Region13

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg13.N, win13_0.index t (0 : Fin 2) = t.val
    ∧ win13_0.index t (1 : Fin 2) = 0
    ∧ win13_1.index t (0 : Fin 2) = 0
    ∧ win13_1.index t (1 : Fin 2) = 0
    ∧ win13_2.index t (0 : Fin 2) = t.val
    ∧ win13_2.index t (1 : Fin 2) = 0 :=
  (by decide +kernel : ∀ t : Fin grid13.N, _)

/-- What point t writes back is block t of the whole-array function. -/
theorem flushed_eq (c : Dev nD) (t : Fin cfg13.N) :
    (dat13 V c).flushed 2 t = ((cfg13.win 2).blk t).view.read (Elt Ideal) (reluG (V c main_v137) (V c main_v138)) := by
  show (cfg13.win 2).cut (grid13.coords t) ((dat13 V c).after 2 t) = _
  rw [after13_2]
  unfold out13_2
  rw [View.canon_unit_zero hz]
  simp only [View.ld_unit_zero (S := S1000x192) hz, View.ld_unit_zero (S := S1x192) hz]
  obtain ⟨e00, e01, e10, e11, e20, e21⟩ := idx_facts t
  funext j
  refine (Cert.Post.pay13_apply _ _ j).trans ?_
  refine Eq.trans ?_ (reluG_apply _ _ _).symm
  have ha : iblk13 V c 0 t j = V c main_v137 (((cfg13.win 2).blk t).view.emb j) :=
    congrArg (V c main_v137) (a₁ := ((cfg13.win 0).blk t).view.emb (j)) (a₂ := (((cfg13.win 2).blk t).view.emb j)) (funext fun a => Fin.ext (by
      match a with
      | ⟨0, _⟩ => show win13_0.index t (0 : Fin 2) * 1000 + 1 * (j 0).val = win13_2.index t (0 : Fin 2) * 1000 + 1 * (j 0).val; omega
      | ⟨1, _⟩ => show win13_0.index t (1 : Fin 2) * 192 + 1 * (j 1).val = win13_2.index t (1 : Fin 2) * 192 + 1 * (j 1).val; omega))
  have hb : iblk13 V c 1 t (biasAt ⟨(j 1).val, (j 1).isLt⟩) = V c main_v138 (biasAt (c192 (((cfg13.win 2).blk t).view.emb j))) :=
    congrArg (V c main_v138) (a₁ := ((cfg13.win 1).blk t).view.emb (biasAt ⟨(j 1).val, (j 1).isLt⟩)) (a₂ := biasAt (c192 (((cfg13.win 2).blk t).view.emb j))) (funext fun a => Fin.ext (by
      match a with
      | ⟨0, _⟩ => show win13_1.index t (0 : Fin 2) * 1 + 1 * 0 = 0; omega
      | ⟨1, _⟩ => show win13_1.index t (1 : Fin 2) * 192 + 1 * (j 1).val = win13_2.index t (1 : Fin 2) * 192 + 1 * (j 1).val; omega))

  rw [ha, hb]

/-- An index is in point t's block iff each coordinate is in the block's range on its axis. -/
theorem mem_blk (t : Fin cfg13.N) (i : S25000x192.Idx) :
    i ∈ ((cfg13.win 2).blk t).view.set ↔ ∀ a : Fin 2, win13_2.index t a * S1000x192.size a ≤ (i a).val ∧ (i a).val < win13_2.index t a * S1000x192.size a + S1000x192.size a := by
  show i ∈ ((View.whole main_v139).slice (win13_2.rect t)).set ↔ _
  rw [View.set_slice_whole, Rect.mem_set_unit]
  exact Iff.rfl

/-- Row r of the output lies in the block of point r / 1000. -/
theorem cover (i : S25000x192.Idx) : ∃ t : Fin cfg13.N, (cfg13.win 2).flush t = true ∧ i ∈ ((cfg13.win 2).blk t).view.set := by
  have hi0 : (i 0).val < 25000 := (i 0).isLt
  have hi1 : (i 1).val < 192 := (i 1).isLt
  have hN : (i 0).val / 1000 < cfg13.N := lt_of_lt_of_eq (by omega : (i 0).val / 1000 < 25) N_13.symm
  refine ⟨⟨(i 0).val / 1000, hN⟩, flush13_2 _, ?_⟩
  rw [mem_blk]
  have f0 : win13_2.index ⟨(i 0).val / 1000, hN⟩ (0 : Fin 2) = (i 0).val / 1000 := (idx_facts ⟨(i 0).val / 1000, hN⟩).2.2.2.2.1
  have f1 : win13_2.index ⟨(i 0).val / 1000, hN⟩ (1 : Fin 2) = 0 := (idx_facts ⟨(i 0).val / 1000, hN⟩).2.2.2.2.2
  intro a
  match a with
  | ⟨0, _⟩ => show win13_2.index ⟨(i 0).val / 1000, hN⟩ (0 : Fin 2) * 1000 ≤ (i 0).val ∧ (i 0).val < win13_2.index ⟨(i 0).val / 1000, hN⟩ (0 : Fin 2) * 1000 + 1000; rw [f0]; omega
  | ⟨1, _⟩ => show win13_2.index ⟨(i 0).val / 1000, hN⟩ (1 : Fin 2) * 192 ≤ (i 1).val ∧ (i 1).val < win13_2.index ⟨(i 0).val / 1000, hN⟩ (1 : Fin 2) * 192 + 192; rw [f1]; omega

/-- The output array after the region. -/
theorem final (c : Dev nD) : (dat13 V c).arrAt 2 cfg13.N = reluG (V c main_v137) (V c main_v138) :=
  (dat13 V c).arrAt_eq_of_cover 2 _ (fun t _ => flushed_eq V c t) (cover)

end Cert.Region13

end
-- ==== Proof.Layer6.lean ====
/-
  Layer 6 of the idealized kernel: at the segment boundary after its second region the layer's output buffer holds
  hidden layer 6 of the specification — max(A·(x·W) + b, 0) of the layer's input —, as a function of the launch contents of
  the arguments; the arguments, and the earlier features a later layer still reads, are unchanged there.
  The boundary's contents are a fold: a host stretch slices this layer's weight and bias, the first region multiplies,
  a host stretch gathers, scales and scatter-adds, the second region adds the bias and clamps.
-/
import proofs.«171734_j42872363549123_1_alg».proof.Proof.Gen.KernelIdeal.Frame
import proofs.«171734_j42872363549123_1_alg».proof.Proof.Gen.ReferenceIdeal
import proofs.«171734_j42872363549123_1_alg».proof.Proof.Spec
import proofs.«171734_j42872363549123_1_alg».proof.Proof.Forms
import proofs.«171734_j42872363549123_1_alg».proof.Proof.MatMul
import proofs.«171734_j42872363549123_1_alg».proof.Proof.Post
import proofs.«171734_j42872363549123_1_alg».proof.Proof.Region12
import proofs.«171734_j42872363549123_1_alg».proof.Proof.Region13
import proofs.«171734_j42872363549123_1_alg».proof.Proof.Invs
import Idealize.ShloMosaic.Lib.StableHlo.Run

set_option maxRecDepth 16384

noncomputable section

namespace Cert.Layer6

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

open Lean in
/-- A buffer that no operation of a host stretch writes keeps its contents across the stretch. -/
macro "kept_by " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

set_option maxHeartbeats 40000000 in
/-- From what the boundary before layer 6 holds to what the boundary after it holds. -/
theorem step (c : Dev nD) (P : Cert.Invs.Inv5 m ρ c) : Cert.Invs.Inv6 m ρ c := by
  have s1_arg0 : W25 m ρ c (Proc.devRef .tc main_arg0) = (m ((c : Thread nD τ).loc main_arg0)) :=
    Eq.trans (by kept_by hostOps12) P.a0
  have s1_arg1 : W25 m ρ c (Proc.devRef .tc main_arg1) = (m ((c : Thread nD τ).loc main_arg1)) :=
    Eq.trans (by kept_by hostOps12) P.a1
  have s1_arg2 : W25 m ρ c (Proc.devRef .tc main_arg2) = (m ((c : Thread nD τ).loc main_arg2)) :=
    Eq.trans (by kept_by hostOps12) P.a2
  have s1_arg3 : W25 m ρ c (Proc.devRef .tc main_arg3) = (m ((c : Thread nD τ).loc main_arg3)) :=
    Eq.trans (by kept_by hostOps12) P.a3
  have s1_arg4 : W25 m ρ c (Proc.devRef .tc main_arg4) = (m ((c : Thread nD τ).loc main_arg4)) :=
    Eq.trans (by kept_by hostOps12) P.a4
  have s1_arg5 : W25 m ρ c (Proc.devRef .tc main_arg5) = (m ((c : Thread nD τ).loc main_arg5)) :=
    Eq.trans (by kept_by hostOps12) P.a5
  have s1_arg6 : W25 m ρ c (Proc.devRef .tc main_arg6) = (m ((c : Thread nD τ).loc main_arg6)) :=
    Eq.trans (by kept_by hostOps12) P.a6
  have s1_arg7 : W25 m ρ c (Proc.devRef .tc main_arg7) = (m ((c : Thread nD τ).loc main_arg7)) :=
    Eq.trans (by kept_by hostOps12) P.a7
  have s1_v119 : W25 m ρ c (Proc.devRef .tc main_v119) = (Cert.Spec.h5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps12) P.out
  have s1_WM : W25 m ρ c (Proc.devRef .tc main_v121) = Cert.Spec.w6 (m ((c : Thread nD τ).loc main_arg4)) := by
    have e : W25 m ρ c (Proc.devRef .tc main_v121) = Cert.Spec.w6 (W24 m ρ c (Proc.devRef .tc main_arg4)) := by
      show StableHlo.after hostOps12 (W24 m ρ c) (Proc.devRef .tc main_v121) = _
      after_results; rfl
    exact e.trans (congrArg Cert.Spec.w6 P.a4)
  have s1_B1D : W25 m ρ c (Proc.devRef .tc main_v123) = Cert.Spec.b6 (m ((c : Thread nD τ).loc main_arg5)) := by
    have e : W25 m ρ c (Proc.devRef .tc main_v123) = Cert.Spec.b6 (W24 m ρ c (Proc.devRef .tc main_arg5)) := by
      show StableHlo.after hostOps12 (W24 m ρ c) (Proc.devRef .tc main_v123) = _
      after_results; rfl
    exact e.trans (congrArg Cert.Spec.b6 P.a5)
  have s2_arg0 : W26 m ρ c (Proc.devRef .tc main_arg0) = (m ((c : Thread nD τ).loc main_arg0)) :=
    Eq.trans (W26_of_ne m ρ c main_arg0 (by decide)) s1_arg0
  have s2_arg1 : W26 m ρ c (Proc.devRef .tc main_arg1) = (m ((c : Thread nD τ).loc main_arg1)) :=
    Eq.trans (W26_of_ne m ρ c main_arg1 (by decide)) s1_arg1
  have s2_arg2 : W26 m ρ c (Proc.devRef .tc main_arg2) = (m ((c : Thread nD τ).loc main_arg2)) :=
    Eq.trans (W26_of_ne m ρ c main_arg2 (by decide)) s1_arg2
  have s2_arg3 : W26 m ρ c (Proc.devRef .tc main_arg3) = (m ((c : Thread nD τ).loc main_arg3)) :=
    Eq.trans (W26_of_ne m ρ c main_arg3 (by decide)) s1_arg3
  have s2_arg4 : W26 m ρ c (Proc.devRef .tc main_arg4) = (m ((c : Thread nD τ).loc main_arg4)) :=
    Eq.trans (W26_of_ne m ρ c main_arg4 (by decide)) s1_arg4
  have s2_arg5 : W26 m ρ c (Proc.devRef .tc main_arg5) = (m ((c : Thread nD τ).loc main_arg5)) :=
    Eq.trans (W26_of_ne m ρ c main_arg5 (by decide)) s1_arg5
  have s2_arg6 : W26 m ρ c (Proc.devRef .tc main_arg6) = (m ((c : Thread nD τ).loc main_arg6)) :=
    Eq.trans (W26_of_ne m ρ c main_arg6 (by decide)) s1_arg6
  have s2_arg7 : W26 m ρ c (Proc.devRef .tc main_arg7) = (m ((c : Thread nD τ).loc main_arg7)) :=
    Eq.trans (W26_of_ne m ρ c main_arg7 (by decide)) s1_arg7
  have s2_v119 : W26 m ρ c (Proc.devRef .tc main_v119) = (Cert.Spec.h5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans ((W26_arr m ρ c 0).trans (((dat12 (V25 m ρ) c).arrAt_in 0 rfl _).trans (A_eq12 (V25 m ρ) c 0))) s1_v119
  have s2_v123 : W26 m ρ c (Proc.devRef .tc main_v123) = (Cert.Spec.b6 (m ((c : Thread nD τ).loc main_arg5))) :=
    Eq.trans (W26_of_ne m ρ c main_v123 (by decide)) s1_B1D
  have s2_SUP : W26 m ρ c (Proc.devRef .tc main_v124) = Host.dotGeneral (F := Ideal) (φ₁ := .f32) (φ₂ := .f32) Cert.ReferenceIdeal.dot_S25000x192_S192x192_S25000x192_1_0_0_1_n_n none (Cert.Spec.h5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w6 (m ((c : Thread nD τ).loc main_arg4))) := by
    refine (W26_arr m ρ c 2).trans ?_
    refine (Cert.Region12.final (V25 m ρ) c).trans ?_
    show Cert.Forms.mmG (W25 m ρ c (Proc.devRef .tc main_v119)) (W25 m ρ c (Proc.devRef .tc main_v121)) = _
    rw [s1_v119, s1_WM]
    exact (Cert.MatMul.hostDot_eq _ _).symm
  have s3_arg0 : W27 m ρ c (Proc.devRef .tc main_arg0) = (m ((c : Thread nD τ).loc main_arg0)) :=
    Eq.trans (by kept_by hostOps13) s2_arg0
  have s3_arg1 : W27 m ρ c (Proc.devRef .tc main_arg1) = (m ((c : Thread nD τ).loc main_arg1)) :=
    Eq.trans (by kept_by hostOps13) s2_arg1
  have s3_arg2 : W27 m ρ c (Proc.devRef .tc main_arg2) = (m ((c : Thread nD τ).loc main_arg2)) :=
    Eq.trans (by kept_by hostOps13) s2_arg2
  have s3_arg3 : W27 m ρ c (Proc.devRef .tc main_arg3) = (m ((c : Thread nD τ).loc main_arg3)) :=
    Eq.trans (by kept_by hostOps13) s2_arg3
  have s3_arg4 : W27 m ρ c (Proc.devRef .tc main_arg4) = (m ((c : Thread nD τ).loc main_arg4)) :=
    Eq.trans (by kept_by hostOps13) s2_arg4
  have s3_arg5 : W27 m ρ c (Proc.devRef .tc main_arg5) = (m ((c : Thread nD τ).loc main_arg5)) :=
    Eq.trans (by kept_by hostOps13) s2_arg5
  have s3_arg6 : W27 m ρ c (Proc.devRef .tc main_arg6) = (m ((c : Thread nD τ).loc main_arg6)) :=
    Eq.trans (by kept_by hostOps13) s2_arg6
  have s3_arg7 : W27 m ρ c (Proc.devRef .tc main_arg7) = (m ((c : Thread nD τ).loc main_arg7)) :=
    Eq.trans (by kept_by hostOps13) s2_arg7
  have s3_v119 : W27 m ρ c (Proc.devRef .tc main_v119) = (Cert.Spec.h5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps13) s2_v119
  have s3_AGG : W27 m ρ c (Proc.devRef .tc main_v137) = Cert.Spec.agg (m ((c : Thread nD τ).loc main_arg1)) (m ((c : Thread nD τ).loc main_arg2)) (m ((c : Thread nD τ).loc main_arg3)) (Host.dotGeneral (F := Ideal) (φ₁ := .f32) (φ₂ := .f32) Cert.ReferenceIdeal.dot_S25000x192_S192x192_S25000x192_1_0_0_1_n_n none (Cert.Spec.h5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w6 (m ((c : Thread nD τ).loc main_arg4)))) := by
    have e : W27 m ρ c (Proc.devRef .tc main_v137) = Cert.Spec.agg (W26 m ρ c (Proc.devRef .tc main_arg1)) (W26 m ρ c (Proc.devRef .tc main_arg2)) (W26 m ρ c (Proc.devRef .tc main_arg3)) (W26 m ρ c (Proc.devRef .tc main_v124)) := by
      show StableHlo.after hostOps13 (W26 m ρ c) (Proc.devRef .tc main_v137) = _
      after_results
      exact Cert.Post.agg_eq _ _ _ _
    rw [e, s2_arg1, s2_arg2, s2_arg3, s2_SUP]
  have s3_B2 : W27 m ρ c (Proc.devRef .tc main_v138) = shapeCast S1x192 (Cert.Spec.b6 (m ((c : Thread nD τ).loc main_arg5))) Cert.KernelIdeal.Facts₀.shapeCasts_S192_S1x192 := by
    have e : W27 m ρ c (Proc.devRef .tc main_v138) = shapeCast S1x192 (W26 m ρ c (Proc.devRef .tc main_v123)) Cert.KernelIdeal.Facts₀.shapeCasts_S192_S1x192 := by
      show StableHlo.after hostOps13 (W26 m ρ c) (Proc.devRef .tc main_v138) = _
      after_results; rfl
    rw [e, s2_v123]
  have s4_arg0 : W28 m ρ c (Proc.devRef .tc main_arg0) = (m ((c : Thread nD τ).loc main_arg0)) :=
    Eq.trans (W28_of_ne m ρ c main_arg0 (by decide)) s3_arg0
  have s4_arg1 : W28 m ρ c (Proc.devRef .tc main_arg1) = (m ((c : Thread nD τ).loc main_arg1)) :=
    Eq.trans (W28_of_ne m ρ c main_arg1 (by decide)) s3_arg1
  have s4_arg2 : W28 m ρ c (Proc.devRef .tc main_arg2) = (m ((c : Thread nD τ).loc main_arg2)) :=
    Eq.trans (W28_of_ne m ρ c main_arg2 (by decide)) s3_arg2
  have s4_arg3 : W28 m ρ c (Proc.devRef .tc main_arg3) = (m ((c : Thread nD τ).loc main_arg3)) :=
    Eq.trans (W28_of_ne m ρ c main_arg3 (by decide)) s3_arg3
  have s4_arg4 : W28 m ρ c (Proc.devRef .tc main_arg4) = (m ((c : Thread nD τ).loc main_arg4)) :=
    Eq.trans (W28_of_ne m ρ c main_arg4 (by decide)) s3_arg4
  have s4_arg5 : W28 m ρ c (Proc.devRef .tc main_arg5) = (m ((c : Thread nD τ).loc main_arg5)) :=
    Eq.trans (W28_of_ne m ρ c main_arg5 (by decide)) s3_arg5
  have s4_arg6 : W28 m ρ c (Proc.devRef .tc main_arg6) = (m ((c : Thread nD τ).loc main_arg6)) :=
    Eq.trans (W28_of_ne m ρ c main_arg6 (by decide)) s3_arg6
  have s4_arg7 : W28 m ρ c (Proc.devRef .tc main_arg7) = (m ((c : Thread nD τ).loc main_arg7)) :=
    Eq.trans (W28_of_ne m ρ c main_arg7 (by decide)) s3_arg7
  have s4_v119 : W28 m ρ c (Proc.devRef .tc main_v119) = (Cert.Spec.h5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (W28_of_ne m ρ c main_v119 (by decide)) s3_v119
  have s4_OUT : W28 m ρ c (Proc.devRef .tc main_v139) = (Cert.Spec.h6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    refine (W28_arr m ρ c 2).trans ?_
    refine (Cert.Region13.final (V27 m ρ) c).trans ?_
    show Cert.Forms.reluG (W27 m ρ c (Proc.devRef .tc main_v137)) (W27 m ρ c (Proc.devRef .tc main_v138)) = _
    rw [s3_AGG, s3_B2]
    refine (Cert.Post.reluG_eq _ _).trans ?_
    rfl
  exact ⟨s4_OUT, s4_v119, s4_arg0, s4_arg1, s4_arg2, s4_arg3, s4_arg4, s4_arg5, s4_arg6, s4_arg7⟩

end Cert.Layer6

end
-- ==== Proof.Region14.lean ====
/-
  Kernel region 14 as a function of whole arrays: after the region, its output array is, index by index,
  the matrix product of the 25000 × 192 array in window 0 with the 192 × 192 matrix in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.MatMul
import Idealize.ShloMosaic.Lib.Pipeline.Value

set_option maxRecDepth 16384

noncomputable section

namespace Cert.Region14

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg14.N, win14_0.index t (0 : Fin 2) = t.val
    ∧ win14_0.index t (1 : Fin 2) = 0
    ∧ win14_1.index t (0 : Fin 2) = 0
    ∧ win14_1.index t (1 : Fin 2) = 0
    ∧ win14_2.index t (0 : Fin 2) = t.val
    ∧ win14_2.index t (1 : Fin 2) = 0 :=
  (by decide +kernel : ∀ t : Fin grid14.N, _)

/-- What point t writes back is block t of the whole-array function. -/
theorem flushed_eq (c : Dev nD) (t : Fin cfg14.N) :
    (dat14 V c).flushed 2 t = ((cfg14.win 2).blk t).view.read (Elt Ideal) (mmG (V c main_v139) (V c main_v141)) := by
  show (cfg14.win 2).cut (grid14.coords t) ((dat14 V c).after 2 t) = _
  rw [after14_2]
  unfold out14_2
  rw [View.canon_unit_zero hz]
  simp only [View.ld_unit_zero (S := S1000x192) hz, View.ld_unit_zero (S := S192x192) hz]
  obtain ⟨e00, e01, e10, e11, e20, e21⟩ := idx_facts t
  funext j
  refine (Cert.MatMul.pay14_apply _ _ j).trans ?_
  refine Eq.trans ?_ (mmG_apply _ _ _).symm
  refine Finset.sum_congr rfl fun q _ => ?_
  have hl : iblk14 V c 0 t (Cert.MatMul.blkRowK ⟨(j 0).val, (j 0).isLt⟩ q) = V c main_v139 (rowK (r192 (((cfg14.win 2).blk t).view.emb j)) q) :=
    congrArg (V c main_v139) (a₁ := ((cfg14.win 0).blk t).view.emb (Cert.MatMul.blkRowK ⟨(j 0).val, (j 0).isLt⟩ q)) (a₂ := rowK (r192 (((cfg14.win 2).blk t).view.emb j)) q) (funext fun a => Fin.ext (by
      match a with
      | ⟨0, _⟩ => show win14_0.index t (0 : Fin 2) * 1000 + 1 * (j 0).val = win14_2.index t (0 : Fin 2) * 1000 + 1 * (j 0).val; omega
      | ⟨1, _⟩ => show win14_0.index t (1 : Fin 2) * 192 + 1 * q.val = q.val; omega))
  have hr : iblk14 V c 1 t (kCol q ⟨(j 1).val, (j 1).isLt⟩) = V c main_v141 (kCol q (c192 (((cfg14.win 2).blk t).view.emb j))) :=
    congrArg (V c main_v141) (a₁ := ((cfg14.win 1).blk t).view.emb (kCol q ⟨(j 1).val, (j 1).isLt⟩)) (a₂ := kCol q (c192 (((cfg14.win 2).blk t).view.emb j))) (funext fun a => Fin.ext (by
      match a with
      | ⟨0, _⟩ => show win14_1.index t (0 : Fin 2) * 192 + 1 * q.val = q.val; omega
      | ⟨1, _⟩ => show win14_1.index t (1 : Fin 2) * 192 + 1 * (j 1).val = win14_2.index t (1 : Fin 2) * 192 + 1 * (j 1).val; omega))
  exact congrArg₂ (· * ·) hl hr

/-- An index is in point t's block iff each coordinate is in the block's range on its axis. -/
theorem mem_blk (t : Fin cfg14.N) (i : S25000x192.Idx) :
    i ∈ ((cfg14.win 2).blk t).view.set ↔ ∀ a : Fin 2, win14_2.index t a * S1000x192.size a ≤ (i a).val ∧ (i a).val < win14_2.index t a * S1000x192.size a + S1000x192.size a := by
  show i ∈ ((View.whole main_v144).slice (win14_2.rect t)).set ↔ _
  rw [View.set_slice_whole, Rect.mem_set_unit]
  exact Iff.rfl

/-- Row r of the output lies in the block of point r / 1000. -/
theorem cover (i : S25000x192.Idx) : ∃ t : Fin cfg14.N, (cfg14.win 2).flush t = true ∧ i ∈ ((cfg14.win 2).blk t).view.set := by
  have hi0 : (i 0).val < 25000 := (i 0).isLt
  have hi1 : (i 1).val < 192 := (i 1).isLt
  have hN : (i 0).val / 1000 < cfg14.N := lt_of_lt_of_eq (by omega : (i 0).val / 1000 < 25) N_14.symm
  refine ⟨⟨(i 0).val / 1000, hN⟩, flush14_2 _, ?_⟩
  rw [mem_blk]
  have f0 : win14_2.index ⟨(i 0).val / 1000, hN⟩ (0 : Fin 2) = (i 0).val / 1000 := (idx_facts ⟨(i 0).val / 1000, hN⟩).2.2.2.2.1
  have f1 : win14_2.index ⟨(i 0).val / 1000, hN⟩ (1 : Fin 2) = 0 := (idx_facts ⟨(i 0).val / 1000, hN⟩).2.2.2.2.2
  intro a
  match a with
  | ⟨0, _⟩ => show win14_2.index ⟨(i 0).val / 1000, hN⟩ (0 : Fin 2) * 1000 ≤ (i 0).val ∧ (i 0).val < win14_2.index ⟨(i 0).val / 1000, hN⟩ (0 : Fin 2) * 1000 + 1000; rw [f0]; omega
  | ⟨1, _⟩ => show win14_2.index ⟨(i 0).val / 1000, hN⟩ (1 : Fin 2) * 192 ≤ (i 1).val ∧ (i 1).val < win14_2.index ⟨(i 0).val / 1000, hN⟩ (1 : Fin 2) * 192 + 192; rw [f1]; omega

/-- The output array after the region. -/
theorem final (c : Dev nD) : (dat14 V c).arrAt 2 cfg14.N = mmG (V c main_v139) (V c main_v141) :=
  (dat14 V c).arrAt_eq_of_cover 2 _ (fun t _ => flushed_eq V c t) (cover)

end Cert.Region14

end
-- ==== Proof.Region15.lean ====
/-
  Kernel region 15 as a function of whole arrays: after the region, its output array is, index by index,
  (r + max(a + b, 0)) · ½ of the aggregate a in window 0, the bias row b in window 1 and the residual r in window 2, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.Post
import Idealize.ShloMosaic.Lib.Pipeline.Value

set_option maxRecDepth 16384

noncomputable section

namespace Cert.Region15

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg15.N, win15_0.index t (0 : Fin 2) = t.val
    ∧ win15_0.index t (1 : Fin 2) = 0
    ∧ win15_1.index t (0 : Fin 2) = 0
    ∧ win15_1.index t (1 : Fin 2) = 0
    ∧ win15_2.index t (0 : Fin 2) = t.val
    ∧ win15_2.index t (1 : Fin 2) = 0
    ∧ win15_3.index t (0 : Fin 2) = t.val
    ∧ win15_3.index t (1 : Fin 2) = 0 :=
  (by decide +kernel : ∀ t : Fin grid15.N, _)

/-- What point t writes back is block t of the whole-array function. -/
theorem flushed_eq (c : Dev nD) (t : Fin cfg15.N) :
    (dat15 V c).flushed 3 t = ((cfg15.win 3).blk t).view.read (Elt Ideal) (avgG (V c main_v157) (V c main_v158) (V c main_v119)) := by
  show (cfg15.win 3).cut (grid15.coords t) ((dat15 V c).after 3 t) = _
  rw [after15_3]
  unfold out15_3
  rw [View.canon_unit_zero hz]
  simp only [View.ld_unit_zero (S := S1000x192) hz, View.ld_unit_zero (S := S1x192) hz]
  obtain ⟨e00, e01, e10, e11, e20, e21, e30, e31⟩ := idx_facts t
  funext j
  refine (Cert.Post.pay15_apply _ _ _ j).trans ?_
  refine Eq.trans ?_ (avgG_apply _ _ _ _).symm
  have ha : iblk15 V c 0 t j = V c main_v157 (((cfg15.win 3).blk t).view.emb j) :=
    congrArg (V c main_v157) (a₁ := ((cfg15.win 0).blk t).view.emb (j)) (a₂ := (((cfg15.win 3).blk t).view.emb j)) (funext fun a => Fin.ext (by
      match a with
      | ⟨0, _⟩ => show win15_0.index t (0 : Fin 2) * 1000 + 1 * (j 0).val = win15_3.index t (0 : Fin 2) * 1000 + 1 * (j 0).val; omega
      | ⟨1, _⟩ => show win15_0.index t (1 : Fin 2) * 192 + 1 * (j 1).val = win15_3.index t (1 : Fin 2) * 192 + 1 * (j 1).val; omega))
  have hb : iblk15 V c 1 t (biasAt ⟨(j 1).val, (j 1).isLt⟩) = V c main_v158 (biasAt (c192 (((cfg15.win 3).blk t).view.emb j))) :=
    congrArg (V c main_v158) (a₁ := ((cfg15.win 1).blk t).view.emb (biasAt ⟨(j 1).val, (j 1).isLt⟩)) (a₂ := biasAt (c192 (((cfg15.win 3).blk t).view.emb j))) (funext fun a => Fin.ext (by
      match a with
      | ⟨0, _⟩ => show win15_1.index t (0 : Fin 2) * 1 + 1 * 0 = 0; omega
      | ⟨1, _⟩ => show win15_1.index t (1 : Fin 2) * 192 + 1 * (j 1).val = win15_3.index t (1 : Fin 2) * 192 + 1 * (j 1).val; omega))
  have hr : iblk15 V c 2 t j = V c main_v119 (((cfg15.win 3).blk t).view.emb j) :=
    congrArg (V c main_v119) (a₁ := ((cfg15.win 2).blk t).view.emb (j)) (a₂ := (((cfg15.win 3).blk t).view.emb j)) (funext fun a => Fin.ext (by
      match a with
      | ⟨0, _⟩ => show win15_2.index t (0 : Fin 2) * 1000 + 1 * (j 0).val = win15_3.index t (0 : Fin 2) * 1000 + 1 * (j 0).val; omega
      | ⟨1, _⟩ => show win15_2.index t (1 : Fin 2) * 192 + 1 * (j 1).val = win15_3.index t (1 : Fin 2) * 192 + 1 * (j 1).val; omega))
  rw [ha, hb, hr]

/-- An index is in point t's block iff each coordinate is in the block's range on its axis. -/
theorem mem_blk (t : Fin cfg15.N) (i : S25000x192.Idx) :
    i ∈ ((cfg15.win 3).blk t).view.set ↔ ∀ a : Fin 2, win15_3.index t a * S1000x192.size a ≤ (i a).val ∧ (i a).val < win15_3.index t a * S1000x192.size a + S1000x192.size a := by
  show i ∈ ((View.whole main_v159).slice (win15_3.rect t)).set ↔ _
  rw [View.set_slice_whole, Rect.mem_set_unit]
  exact Iff.rfl

/-- Row r of the output lies in the block of point r / 1000. -/
theorem cover (i : S25000x192.Idx) : ∃ t : Fin cfg15.N, (cfg15.win 3).flush t = true ∧ i ∈ ((cfg15.win 3).blk t).view.set := by
  have hi0 : (i 0).val < 25000 := (i 0).isLt
  have hi1 : (i 1).val < 192 := (i 1).isLt
  have hN : (i 0).val / 1000 < cfg15.N := lt_of_lt_of_eq (by omega : (i 0).val / 1000 < 25) N_15.symm
  refine ⟨⟨(i 0).val / 1000, hN⟩, flush15_3 _, ?_⟩
  rw [mem_blk]
  have f0 : win15_3.index ⟨(i 0).val / 1000, hN⟩ (0 : Fin 2) = (i 0).val / 1000 := (idx_facts ⟨(i 0).val / 1000, hN⟩).2.2.2.2.2.2.1
  have f1 : win15_3.index ⟨(i 0).val / 1000, hN⟩ (1 : Fin 2) = 0 := (idx_facts ⟨(i 0).val / 1000, hN⟩).2.2.2.2.2.2.2
  intro a
  match a with
  | ⟨0, _⟩ => show win15_3.index ⟨(i 0).val / 1000, hN⟩ (0 : Fin 2) * 1000 ≤ (i 0).val ∧ (i 0).val < win15_3.index ⟨(i 0).val / 1000, hN⟩ (0 : Fin 2) * 1000 + 1000; rw [f0]; omega
  | ⟨1, _⟩ => show win15_3.index ⟨(i 0).val / 1000, hN⟩ (1 : Fin 2) * 192 ≤ (i 1).val ∧ (i 1).val < win15_3.index ⟨(i 0).val / 1000, hN⟩ (1 : Fin 2) * 192 + 192; rw [f1]; omega

/-- The output array after the region. -/
theorem final (c : Dev nD) : (dat15 V c).arrAt 3 cfg15.N = avgG (V c main_v157) (V c main_v158) (V c main_v119) :=
  (dat15 V c).arrAt_eq_of_cover 3 _ (fun t _ => flushed_eq V c t) (cover)

end Cert.Region15

end
-- ==== Proof.Layer7.lean ====
/-
  Layer 7 of the idealized kernel: at the segment boundary after its second region the layer's output buffer holds
  hidden layer 7 of the specification — (r + max(A·(x·W) + b, 0)) · ½, which on the extended reals is (r + max(…))/2 of the layer's input —, as a function of the launch contents of
  the arguments; the arguments, and the earlier features a later layer still reads, are unchanged there.
  The boundary's contents are a fold: a host stretch slices this layer's weight and bias, the first region multiplies,
  a host stretch gathers, scales and scatter-adds, the second region adds the bias and clamps and averages.
-/
import proofs.«171734_j42872363549123_1_alg».proof.Proof.Gen.KernelIdeal.Frame
import proofs.«171734_j42872363549123_1_alg».proof.Proof.Gen.ReferenceIdeal
import proofs.«171734_j42872363549123_1_alg».proof.Proof.Spec
import proofs.«171734_j42872363549123_1_alg».proof.Proof.Forms
import proofs.«171734_j42872363549123_1_alg».proof.Proof.MatMul
import proofs.«171734_j42872363549123_1_alg».proof.Proof.Post
import proofs.«171734_j42872363549123_1_alg».proof.Proof.Region14
import proofs.«171734_j42872363549123_1_alg».proof.Proof.Region15
import proofs.«171734_j42872363549123_1_alg».proof.Proof.Invs
import Idealize.ShloMosaic.Lib.StableHlo.Run

set_option maxRecDepth 16384

noncomputable section

namespace Cert.Layer7

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

open Lean in
/-- A buffer that no operation of a host stretch writes keeps its contents across the stretch. -/
macro "kept_by " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

set_option maxHeartbeats 40000000 in
/-- From what the boundary before layer 7 holds to what the boundary after it holds. -/
theorem step (c : Dev nD) (P : Cert.Invs.Inv6 m ρ c) : Cert.Invs.Inv7 m ρ c := by
  have s1_arg0 : W29 m ρ c (Proc.devRef .tc main_arg0) = (m ((c : Thread nD τ).loc main_arg0)) :=
    Eq.trans (by kept_by hostOps14) P.a0
  have s1_arg1 : W29 m ρ c (Proc.devRef .tc main_arg1) = (m ((c : Thread nD τ).loc main_arg1)) :=
    Eq.trans (by kept_by hostOps14) P.a1
  have s1_arg2 : W29 m ρ c (Proc.devRef .tc main_arg2) = (m ((c : Thread nD τ).loc main_arg2)) :=
    Eq.trans (by kept_by hostOps14) P.a2
  have s1_arg3 : W29 m ρ c (Proc.devRef .tc main_arg3) = (m ((c : Thread nD τ).loc main_arg3)) :=
    Eq.trans (by kept_by hostOps14) P.a3
  have s1_arg4 : W29 m ρ c (Proc.devRef .tc main_arg4) = (m ((c : Thread nD τ).loc main_arg4)) :=
    Eq.trans (by kept_by hostOps14) P.a4
  have s1_arg5 : W29 m ρ c (Proc.devRef .tc main_arg5) = (m ((c : Thread nD τ).loc main_arg5)) :=
    Eq.trans (by kept_by hostOps14) P.a5
  have s1_arg6 : W29 m ρ c (Proc.devRef .tc main_arg6) = (m ((c : Thread nD τ).loc main_arg6)) :=
    Eq.trans (by kept_by hostOps14) P.a6
  have s1_arg7 : W29 m ρ c (Proc.devRef .tc main_arg7) = (m ((c : Thread nD τ).loc main_arg7)) :=
    Eq.trans (by kept_by hostOps14) P.a7
  have s1_v139 : W29 m ρ c (Proc.devRef .tc main_v139) = (Cert.Spec.h6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps14) P.out
  have s1_v119 : W29 m ρ c (Proc.devRef .tc main_v119) = (Cert.Spec.h5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps14) P.car
  have s1_WM : W29 m ρ c (Proc.devRef .tc main_v141) = Cert.Spec.w7 (m ((c : Thread nD τ).loc main_arg4)) := by
    have e : W29 m ρ c (Proc.devRef .tc main_v141) = Cert.Spec.w7 (W28 m ρ c (Proc.devRef .tc main_arg4)) := by
      show StableHlo.after hostOps14 (W28 m ρ c) (Proc.devRef .tc main_v141) = _
      after_results; rfl
    exact e.trans (congrArg Cert.Spec.w7 P.a4)
  have s1_B1D : W29 m ρ c (Proc.devRef .tc main_v143) = Cert.Spec.b7 (m ((c : Thread nD τ).loc main_arg5)) := by
    have e : W29 m ρ c (Proc.devRef .tc main_v143) = Cert.Spec.b7 (W28 m ρ c (Proc.devRef .tc main_arg5)) := by
      show StableHlo.after hostOps14 (W28 m ρ c) (Proc.devRef .tc main_v143) = _
      after_results; rfl
    exact e.trans (congrArg Cert.Spec.b7 P.a5)
  have s2_arg0 : W30 m ρ c (Proc.devRef .tc main_arg0) = (m ((c : Thread nD τ).loc main_arg0)) :=
    Eq.trans (W30_of_ne m ρ c main_arg0 (by decide)) s1_arg0
  have s2_arg1 : W30 m ρ c (Proc.devRef .tc main_arg1) = (m ((c : Thread nD τ).loc main_arg1)) :=
    Eq.trans (W30_of_ne m ρ c main_arg1 (by decide)) s1_arg1
  have s2_arg2 : W30 m ρ c (Proc.devRef .tc main_arg2) = (m ((c : Thread nD τ).loc main_arg2)) :=
    Eq.trans (W30_of_ne m ρ c main_arg2 (by decide)) s1_arg2
  have s2_arg3 : W30 m ρ c (Proc.devRef .tc main_arg3) = (m ((c : Thread nD τ).loc main_arg3)) :=
    Eq.trans (W30_of_ne m ρ c main_arg3 (by decide)) s1_arg3
  have s2_arg4 : W30 m ρ c (Proc.devRef .tc main_arg4) = (m ((c : Thread nD τ).loc main_arg4)) :=
    Eq.trans (W30_of_ne m ρ c main_arg4 (by decide)) s1_arg4
  have s2_arg5 : W30 m ρ c (Proc.devRef .tc main_arg5) = (m ((c : Thread nD τ).loc main_arg5)) :=
    Eq.trans (W30_of_ne m ρ c main_arg5 (by decide)) s1_arg5
  have s2_arg6 : W30 m ρ c (Proc.devRef .tc main_arg6) = (m ((c : Thread nD τ).loc main_arg6)) :=
    Eq.trans (W30_of_ne m ρ c main_arg6 (by decide)) s1_arg6
  have s2_arg7 : W30 m ρ c (Proc.devRef .tc main_arg7) = (m ((c : Thread nD τ).loc main_arg7)) :=
    Eq.trans (W30_of_ne m ρ c main_arg7 (by decide)) s1_arg7
  have s2_v139 : W30 m ρ c (Proc.devRef .tc main_v139) = (Cert.Spec.h6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans ((W30_arr m ρ c 0).trans (((dat14 (V29 m ρ) c).arrAt_in 0 rfl _).trans (A_eq14 (V29 m ρ) c 0))) s1_v139
  have s2_v119 : W30 m ρ c (Proc.devRef .tc main_v119) = (Cert.Spec.h5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (W30_of_ne m ρ c main_v119 (by decide)) s1_v119
  have s2_v143 : W30 m ρ c (Proc.devRef .tc main_v143) = (Cert.Spec.b7 (m ((c : Thread nD τ).loc main_arg5))) :=
    Eq.trans (W30_of_ne m ρ c main_v143 (by decide)) s1_B1D
  have s2_SUP : W30 m ρ c (Proc.devRef .tc main_v144) = Host.dotGeneral (F := Ideal) (φ₁ := .f32) (φ₂ := .f32) Cert.ReferenceIdeal.dot_S25000x192_S192x192_S25000x192_1_0_0_1_n_n none (Cert.Spec.h6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w7 (m ((c : Thread nD τ).loc main_arg4))) := by
    refine (W30_arr m ρ c 2).trans ?_
    refine (Cert.Region14.final (V29 m ρ) c).trans ?_
    show Cert.Forms.mmG (W29 m ρ c (Proc.devRef .tc main_v139)) (W29 m ρ c (Proc.devRef .tc main_v141)) = _
    rw [s1_v139, s1_WM]
    exact (Cert.MatMul.hostDot_eq _ _).symm
  have s3_arg0 : W31 m ρ c (Proc.devRef .tc main_arg0) = (m ((c : Thread nD τ).loc main_arg0)) :=
    Eq.trans (by kept_by hostOps15) s2_arg0
  have s3_arg1 : W31 m ρ c (Proc.devRef .tc main_arg1) = (m ((c : Thread nD τ).loc main_arg1)) :=
    Eq.trans (by kept_by hostOps15) s2_arg1
  have s3_arg2 : W31 m ρ c (Proc.devRef .tc main_arg2) = (m ((c : Thread nD τ).loc main_arg2)) :=
    Eq.trans (by kept_by hostOps15) s2_arg2
  have s3_arg3 : W31 m ρ c (Proc.devRef .tc main_arg3) = (m ((c : Thread nD τ).loc main_arg3)) :=
    Eq.trans (by kept_by hostOps15) s2_arg3
  have s3_arg4 : W31 m ρ c (Proc.devRef .tc main_arg4) = (m ((c : Thread nD τ).loc main_arg4)) :=
    Eq.trans (by kept_by hostOps15) s2_arg4
  have s3_arg5 : W31 m ρ c (Proc.devRef .tc main_arg5) = (m ((c : Thread nD τ).loc main_arg5)) :=
    Eq.trans (by kept_by hostOps15) s2_arg5
  have s3_arg6 : W31 m ρ c (Proc.devRef .tc main_arg6) = (m ((c : Thread nD τ).loc main_arg6)) :=
    Eq.trans (by kept_by hostOps15) s2_arg6
  have s3_arg7 : W31 m ρ c (Proc.devRef .tc main_arg7) = (m ((c : Thread nD τ).loc main_arg7)) :=
    Eq.trans (by kept_by hostOps15) s2_arg7
  have s3_v139 : W31 m ρ c (Proc.devRef .tc main_v139) = (Cert.Spec.h6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps15) s2_v139
  have s3_v119 : W31 m ρ c (Proc.devRef .tc main_v119) = (Cert.Spec.h5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps15) s2_v119
  have s3_AGG : W31 m ρ c (Proc.devRef .tc main_v157) = Cert.Spec.agg (m ((c : Thread nD τ).loc main_arg1)) (m ((c : Thread nD τ).loc main_arg2)) (m ((c : Thread nD τ).loc main_arg3)) (Host.dotGeneral (F := Ideal) (φ₁ := .f32) (φ₂ := .f32) Cert.ReferenceIdeal.dot_S25000x192_S192x192_S25000x192_1_0_0_1_n_n none (Cert.Spec.h6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w7 (m ((c : Thread nD τ).loc main_arg4)))) := by
    have e : W31 m ρ c (Proc.devRef .tc main_v157) = Cert.Spec.agg (W30 m ρ c (Proc.devRef .tc main_arg1)) (W30 m ρ c (Proc.devRef .tc main_arg2)) (W30 m ρ c (Proc.devRef .tc main_arg3)) (W30 m ρ c (Proc.devRef .tc main_v144)) := by
      show StableHlo.after hostOps15 (W30 m ρ c) (Proc.devRef .tc main_v157) = _
      after_results
      exact Cert.Post.agg_eq _ _ _ _
    rw [e, s2_arg1, s2_arg2, s2_arg3, s2_SUP]
  have s3_B2 : W31 m ρ c (Proc.devRef .tc main_v158) = shapeCast S1x192 (Cert.Spec.b7 (m ((c : Thread nD τ).loc main_arg5))) Cert.KernelIdeal.Facts₀.shapeCasts_S192_S1x192 := by
    have e : W31 m ρ c (Proc.devRef .tc main_v158) = shapeCast S1x192 (W30 m ρ c (Proc.devRef .tc main_v143)) Cert.KernelIdeal.Facts₀.shapeCasts_S192_S1x192 := by
      show StableHlo.after hostOps15 (W30 m ρ c) (Proc.devRef .tc main_v158) = _
      after_results; rfl
    rw [e, s2_v143]
  have s4_arg0 : W32 m ρ c (Proc.devRef .tc main_arg0) = (m ((c : Thread nD τ).loc main_arg0)) :=
    Eq.trans (W32_of_ne m ρ c main_arg0 (by decide)) s3_arg0
  have s4_arg1 : W32 m ρ c (Proc.devRef .tc main_arg1) = (m ((c : Thread nD τ).loc main_arg1)) :=
    Eq.trans (W32_of_ne m ρ c main_arg1 (by decide)) s3_arg1
  have s4_arg2 : W32 m ρ c (Proc.devRef .tc main_arg2) = (m ((c : Thread nD τ).loc main_arg2)) :=
    Eq.trans (W32_of_ne m ρ c main_arg2 (by decide)) s3_arg2
  have s4_arg3 : W32 m ρ c (Proc.devRef .tc main_arg3) = (m ((c : Thread nD τ).loc main_arg3)) :=
    Eq.trans (W32_of_ne m ρ c main_arg3 (by decide)) s3_arg3
  have s4_arg4 : W32 m ρ c (Proc.devRef .tc main_arg4) = (m ((c : Thread nD τ).loc main_arg4)) :=
    Eq.trans (W32_of_ne m ρ c main_arg4 (by decide)) s3_arg4
  have s4_arg5 : W32 m ρ c (Proc.devRef .tc main_arg5) = (m ((c : Thread nD τ).loc main_arg5)) :=
    Eq.trans (W32_of_ne m ρ c main_arg5 (by decide)) s3_arg5
  have s4_arg6 : W32 m ρ c (Proc.devRef .tc main_arg6) = (m ((c : Thread nD τ).loc main_arg6)) :=
    Eq.trans (W32_of_ne m ρ c main_arg6 (by decide)) s3_arg6
  have s4_arg7 : W32 m ρ c (Proc.devRef .tc main_arg7) = (m ((c : Thread nD τ).loc main_arg7)) :=
    Eq.trans (W32_of_ne m ρ c main_arg7 (by decide)) s3_arg7
  have s4_OUT : W32 m ρ c (Proc.devRef .tc main_v159) = (Cert.Spec.h7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    refine (W32_arr m ρ c 3).trans ?_
    refine (Cert.Region15.final (V31 m ρ) c).trans ?_
    show Cert.Forms.avgG (W31 m ρ c (Proc.devRef .tc main_v157)) (W31 m ρ c (Proc.devRef .tc main_v158)) (W31 m ρ c (Proc.devRef .tc main_v119)) = _
    rw [s3_AGG, s3_B2, s3_v119]
    refine (Cert.Post.avgG_eq _ _ _).trans ?_
    rfl
  exact ⟨s4_OUT, s4_arg0, s4_arg1, s4_arg2, s4_arg3, s4_arg4, s4_arg5, s4_arg6, s4_arg7⟩

end Cert.Layer7

end
-- ==== Proof.Region16.lean ====
/-
  Kernel region 16 as a function of whole arrays: after the region, its output array is, index by index,
  the matrix product of the 25000 × 192 array in window 0 with the 192 × 192 matrix in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.MatMul
import Idealize.ShloMosaic.Lib.Pipeline.Value

set_option maxRecDepth 16384

noncomputable section

namespace Cert.Region16

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg16.N, win16_0.index t (0 : Fin 2) = t.val
    ∧ win16_0.index t (1 : Fin 2) = 0
    ∧ win16_1.index t (0 : Fin 2) = 0
    ∧ win16_1.index t (1 : Fin 2) = 0
    ∧ win16_2.index t (0 : Fin 2) = t.val
    ∧ win16_2.index t (1 : Fin 2) = 0 :=
  (by decide +kernel : ∀ t : Fin grid16.N, _)

/-- What point t writes back is block t of the whole-array function. -/
theorem flushed_eq (c : Dev nD) (t : Fin cfg16.N) :
    (dat16 V c).flushed 2 t = ((cfg16.win 2).blk t).view.read (Elt Ideal) (mmG (V c main_v159) (V c main_v161)) := by
  show (cfg16.win 2).cut (grid16.coords t) ((dat16 V c).after 2 t) = _
  rw [after16_2]
  unfold out16_2
  rw [View.canon_unit_zero hz]
  simp only [View.ld_unit_zero (S := S1000x192) hz, View.ld_unit_zero (S := S192x192) hz]
  obtain ⟨e00, e01, e10, e11, e20, e21⟩ := idx_facts t
  funext j
  refine (Cert.MatMul.pay16_apply _ _ j).trans ?_
  refine Eq.trans ?_ (mmG_apply _ _ _).symm
  refine Finset.sum_congr rfl fun q _ => ?_
  have hl : iblk16 V c 0 t (Cert.MatMul.blkRowK ⟨(j 0).val, (j 0).isLt⟩ q) = V c main_v159 (rowK (r192 (((cfg16.win 2).blk t).view.emb j)) q) :=
    congrArg (V c main_v159) (a₁ := ((cfg16.win 0).blk t).view.emb (Cert.MatMul.blkRowK ⟨(j 0).val, (j 0).isLt⟩ q)) (a₂ := rowK (r192 (((cfg16.win 2).blk t).view.emb j)) q) (funext fun a => Fin.ext (by
      match a with
      | ⟨0, _⟩ => show win16_0.index t (0 : Fin 2) * 1000 + 1 * (j 0).val = win16_2.index t (0 : Fin 2) * 1000 + 1 * (j 0).val; omega
      | ⟨1, _⟩ => show win16_0.index t (1 : Fin 2) * 192 + 1 * q.val = q.val; omega))
  have hr : iblk16 V c 1 t (kCol q ⟨(j 1).val, (j 1).isLt⟩) = V c main_v161 (kCol q (c192 (((cfg16.win 2).blk t).view.emb j))) :=
    congrArg (V c main_v161) (a₁ := ((cfg16.win 1).blk t).view.emb (kCol q ⟨(j 1).val, (j 1).isLt⟩)) (a₂ := kCol q (c192 (((cfg16.win 2).blk t).view.emb j))) (funext fun a => Fin.ext (by
      match a with
      | ⟨0, _⟩ => show win16_1.index t (0 : Fin 2) * 192 + 1 * q.val = q.val; omega
      | ⟨1, _⟩ => show win16_1.index t (1 : Fin 2) * 192 + 1 * (j 1).val = win16_2.index t (1 : Fin 2) * 192 + 1 * (j 1).val; omega))
  exact congrArg₂ (· * ·) hl hr

/-- An index is in point t's block iff each coordinate is in the block's range on its axis. -/
theorem mem_blk (t : Fin cfg16.N) (i : S25000x192.Idx) :
    i ∈ ((cfg16.win 2).blk t).view.set ↔ ∀ a : Fin 2, win16_2.index t a * S1000x192.size a ≤ (i a).val ∧ (i a).val < win16_2.index t a * S1000x192.size a + S1000x192.size a := by
  show i ∈ ((View.whole main_v164).slice (win16_2.rect t)).set ↔ _
  rw [View.set_slice_whole, Rect.mem_set_unit]
  exact Iff.rfl

/-- Row r of the output lies in the block of point r / 1000. -/
theorem cover (i : S25000x192.Idx) : ∃ t : Fin cfg16.N, (cfg16.win 2).flush t = true ∧ i ∈ ((cfg16.win 2).blk t).view.set := by
  have hi0 : (i 0).val < 25000 := (i 0).isLt
  have hi1 : (i 1).val < 192 := (i 1).isLt
  have hN : (i 0).val / 1000 < cfg16.N := lt_of_lt_of_eq (by omega : (i 0).val / 1000 < 25) N_16.symm
  refine ⟨⟨(i 0).val / 1000, hN⟩, flush16_2 _, ?_⟩
  rw [mem_blk]
  have f0 : win16_2.index ⟨(i 0).val / 1000, hN⟩ (0 : Fin 2) = (i 0).val / 1000 := (idx_facts ⟨(i 0).val / 1000, hN⟩).2.2.2.2.1
  have f1 : win16_2.index ⟨(i 0).val / 1000, hN⟩ (1 : Fin 2) = 0 := (idx_facts ⟨(i 0).val / 1000, hN⟩).2.2.2.2.2
  intro a
  match a with
  | ⟨0, _⟩ => show win16_2.index ⟨(i 0).val / 1000, hN⟩ (0 : Fin 2) * 1000 ≤ (i 0).val ∧ (i 0).val < win16_2.index ⟨(i 0).val / 1000, hN⟩ (0 : Fin 2) * 1000 + 1000; rw [f0]; omega
  | ⟨1, _⟩ => show win16_2.index ⟨(i 0).val / 1000, hN⟩ (1 : Fin 2) * 192 ≤ (i 1).val ∧ (i 1).val < win16_2.index ⟨(i 0).val / 1000, hN⟩ (1 : Fin 2) * 192 + 192; rw [f1]; omega

/-- The output array after the region. -/
theorem final (c : Dev nD) : (dat16 V c).arrAt 2 cfg16.N = mmG (V c main_v159) (V c main_v161) :=
  (dat16 V c).arrAt_eq_of_cover 2 _ (fun t _ => flushed_eq V c t) (cover)

end Cert.Region16

end
-- ==== Proof.Region17.lean ====
/-
  Kernel region 17 as a function of whole arrays: after the region, its output array is, index by index,
  max(a + b, 0) of the aggregate a in window 0 and the bias row b in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.Post
import Idealize.ShloMosaic.Lib.Pipeline.Value

set_option maxRecDepth 16384

noncomputable section

namespace Cert.Region17

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg17.N, win17_0.index t (0 : Fin 2) = t.val
    ∧ win17_0.index t (1 : Fin 2) = 0
    ∧ win17_1.index t (0 : Fin 2) = 0
    ∧ win17_1.index t (1 : Fin 2) = 0
    ∧ win17_2.index t (0 : Fin 2) = t.val
    ∧ win17_2.index t (1 : Fin 2) = 0 :=
  (by decide +kernel : ∀ t : Fin grid17.N, _)

/-- What point t writes back is block t of the whole-array function. -/
theorem flushed_eq (c : Dev nD) (t : Fin cfg17.N) :
    (dat17 V c).flushed 2 t = ((cfg17.win 2).blk t).view.read (Elt Ideal) (reluG (V c main_v177) (V c main_v178)) := by
  show (cfg17.win 2).cut (grid17.coords t) ((dat17 V c).after 2 t) = _
  rw [after17_2]
  unfold out17_2
  rw [View.canon_unit_zero hz]
  simp only [View.ld_unit_zero (S := S1000x192) hz, View.ld_unit_zero (S := S1x192) hz]
  obtain ⟨e00, e01, e10, e11, e20, e21⟩ := idx_facts t
  funext j
  refine (Cert.Post.pay17_apply _ _ j).trans ?_
  refine Eq.trans ?_ (reluG_apply _ _ _).symm
  have ha : iblk17 V c 0 t j = V c main_v177 (((cfg17.win 2).blk t).view.emb j) :=
    congrArg (V c main_v177) (a₁ := ((cfg17.win 0).blk t).view.emb (j)) (a₂ := (((cfg17.win 2).blk t).view.emb j)) (funext fun a => Fin.ext (by
      match a with
      | ⟨0, _⟩ => show win17_0.index t (0 : Fin 2) * 1000 + 1 * (j 0).val = win17_2.index t (0 : Fin 2) * 1000 + 1 * (j 0).val; omega
      | ⟨1, _⟩ => show win17_0.index t (1 : Fin 2) * 192 + 1 * (j 1).val = win17_2.index t (1 : Fin 2) * 192 + 1 * (j 1).val; omega))
  have hb : iblk17 V c 1 t (biasAt ⟨(j 1).val, (j 1).isLt⟩) = V c main_v178 (biasAt (c192 (((cfg17.win 2).blk t).view.emb j))) :=
    congrArg (V c main_v178) (a₁ := ((cfg17.win 1).blk t).view.emb (biasAt ⟨(j 1).val, (j 1).isLt⟩)) (a₂ := biasAt (c192 (((cfg17.win 2).blk t).view.emb j))) (funext fun a => Fin.ext (by
      match a with
      | ⟨0, _⟩ => show win17_1.index t (0 : Fin 2) * 1 + 1 * 0 = 0; omega
      | ⟨1, _⟩ => show win17_1.index t (1 : Fin 2) * 192 + 1 * (j 1).val = win17_2.index t (1 : Fin 2) * 192 + 1 * (j 1).val; omega))

  rw [ha, hb]

/-- An index is in point t's block iff each coordinate is in the block's range on its axis. -/
theorem mem_blk (t : Fin cfg17.N) (i : S25000x192.Idx) :
    i ∈ ((cfg17.win 2).blk t).view.set ↔ ∀ a : Fin 2, win17_2.index t a * S1000x192.size a ≤ (i a).val ∧ (i a).val < win17_2.index t a * S1000x192.size a + S1000x192.size a := by
  show i ∈ ((View.whole main_v179).slice (win17_2.rect t)).set ↔ _
  rw [View.set_slice_whole, Rect.mem_set_unit]
  exact Iff.rfl

/-- Row r of the output lies in the block of point r / 1000. -/
theorem cover (i : S25000x192.Idx) : ∃ t : Fin cfg17.N, (cfg17.win 2).flush t = true ∧ i ∈ ((cfg17.win 2).blk t).view.set := by
  have hi0 : (i 0).val < 25000 := (i 0).isLt
  have hi1 : (i 1).val < 192 := (i 1).isLt
  have hN : (i 0).val / 1000 < cfg17.N := lt_of_lt_of_eq (by omega : (i 0).val / 1000 < 25) N_17.symm
  refine ⟨⟨(i 0).val / 1000, hN⟩, flush17_2 _, ?_⟩
  rw [mem_blk]
  have f0 : win17_2.index ⟨(i 0).val / 1000, hN⟩ (0 : Fin 2) = (i 0).val / 1000 := (idx_facts ⟨(i 0).val / 1000, hN⟩).2.2.2.2.1
  have f1 : win17_2.index ⟨(i 0).val / 1000, hN⟩ (1 : Fin 2) = 0 := (idx_facts ⟨(i 0).val / 1000, hN⟩).2.2.2.2.2
  intro a
  match a with
  | ⟨0, _⟩ => show win17_2.index ⟨(i 0).val / 1000, hN⟩ (0 : Fin 2) * 1000 ≤ (i 0).val ∧ (i 0).val < win17_2.index ⟨(i 0).val / 1000, hN⟩ (0 : Fin 2) * 1000 + 1000; rw [f0]; omega
  | ⟨1, _⟩ => show win17_2.index ⟨(i 0).val / 1000, hN⟩ (1 : Fin 2) * 192 ≤ (i 1).val ∧ (i 1).val < win17_2.index ⟨(i 0).val / 1000, hN⟩ (1 : Fin 2) * 192 + 192; rw [f1]; omega

/-- The output array after the region. -/
theorem final (c : Dev nD) : (dat17 V c).arrAt 2 cfg17.N = reluG (V c main_v177) (V c main_v178) :=
  (dat17 V c).arrAt_eq_of_cover 2 _ (fun t _ => flushed_eq V c t) (cover)

end Cert.Region17

end
-- ==== Proof.Layer8.lean ====
/-
  Layer 8 of the idealized kernel: at the segment boundary after its second region the layer's output buffer holds
  hidden layer 8 of the specification — max(A·(x·W) + b, 0) of the layer's input —, as a function of the launch contents of
  the arguments; the arguments, and the earlier features a later layer still reads, are unchanged there.
  The boundary's contents are a fold: a host stretch slices this layer's weight and bias, the first region multiplies,
  a host stretch gathers, scales and scatter-adds, the second region adds the bias and clamps.
-/
import proofs.«171734_j42872363549123_1_alg».proof.Proof.Gen.KernelIdeal.Frame
import proofs.«171734_j42872363549123_1_alg».proof.Proof.Gen.ReferenceIdeal
import proofs.«171734_j42872363549123_1_alg».proof.Proof.Spec
import proofs.«171734_j42872363549123_1_alg».proof.Proof.Forms
import proofs.«171734_j42872363549123_1_alg».proof.Proof.MatMul
import proofs.«171734_j42872363549123_1_alg».proof.Proof.Post
import proofs.«171734_j42872363549123_1_alg».proof.Proof.Region16
import proofs.«171734_j42872363549123_1_alg».proof.Proof.Region17
import proofs.«171734_j42872363549123_1_alg».proof.Proof.Invs
import Idealize.ShloMosaic.Lib.StableHlo.Run

set_option maxRecDepth 16384

noncomputable section

namespace Cert.Layer8

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

open Lean in
/-- A buffer that no operation of a host stretch writes keeps its contents across the stretch. -/
macro "kept_by " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

set_option maxHeartbeats 40000000 in
/-- From what the boundary before layer 8 holds to what the boundary after it holds. -/
theorem step (c : Dev nD) (P : Cert.Invs.Inv7 m ρ c) : Cert.Invs.Inv8 m ρ c := by
  have s1_arg0 : W33 m ρ c (Proc.devRef .tc main_arg0) = (m ((c : Thread nD τ).loc main_arg0)) :=
    Eq.trans (by kept_by hostOps16) P.a0
  have s1_arg1 : W33 m ρ c (Proc.devRef .tc main_arg1) = (m ((c : Thread nD τ).loc main_arg1)) :=
    Eq.trans (by kept_by hostOps16) P.a1
  have s1_arg2 : W33 m ρ c (Proc.devRef .tc main_arg2) = (m ((c : Thread nD τ).loc main_arg2)) :=
    Eq.trans (by kept_by hostOps16) P.a2
  have s1_arg3 : W33 m ρ c (Proc.devRef .tc main_arg3) = (m ((c : Thread nD τ).loc main_arg3)) :=
    Eq.trans (by kept_by hostOps16) P.a3
  have s1_arg4 : W33 m ρ c (Proc.devRef .tc main_arg4) = (m ((c : Thread nD τ).loc main_arg4)) :=
    Eq.trans (by kept_by hostOps16) P.a4
  have s1_arg5 : W33 m ρ c (Proc.devRef .tc main_arg5) = (m ((c : Thread nD τ).loc main_arg5)) :=
    Eq.trans (by kept_by hostOps16) P.a5
  have s1_arg6 : W33 m ρ c (Proc.devRef .tc main_arg6) = (m ((c : Thread nD τ).loc main_arg6)) :=
    Eq.trans (by kept_by hostOps16) P.a6
  have s1_arg7 : W33 m ρ c (Proc.devRef .tc main_arg7) = (m ((c : Thread nD τ).loc main_arg7)) :=
    Eq.trans (by kept_by hostOps16) P.a7
  have s1_v159 : W33 m ρ c (Proc.devRef .tc main_v159) = (Cert.Spec.h7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps16) P.out
  have s1_WM : W33 m ρ c (Proc.devRef .tc main_v161) = Cert.Spec.w8 (m ((c : Thread nD τ).loc main_arg4)) := by
    have e : W33 m ρ c (Proc.devRef .tc main_v161) = Cert.Spec.w8 (W32 m ρ c (Proc.devRef .tc main_arg4)) := by
      show StableHlo.after hostOps16 (W32 m ρ c) (Proc.devRef .tc main_v161) = _
      after_results; rfl
    exact e.trans (congrArg Cert.Spec.w8 P.a4)
  have s1_B1D : W33 m ρ c (Proc.devRef .tc main_v163) = Cert.Spec.b8 (m ((c : Thread nD τ).loc main_arg5)) := by
    have e : W33 m ρ c (Proc.devRef .tc main_v163) = Cert.Spec.b8 (W32 m ρ c (Proc.devRef .tc main_arg5)) := by
      show StableHlo.after hostOps16 (W32 m ρ c) (Proc.devRef .tc main_v163) = _
      after_results; rfl
    exact e.trans (congrArg Cert.Spec.b8 P.a5)
  have s2_arg0 : W34 m ρ c (Proc.devRef .tc main_arg0) = (m ((c : Thread nD τ).loc main_arg0)) :=
    Eq.trans (W34_of_ne m ρ c main_arg0 (by decide)) s1_arg0
  have s2_arg1 : W34 m ρ c (Proc.devRef .tc main_arg1) = (m ((c : Thread nD τ).loc main_arg1)) :=
    Eq.trans (W34_of_ne m ρ c main_arg1 (by decide)) s1_arg1
  have s2_arg2 : W34 m ρ c (Proc.devRef .tc main_arg2) = (m ((c : Thread nD τ).loc main_arg2)) :=
    Eq.trans (W34_of_ne m ρ c main_arg2 (by decide)) s1_arg2
  have s2_arg3 : W34 m ρ c (Proc.devRef .tc main_arg3) = (m ((c : Thread nD τ).loc main_arg3)) :=
    Eq.trans (W34_of_ne m ρ c main_arg3 (by decide)) s1_arg3
  have s2_arg4 : W34 m ρ c (Proc.devRef .tc main_arg4) = (m ((c : Thread nD τ).loc main_arg4)) :=
    Eq.trans (W34_of_ne m ρ c main_arg4 (by decide)) s1_arg4
  have s2_arg5 : W34 m ρ c (Proc.devRef .tc main_arg5) = (m ((c : Thread nD τ).loc main_arg5)) :=
    Eq.trans (W34_of_ne m ρ c main_arg5 (by decide)) s1_arg5
  have s2_arg6 : W34 m ρ c (Proc.devRef .tc main_arg6) = (m ((c : Thread nD τ).loc main_arg6)) :=
    Eq.trans (W34_of_ne m ρ c main_arg6 (by decide)) s1_arg6
  have s2_arg7 : W34 m ρ c (Proc.devRef .tc main_arg7) = (m ((c : Thread nD τ).loc main_arg7)) :=
    Eq.trans (W34_of_ne m ρ c main_arg7 (by decide)) s1_arg7
  have s2_v159 : W34 m ρ c (Proc.devRef .tc main_v159) = (Cert.Spec.h7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans ((W34_arr m ρ c 0).trans (((dat16 (V33 m ρ) c).arrAt_in 0 rfl _).trans (A_eq16 (V33 m ρ) c 0))) s1_v159
  have s2_v163 : W34 m ρ c (Proc.devRef .tc main_v163) = (Cert.Spec.b8 (m ((c : Thread nD τ).loc main_arg5))) :=
    Eq.trans (W34_of_ne m ρ c main_v163 (by decide)) s1_B1D
  have s2_SUP : W34 m ρ c (Proc.devRef .tc main_v164) = Host.dotGeneral (F := Ideal) (φ₁ := .f32) (φ₂ := .f32) Cert.ReferenceIdeal.dot_S25000x192_S192x192_S25000x192_1_0_0_1_n_n none (Cert.Spec.h7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w8 (m ((c : Thread nD τ).loc main_arg4))) := by
    refine (W34_arr m ρ c 2).trans ?_
    refine (Cert.Region16.final (V33 m ρ) c).trans ?_
    show Cert.Forms.mmG (W33 m ρ c (Proc.devRef .tc main_v159)) (W33 m ρ c (Proc.devRef .tc main_v161)) = _
    rw [s1_v159, s1_WM]
    exact (Cert.MatMul.hostDot_eq _ _).symm
  have s3_arg0 : W35 m ρ c (Proc.devRef .tc main_arg0) = (m ((c : Thread nD τ).loc main_arg0)) :=
    Eq.trans (by kept_by hostOps17) s2_arg0
  have s3_arg1 : W35 m ρ c (Proc.devRef .tc main_arg1) = (m ((c : Thread nD τ).loc main_arg1)) :=
    Eq.trans (by kept_by hostOps17) s2_arg1
  have s3_arg2 : W35 m ρ c (Proc.devRef .tc main_arg2) = (m ((c : Thread nD τ).loc main_arg2)) :=
    Eq.trans (by kept_by hostOps17) s2_arg2
  have s3_arg3 : W35 m ρ c (Proc.devRef .tc main_arg3) = (m ((c : Thread nD τ).loc main_arg3)) :=
    Eq.trans (by kept_by hostOps17) s2_arg3
  have s3_arg4 : W35 m ρ c (Proc.devRef .tc main_arg4) = (m ((c : Thread nD τ).loc main_arg4)) :=
    Eq.trans (by kept_by hostOps17) s2_arg4
  have s3_arg5 : W35 m ρ c (Proc.devRef .tc main_arg5) = (m ((c : Thread nD τ).loc main_arg5)) :=
    Eq.trans (by kept_by hostOps17) s2_arg5
  have s3_arg6 : W35 m ρ c (Proc.devRef .tc main_arg6) = (m ((c : Thread nD τ).loc main_arg6)) :=
    Eq.trans (by kept_by hostOps17) s2_arg6
  have s3_arg7 : W35 m ρ c (Proc.devRef .tc main_arg7) = (m ((c : Thread nD τ).loc main_arg7)) :=
    Eq.trans (by kept_by hostOps17) s2_arg7
  have s3_v159 : W35 m ρ c (Proc.devRef .tc main_v159) = (Cert.Spec.h7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps17) s2_v159
  have s3_AGG : W35 m ρ c (Proc.devRef .tc main_v177) = Cert.Spec.agg (m ((c : Thread nD τ).loc main_arg1)) (m ((c : Thread nD τ).loc main_arg2)) (m ((c : Thread nD τ).loc main_arg3)) (Host.dotGeneral (F := Ideal) (φ₁ := .f32) (φ₂ := .f32) Cert.ReferenceIdeal.dot_S25000x192_S192x192_S25000x192_1_0_0_1_n_n none (Cert.Spec.h7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w8 (m ((c : Thread nD τ).loc main_arg4)))) := by
    have e : W35 m ρ c (Proc.devRef .tc main_v177) = Cert.Spec.agg (W34 m ρ c (Proc.devRef .tc main_arg1)) (W34 m ρ c (Proc.devRef .tc main_arg2)) (W34 m ρ c (Proc.devRef .tc main_arg3)) (W34 m ρ c (Proc.devRef .tc main_v164)) := by
      show StableHlo.after hostOps17 (W34 m ρ c) (Proc.devRef .tc main_v177) = _
      after_results
      exact Cert.Post.agg_eq _ _ _ _
    rw [e, s2_arg1, s2_arg2, s2_arg3, s2_SUP]
  have s3_B2 : W35 m ρ c (Proc.devRef .tc main_v178) = shapeCast S1x192 (Cert.Spec.b8 (m ((c : Thread nD τ).loc main_arg5))) Cert.KernelIdeal.Facts₀.shapeCasts_S192_S1x192 := by
    have e : W35 m ρ c (Proc.devRef .tc main_v178) = shapeCast S1x192 (W34 m ρ c (Proc.devRef .tc main_v163)) Cert.KernelIdeal.Facts₀.shapeCasts_S192_S1x192 := by
      show StableHlo.after hostOps17 (W34 m ρ c) (Proc.devRef .tc main_v178) = _
      after_results; rfl
    rw [e, s2_v163]
  have s4_arg0 : W36 m ρ c (Proc.devRef .tc main_arg0) = (m ((c : Thread nD τ).loc main_arg0)) :=
    Eq.trans (W36_of_ne m ρ c main_arg0 (by decide)) s3_arg0
  have s4_arg1 : W36 m ρ c (Proc.devRef .tc main_arg1) = (m ((c : Thread nD τ).loc main_arg1)) :=
    Eq.trans (W36_of_ne m ρ c main_arg1 (by decide)) s3_arg1
  have s4_arg2 : W36 m ρ c (Proc.devRef .tc main_arg2) = (m ((c : Thread nD τ).loc main_arg2)) :=
    Eq.trans (W36_of_ne m ρ c main_arg2 (by decide)) s3_arg2
  have s4_arg3 : W36 m ρ c (Proc.devRef .tc main_arg3) = (m ((c : Thread nD τ).loc main_arg3)) :=
    Eq.trans (W36_of_ne m ρ c main_arg3 (by decide)) s3_arg3
  have s4_arg4 : W36 m ρ c (Proc.devRef .tc main_arg4) = (m ((c : Thread nD τ).loc main_arg4)) :=
    Eq.trans (W36_of_ne m ρ c main_arg4 (by decide)) s3_arg4
  have s4_arg5 : W36 m ρ c (Proc.devRef .tc main_arg5) = (m ((c : Thread nD τ).loc main_arg5)) :=
    Eq.trans (W36_of_ne m ρ c main_arg5 (by decide)) s3_arg5
  have s4_arg6 : W36 m ρ c (Proc.devRef .tc main_arg6) = (m ((c : Thread nD τ).loc main_arg6)) :=
    Eq.trans (W36_of_ne m ρ c main_arg6 (by decide)) s3_arg6
  have s4_arg7 : W36 m ρ c (Proc.devRef .tc main_arg7) = (m ((c : Thread nD τ).loc main_arg7)) :=
    Eq.trans (W36_of_ne m ρ c main_arg7 (by decide)) s3_arg7
  have s4_v159 : W36 m ρ c (Proc.devRef .tc main_v159) = (Cert.Spec.h7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (W36_of_ne m ρ c main_v159 (by decide)) s3_v159
  have s4_OUT : W36 m ρ c (Proc.devRef .tc main_v179) = (Cert.Spec.h8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    refine (W36_arr m ρ c 2).trans ?_
    refine (Cert.Region17.final (V35 m ρ) c).trans ?_
    show Cert.Forms.reluG (W35 m ρ c (Proc.devRef .tc main_v177)) (W35 m ρ c (Proc.devRef .tc main_v178)) = _
    rw [s3_AGG, s3_B2]
    refine (Cert.Post.reluG_eq _ _).trans ?_
    rfl
  exact ⟨s4_OUT, s4_v159, s4_arg0, s4_arg1, s4_arg2, s4_arg3, s4_arg4, s4_arg5, s4_arg6, s4_arg7⟩

end Cert.Layer8

end
-- ==== Proof.Region18.lean ====
/-
  Kernel region 18 as a function of whole arrays: after the region, its output array is, index by index,
  the matrix product of the 25000 × 192 array in window 0 with the 192 × 192 matrix in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.MatMul
import Idealize.ShloMosaic.Lib.Pipeline.Value

set_option maxRecDepth 16384

noncomputable section

namespace Cert.Region18

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg18.N, win18_0.index t (0 : Fin 2) = t.val
    ∧ win18_0.index t (1 : Fin 2) = 0
    ∧ win18_1.index t (0 : Fin 2) = 0
    ∧ win18_1.index t (1 : Fin 2) = 0
    ∧ win18_2.index t (0 : Fin 2) = t.val
    ∧ win18_2.index t (1 : Fin 2) = 0 :=
  (by decide +kernel : ∀ t : Fin grid18.N, _)

/-- What point t writes back is block t of the whole-array function. -/
theorem flushed_eq (c : Dev nD) (t : Fin cfg18.N) :
    (dat18 V c).flushed 2 t = ((cfg18.win 2).blk t).view.read (Elt Ideal) (mmG (V c main_v179) (V c main_v181)) := by
  show (cfg18.win 2).cut (grid18.coords t) ((dat18 V c).after 2 t) = _
  rw [after18_2]
  unfold out18_2
  rw [View.canon_unit_zero hz]
  simp only [View.ld_unit_zero (S := S1000x192) hz, View.ld_unit_zero (S := S192x192) hz]
  obtain ⟨e00, e01, e10, e11, e20, e21⟩ := idx_facts t
  funext j
  refine (Cert.MatMul.pay18_apply _ _ j).trans ?_
  refine Eq.trans ?_ (mmG_apply _ _ _).symm
  refine Finset.sum_congr rfl fun q _ => ?_
  have hl : iblk18 V c 0 t (Cert.MatMul.blkRowK ⟨(j 0).val, (j 0).isLt⟩ q) = V c main_v179 (rowK (r192 (((cfg18.win 2).blk t).view.emb j)) q) :=
    congrArg (V c main_v179) (a₁ := ((cfg18.win 0).blk t).view.emb (Cert.MatMul.blkRowK ⟨(j 0).val, (j 0).isLt⟩ q)) (a₂ := rowK (r192 (((cfg18.win 2).blk t).view.emb j)) q) (funext fun a => Fin.ext (by
      match a with
      | ⟨0, _⟩ => show win18_0.index t (0 : Fin 2) * 1000 + 1 * (j 0).val = win18_2.index t (0 : Fin 2) * 1000 + 1 * (j 0).val; omega
      | ⟨1, _⟩ => show win18_0.index t (1 : Fin 2) * 192 + 1 * q.val = q.val; omega))
  have hr : iblk18 V c 1 t (kCol q ⟨(j 1).val, (j 1).isLt⟩) = V c main_v181 (kCol q (c192 (((cfg18.win 2).blk t).view.emb j))) :=
    congrArg (V c main_v181) (a₁ := ((cfg18.win 1).blk t).view.emb (kCol q ⟨(j 1).val, (j 1).isLt⟩)) (a₂ := kCol q (c192 (((cfg18.win 2).blk t).view.emb j))) (funext fun a => Fin.ext (by
      match a with
      | ⟨0, _⟩ => show win18_1.index t (0 : Fin 2) * 192 + 1 * q.val = q.val; omega
      | ⟨1, _⟩ => show win18_1.index t (1 : Fin 2) * 192 + 1 * (j 1).val = win18_2.index t (1 : Fin 2) * 192 + 1 * (j 1).val; omega))
  exact congrArg₂ (· * ·) hl hr

/-- An index is in point t's block iff each coordinate is in the block's range on its axis. -/
theorem mem_blk (t : Fin cfg18.N) (i : S25000x192.Idx) :
    i ∈ ((cfg18.win 2).blk t).view.set ↔ ∀ a : Fin 2, win18_2.index t a * S1000x192.size a ≤ (i a).val ∧ (i a).val < win18_2.index t a * S1000x192.size a + S1000x192.size a := by
  show i ∈ ((View.whole main_v184).slice (win18_2.rect t)).set ↔ _
  rw [View.set_slice_whole, Rect.mem_set_unit]
  exact Iff.rfl

/-- Row r of the output lies in the block of point r / 1000. -/
theorem cover (i : S25000x192.Idx) : ∃ t : Fin cfg18.N, (cfg18.win 2).flush t = true ∧ i ∈ ((cfg18.win 2).blk t).view.set := by
  have hi0 : (i 0).val < 25000 := (i 0).isLt
  have hi1 : (i 1).val < 192 := (i 1).isLt
  have hN : (i 0).val / 1000 < cfg18.N := lt_of_lt_of_eq (by omega : (i 0).val / 1000 < 25) N_18.symm
  refine ⟨⟨(i 0).val / 1000, hN⟩, flush18_2 _, ?_⟩
  rw [mem_blk]
  have f0 : win18_2.index ⟨(i 0).val / 1000, hN⟩ (0 : Fin 2) = (i 0).val / 1000 := (idx_facts ⟨(i 0).val / 1000, hN⟩).2.2.2.2.1
  have f1 : win18_2.index ⟨(i 0).val / 1000, hN⟩ (1 : Fin 2) = 0 := (idx_facts ⟨(i 0).val / 1000, hN⟩).2.2.2.2.2
  intro a
  match a with
  | ⟨0, _⟩ => show win18_2.index ⟨(i 0).val / 1000, hN⟩ (0 : Fin 2) * 1000 ≤ (i 0).val ∧ (i 0).val < win18_2.index ⟨(i 0).val / 1000, hN⟩ (0 : Fin 2) * 1000 + 1000; rw [f0]; omega
  | ⟨1, _⟩ => show win18_2.index ⟨(i 0).val / 1000, hN⟩ (1 : Fin 2) * 192 ≤ (i 1).val ∧ (i 1).val < win18_2.index ⟨(i 0).val / 1000, hN⟩ (1 : Fin 2) * 192 + 192; rw [f1]; omega

/-- The output array after the region. -/
theorem final (c : Dev nD) : (dat18 V c).arrAt 2 cfg18.N = mmG (V c main_v179) (V c main_v181) :=
  (dat18 V c).arrAt_eq_of_cover 2 _ (fun t _ => flushed_eq V c t) (cover)

end Cert.Region18

end
-- ==== Proof.Region19.lean ====
/-
  Kernel region 19 as a function of whole arrays: after the region, its output array is, index by index,
  (r + max(a + b, 0)) · ½ of the aggregate a in window 0, the bias row b in window 1 and the residual r in window 2, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.Post
import Idealize.ShloMosaic.Lib.Pipeline.Value

set_option maxRecDepth 16384

noncomputable section

namespace Cert.Region19

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg19.N, win19_0.index t (0 : Fin 2) = t.val
    ∧ win19_0.index t (1 : Fin 2) = 0
    ∧ win19_1.index t (0 : Fin 2) = 0
    ∧ win19_1.index t (1 : Fin 2) = 0
    ∧ win19_2.index t (0 : Fin 2) = t.val
    ∧ win19_2.index t (1 : Fin 2) = 0
    ∧ win19_3.index t (0 : Fin 2) = t.val
    ∧ win19_3.index t (1 : Fin 2) = 0 :=
  (by decide +kernel : ∀ t : Fin grid19.N, _)

/-- What point t writes back is block t of the whole-array function. -/
theorem flushed_eq (c : Dev nD) (t : Fin cfg19.N) :
    (dat19 V c).flushed 3 t = ((cfg19.win 3).blk t).view.read (Elt Ideal) (avgG (V c main_v197) (V c main_v198) (V c main_v159)) := by
  show (cfg19.win 3).cut (grid19.coords t) ((dat19 V c).after 3 t) = _
  rw [after19_3]
  unfold out19_3
  rw [View.canon_unit_zero hz]
  simp only [View.ld_unit_zero (S := S1000x192) hz, View.ld_unit_zero (S := S1x192) hz]
  obtain ⟨e00, e01, e10, e11, e20, e21, e30, e31⟩ := idx_facts t
  funext j
  refine (Cert.Post.pay19_apply _ _ _ j).trans ?_
  refine Eq.trans ?_ (avgG_apply _ _ _ _).symm
  have ha : iblk19 V c 0 t j = V c main_v197 (((cfg19.win 3).blk t).view.emb j) :=
    congrArg (V c main_v197) (a₁ := ((cfg19.win 0).blk t).view.emb (j)) (a₂ := (((cfg19.win 3).blk t).view.emb j)) (funext fun a => Fin.ext (by
      match a with
      | ⟨0, _⟩ => show win19_0.index t (0 : Fin 2) * 1000 + 1 * (j 0).val = win19_3.index t (0 : Fin 2) * 1000 + 1 * (j 0).val; omega
      | ⟨1, _⟩ => show win19_0.index t (1 : Fin 2) * 192 + 1 * (j 1).val = win19_3.index t (1 : Fin 2) * 192 + 1 * (j 1).val; omega))
  have hb : iblk19 V c 1 t (biasAt ⟨(j 1).val, (j 1).isLt⟩) = V c main_v198 (biasAt (c192 (((cfg19.win 3).blk t).view.emb j))) :=
    congrArg (V c main_v198) (a₁ := ((cfg19.win 1).blk t).view.emb (biasAt ⟨(j 1).val, (j 1).isLt⟩)) (a₂ := biasAt (c192 (((cfg19.win 3).blk t).view.emb j))) (funext fun a => Fin.ext (by
      match a with
      | ⟨0, _⟩ => show win19_1.index t (0 : Fin 2) * 1 + 1 * 0 = 0; omega
      | ⟨1, _⟩ => show win19_1.index t (1 : Fin 2) * 192 + 1 * (j 1).val = win19_3.index t (1 : Fin 2) * 192 + 1 * (j 1).val; omega))
  have hr : iblk19 V c 2 t j = V c main_v159 (((cfg19.win 3).blk t).view.emb j) :=
    congrArg (V c main_v159) (a₁ := ((cfg19.win 2).blk t).view.emb (j)) (a₂ := (((cfg19.win 3).blk t).view.emb j)) (funext fun a => Fin.ext (by
      match a with
      | ⟨0, _⟩ => show win19_2.index t (0 : Fin 2) * 1000 + 1 * (j 0).val = win19_3.index t (0 : Fin 2) * 1000 + 1 * (j 0).val; omega
      | ⟨1, _⟩ => show win19_2.index t (1 : Fin 2) * 192 + 1 * (j 1).val = win19_3.index t (1 : Fin 2) * 192 + 1 * (j 1).val; omega))
  rw [ha, hb, hr]

/-- An index is in point t's block iff each coordinate is in the block's range on its axis. -/
theorem mem_blk (t : Fin cfg19.N) (i : S25000x192.Idx) :
    i ∈ ((cfg19.win 3).blk t).view.set ↔ ∀ a : Fin 2, win19_3.index t a * S1000x192.size a ≤ (i a).val ∧ (i a).val < win19_3.index t a * S1000x192.size a + S1000x192.size a := by
  show i ∈ ((View.whole main_v199).slice (win19_3.rect t)).set ↔ _
  rw [View.set_slice_whole, Rect.mem_set_unit]
  exact Iff.rfl

/-- Row r of the output lies in the block of point r / 1000. -/
theorem cover (i : S25000x192.Idx) : ∃ t : Fin cfg19.N, (cfg19.win 3).flush t = true ∧ i ∈ ((cfg19.win 3).blk t).view.set := by
  have hi0 : (i 0).val < 25000 := (i 0).isLt
  have hi1 : (i 1).val < 192 := (i 1).isLt
  have hN : (i 0).val / 1000 < cfg19.N := lt_of_lt_of_eq (by omega : (i 0).val / 1000 < 25) N_19.symm
  refine ⟨⟨(i 0).val / 1000, hN⟩, flush19_3 _, ?_⟩
  rw [mem_blk]
  have f0 : win19_3.index ⟨(i 0).val / 1000, hN⟩ (0 : Fin 2) = (i 0).val / 1000 := (idx_facts ⟨(i 0).val / 1000, hN⟩).2.2.2.2.2.2.1
  have f1 : win19_3.index ⟨(i 0).val / 1000, hN⟩ (1 : Fin 2) = 0 := (idx_facts ⟨(i 0).val / 1000, hN⟩).2.2.2.2.2.2.2
  intro a
  match a with
  | ⟨0, _⟩ => show win19_3.index ⟨(i 0).val / 1000, hN⟩ (0 : Fin 2) * 1000 ≤ (i 0).val ∧ (i 0).val < win19_3.index ⟨(i 0).val / 1000, hN⟩ (0 : Fin 2) * 1000 + 1000; rw [f0]; omega
  | ⟨1, _⟩ => show win19_3.index ⟨(i 0).val / 1000, hN⟩ (1 : Fin 2) * 192 ≤ (i 1).val ∧ (i 1).val < win19_3.index ⟨(i 0).val / 1000, hN⟩ (1 : Fin 2) * 192 + 192; rw [f1]; omega

/-- The output array after the region. -/
theorem final (c : Dev nD) : (dat19 V c).arrAt 3 cfg19.N = avgG (V c main_v197) (V c main_v198) (V c main_v159) :=
  (dat19 V c).arrAt_eq_of_cover 3 _ (fun t _ => flushed_eq V c t) (cover)

end Cert.Region19

end
-- ==== Proof.Layer9.lean ====
/-
  Layer 9 of the idealized kernel: at the segment boundary after its second region the layer's output buffer holds
  hidden layer 9 of the specification — (r + max(A·(x·W) + b, 0)) · ½, which on the extended reals is (r + max(…))/2 of the layer's input —, as a function of the launch contents of
  the arguments; the arguments, and the earlier features a later layer still reads, are unchanged there.
  The boundary's contents are a fold: a host stretch slices this layer's weight and bias, the first region multiplies,
  a host stretch gathers, scales and scatter-adds, the second region adds the bias and clamps and averages.
-/
import proofs.«171734_j42872363549123_1_alg».proof.Proof.Gen.KernelIdeal.Frame
import proofs.«171734_j42872363549123_1_alg».proof.Proof.Gen.ReferenceIdeal
import proofs.«171734_j42872363549123_1_alg».proof.Proof.Spec
import proofs.«171734_j42872363549123_1_alg».proof.Proof.Forms
import proofs.«171734_j42872363549123_1_alg».proof.Proof.MatMul
import proofs.«171734_j42872363549123_1_alg».proof.Proof.Post
import proofs.«171734_j42872363549123_1_alg».proof.Proof.Region18
import proofs.«171734_j42872363549123_1_alg».proof.Proof.Region19
import proofs.«171734_j42872363549123_1_alg».proof.Proof.Invs
import Idealize.ShloMosaic.Lib.StableHlo.Run

set_option maxRecDepth 16384

noncomputable section

namespace Cert.Layer9

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

open Lean in
/-- A buffer that no operation of a host stretch writes keeps its contents across the stretch. -/
macro "kept_by " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

set_option maxHeartbeats 40000000 in
/-- From what the boundary before layer 9 holds to what the boundary after it holds. -/
theorem step (c : Dev nD) (P : Cert.Invs.Inv8 m ρ c) : Cert.Invs.Inv9 m ρ c := by
  have s1_arg0 : W37 m ρ c (Proc.devRef .tc main_arg0) = (m ((c : Thread nD τ).loc main_arg0)) :=
    Eq.trans (by kept_by hostOps18) P.a0
  have s1_arg1 : W37 m ρ c (Proc.devRef .tc main_arg1) = (m ((c : Thread nD τ).loc main_arg1)) :=
    Eq.trans (by kept_by hostOps18) P.a1
  have s1_arg2 : W37 m ρ c (Proc.devRef .tc main_arg2) = (m ((c : Thread nD τ).loc main_arg2)) :=
    Eq.trans (by kept_by hostOps18) P.a2
  have s1_arg3 : W37 m ρ c (Proc.devRef .tc main_arg3) = (m ((c : Thread nD τ).loc main_arg3)) :=
    Eq.trans (by kept_by hostOps18) P.a3
  have s1_arg4 : W37 m ρ c (Proc.devRef .tc main_arg4) = (m ((c : Thread nD τ).loc main_arg4)) :=
    Eq.trans (by kept_by hostOps18) P.a4
  have s1_arg5 : W37 m ρ c (Proc.devRef .tc main_arg5) = (m ((c : Thread nD τ).loc main_arg5)) :=
    Eq.trans (by kept_by hostOps18) P.a5
  have s1_arg6 : W37 m ρ c (Proc.devRef .tc main_arg6) = (m ((c : Thread nD τ).loc main_arg6)) :=
    Eq.trans (by kept_by hostOps18) P.a6
  have s1_arg7 : W37 m ρ c (Proc.devRef .tc main_arg7) = (m ((c : Thread nD τ).loc main_arg7)) :=
    Eq.trans (by kept_by hostOps18) P.a7
  have s1_v179 : W37 m ρ c (Proc.devRef .tc main_v179) = (Cert.Spec.h8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps18) P.out
  have s1_v159 : W37 m ρ c (Proc.devRef .tc main_v159) = (Cert.Spec.h7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps18) P.car
  have s1_WM : W37 m ρ c (Proc.devRef .tc main_v181) = Cert.Spec.w9 (m ((c : Thread nD τ).loc main_arg4)) := by
    have e : W37 m ρ c (Proc.devRef .tc main_v181) = Cert.Spec.w9 (W36 m ρ c (Proc.devRef .tc main_arg4)) := by
      show StableHlo.after hostOps18 (W36 m ρ c) (Proc.devRef .tc main_v181) = _
      after_results; rfl
    exact e.trans (congrArg Cert.Spec.w9 P.a4)
  have s1_B1D : W37 m ρ c (Proc.devRef .tc main_v183) = Cert.Spec.b9 (m ((c : Thread nD τ).loc main_arg5)) := by
    have e : W37 m ρ c (Proc.devRef .tc main_v183) = Cert.Spec.b9 (W36 m ρ c (Proc.devRef .tc main_arg5)) := by
      show StableHlo.after hostOps18 (W36 m ρ c) (Proc.devRef .tc main_v183) = _
      after_results; rfl
    exact e.trans (congrArg Cert.Spec.b9 P.a5)
  have s2_arg0 : W38 m ρ c (Proc.devRef .tc main_arg0) = (m ((c : Thread nD τ).loc main_arg0)) :=
    Eq.trans (W38_of_ne m ρ c main_arg0 (by decide)) s1_arg0
  have s2_arg1 : W38 m ρ c (Proc.devRef .tc main_arg1) = (m ((c : Thread nD τ).loc main_arg1)) :=
    Eq.trans (W38_of_ne m ρ c main_arg1 (by decide)) s1_arg1
  have s2_arg2 : W38 m ρ c (Proc.devRef .tc main_arg2) = (m ((c : Thread nD τ).loc main_arg2)) :=
    Eq.trans (W38_of_ne m ρ c main_arg2 (by decide)) s1_arg2
  have s2_arg3 : W38 m ρ c (Proc.devRef .tc main_arg3) = (m ((c : Thread nD τ).loc main_arg3)) :=
    Eq.trans (W38_of_ne m ρ c main_arg3 (by decide)) s1_arg3
  have s2_arg4 : W38 m ρ c (Proc.devRef .tc main_arg4) = (m ((c : Thread nD τ).loc main_arg4)) :=
    Eq.trans (W38_of_ne m ρ c main_arg4 (by decide)) s1_arg4
  have s2_arg5 : W38 m ρ c (Proc.devRef .tc main_arg5) = (m ((c : Thread nD τ).loc main_arg5)) :=
    Eq.trans (W38_of_ne m ρ c main_arg5 (by decide)) s1_arg5
  have s2_arg6 : W38 m ρ c (Proc.devRef .tc main_arg6) = (m ((c : Thread nD τ).loc main_arg6)) :=
    Eq.trans (W38_of_ne m ρ c main_arg6 (by decide)) s1_arg6
  have s2_arg7 : W38 m ρ c (Proc.devRef .tc main_arg7) = (m ((c : Thread nD τ).loc main_arg7)) :=
    Eq.trans (W38_of_ne m ρ c main_arg7 (by decide)) s1_arg7
  have s2_v179 : W38 m ρ c (Proc.devRef .tc main_v179) = (Cert.Spec.h8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans ((W38_arr m ρ c 0).trans (((dat18 (V37 m ρ) c).arrAt_in 0 rfl _).trans (A_eq18 (V37 m ρ) c 0))) s1_v179
  have s2_v159 : W38 m ρ c (Proc.devRef .tc main_v159) = (Cert.Spec.h7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (W38_of_ne m ρ c main_v159 (by decide)) s1_v159
  have s2_v183 : W38 m ρ c (Proc.devRef .tc main_v183) = (Cert.Spec.b9 (m ((c : Thread nD τ).loc main_arg5))) :=
    Eq.trans (W38_of_ne m ρ c main_v183 (by decide)) s1_B1D
  have s2_SUP : W38 m ρ c (Proc.devRef .tc main_v184) = Host.dotGeneral (F := Ideal) (φ₁ := .f32) (φ₂ := .f32) Cert.ReferenceIdeal.dot_S25000x192_S192x192_S25000x192_1_0_0_1_n_n none (Cert.Spec.h8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w9 (m ((c : Thread nD τ).loc main_arg4))) := by
    refine (W38_arr m ρ c 2).trans ?_
    refine (Cert.Region18.final (V37 m ρ) c).trans ?_
    show Cert.Forms.mmG (W37 m ρ c (Proc.devRef .tc main_v179)) (W37 m ρ c (Proc.devRef .tc main_v181)) = _
    rw [s1_v179, s1_WM]
    exact (Cert.MatMul.hostDot_eq _ _).symm
  have s3_arg0 : W39 m ρ c (Proc.devRef .tc main_arg0) = (m ((c : Thread nD τ).loc main_arg0)) :=
    Eq.trans (by kept_by hostOps19) s2_arg0
  have s3_arg1 : W39 m ρ c (Proc.devRef .tc main_arg1) = (m ((c : Thread nD τ).loc main_arg1)) :=
    Eq.trans (by kept_by hostOps19) s2_arg1
  have s3_arg2 : W39 m ρ c (Proc.devRef .tc main_arg2) = (m ((c : Thread nD τ).loc main_arg2)) :=
    Eq.trans (by kept_by hostOps19) s2_arg2
  have s3_arg3 : W39 m ρ c (Proc.devRef .tc main_arg3) = (m ((c : Thread nD τ).loc main_arg3)) :=
    Eq.trans (by kept_by hostOps19) s2_arg3
  have s3_arg4 : W39 m ρ c (Proc.devRef .tc main_arg4) = (m ((c : Thread nD τ).loc main_arg4)) :=
    Eq.trans (by kept_by hostOps19) s2_arg4
  have s3_arg5 : W39 m ρ c (Proc.devRef .tc main_arg5) = (m ((c : Thread nD τ).loc main_arg5)) :=
    Eq.trans (by kept_by hostOps19) s2_arg5
  have s3_arg6 : W39 m ρ c (Proc.devRef .tc main_arg6) = (m ((c : Thread nD τ).loc main_arg6)) :=
    Eq.trans (by kept_by hostOps19) s2_arg6
  have s3_arg7 : W39 m ρ c (Proc.devRef .tc main_arg7) = (m ((c : Thread nD τ).loc main_arg7)) :=
    Eq.trans (by kept_by hostOps19) s2_arg7
  have s3_v179 : W39 m ρ c (Proc.devRef .tc main_v179) = (Cert.Spec.h8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps19) s2_v179
  have s3_v159 : W39 m ρ c (Proc.devRef .tc main_v159) = (Cert.Spec.h7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps19) s2_v159
  have s3_AGG : W39 m ρ c (Proc.devRef .tc main_v197) = Cert.Spec.agg (m ((c : Thread nD τ).loc main_arg1)) (m ((c : Thread nD τ).loc main_arg2)) (m ((c : Thread nD τ).loc main_arg3)) (Host.dotGeneral (F := Ideal) (φ₁ := .f32) (φ₂ := .f32) Cert.ReferenceIdeal.dot_S25000x192_S192x192_S25000x192_1_0_0_1_n_n none (Cert.Spec.h8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w9 (m ((c : Thread nD τ).loc main_arg4)))) := by
    have e : W39 m ρ c (Proc.devRef .tc main_v197) = Cert.Spec.agg (W38 m ρ c (Proc.devRef .tc main_arg1)) (W38 m ρ c (Proc.devRef .tc main_arg2)) (W38 m ρ c (Proc.devRef .tc main_arg3)) (W38 m ρ c (Proc.devRef .tc main_v184)) := by
      show StableHlo.after hostOps19 (W38 m ρ c) (Proc.devRef .tc main_v197) = _
      after_results
      exact Cert.Post.agg_eq _ _ _ _
    rw [e, s2_arg1, s2_arg2, s2_arg3, s2_SUP]
  have s3_B2 : W39 m ρ c (Proc.devRef .tc main_v198) = shapeCast S1x192 (Cert.Spec.b9 (m ((c : Thread nD τ).loc main_arg5))) Cert.KernelIdeal.Facts₀.shapeCasts_S192_S1x192 := by
    have e : W39 m ρ c (Proc.devRef .tc main_v198) = shapeCast S1x192 (W38 m ρ c (Proc.devRef .tc main_v183)) Cert.KernelIdeal.Facts₀.shapeCasts_S192_S1x192 := by
      show StableHlo.after hostOps19 (W38 m ρ c) (Proc.devRef .tc main_v198) = _
      after_results; rfl
    rw [e, s2_v183]
  have s4_arg0 : W40 m ρ c (Proc.devRef .tc main_arg0) = (m ((c : Thread nD τ).loc main_arg0)) :=
    Eq.trans (W40_of_ne m ρ c main_arg0 (by decide)) s3_arg0
  have s4_arg1 : W40 m ρ c (Proc.devRef .tc main_arg1) = (m ((c : Thread nD τ).loc main_arg1)) :=
    Eq.trans (W40_of_ne m ρ c main_arg1 (by decide)) s3_arg1
  have s4_arg2 : W40 m ρ c (Proc.devRef .tc main_arg2) = (m ((c : Thread nD τ).loc main_arg2)) :=
    Eq.trans (W40_of_ne m ρ c main_arg2 (by decide)) s3_arg2
  have s4_arg3 : W40 m ρ c (Proc.devRef .tc main_arg3) = (m ((c : Thread nD τ).loc main_arg3)) :=
    Eq.trans (W40_of_ne m ρ c main_arg3 (by decide)) s3_arg3
  have s4_arg4 : W40 m ρ c (Proc.devRef .tc main_arg4) = (m ((c : Thread nD τ).loc main_arg4)) :=
    Eq.trans (W40_of_ne m ρ c main_arg4 (by decide)) s3_arg4
  have s4_arg5 : W40 m ρ c (Proc.devRef .tc main_arg5) = (m ((c : Thread nD τ).loc main_arg5)) :=
    Eq.trans (W40_of_ne m ρ c main_arg5 (by decide)) s3_arg5
  have s4_arg6 : W40 m ρ c (Proc.devRef .tc main_arg6) = (m ((c : Thread nD τ).loc main_arg6)) :=
    Eq.trans (W40_of_ne m ρ c main_arg6 (by decide)) s3_arg6
  have s4_arg7 : W40 m ρ c (Proc.devRef .tc main_arg7) = (m ((c : Thread nD τ).loc main_arg7)) :=
    Eq.trans (W40_of_ne m ρ c main_arg7 (by decide)) s3_arg7
  have s4_OUT : W40 m ρ c (Proc.devRef .tc main_v199) = (Cert.Spec.h9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    refine (W40_arr m ρ c 3).trans ?_
    refine (Cert.Region19.final (V39 m ρ) c).trans ?_
    show Cert.Forms.avgG (W39 m ρ c (Proc.devRef .tc main_v197)) (W39 m ρ c (Proc.devRef .tc main_v198)) (W39 m ρ c (Proc.devRef .tc main_v159)) = _
    rw [s3_AGG, s3_B2, s3_v159]
    refine (Cert.Post.avgG_eq _ _ _).trans ?_
    rfl
  exact ⟨s4_OUT, s4_arg0, s4_arg1, s4_arg2, s4_arg3, s4_arg4, s4_arg5, s4_arg6, s4_arg7⟩

end Cert.Layer9

end
-- ==== Proof.Region20.lean ====
/-
  Kernel region 20 as a function of whole arrays: after the region, its output array is, index by index,
  the matrix product of the 25000 × 192 array in window 0 with the 192 × 192 matrix in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.MatMul
import Idealize.ShloMosaic.Lib.Pipeline.Value

set_option maxRecDepth 16384

noncomputable section

namespace Cert.Region20

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg20.N, win20_0.index t (0 : Fin 2) = t.val
    ∧ win20_0.index t (1 : Fin 2) = 0
    ∧ win20_1.index t (0 : Fin 2) = 0
    ∧ win20_1.index t (1 : Fin 2) = 0
    ∧ win20_2.index t (0 : Fin 2) = t.val
    ∧ win20_2.index t (1 : Fin 2) = 0 :=
  (by decide +kernel : ∀ t : Fin grid20.N, _)

/-- What point t writes back is block t of the whole-array function. -/
theorem flushed_eq (c : Dev nD) (t : Fin cfg20.N) :
    (dat20 V c).flushed 2 t = ((cfg20.win 2).blk t).view.read (Elt Ideal) (mmG (V c main_v199) (V c main_v201)) := by
  show (cfg20.win 2).cut (grid20.coords t) ((dat20 V c).after 2 t) = _
  rw [after20_2]
  unfold out20_2
  rw [View.canon_unit_zero hz]
  simp only [View.ld_unit_zero (S := S1000x192) hz, View.ld_unit_zero (S := S192x192) hz]
  obtain ⟨e00, e01, e10, e11, e20, e21⟩ := idx_facts t
  funext j
  refine (Cert.MatMul.pay20_apply _ _ j).trans ?_
  refine Eq.trans ?_ (mmG_apply _ _ _).symm
  refine Finset.sum_congr rfl fun q _ => ?_
  have hl : iblk20 V c 0 t (Cert.MatMul.blkRowK ⟨(j 0).val, (j 0).isLt⟩ q) = V c main_v199 (rowK (r192 (((cfg20.win 2).blk t).view.emb j)) q) :=
    congrArg (V c main_v199) (a₁ := ((cfg20.win 0).blk t).view.emb (Cert.MatMul.blkRowK ⟨(j 0).val, (j 0).isLt⟩ q)) (a₂ := rowK (r192 (((cfg20.win 2).blk t).view.emb j)) q) (funext fun a => Fin.ext (by
      match a with
      | ⟨0, _⟩ => show win20_0.index t (0 : Fin 2) * 1000 + 1 * (j 0).val = win20_2.index t (0 : Fin 2) * 1000 + 1 * (j 0).val; omega
      | ⟨1, _⟩ => show win20_0.index t (1 : Fin 2) * 192 + 1 * q.val = q.val; omega))
  have hr : iblk20 V c 1 t (kCol q ⟨(j 1).val, (j 1).isLt⟩) = V c main_v201 (kCol q (c192 (((cfg20.win 2).blk t).view.emb j))) :=
    congrArg (V c main_v201) (a₁ := ((cfg20.win 1).blk t).view.emb (kCol q ⟨(j 1).val, (j 1).isLt⟩)) (a₂ := kCol q (c192 (((cfg20.win 2).blk t).view.emb j))) (funext fun a => Fin.ext (by
      match a with
      | ⟨0, _⟩ => show win20_1.index t (0 : Fin 2) * 192 + 1 * q.val = q.val; omega
      | ⟨1, _⟩ => show win20_1.index t (1 : Fin 2) * 192 + 1 * (j 1).val = win20_2.index t (1 : Fin 2) * 192 + 1 * (j 1).val; omega))
  exact congrArg₂ (· * ·) hl hr

/-- An index is in point t's block iff each coordinate is in the block's range on its axis. -/
theorem mem_blk (t : Fin cfg20.N) (i : S25000x192.Idx) :
    i ∈ ((cfg20.win 2).blk t).view.set ↔ ∀ a : Fin 2, win20_2.index t a * S1000x192.size a ≤ (i a).val ∧ (i a).val < win20_2.index t a * S1000x192.size a + S1000x192.size a := by
  show i ∈ ((View.whole main_v204).slice (win20_2.rect t)).set ↔ _
  rw [View.set_slice_whole, Rect.mem_set_unit]
  exact Iff.rfl

/-- Row r of the output lies in the block of point r / 1000. -/
theorem cover (i : S25000x192.Idx) : ∃ t : Fin cfg20.N, (cfg20.win 2).flush t = true ∧ i ∈ ((cfg20.win 2).blk t).view.set := by
  have hi0 : (i 0).val < 25000 := (i 0).isLt
  have hi1 : (i 1).val < 192 := (i 1).isLt
  have hN : (i 0).val / 1000 < cfg20.N := lt_of_lt_of_eq (by omega : (i 0).val / 1000 < 25) N_20.symm
  refine ⟨⟨(i 0).val / 1000, hN⟩, flush20_2 _, ?_⟩
  rw [mem_blk]
  have f0 : win20_2.index ⟨(i 0).val / 1000, hN⟩ (0 : Fin 2) = (i 0).val / 1000 := (idx_facts ⟨(i 0).val / 1000, hN⟩).2.2.2.2.1
  have f1 : win20_2.index ⟨(i 0).val / 1000, hN⟩ (1 : Fin 2) = 0 := (idx_facts ⟨(i 0).val / 1000, hN⟩).2.2.2.2.2
  intro a
  match a with
  | ⟨0, _⟩ => show win20_2.index ⟨(i 0).val / 1000, hN⟩ (0 : Fin 2) * 1000 ≤ (i 0).val ∧ (i 0).val < win20_2.index ⟨(i 0).val / 1000, hN⟩ (0 : Fin 2) * 1000 + 1000; rw [f0]; omega
  | ⟨1, _⟩ => show win20_2.index ⟨(i 0).val / 1000, hN⟩ (1 : Fin 2) * 192 ≤ (i 1).val ∧ (i 1).val < win20_2.index ⟨(i 0).val / 1000, hN⟩ (1 : Fin 2) * 192 + 192; rw [f1]; omega

/-- The output array after the region. -/
theorem final (c : Dev nD) : (dat20 V c).arrAt 2 cfg20.N = mmG (V c main_v199) (V c main_v201) :=
  (dat20 V c).arrAt_eq_of_cover 2 _ (fun t _ => flushed_eq V c t) (cover)

end Cert.Region20

end
-- ==== Proof.Region21.lean ====
/-
  Kernel region 21 as a function of whole arrays: after the region, its output array is, index by index,
  max(a + b, 0) of the aggregate a in window 0 and the bias row b in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.Post
import Idealize.ShloMosaic.Lib.Pipeline.Value

set_option maxRecDepth 16384

noncomputable section

namespace Cert.Region21

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg21.N, win21_0.index t (0 : Fin 2) = t.val
    ∧ win21_0.index t (1 : Fin 2) = 0
    ∧ win21_1.index t (0 : Fin 2) = 0
    ∧ win21_1.index t (1 : Fin 2) = 0
    ∧ win21_2.index t (0 : Fin 2) = t.val
    ∧ win21_2.index t (1 : Fin 2) = 0 :=
  (by decide +kernel : ∀ t : Fin grid21.N, _)

/-- What point t writes back is block t of the whole-array function. -/
theorem flushed_eq (c : Dev nD) (t : Fin cfg21.N) :
    (dat21 V c).flushed 2 t = ((cfg21.win 2).blk t).view.read (Elt Ideal) (reluG (V c main_v217) (V c main_v218)) := by
  show (cfg21.win 2).cut (grid21.coords t) ((dat21 V c).after 2 t) = _
  rw [after21_2]
  unfold out21_2
  rw [View.canon_unit_zero hz]
  simp only [View.ld_unit_zero (S := S1000x192) hz, View.ld_unit_zero (S := S1x192) hz]
  obtain ⟨e00, e01, e10, e11, e20, e21⟩ := idx_facts t
  funext j
  refine (Cert.Post.pay21_apply _ _ j).trans ?_
  refine Eq.trans ?_ (reluG_apply _ _ _).symm
  have ha : iblk21 V c 0 t j = V c main_v217 (((cfg21.win 2).blk t).view.emb j) :=
    congrArg (V c main_v217) (a₁ := ((cfg21.win 0).blk t).view.emb (j)) (a₂ := (((cfg21.win 2).blk t).view.emb j)) (funext fun a => Fin.ext (by
      match a with
      | ⟨0, _⟩ => show win21_0.index t (0 : Fin 2) * 1000 + 1 * (j 0).val = win21_2.index t (0 : Fin 2) * 1000 + 1 * (j 0).val; omega
      | ⟨1, _⟩ => show win21_0.index t (1 : Fin 2) * 192 + 1 * (j 1).val = win21_2.index t (1 : Fin 2) * 192 + 1 * (j 1).val; omega))
  have hb : iblk21 V c 1 t (biasAt ⟨(j 1).val, (j 1).isLt⟩) = V c main_v218 (biasAt (c192 (((cfg21.win 2).blk t).view.emb j))) :=
    congrArg (V c main_v218) (a₁ := ((cfg21.win 1).blk t).view.emb (biasAt ⟨(j 1).val, (j 1).isLt⟩)) (a₂ := biasAt (c192 (((cfg21.win 2).blk t).view.emb j))) (funext fun a => Fin.ext (by
      match a with
      | ⟨0, _⟩ => show win21_1.index t (0 : Fin 2) * 1 + 1 * 0 = 0; omega
      | ⟨1, _⟩ => show win21_1.index t (1 : Fin 2) * 192 + 1 * (j 1).val = win21_2.index t (1 : Fin 2) * 192 + 1 * (j 1).val; omega))

  rw [ha, hb]

/-- An index is in point t's block iff each coordinate is in the block's range on its axis. -/
theorem mem_blk (t : Fin cfg21.N) (i : S25000x192.Idx) :
    i ∈ ((cfg21.win 2).blk t).view.set ↔ ∀ a : Fin 2, win21_2.index t a * S1000x192.size a ≤ (i a).val ∧ (i a).val < win21_2.index t a * S1000x192.size a + S1000x192.size a := by
  show i ∈ ((View.whole main_v219).slice (win21_2.rect t)).set ↔ _
  rw [View.set_slice_whole, Rect.mem_set_unit]
  exact Iff.rfl

/-- Row r of the output lies in the block of point r / 1000. -/
theorem cover (i : S25000x192.Idx) : ∃ t : Fin cfg21.N, (cfg21.win 2).flush t = true ∧ i ∈ ((cfg21.win 2).blk t).view.set := by
  have hi0 : (i 0).val < 25000 := (i 0).isLt
  have hi1 : (i 1).val < 192 := (i 1).isLt
  have hN : (i 0).val / 1000 < cfg21.N := lt_of_lt_of_eq (by omega : (i 0).val / 1000 < 25) N_21.symm
  refine ⟨⟨(i 0).val / 1000, hN⟩, flush21_2 _, ?_⟩
  rw [mem_blk]
  have f0 : win21_2.index ⟨(i 0).val / 1000, hN⟩ (0 : Fin 2) = (i 0).val / 1000 := (idx_facts ⟨(i 0).val / 1000, hN⟩).2.2.2.2.1
  have f1 : win21_2.index ⟨(i 0).val / 1000, hN⟩ (1 : Fin 2) = 0 := (idx_facts ⟨(i 0).val / 1000, hN⟩).2.2.2.2.2
  intro a
  match a with
  | ⟨0, _⟩ => show win21_2.index ⟨(i 0).val / 1000, hN⟩ (0 : Fin 2) * 1000 ≤ (i 0).val ∧ (i 0).val < win21_2.index ⟨(i 0).val / 1000, hN⟩ (0 : Fin 2) * 1000 + 1000; rw [f0]; omega
  | ⟨1, _⟩ => show win21_2.index ⟨(i 0).val / 1000, hN⟩ (1 : Fin 2) * 192 ≤ (i 1).val ∧ (i 1).val < win21_2.index ⟨(i 0).val / 1000, hN⟩ (1 : Fin 2) * 192 + 192; rw [f1]; omega

/-- The output array after the region. -/
theorem final (c : Dev nD) : (dat21 V c).arrAt 2 cfg21.N = reluG (V c main_v217) (V c main_v218) :=
  (dat21 V c).arrAt_eq_of_cover 2 _ (fun t _ => flushed_eq V c t) (cover)

end Cert.Region21

end
-- ==== Proof.Layer10.lean ====
/-
  Layer 10 of the idealized kernel: at the segment boundary after its second region the layer's output buffer holds
  hidden layer 10 of the specification — max(A·(x·W) + b, 0) of the layer's input —, as a function of the launch contents of
  the arguments; the arguments, and the earlier features a later layer still reads, are unchanged there.
  The boundary's contents are a fold: a host stretch slices this layer's weight and bias, the first region multiplies,
  a host stretch gathers, scales and scatter-adds, the second region adds the bias and clamps.
-/
import proofs.«171734_j42872363549123_1_alg».proof.Proof.Gen.KernelIdeal.Frame
import proofs.«171734_j42872363549123_1_alg».proof.Proof.Gen.ReferenceIdeal
import proofs.«171734_j42872363549123_1_alg».proof.Proof.Spec
import proofs.«171734_j42872363549123_1_alg».proof.Proof.Forms
import proofs.«171734_j42872363549123_1_alg».proof.Proof.MatMul
import proofs.«171734_j42872363549123_1_alg».proof.Proof.Post
import proofs.«171734_j42872363549123_1_alg».proof.Proof.Region20
import proofs.«171734_j42872363549123_1_alg».proof.Proof.Region21
import proofs.«171734_j42872363549123_1_alg».proof.Proof.Invs
import Idealize.ShloMosaic.Lib.StableHlo.Run

set_option maxRecDepth 16384

noncomputable section

namespace Cert.Layer10

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

open Lean in
/-- A buffer that no operation of a host stretch writes keeps its contents across the stretch. -/
macro "kept_by " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

set_option maxHeartbeats 40000000 in
/-- From what the boundary before layer 10 holds to what the boundary after it holds. -/
theorem step (c : Dev nD) (P : Cert.Invs.Inv9 m ρ c) : Cert.Invs.Inv10 m ρ c := by
  have s1_arg0 : W41 m ρ c (Proc.devRef .tc main_arg0) = (m ((c : Thread nD τ).loc main_arg0)) :=
    Eq.trans (by kept_by hostOps20) P.a0
  have s1_arg1 : W41 m ρ c (Proc.devRef .tc main_arg1) = (m ((c : Thread nD τ).loc main_arg1)) :=
    Eq.trans (by kept_by hostOps20) P.a1
  have s1_arg2 : W41 m ρ c (Proc.devRef .tc main_arg2) = (m ((c : Thread nD τ).loc main_arg2)) :=
    Eq.trans (by kept_by hostOps20) P.a2
  have s1_arg3 : W41 m ρ c (Proc.devRef .tc main_arg3) = (m ((c : Thread nD τ).loc main_arg3)) :=
    Eq.trans (by kept_by hostOps20) P.a3
  have s1_arg4 : W41 m ρ c (Proc.devRef .tc main_arg4) = (m ((c : Thread nD τ).loc main_arg4)) :=
    Eq.trans (by kept_by hostOps20) P.a4
  have s1_arg5 : W41 m ρ c (Proc.devRef .tc main_arg5) = (m ((c : Thread nD τ).loc main_arg5)) :=
    Eq.trans (by kept_by hostOps20) P.a5
  have s1_arg6 : W41 m ρ c (Proc.devRef .tc main_arg6) = (m ((c : Thread nD τ).loc main_arg6)) :=
    Eq.trans (by kept_by hostOps20) P.a6
  have s1_arg7 : W41 m ρ c (Proc.devRef .tc main_arg7) = (m ((c : Thread nD τ).loc main_arg7)) :=
    Eq.trans (by kept_by hostOps20) P.a7
  have s1_v199 : W41 m ρ c (Proc.devRef .tc main_v199) = (Cert.Spec.h9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps20) P.out
  have s1_WM : W41 m ρ c (Proc.devRef .tc main_v201) = Cert.Spec.w10 (m ((c : Thread nD τ).loc main_arg4)) := by
    have e : W41 m ρ c (Proc.devRef .tc main_v201) = Cert.Spec.w10 (W40 m ρ c (Proc.devRef .tc main_arg4)) := by
      show StableHlo.after hostOps20 (W40 m ρ c) (Proc.devRef .tc main_v201) = _
      after_results; rfl
    exact e.trans (congrArg Cert.Spec.w10 P.a4)
  have s1_B1D : W41 m ρ c (Proc.devRef .tc main_v203) = Cert.Spec.b10 (m ((c : Thread nD τ).loc main_arg5)) := by
    have e : W41 m ρ c (Proc.devRef .tc main_v203) = Cert.Spec.b10 (W40 m ρ c (Proc.devRef .tc main_arg5)) := by
      show StableHlo.after hostOps20 (W40 m ρ c) (Proc.devRef .tc main_v203) = _
      after_results; rfl
    exact e.trans (congrArg Cert.Spec.b10 P.a5)
  have s2_arg0 : W42 m ρ c (Proc.devRef .tc main_arg0) = (m ((c : Thread nD τ).loc main_arg0)) :=
    Eq.trans (W42_of_ne m ρ c main_arg0 (by decide)) s1_arg0
  have s2_arg1 : W42 m ρ c (Proc.devRef .tc main_arg1) = (m ((c : Thread nD τ).loc main_arg1)) :=
    Eq.trans (W42_of_ne m ρ c main_arg1 (by decide)) s1_arg1
  have s2_arg2 : W42 m ρ c (Proc.devRef .tc main_arg2) = (m ((c : Thread nD τ).loc main_arg2)) :=
    Eq.trans (W42_of_ne m ρ c main_arg2 (by decide)) s1_arg2
  have s2_arg3 : W42 m ρ c (Proc.devRef .tc main_arg3) = (m ((c : Thread nD τ).loc main_arg3)) :=
    Eq.trans (W42_of_ne m ρ c main_arg3 (by decide)) s1_arg3
  have s2_arg4 : W42 m ρ c (Proc.devRef .tc main_arg4) = (m ((c : Thread nD τ).loc main_arg4)) :=
    Eq.trans (W42_of_ne m ρ c main_arg4 (by decide)) s1_arg4
  have s2_arg5 : W42 m ρ c (Proc.devRef .tc main_arg5) = (m ((c : Thread nD τ).loc main_arg5)) :=
    Eq.trans (W42_of_ne m ρ c main_arg5 (by decide)) s1_arg5
  have s2_arg6 : W42 m ρ c (Proc.devRef .tc main_arg6) = (m ((c : Thread nD τ).loc main_arg6)) :=
    Eq.trans (W42_of_ne m ρ c main_arg6 (by decide)) s1_arg6
  have s2_arg7 : W42 m ρ c (Proc.devRef .tc main_arg7) = (m ((c : Thread nD τ).loc main_arg7)) :=
    Eq.trans (W42_of_ne m ρ c main_arg7 (by decide)) s1_arg7
  have s2_v199 : W42 m ρ c (Proc.devRef .tc main_v199) = (Cert.Spec.h9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans ((W42_arr m ρ c 0).trans (((dat20 (V41 m ρ) c).arrAt_in 0 rfl _).trans (A_eq20 (V41 m ρ) c 0))) s1_v199
  have s2_v203 : W42 m ρ c (Proc.devRef .tc main_v203) = (Cert.Spec.b10 (m ((c : Thread nD τ).loc main_arg5))) :=
    Eq.trans (W42_of_ne m ρ c main_v203 (by decide)) s1_B1D
  have s2_SUP : W42 m ρ c (Proc.devRef .tc main_v204) = Host.dotGeneral (F := Ideal) (φ₁ := .f32) (φ₂ := .f32) Cert.ReferenceIdeal.dot_S25000x192_S192x192_S25000x192_1_0_0_1_n_n none (Cert.Spec.h9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w10 (m ((c : Thread nD τ).loc main_arg4))) := by
    refine (W42_arr m ρ c 2).trans ?_
    refine (Cert.Region20.final (V41 m ρ) c).trans ?_
    show Cert.Forms.mmG (W41 m ρ c (Proc.devRef .tc main_v199)) (W41 m ρ c (Proc.devRef .tc main_v201)) = _
    rw [s1_v199, s1_WM]
    exact (Cert.MatMul.hostDot_eq _ _).symm
  have s3_arg0 : W43 m ρ c (Proc.devRef .tc main_arg0) = (m ((c : Thread nD τ).loc main_arg0)) :=
    Eq.trans (by kept_by hostOps21) s2_arg0
  have s3_arg1 : W43 m ρ c (Proc.devRef .tc main_arg1) = (m ((c : Thread nD τ).loc main_arg1)) :=
    Eq.trans (by kept_by hostOps21) s2_arg1
  have s3_arg2 : W43 m ρ c (Proc.devRef .tc main_arg2) = (m ((c : Thread nD τ).loc main_arg2)) :=
    Eq.trans (by kept_by hostOps21) s2_arg2
  have s3_arg3 : W43 m ρ c (Proc.devRef .tc main_arg3) = (m ((c : Thread nD τ).loc main_arg3)) :=
    Eq.trans (by kept_by hostOps21) s2_arg3
  have s3_arg4 : W43 m ρ c (Proc.devRef .tc main_arg4) = (m ((c : Thread nD τ).loc main_arg4)) :=
    Eq.trans (by kept_by hostOps21) s2_arg4
  have s3_arg5 : W43 m ρ c (Proc.devRef .tc main_arg5) = (m ((c : Thread nD τ).loc main_arg5)) :=
    Eq.trans (by kept_by hostOps21) s2_arg5
  have s3_arg6 : W43 m ρ c (Proc.devRef .tc main_arg6) = (m ((c : Thread nD τ).loc main_arg6)) :=
    Eq.trans (by kept_by hostOps21) s2_arg6
  have s3_arg7 : W43 m ρ c (Proc.devRef .tc main_arg7) = (m ((c : Thread nD τ).loc main_arg7)) :=
    Eq.trans (by kept_by hostOps21) s2_arg7
  have s3_v199 : W43 m ρ c (Proc.devRef .tc main_v199) = (Cert.Spec.h9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps21) s2_v199
  have s3_AGG : W43 m ρ c (Proc.devRef .tc main_v217) = Cert.Spec.agg (m ((c : Thread nD τ).loc main_arg1)) (m ((c : Thread nD τ).loc main_arg2)) (m ((c : Thread nD τ).loc main_arg3)) (Host.dotGeneral (F := Ideal) (φ₁ := .f32) (φ₂ := .f32) Cert.ReferenceIdeal.dot_S25000x192_S192x192_S25000x192_1_0_0_1_n_n none (Cert.Spec.h9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w10 (m ((c : Thread nD τ).loc main_arg4)))) := by
    have e : W43 m ρ c (Proc.devRef .tc main_v217) = Cert.Spec.agg (W42 m ρ c (Proc.devRef .tc main_arg1)) (W42 m ρ c (Proc.devRef .tc main_arg2)) (W42 m ρ c (Proc.devRef .tc main_arg3)) (W42 m ρ c (Proc.devRef .tc main_v204)) := by
      show StableHlo.after hostOps21 (W42 m ρ c) (Proc.devRef .tc main_v217) = _
      after_results
      exact Cert.Post.agg_eq _ _ _ _
    rw [e, s2_arg1, s2_arg2, s2_arg3, s2_SUP]
  have s3_B2 : W43 m ρ c (Proc.devRef .tc main_v218) = shapeCast S1x192 (Cert.Spec.b10 (m ((c : Thread nD τ).loc main_arg5))) Cert.KernelIdeal.Facts₀.shapeCasts_S192_S1x192 := by
    have e : W43 m ρ c (Proc.devRef .tc main_v218) = shapeCast S1x192 (W42 m ρ c (Proc.devRef .tc main_v203)) Cert.KernelIdeal.Facts₀.shapeCasts_S192_S1x192 := by
      show StableHlo.after hostOps21 (W42 m ρ c) (Proc.devRef .tc main_v218) = _
      after_results; rfl
    rw [e, s2_v203]
  have s4_arg0 : W44 m ρ c (Proc.devRef .tc main_arg0) = (m ((c : Thread nD τ).loc main_arg0)) :=
    Eq.trans (W44_of_ne m ρ c main_arg0 (by decide)) s3_arg0
  have s4_arg1 : W44 m ρ c (Proc.devRef .tc main_arg1) = (m ((c : Thread nD τ).loc main_arg1)) :=
    Eq.trans (W44_of_ne m ρ c main_arg1 (by decide)) s3_arg1
  have s4_arg2 : W44 m ρ c (Proc.devRef .tc main_arg2) = (m ((c : Thread nD τ).loc main_arg2)) :=
    Eq.trans (W44_of_ne m ρ c main_arg2 (by decide)) s3_arg2
  have s4_arg3 : W44 m ρ c (Proc.devRef .tc main_arg3) = (m ((c : Thread nD τ).loc main_arg3)) :=
    Eq.trans (W44_of_ne m ρ c main_arg3 (by decide)) s3_arg3
  have s4_arg4 : W44 m ρ c (Proc.devRef .tc main_arg4) = (m ((c : Thread nD τ).loc main_arg4)) :=
    Eq.trans (W44_of_ne m ρ c main_arg4 (by decide)) s3_arg4
  have s4_arg5 : W44 m ρ c (Proc.devRef .tc main_arg5) = (m ((c : Thread nD τ).loc main_arg5)) :=
    Eq.trans (W44_of_ne m ρ c main_arg5 (by decide)) s3_arg5
  have s4_arg6 : W44 m ρ c (Proc.devRef .tc main_arg6) = (m ((c : Thread nD τ).loc main_arg6)) :=
    Eq.trans (W44_of_ne m ρ c main_arg6 (by decide)) s3_arg6
  have s4_arg7 : W44 m ρ c (Proc.devRef .tc main_arg7) = (m ((c : Thread nD τ).loc main_arg7)) :=
    Eq.trans (W44_of_ne m ρ c main_arg7 (by decide)) s3_arg7
  have s4_v199 : W44 m ρ c (Proc.devRef .tc main_v199) = (Cert.Spec.h9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (W44_of_ne m ρ c main_v199 (by decide)) s3_v199
  have s4_OUT : W44 m ρ c (Proc.devRef .tc main_v219) = (Cert.Spec.h10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    refine (W44_arr m ρ c 2).trans ?_
    refine (Cert.Region21.final (V43 m ρ) c).trans ?_
    show Cert.Forms.reluG (W43 m ρ c (Proc.devRef .tc main_v217)) (W43 m ρ c (Proc.devRef .tc main_v218)) = _
    rw [s3_AGG, s3_B2]
    refine (Cert.Post.reluG_eq _ _).trans ?_
    rfl
  exact ⟨s4_OUT, s4_v199, s4_arg0, s4_arg1, s4_arg2, s4_arg3, s4_arg4, s4_arg5, s4_arg6, s4_arg7⟩

end Cert.Layer10

end
-- ==== Proof.Region22.lean ====
/-
  Kernel region 22 as a function of whole arrays: after the region, its output array is, index by index,
  the matrix product of the 25000 × 192 array in window 0 with the 192 × 192 matrix in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.MatMul
import Idealize.ShloMosaic.Lib.Pipeline.Value

set_option maxRecDepth 16384

noncomputable section

namespace Cert.Region22

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg22.N, win22_0.index t (0 : Fin 2) = t.val
    ∧ win22_0.index t (1 : Fin 2) = 0
    ∧ win22_1.index t (0 : Fin 2) = 0
    ∧ win22_1.index t (1 : Fin 2) = 0
    ∧ win22_2.index t (0 : Fin 2) = t.val
    ∧ win22_2.index t (1 : Fin 2) = 0 :=
  (by decide +kernel : ∀ t : Fin grid22.N, _)

/-- What point t writes back is block t of the whole-array function. -/
theorem flushed_eq (c : Dev nD) (t : Fin cfg22.N) :
    (dat22 V c).flushed 2 t = ((cfg22.win 2).blk t).view.read (Elt Ideal) (mmG (V c main_v219) (V c main_v221)) := by
  show (cfg22.win 2).cut (grid22.coords t) ((dat22 V c).after 2 t) = _
  rw [after22_2]
  unfold out22_2
  rw [View.canon_unit_zero hz]
  simp only [View.ld_unit_zero (S := S1000x192) hz, View.ld_unit_zero (S := S192x192) hz]
  obtain ⟨e00, e01, e10, e11, e20, e21⟩ := idx_facts t
  funext j
  refine (Cert.MatMul.pay22_apply _ _ j).trans ?_
  refine Eq.trans ?_ (mmG_apply _ _ _).symm
  refine Finset.sum_congr rfl fun q _ => ?_
  have hl : iblk22 V c 0 t (Cert.MatMul.blkRowK ⟨(j 0).val, (j 0).isLt⟩ q) = V c main_v219 (rowK (r192 (((cfg22.win 2).blk t).view.emb j)) q) :=
    congrArg (V c main_v219) (a₁ := ((cfg22.win 0).blk t).view.emb (Cert.MatMul.blkRowK ⟨(j 0).val, (j 0).isLt⟩ q)) (a₂ := rowK (r192 (((cfg22.win 2).blk t).view.emb j)) q) (funext fun a => Fin.ext (by
      match a with
      | ⟨0, _⟩ => show win22_0.index t (0 : Fin 2) * 1000 + 1 * (j 0).val = win22_2.index t (0 : Fin 2) * 1000 + 1 * (j 0).val; omega
      | ⟨1, _⟩ => show win22_0.index t (1 : Fin 2) * 192 + 1 * q.val = q.val; omega))
  have hr : iblk22 V c 1 t (kCol q ⟨(j 1).val, (j 1).isLt⟩) = V c main_v221 (kCol q (c192 (((cfg22.win 2).blk t).view.emb j))) :=
    congrArg (V c main_v221) (a₁ := ((cfg22.win 1).blk t).view.emb (kCol q ⟨(j 1).val, (j 1).isLt⟩)) (a₂ := kCol q (c192 (((cfg22.win 2).blk t).view.emb j))) (funext fun a => Fin.ext (by
      match a with
      | ⟨0, _⟩ => show win22_1.index t (0 : Fin 2) * 192 + 1 * q.val = q.val; omega
      | ⟨1, _⟩ => show win22_1.index t (1 : Fin 2) * 192 + 1 * (j 1).val = win22_2.index t (1 : Fin 2) * 192 + 1 * (j 1).val; omega))
  exact congrArg₂ (· * ·) hl hr

/-- An index is in point t's block iff each coordinate is in the block's range on its axis. -/
theorem mem_blk (t : Fin cfg22.N) (i : S25000x192.Idx) :
    i ∈ ((cfg22.win 2).blk t).view.set ↔ ∀ a : Fin 2, win22_2.index t a * S1000x192.size a ≤ (i a).val ∧ (i a).val < win22_2.index t a * S1000x192.size a + S1000x192.size a := by
  show i ∈ ((View.whole main_v224).slice (win22_2.rect t)).set ↔ _
  rw [View.set_slice_whole, Rect.mem_set_unit]
  exact Iff.rfl

/-- Row r of the output lies in the block of point r / 1000. -/
theorem cover (i : S25000x192.Idx) : ∃ t : Fin cfg22.N, (cfg22.win 2).flush t = true ∧ i ∈ ((cfg22.win 2).blk t).view.set := by
  have hi0 : (i 0).val < 25000 := (i 0).isLt
  have hi1 : (i 1).val < 192 := (i 1).isLt
  have hN : (i 0).val / 1000 < cfg22.N := lt_of_lt_of_eq (by omega : (i 0).val / 1000 < 25) N_22.symm
  refine ⟨⟨(i 0).val / 1000, hN⟩, flush22_2 _, ?_⟩
  rw [mem_blk]
  have f0 : win22_2.index ⟨(i 0).val / 1000, hN⟩ (0 : Fin 2) = (i 0).val / 1000 := (idx_facts ⟨(i 0).val / 1000, hN⟩).2.2.2.2.1
  have f1 : win22_2.index ⟨(i 0).val / 1000, hN⟩ (1 : Fin 2) = 0 := (idx_facts ⟨(i 0).val / 1000, hN⟩).2.2.2.2.2
  intro a
  match a with
  | ⟨0, _⟩ => show win22_2.index ⟨(i 0).val / 1000, hN⟩ (0 : Fin 2) * 1000 ≤ (i 0).val ∧ (i 0).val < win22_2.index ⟨(i 0).val / 1000, hN⟩ (0 : Fin 2) * 1000 + 1000; rw [f0]; omega
  | ⟨1, _⟩ => show win22_2.index ⟨(i 0).val / 1000, hN⟩ (1 : Fin 2) * 192 ≤ (i 1).val ∧ (i 1).val < win22_2.index ⟨(i 0).val / 1000, hN⟩ (1 : Fin 2) * 192 + 192; rw [f1]; omega

/-- The output array after the region. -/
theorem final (c : Dev nD) : (dat22 V c).arrAt 2 cfg22.N = mmG (V c main_v219) (V c main_v221) :=
  (dat22 V c).arrAt_eq_of_cover 2 _ (fun t _ => flushed_eq V c t) (cover)

end Cert.Region22

end
-- ==== Proof.Region23.lean ====
/-
  Kernel region 23 as a function of whole arrays: after the region, its output array is, index by index,
  (r + max(a + b, 0)) · ½ of the aggregate a in window 0, the bias row b in window 1 and the residual r in window 2, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.Post
import Idealize.ShloMosaic.Lib.Pipeline.Value

set_option maxRecDepth 16384

noncomputable section

namespace Cert.Region23

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg23.N, win23_0.index t (0 : Fin 2) = t.val
    ∧ win23_0.index t (1 : Fin 2) = 0
    ∧ win23_1.index t (0 : Fin 2) = 0
    ∧ win23_1.index t (1 : Fin 2) = 0
    ∧ win23_2.index t (0 : Fin 2) = t.val
    ∧ win23_2.index t (1 : Fin 2) = 0
    ∧ win23_3.index t (0 : Fin 2) = t.val
    ∧ win23_3.index t (1 : Fin 2) = 0 :=
  (by decide +kernel : ∀ t : Fin grid23.N, _)

/-- What point t writes back is block t of the whole-array function. -/
theorem flushed_eq (c : Dev nD) (t : Fin cfg23.N) :
    (dat23 V c).flushed 3 t = ((cfg23.win 3).blk t).view.read (Elt Ideal) (avgG (V c main_v237) (V c main_v238) (V c main_v199)) := by
  show (cfg23.win 3).cut (grid23.coords t) ((dat23 V c).after 3 t) = _
  rw [after23_3]
  unfold out23_3
  rw [View.canon_unit_zero hz]
  simp only [View.ld_unit_zero (S := S1000x192) hz, View.ld_unit_zero (S := S1x192) hz]
  obtain ⟨e00, e01, e10, e11, e20, e21, e30, e31⟩ := idx_facts t
  funext j
  refine (Cert.Post.pay23_apply _ _ _ j).trans ?_
  refine Eq.trans ?_ (avgG_apply _ _ _ _).symm
  have ha : iblk23 V c 0 t j = V c main_v237 (((cfg23.win 3).blk t).view.emb j) :=
    congrArg (V c main_v237) (a₁ := ((cfg23.win 0).blk t).view.emb (j)) (a₂ := (((cfg23.win 3).blk t).view.emb j)) (funext fun a => Fin.ext (by
      match a with
      | ⟨0, _⟩ => show win23_0.index t (0 : Fin 2) * 1000 + 1 * (j 0).val = win23_3.index t (0 : Fin 2) * 1000 + 1 * (j 0).val; omega
      | ⟨1, _⟩ => show win23_0.index t (1 : Fin 2) * 192 + 1 * (j 1).val = win23_3.index t (1 : Fin 2) * 192 + 1 * (j 1).val; omega))
  have hb : iblk23 V c 1 t (biasAt ⟨(j 1).val, (j 1).isLt⟩) = V c main_v238 (biasAt (c192 (((cfg23.win 3).blk t).view.emb j))) :=
    congrArg (V c main_v238) (a₁ := ((cfg23.win 1).blk t).view.emb (biasAt ⟨(j 1).val, (j 1).isLt⟩)) (a₂ := biasAt (c192 (((cfg23.win 3).blk t).view.emb j))) (funext fun a => Fin.ext (by
      match a with
      | ⟨0, _⟩ => show win23_1.index t (0 : Fin 2) * 1 + 1 * 0 = 0; omega
      | ⟨1, _⟩ => show win23_1.index t (1 : Fin 2) * 192 + 1 * (j 1).val = win23_3.index t (1 : Fin 2) * 192 + 1 * (j 1).val; omega))
  have hr : iblk23 V c 2 t j = V c main_v199 (((cfg23.win 3).blk t).view.emb j) :=
    congrArg (V c main_v199) (a₁ := ((cfg23.win 2).blk t).view.emb (j)) (a₂ := (((cfg23.win 3).blk t).view.emb j)) (funext fun a => Fin.ext (by
      match a with
      | ⟨0, _⟩ => show win23_2.index t (0 : Fin 2) * 1000 + 1 * (j 0).val = win23_3.index t (0 : Fin 2) * 1000 + 1 * (j 0).val; omega
      | ⟨1, _⟩ => show win23_2.index t (1 : Fin 2) * 192 + 1 * (j 1).val = win23_3.index t (1 : Fin 2) * 192 + 1 * (j 1).val; omega))
  rw [ha, hb, hr]

/-- An index is in point t's block iff each coordinate is in the block's range on its axis. -/
theorem mem_blk (t : Fin cfg23.N) (i : S25000x192.Idx) :
    i ∈ ((cfg23.win 3).blk t).view.set ↔ ∀ a : Fin 2, win23_3.index t a * S1000x192.size a ≤ (i a).val ∧ (i a).val < win23_3.index t a * S1000x192.size a + S1000x192.size a := by
  show i ∈ ((View.whole main_v239).slice (win23_3.rect t)).set ↔ _
  rw [View.set_slice_whole, Rect.mem_set_unit]
  exact Iff.rfl

/-- Row r of the output lies in the block of point r / 1000. -/
theorem cover (i : S25000x192.Idx) : ∃ t : Fin cfg23.N, (cfg23.win 3).flush t = true ∧ i ∈ ((cfg23.win 3).blk t).view.set := by
  have hi0 : (i 0).val < 25000 := (i 0).isLt
  have hi1 : (i 1).val < 192 := (i 1).isLt
  have hN : (i 0).val / 1000 < cfg23.N := lt_of_lt_of_eq (by omega : (i 0).val / 1000 < 25) N_23.symm
  refine ⟨⟨(i 0).val / 1000, hN⟩, flush23_3 _, ?_⟩
  rw [mem_blk]
  have f0 : win23_3.index ⟨(i 0).val / 1000, hN⟩ (0 : Fin 2) = (i 0).val / 1000 := (idx_facts ⟨(i 0).val / 1000, hN⟩).2.2.2.2.2.2.1
  have f1 : win23_3.index ⟨(i 0).val / 1000, hN⟩ (1 : Fin 2) = 0 := (idx_facts ⟨(i 0).val / 1000, hN⟩).2.2.2.2.2.2.2
  intro a
  match a with
  | ⟨0, _⟩ => show win23_3.index ⟨(i 0).val / 1000, hN⟩ (0 : Fin 2) * 1000 ≤ (i 0).val ∧ (i 0).val < win23_3.index ⟨(i 0).val / 1000, hN⟩ (0 : Fin 2) * 1000 + 1000; rw [f0]; omega
  | ⟨1, _⟩ => show win23_3.index ⟨(i 0).val / 1000, hN⟩ (1 : Fin 2) * 192 ≤ (i 1).val ∧ (i 1).val < win23_3.index ⟨(i 0).val / 1000, hN⟩ (1 : Fin 2) * 192 + 192; rw [f1]; omega

/-- The output array after the region. -/
theorem final (c : Dev nD) : (dat23 V c).arrAt 3 cfg23.N = avgG (V c main_v237) (V c main_v238) (V c main_v199) :=
  (dat23 V c).arrAt_eq_of_cover 3 _ (fun t _ => flushed_eq V c t) (cover)

end Cert.Region23

end
-- ==== Proof.Layer11.lean ====
/-
  Layer 11 of the idealized kernel: at the segment boundary after its second region the layer's output buffer holds
  hidden layer 11 of the specification — (r + max(A·(x·W) + b, 0)) · ½, which on the extended reals is (r + max(…))/2 of the layer's input —, as a function of the launch contents of
  the arguments; the arguments, and the earlier features a later layer still reads, are unchanged there.
  The boundary's contents are a fold: a host stretch slices this layer's weight and bias, the first region multiplies,
  a host stretch gathers, scales and scatter-adds, the second region adds the bias and clamps and averages.
-/
import proofs.«171734_j42872363549123_1_alg».proof.Proof.Gen.KernelIdeal.Frame
import proofs.«171734_j42872363549123_1_alg».proof.Proof.Gen.ReferenceIdeal
import proofs.«171734_j42872363549123_1_alg».proof.Proof.Spec
import proofs.«171734_j42872363549123_1_alg».proof.Proof.Forms
import proofs.«171734_j42872363549123_1_alg».proof.Proof.MatMul
import proofs.«171734_j42872363549123_1_alg».proof.Proof.Post
import proofs.«171734_j42872363549123_1_alg».proof.Proof.Region22
import proofs.«171734_j42872363549123_1_alg».proof.Proof.Region23
import proofs.«171734_j42872363549123_1_alg».proof.Proof.Invs
import Idealize.ShloMosaic.Lib.StableHlo.Run

set_option maxRecDepth 16384

noncomputable section

namespace Cert.Layer11

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

open Lean in
/-- A buffer that no operation of a host stretch writes keeps its contents across the stretch. -/
macro "kept_by " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

set_option maxHeartbeats 40000000 in
/-- From what the boundary before layer 11 holds to what the boundary after it holds. -/
theorem step (c : Dev nD) (P : Cert.Invs.Inv10 m ρ c) : Cert.Invs.Inv11 m ρ c := by
  have s1_arg0 : W45 m ρ c (Proc.devRef .tc main_arg0) = (m ((c : Thread nD τ).loc main_arg0)) :=
    Eq.trans (by kept_by hostOps22) P.a0
  have s1_arg1 : W45 m ρ c (Proc.devRef .tc main_arg1) = (m ((c : Thread nD τ).loc main_arg1)) :=
    Eq.trans (by kept_by hostOps22) P.a1
  have s1_arg2 : W45 m ρ c (Proc.devRef .tc main_arg2) = (m ((c : Thread nD τ).loc main_arg2)) :=
    Eq.trans (by kept_by hostOps22) P.a2
  have s1_arg3 : W45 m ρ c (Proc.devRef .tc main_arg3) = (m ((c : Thread nD τ).loc main_arg3)) :=
    Eq.trans (by kept_by hostOps22) P.a3
  have s1_arg4 : W45 m ρ c (Proc.devRef .tc main_arg4) = (m ((c : Thread nD τ).loc main_arg4)) :=
    Eq.trans (by kept_by hostOps22) P.a4
  have s1_arg5 : W45 m ρ c (Proc.devRef .tc main_arg5) = (m ((c : Thread nD τ).loc main_arg5)) :=
    Eq.trans (by kept_by hostOps22) P.a5
  have s1_arg6 : W45 m ρ c (Proc.devRef .tc main_arg6) = (m ((c : Thread nD τ).loc main_arg6)) :=
    Eq.trans (by kept_by hostOps22) P.a6
  have s1_arg7 : W45 m ρ c (Proc.devRef .tc main_arg7) = (m ((c : Thread nD τ).loc main_arg7)) :=
    Eq.trans (by kept_by hostOps22) P.a7
  have s1_v219 : W45 m ρ c (Proc.devRef .tc main_v219) = (Cert.Spec.h10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps22) P.out
  have s1_v199 : W45 m ρ c (Proc.devRef .tc main_v199) = (Cert.Spec.h9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps22) P.car
  have s1_WM : W45 m ρ c (Proc.devRef .tc main_v221) = Cert.Spec.w11 (m ((c : Thread nD τ).loc main_arg4)) := by
    have e : W45 m ρ c (Proc.devRef .tc main_v221) = Cert.Spec.w11 (W44 m ρ c (Proc.devRef .tc main_arg4)) := by
      show StableHlo.after hostOps22 (W44 m ρ c) (Proc.devRef .tc main_v221) = _
      after_results; rfl
    exact e.trans (congrArg Cert.Spec.w11 P.a4)
  have s1_B1D : W45 m ρ c (Proc.devRef .tc main_v223) = Cert.Spec.b11 (m ((c : Thread nD τ).loc main_arg5)) := by
    have e : W45 m ρ c (Proc.devRef .tc main_v223) = Cert.Spec.b11 (W44 m ρ c (Proc.devRef .tc main_arg5)) := by
      show StableHlo.after hostOps22 (W44 m ρ c) (Proc.devRef .tc main_v223) = _
      after_results; rfl
    exact e.trans (congrArg Cert.Spec.b11 P.a5)
  have s2_arg0 : W46 m ρ c (Proc.devRef .tc main_arg0) = (m ((c : Thread nD τ).loc main_arg0)) :=
    Eq.trans (W46_of_ne m ρ c main_arg0 (by decide)) s1_arg0
  have s2_arg1 : W46 m ρ c (Proc.devRef .tc main_arg1) = (m ((c : Thread nD τ).loc main_arg1)) :=
    Eq.trans (W46_of_ne m ρ c main_arg1 (by decide)) s1_arg1
  have s2_arg2 : W46 m ρ c (Proc.devRef .tc main_arg2) = (m ((c : Thread nD τ).loc main_arg2)) :=
    Eq.trans (W46_of_ne m ρ c main_arg2 (by decide)) s1_arg2
  have s2_arg3 : W46 m ρ c (Proc.devRef .tc main_arg3) = (m ((c : Thread nD τ).loc main_arg3)) :=
    Eq.trans (W46_of_ne m ρ c main_arg3 (by decide)) s1_arg3
  have s2_arg4 : W46 m ρ c (Proc.devRef .tc main_arg4) = (m ((c : Thread nD τ).loc main_arg4)) :=
    Eq.trans (W46_of_ne m ρ c main_arg4 (by decide)) s1_arg4
  have s2_arg5 : W46 m ρ c (Proc.devRef .tc main_arg5) = (m ((c : Thread nD τ).loc main_arg5)) :=
    Eq.trans (W46_of_ne m ρ c main_arg5 (by decide)) s1_arg5
  have s2_arg6 : W46 m ρ c (Proc.devRef .tc main_arg6) = (m ((c : Thread nD τ).loc main_arg6)) :=
    Eq.trans (W46_of_ne m ρ c main_arg6 (by decide)) s1_arg6
  have s2_arg7 : W46 m ρ c (Proc.devRef .tc main_arg7) = (m ((c : Thread nD τ).loc main_arg7)) :=
    Eq.trans (W46_of_ne m ρ c main_arg7 (by decide)) s1_arg7
  have s2_v219 : W46 m ρ c (Proc.devRef .tc main_v219) = (Cert.Spec.h10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans ((W46_arr m ρ c 0).trans (((dat22 (V45 m ρ) c).arrAt_in 0 rfl _).trans (A_eq22 (V45 m ρ) c 0))) s1_v219
  have s2_v199 : W46 m ρ c (Proc.devRef .tc main_v199) = (Cert.Spec.h9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (W46_of_ne m ρ c main_v199 (by decide)) s1_v199
  have s2_v223 : W46 m ρ c (Proc.devRef .tc main_v223) = (Cert.Spec.b11 (m ((c : Thread nD τ).loc main_arg5))) :=
    Eq.trans (W46_of_ne m ρ c main_v223 (by decide)) s1_B1D
  have s2_SUP : W46 m ρ c (Proc.devRef .tc main_v224) = Host.dotGeneral (F := Ideal) (φ₁ := .f32) (φ₂ := .f32) Cert.ReferenceIdeal.dot_S25000x192_S192x192_S25000x192_1_0_0_1_n_n none (Cert.Spec.h10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w11 (m ((c : Thread nD τ).loc main_arg4))) := by
    refine (W46_arr m ρ c 2).trans ?_
    refine (Cert.Region22.final (V45 m ρ) c).trans ?_
    show Cert.Forms.mmG (W45 m ρ c (Proc.devRef .tc main_v219)) (W45 m ρ c (Proc.devRef .tc main_v221)) = _
    rw [s1_v219, s1_WM]
    exact (Cert.MatMul.hostDot_eq _ _).symm
  have s3_arg0 : W47 m ρ c (Proc.devRef .tc main_arg0) = (m ((c : Thread nD τ).loc main_arg0)) :=
    Eq.trans (by kept_by hostOps23) s2_arg0
  have s3_arg1 : W47 m ρ c (Proc.devRef .tc main_arg1) = (m ((c : Thread nD τ).loc main_arg1)) :=
    Eq.trans (by kept_by hostOps23) s2_arg1
  have s3_arg2 : W47 m ρ c (Proc.devRef .tc main_arg2) = (m ((c : Thread nD τ).loc main_arg2)) :=
    Eq.trans (by kept_by hostOps23) s2_arg2
  have s3_arg3 : W47 m ρ c (Proc.devRef .tc main_arg3) = (m ((c : Thread nD τ).loc main_arg3)) :=
    Eq.trans (by kept_by hostOps23) s2_arg3
  have s3_arg4 : W47 m ρ c (Proc.devRef .tc main_arg4) = (m ((c : Thread nD τ).loc main_arg4)) :=
    Eq.trans (by kept_by hostOps23) s2_arg4
  have s3_arg5 : W47 m ρ c (Proc.devRef .tc main_arg5) = (m ((c : Thread nD τ).loc main_arg5)) :=
    Eq.trans (by kept_by hostOps23) s2_arg5
  have s3_arg6 : W47 m ρ c (Proc.devRef .tc main_arg6) = (m ((c : Thread nD τ).loc main_arg6)) :=
    Eq.trans (by kept_by hostOps23) s2_arg6
  have s3_arg7 : W47 m ρ c (Proc.devRef .tc main_arg7) = (m ((c : Thread nD τ).loc main_arg7)) :=
    Eq.trans (by kept_by hostOps23) s2_arg7
  have s3_v219 : W47 m ρ c (Proc.devRef .tc main_v219) = (Cert.Spec.h10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps23) s2_v219
  have s3_v199 : W47 m ρ c (Proc.devRef .tc main_v199) = (Cert.Spec.h9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps23) s2_v199
  have s3_AGG : W47 m ρ c (Proc.devRef .tc main_v237) = Cert.Spec.agg (m ((c : Thread nD τ).loc main_arg1)) (m ((c : Thread nD τ).loc main_arg2)) (m ((c : Thread nD τ).loc main_arg3)) (Host.dotGeneral (F := Ideal) (φ₁ := .f32) (φ₂ := .f32) Cert.ReferenceIdeal.dot_S25000x192_S192x192_S25000x192_1_0_0_1_n_n none (Cert.Spec.h10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w11 (m ((c : Thread nD τ).loc main_arg4)))) := by
    have e : W47 m ρ c (Proc.devRef .tc main_v237) = Cert.Spec.agg (W46 m ρ c (Proc.devRef .tc main_arg1)) (W46 m ρ c (Proc.devRef .tc main_arg2)) (W46 m ρ c (Proc.devRef .tc main_arg3)) (W46 m ρ c (Proc.devRef .tc main_v224)) := by
      show StableHlo.after hostOps23 (W46 m ρ c) (Proc.devRef .tc main_v237) = _
      after_results
      exact Cert.Post.agg_eq _ _ _ _
    rw [e, s2_arg1, s2_arg2, s2_arg3, s2_SUP]
  have s3_B2 : W47 m ρ c (Proc.devRef .tc main_v238) = shapeCast S1x192 (Cert.Spec.b11 (m ((c : Thread nD τ).loc main_arg5))) Cert.KernelIdeal.Facts₀.shapeCasts_S192_S1x192 := by
    have e : W47 m ρ c (Proc.devRef .tc main_v238) = shapeCast S1x192 (W46 m ρ c (Proc.devRef .tc main_v223)) Cert.KernelIdeal.Facts₀.shapeCasts_S192_S1x192 := by
      show StableHlo.after hostOps23 (W46 m ρ c) (Proc.devRef .tc main_v238) = _
      after_results; rfl
    rw [e, s2_v223]
  have s4_arg0 : W48 m ρ c (Proc.devRef .tc main_arg0) = (m ((c : Thread nD τ).loc main_arg0)) :=
    Eq.trans (W48_of_ne m ρ c main_arg0 (by decide)) s3_arg0
  have s4_arg1 : W48 m ρ c (Proc.devRef .tc main_arg1) = (m ((c : Thread nD τ).loc main_arg1)) :=
    Eq.trans (W48_of_ne m ρ c main_arg1 (by decide)) s3_arg1
  have s4_arg2 : W48 m ρ c (Proc.devRef .tc main_arg2) = (m ((c : Thread nD τ).loc main_arg2)) :=
    Eq.trans (W48_of_ne m ρ c main_arg2 (by decide)) s3_arg2
  have s4_arg3 : W48 m ρ c (Proc.devRef .tc main_arg3) = (m ((c : Thread nD τ).loc main_arg3)) :=
    Eq.trans (W48_of_ne m ρ c main_arg3 (by decide)) s3_arg3
  have s4_arg4 : W48 m ρ c (Proc.devRef .tc main_arg4) = (m ((c : Thread nD τ).loc main_arg4)) :=
    Eq.trans (W48_of_ne m ρ c main_arg4 (by decide)) s3_arg4
  have s4_arg5 : W48 m ρ c (Proc.devRef .tc main_arg5) = (m ((c : Thread nD τ).loc main_arg5)) :=
    Eq.trans (W48_of_ne m ρ c main_arg5 (by decide)) s3_arg5
  have s4_arg6 : W48 m ρ c (Proc.devRef .tc main_arg6) = (m ((c : Thread nD τ).loc main_arg6)) :=
    Eq.trans (W48_of_ne m ρ c main_arg6 (by decide)) s3_arg6
  have s4_arg7 : W48 m ρ c (Proc.devRef .tc main_arg7) = (m ((c : Thread nD τ).loc main_arg7)) :=
    Eq.trans (W48_of_ne m ρ c main_arg7 (by decide)) s3_arg7
  have s4_OUT : W48 m ρ c (Proc.devRef .tc main_v239) = (Cert.Spec.h11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    refine (W48_arr m ρ c 3).trans ?_
    refine (Cert.Region23.final (V47 m ρ) c).trans ?_
    show Cert.Forms.avgG (W47 m ρ c (Proc.devRef .tc main_v237)) (W47 m ρ c (Proc.devRef .tc main_v238)) (W47 m ρ c (Proc.devRef .tc main_v199)) = _
    rw [s3_AGG, s3_B2, s3_v199]
    refine (Cert.Post.avgG_eq _ _ _).trans ?_
    rfl
  exact ⟨s4_OUT, s4_arg0, s4_arg1, s4_arg2, s4_arg3, s4_arg4, s4_arg5, s4_arg6, s4_arg7⟩

end Cert.Layer11

end
-- ==== Proof.Region24.lean ====
/-
  Kernel region 24 as a function of whole arrays: after the region, its output array is, index by index,
  the matrix product of the 25000 × 192 array in window 0 with the 192 × 192 matrix in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.MatMul
import Idealize.ShloMosaic.Lib.Pipeline.Value

set_option maxRecDepth 16384

noncomputable section

namespace Cert.Region24

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg24.N, win24_0.index t (0 : Fin 2) = t.val
    ∧ win24_0.index t (1 : Fin 2) = 0
    ∧ win24_1.index t (0 : Fin 2) = 0
    ∧ win24_1.index t (1 : Fin 2) = 0
    ∧ win24_2.index t (0 : Fin 2) = t.val
    ∧ win24_2.index t (1 : Fin 2) = 0 :=
  (by decide +kernel : ∀ t : Fin grid24.N, _)

/-- What point t writes back is block t of the whole-array function. -/
theorem flushed_eq (c : Dev nD) (t : Fin cfg24.N) :
    (dat24 V c).flushed 2 t = ((cfg24.win 2).blk t).view.read (Elt Ideal) (mmG (V c main_v239) (V c main_v241)) := by
  show (cfg24.win 2).cut (grid24.coords t) ((dat24 V c).after 2 t) = _
  rw [after24_2]
  unfold out24_2
  rw [View.canon_unit_zero hz]
  simp only [View.ld_unit_zero (S := S1000x192) hz, View.ld_unit_zero (S := S192x192) hz]
  obtain ⟨e00, e01, e10, e11, e20, e21⟩ := idx_facts t
  funext j
  refine (Cert.MatMul.pay24_apply _ _ j).trans ?_
  refine Eq.trans ?_ (mmG_apply _ _ _).symm
  refine Finset.sum_congr rfl fun q _ => ?_
  have hl : iblk24 V c 0 t (Cert.MatMul.blkRowK ⟨(j 0).val, (j 0).isLt⟩ q) = V c main_v239 (rowK (r192 (((cfg24.win 2).blk t).view.emb j)) q) :=
    congrArg (V c main_v239) (a₁ := ((cfg24.win 0).blk t).view.emb (Cert.MatMul.blkRowK ⟨(j 0).val, (j 0).isLt⟩ q)) (a₂ := rowK (r192 (((cfg24.win 2).blk t).view.emb j)) q) (funext fun a => Fin.ext (by
      match a with
      | ⟨0, _⟩ => show win24_0.index t (0 : Fin 2) * 1000 + 1 * (j 0).val = win24_2.index t (0 : Fin 2) * 1000 + 1 * (j 0).val; omega
      | ⟨1, _⟩ => show win24_0.index t (1 : Fin 2) * 192 + 1 * q.val = q.val; omega))
  have hr : iblk24 V c 1 t (kCol q ⟨(j 1).val, (j 1).isLt⟩) = V c main_v241 (kCol q (c192 (((cfg24.win 2).blk t).view.emb j))) :=
    congrArg (V c main_v241) (a₁ := ((cfg24.win 1).blk t).view.emb (kCol q ⟨(j 1).val, (j 1).isLt⟩)) (a₂ := kCol q (c192 (((cfg24.win 2).blk t).view.emb j))) (funext fun a => Fin.ext (by
      match a with
      | ⟨0, _⟩ => show win24_1.index t (0 : Fin 2) * 192 + 1 * q.val = q.val; omega
      | ⟨1, _⟩ => show win24_1.index t (1 : Fin 2) * 192 + 1 * (j 1).val = win24_2.index t (1 : Fin 2) * 192 + 1 * (j 1).val; omega))
  exact congrArg₂ (· * ·) hl hr

/-- An index is in point t's block iff each coordinate is in the block's range on its axis. -/
theorem mem_blk (t : Fin cfg24.N) (i : S25000x192.Idx) :
    i ∈ ((cfg24.win 2).blk t).view.set ↔ ∀ a : Fin 2, win24_2.index t a * S1000x192.size a ≤ (i a).val ∧ (i a).val < win24_2.index t a * S1000x192.size a + S1000x192.size a := by
  show i ∈ ((View.whole main_v244).slice (win24_2.rect t)).set ↔ _
  rw [View.set_slice_whole, Rect.mem_set_unit]
  exact Iff.rfl

/-- Row r of the output lies in the block of point r / 1000. -/
theorem cover (i : S25000x192.Idx) : ∃ t : Fin cfg24.N, (cfg24.win 2).flush t = true ∧ i ∈ ((cfg24.win 2).blk t).view.set := by
  have hi0 : (i 0).val < 25000 := (i 0).isLt
  have hi1 : (i 1).val < 192 := (i 1).isLt
  have hN : (i 0).val / 1000 < cfg24.N := lt_of_lt_of_eq (by omega : (i 0).val / 1000 < 25) N_24.symm
  refine ⟨⟨(i 0).val / 1000, hN⟩, flush24_2 _, ?_⟩
  rw [mem_blk]
  have f0 : win24_2.index ⟨(i 0).val / 1000, hN⟩ (0 : Fin 2) = (i 0).val / 1000 := (idx_facts ⟨(i 0).val / 1000, hN⟩).2.2.2.2.1
  have f1 : win24_2.index ⟨(i 0).val / 1000, hN⟩ (1 : Fin 2) = 0 := (idx_facts ⟨(i 0).val / 1000, hN⟩).2.2.2.2.2
  intro a
  match a with
  | ⟨0, _⟩ => show win24_2.index ⟨(i 0).val / 1000, hN⟩ (0 : Fin 2) * 1000 ≤ (i 0).val ∧ (i 0).val < win24_2.index ⟨(i 0).val / 1000, hN⟩ (0 : Fin 2) * 1000 + 1000; rw [f0]; omega
  | ⟨1, _⟩ => show win24_2.index ⟨(i 0).val / 1000, hN⟩ (1 : Fin 2) * 192 ≤ (i 1).val ∧ (i 1).val < win24_2.index ⟨(i 0).val / 1000, hN⟩ (1 : Fin 2) * 192 + 192; rw [f1]; omega

/-- The output array after the region. -/
theorem final (c : Dev nD) : (dat24 V c).arrAt 2 cfg24.N = mmG (V c main_v239) (V c main_v241) :=
  (dat24 V c).arrAt_eq_of_cover 2 _ (fun t _ => flushed_eq V c t) (cover)

end Cert.Region24

end
-- ==== Proof.Region25.lean ====
/-
  Kernel region 25 as a function of whole arrays: after the region, its output array is, index by index,
  (r + max(a + b, 0)) · ½ of the aggregate a in window 0, the bias row b in window 1 and the residual r in window 2, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.Post
import Idealize.ShloMosaic.Lib.Pipeline.Value

set_option maxRecDepth 16384

noncomputable section

namespace Cert.Region25

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg25.N, win25_0.index t (0 : Fin 2) = t.val
    ∧ win25_0.index t (1 : Fin 2) = 0
    ∧ win25_1.index t (0 : Fin 2) = 0
    ∧ win25_1.index t (1 : Fin 2) = 0
    ∧ win25_2.index t (0 : Fin 2) = t.val
    ∧ win25_2.index t (1 : Fin 2) = 0
    ∧ win25_3.index t (0 : Fin 2) = t.val
    ∧ win25_3.index t (1 : Fin 2) = 0 :=
  (by decide +kernel : ∀ t : Fin grid25.N, _)

/-- What point t writes back is block t of the whole-array function. -/
theorem flushed_eq (c : Dev nD) (t : Fin cfg25.N) :
    (dat25 V c).flushed 3 t = ((cfg25.win 3).blk t).view.read (Elt Ideal) (avgG (V c main_v257) (V c main_v258) (V c main_v239)) := by
  show (cfg25.win 3).cut (grid25.coords t) ((dat25 V c).after 3 t) = _
  rw [after25_3]
  unfold out25_3
  rw [View.canon_unit_zero hz]
  simp only [View.ld_unit_zero (S := S1000x192) hz, View.ld_unit_zero (S := S1x192) hz]
  obtain ⟨e00, e01, e10, e11, e20, e21, e30, e31⟩ := idx_facts t
  funext j
  refine (Cert.Post.pay25_apply _ _ _ j).trans ?_
  refine Eq.trans ?_ (avgG_apply _ _ _ _).symm
  have ha : iblk25 V c 0 t j = V c main_v257 (((cfg25.win 3).blk t).view.emb j) :=
    congrArg (V c main_v257) (a₁ := ((cfg25.win 0).blk t).view.emb (j)) (a₂ := (((cfg25.win 3).blk t).view.emb j)) (funext fun a => Fin.ext (by
      match a with
      | ⟨0, _⟩ => show win25_0.index t (0 : Fin 2) * 1000 + 1 * (j 0).val = win25_3.index t (0 : Fin 2) * 1000 + 1 * (j 0).val; omega
      | ⟨1, _⟩ => show win25_0.index t (1 : Fin 2) * 192 + 1 * (j 1).val = win25_3.index t (1 : Fin 2) * 192 + 1 * (j 1).val; omega))
  have hb : iblk25 V c 1 t (biasAt ⟨(j 1).val, (j 1).isLt⟩) = V c main_v258 (biasAt (c192 (((cfg25.win 3).blk t).view.emb j))) :=
    congrArg (V c main_v258) (a₁ := ((cfg25.win 1).blk t).view.emb (biasAt ⟨(j 1).val, (j 1).isLt⟩)) (a₂ := biasAt (c192 (((cfg25.win 3).blk t).view.emb j))) (funext fun a => Fin.ext (by
      match a with
      | ⟨0, _⟩ => show win25_1.index t (0 : Fin 2) * 1 + 1 * 0 = 0; omega
      | ⟨1, _⟩ => show win25_1.index t (1 : Fin 2) * 192 + 1 * (j 1).val = win25_3.index t (1 : Fin 2) * 192 + 1 * (j 1).val; omega))
  have hr : iblk25 V c 2 t j = V c main_v239 (((cfg25.win 3).blk t).view.emb j) :=
    congrArg (V c main_v239) (a₁ := ((cfg25.win 2).blk t).view.emb (j)) (a₂ := (((cfg25.win 3).blk t).view.emb j)) (funext fun a => Fin.ext (by
      match a with
      | ⟨0, _⟩ => show win25_2.index t (0 : Fin 2) * 1000 + 1 * (j 0).val = win25_3.index t (0 : Fin 2) * 1000 + 1 * (j 0).val; omega
      | ⟨1, _⟩ => show win25_2.index t (1 : Fin 2) * 192 + 1 * (j 1).val = win25_3.index t (1 : Fin 2) * 192 + 1 * (j 1).val; omega))
  rw [ha, hb, hr]

/-- An index is in point t's block iff each coordinate is in the block's range on its axis. -/
theorem mem_blk (t : Fin cfg25.N) (i : S25000x192.Idx) :
    i ∈ ((cfg25.win 3).blk t).view.set ↔ ∀ a : Fin 2, win25_3.index t a * S1000x192.size a ≤ (i a).val ∧ (i a).val < win25_3.index t a * S1000x192.size a + S1000x192.size a := by
  show i ∈ ((View.whole main_v259).slice (win25_3.rect t)).set ↔ _
  rw [View.set_slice_whole, Rect.mem_set_unit]
  exact Iff.rfl

/-- Row r of the output lies in the block of point r / 1000. -/
theorem cover (i : S25000x192.Idx) : ∃ t : Fin cfg25.N, (cfg25.win 3).flush t = true ∧ i ∈ ((cfg25.win 3).blk t).view.set := by
  have hi0 : (i 0).val < 25000 := (i 0).isLt
  have hi1 : (i 1).val < 192 := (i 1).isLt
  have hN : (i 0).val / 1000 < cfg25.N := lt_of_lt_of_eq (by omega : (i 0).val / 1000 < 25) N_25.symm
  refine ⟨⟨(i 0).val / 1000, hN⟩, flush25_3 _, ?_⟩
  rw [mem_blk]
  have f0 : win25_3.index ⟨(i 0).val / 1000, hN⟩ (0 : Fin 2) = (i 0).val / 1000 := (idx_facts ⟨(i 0).val / 1000, hN⟩).2.2.2.2.2.2.1
  have f1 : win25_3.index ⟨(i 0).val / 1000, hN⟩ (1 : Fin 2) = 0 := (idx_facts ⟨(i 0).val / 1000, hN⟩).2.2.2.2.2.2.2
  intro a
  match a with
  | ⟨0, _⟩ => show win25_3.index ⟨(i 0).val / 1000, hN⟩ (0 : Fin 2) * 1000 ≤ (i 0).val ∧ (i 0).val < win25_3.index ⟨(i 0).val / 1000, hN⟩ (0 : Fin 2) * 1000 + 1000; rw [f0]; omega
  | ⟨1, _⟩ => show win25_3.index ⟨(i 0).val / 1000, hN⟩ (1 : Fin 2) * 192 ≤ (i 1).val ∧ (i 1).val < win25_3.index ⟨(i 0).val / 1000, hN⟩ (1 : Fin 2) * 192 + 192; rw [f1]; omega

/-- The output array after the region. -/
theorem final (c : Dev nD) : (dat25 V c).arrAt 3 cfg25.N = avgG (V c main_v257) (V c main_v258) (V c main_v239) :=
  (dat25 V c).arrAt_eq_of_cover 3 _ (fun t _ => flushed_eq V c t) (cover)

end Cert.Region25

end
-- ==== Proof.Layer12.lean ====
/-
  Layer 12 of the idealized kernel: at the segment boundary after its second region the layer's output buffer holds
  hidden layer 12 of the specification — (r + max(A·(x·W) + b, 0)) · ½, which on the extended reals is (r + max(…))/2 of the layer's input —, as a function of the launch contents of
  the arguments; the arguments, and the earlier features a later layer still reads, are unchanged there.
  The boundary's contents are a fold: a host stretch slices this layer's weight and bias, the first region multiplies,
  a host stretch gathers, scales and scatter-adds, the second region adds the bias and clamps and averages.
-/
import proofs.«171734_j42872363549123_1_alg».proof.Proof.Gen.KernelIdeal.Frame
import proofs.«171734_j42872363549123_1_alg».proof.Proof.Gen.ReferenceIdeal
import proofs.«171734_j42872363549123_1_alg».proof.Proof.Spec
import proofs.«171734_j42872363549123_1_alg».proof.Proof.Forms
import proofs.«171734_j42872363549123_1_alg».proof.Proof.MatMul
import proofs.«171734_j42872363549123_1_alg».proof.Proof.Post
import proofs.«171734_j42872363549123_1_alg».proof.Proof.Region24
import proofs.«171734_j42872363549123_1_alg».proof.Proof.Region25
import proofs.«171734_j42872363549123_1_alg».proof.Proof.Invs
import Idealize.ShloMosaic.Lib.StableHlo.Run

set_option maxRecDepth 16384

noncomputable section

namespace Cert.Layer12

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

open Lean in
/-- A buffer that no operation of a host stretch writes keeps its contents across the stretch. -/
macro "kept_by " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

set_option maxHeartbeats 40000000 in
/-- From what the boundary before layer 12 holds to what the boundary after it holds. -/
theorem step (c : Dev nD) (P : Cert.Invs.Inv11 m ρ c) : Cert.Invs.Inv12 m ρ c := by
  have s1_arg0 : W49 m ρ c (Proc.devRef .tc main_arg0) = (m ((c : Thread nD τ).loc main_arg0)) :=
    Eq.trans (by kept_by hostOps24) P.a0
  have s1_arg1 : W49 m ρ c (Proc.devRef .tc main_arg1) = (m ((c : Thread nD τ).loc main_arg1)) :=
    Eq.trans (by kept_by hostOps24) P.a1
  have s1_arg2 : W49 m ρ c (Proc.devRef .tc main_arg2) = (m ((c : Thread nD τ).loc main_arg2)) :=
    Eq.trans (by kept_by hostOps24) P.a2
  have s1_arg3 : W49 m ρ c (Proc.devRef .tc main_arg3) = (m ((c : Thread nD τ).loc main_arg3)) :=
    Eq.trans (by kept_by hostOps24) P.a3
  have s1_arg4 : W49 m ρ c (Proc.devRef .tc main_arg4) = (m ((c : Thread nD τ).loc main_arg4)) :=
    Eq.trans (by kept_by hostOps24) P.a4
  have s1_arg5 : W49 m ρ c (Proc.devRef .tc main_arg5) = (m ((c : Thread nD τ).loc main_arg5)) :=
    Eq.trans (by kept_by hostOps24) P.a5
  have s1_arg6 : W49 m ρ c (Proc.devRef .tc main_arg6) = (m ((c : Thread nD τ).loc main_arg6)) :=
    Eq.trans (by kept_by hostOps24) P.a6
  have s1_arg7 : W49 m ρ c (Proc.devRef .tc main_arg7) = (m ((c : Thread nD τ).loc main_arg7)) :=
    Eq.trans (by kept_by hostOps24) P.a7
  have s1_v239 : W49 m ρ c (Proc.devRef .tc main_v239) = (Cert.Spec.h11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps24) P.out
  have s1_WM : W49 m ρ c (Proc.devRef .tc main_v241) = Cert.Spec.w12 (m ((c : Thread nD τ).loc main_arg4)) := by
    have e : W49 m ρ c (Proc.devRef .tc main_v241) = Cert.Spec.w12 (W48 m ρ c (Proc.devRef .tc main_arg4)) := by
      show StableHlo.after hostOps24 (W48 m ρ c) (Proc.devRef .tc main_v241) = _
      after_results; rfl
    exact e.trans (congrArg Cert.Spec.w12 P.a4)
  have s1_B1D : W49 m ρ c (Proc.devRef .tc main_v243) = Cert.Spec.b12 (m ((c : Thread nD τ).loc main_arg5)) := by
    have e : W49 m ρ c (Proc.devRef .tc main_v243) = Cert.Spec.b12 (W48 m ρ c (Proc.devRef .tc main_arg5)) := by
      show StableHlo.after hostOps24 (W48 m ρ c) (Proc.devRef .tc main_v243) = _
      after_results; rfl
    exact e.trans (congrArg Cert.Spec.b12 P.a5)
  have s2_arg0 : W50 m ρ c (Proc.devRef .tc main_arg0) = (m ((c : Thread nD τ).loc main_arg0)) :=
    Eq.trans (W50_of_ne m ρ c main_arg0 (by decide)) s1_arg0
  have s2_arg1 : W50 m ρ c (Proc.devRef .tc main_arg1) = (m ((c : Thread nD τ).loc main_arg1)) :=
    Eq.trans (W50_of_ne m ρ c main_arg1 (by decide)) s1_arg1
  have s2_arg2 : W50 m ρ c (Proc.devRef .tc main_arg2) = (m ((c : Thread nD τ).loc main_arg2)) :=
    Eq.trans (W50_of_ne m ρ c main_arg2 (by decide)) s1_arg2
  have s2_arg3 : W50 m ρ c (Proc.devRef .tc main_arg3) = (m ((c : Thread nD τ).loc main_arg3)) :=
    Eq.trans (W50_of_ne m ρ c main_arg3 (by decide)) s1_arg3
  have s2_arg4 : W50 m ρ c (Proc.devRef .tc main_arg4) = (m ((c : Thread nD τ).loc main_arg4)) :=
    Eq.trans (W50_of_ne m ρ c main_arg4 (by decide)) s1_arg4
  have s2_arg5 : W50 m ρ c (Proc.devRef .tc main_arg5) = (m ((c : Thread nD τ).loc main_arg5)) :=
    Eq.trans (W50_of_ne m ρ c main_arg5 (by decide)) s1_arg5
  have s2_arg6 : W50 m ρ c (Proc.devRef .tc main_arg6) = (m ((c : Thread nD τ).loc main_arg6)) :=
    Eq.trans (W50_of_ne m ρ c main_arg6 (by decide)) s1_arg6
  have s2_arg7 : W50 m ρ c (Proc.devRef .tc main_arg7) = (m ((c : Thread nD τ).loc main_arg7)) :=
    Eq.trans (W50_of_ne m ρ c main_arg7 (by decide)) s1_arg7
  have s2_v239 : W50 m ρ c (Proc.devRef .tc main_v239) = (Cert.Spec.h11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans ((W50_arr m ρ c 0).trans (((dat24 (V49 m ρ) c).arrAt_in 0 rfl _).trans (A_eq24 (V49 m ρ) c 0))) s1_v239
  have s2_v243 : W50 m ρ c (Proc.devRef .tc main_v243) = (Cert.Spec.b12 (m ((c : Thread nD τ).loc main_arg5))) :=
    Eq.trans (W50_of_ne m ρ c main_v243 (by decide)) s1_B1D
  have s2_SUP : W50 m ρ c (Proc.devRef .tc main_v244) = Host.dotGeneral (F := Ideal) (φ₁ := .f32) (φ₂ := .f32) Cert.ReferenceIdeal.dot_S25000x192_S192x192_S25000x192_1_0_0_1_n_n none (Cert.Spec.h11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w12 (m ((c : Thread nD τ).loc main_arg4))) := by
    refine (W50_arr m ρ c 2).trans ?_
    refine (Cert.Region24.final (V49 m ρ) c).trans ?_
    show Cert.Forms.mmG (W49 m ρ c (Proc.devRef .tc main_v239)) (W49 m ρ c (Proc.devRef .tc main_v241)) = _
    rw [s1_v239, s1_WM]
    exact (Cert.MatMul.hostDot_eq _ _).symm
  have s3_arg0 : W51 m ρ c (Proc.devRef .tc main_arg0) = (m ((c : Thread nD τ).loc main_arg0)) :=
    Eq.trans (by kept_by hostOps25) s2_arg0
  have s3_arg1 : W51 m ρ c (Proc.devRef .tc main_arg1) = (m ((c : Thread nD τ).loc main_arg1)) :=
    Eq.trans (by kept_by hostOps25) s2_arg1
  have s3_arg2 : W51 m ρ c (Proc.devRef .tc main_arg2) = (m ((c : Thread nD τ).loc main_arg2)) :=
    Eq.trans (by kept_by hostOps25) s2_arg2
  have s3_arg3 : W51 m ρ c (Proc.devRef .tc main_arg3) = (m ((c : Thread nD τ).loc main_arg3)) :=
    Eq.trans (by kept_by hostOps25) s2_arg3
  have s3_arg4 : W51 m ρ c (Proc.devRef .tc main_arg4) = (m ((c : Thread nD τ).loc main_arg4)) :=
    Eq.trans (by kept_by hostOps25) s2_arg4
  have s3_arg5 : W51 m ρ c (Proc.devRef .tc main_arg5) = (m ((c : Thread nD τ).loc main_arg5)) :=
    Eq.trans (by kept_by hostOps25) s2_arg5
  have s3_arg6 : W51 m ρ c (Proc.devRef .tc main_arg6) = (m ((c : Thread nD τ).loc main_arg6)) :=
    Eq.trans (by kept_by hostOps25) s2_arg6
  have s3_arg7 : W51 m ρ c (Proc.devRef .tc main_arg7) = (m ((c : Thread nD τ).loc main_arg7)) :=
    Eq.trans (by kept_by hostOps25) s2_arg7
  have s3_v239 : W51 m ρ c (Proc.devRef .tc main_v239) = (Cert.Spec.h11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps25) s2_v239
  have s3_AGG : W51 m ρ c (Proc.devRef .tc main_v257) = Cert.Spec.agg (m ((c : Thread nD τ).loc main_arg1)) (m ((c : Thread nD τ).loc main_arg2)) (m ((c : Thread nD τ).loc main_arg3)) (Host.dotGeneral (F := Ideal) (φ₁ := .f32) (φ₂ := .f32) Cert.ReferenceIdeal.dot_S25000x192_S192x192_S25000x192_1_0_0_1_n_n none (Cert.Spec.h11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Spec.w12 (m ((c : Thread nD τ).loc main_arg4)))) := by
    have e : W51 m ρ c (Proc.devRef .tc main_v257) = Cert.Spec.agg (W50 m ρ c (Proc.devRef .tc main_arg1)) (W50 m ρ c (Proc.devRef .tc main_arg2)) (W50 m ρ c (Proc.devRef .tc main_arg3)) (W50 m ρ c (Proc.devRef .tc main_v244)) := by
      show StableHlo.after hostOps25 (W50 m ρ c) (Proc.devRef .tc main_v257) = _
      after_results
      exact Cert.Post.agg_eq _ _ _ _
    rw [e, s2_arg1, s2_arg2, s2_arg3, s2_SUP]
  have s3_B2 : W51 m ρ c (Proc.devRef .tc main_v258) = shapeCast S1x192 (Cert.Spec.b12 (m ((c : Thread nD τ).loc main_arg5))) Cert.KernelIdeal.Facts₀.shapeCasts_S192_S1x192 := by
    have e : W51 m ρ c (Proc.devRef .tc main_v258) = shapeCast S1x192 (W50 m ρ c (Proc.devRef .tc main_v243)) Cert.KernelIdeal.Facts₀.shapeCasts_S192_S1x192 := by
      show StableHlo.after hostOps25 (W50 m ρ c) (Proc.devRef .tc main_v258) = _
      after_results; rfl
    rw [e, s2_v243]
  have s4_arg0 : W52 m ρ c (Proc.devRef .tc main_arg0) = (m ((c : Thread nD τ).loc main_arg0)) :=
    Eq.trans (W52_of_ne m ρ c main_arg0 (by decide)) s3_arg0
  have s4_arg1 : W52 m ρ c (Proc.devRef .tc main_arg1) = (m ((c : Thread nD τ).loc main_arg1)) :=
    Eq.trans (W52_of_ne m ρ c main_arg1 (by decide)) s3_arg1
  have s4_arg2 : W52 m ρ c (Proc.devRef .tc main_arg2) = (m ((c : Thread nD τ).loc main_arg2)) :=
    Eq.trans (W52_of_ne m ρ c main_arg2 (by decide)) s3_arg2
  have s4_arg3 : W52 m ρ c (Proc.devRef .tc main_arg3) = (m ((c : Thread nD τ).loc main_arg3)) :=
    Eq.trans (W52_of_ne m ρ c main_arg3 (by decide)) s3_arg3
  have s4_arg4 : W52 m ρ c (Proc.devRef .tc main_arg4) = (m ((c : Thread nD τ).loc main_arg4)) :=
    Eq.trans (W52_of_ne m ρ c main_arg4 (by decide)) s3_arg4
  have s4_arg5 : W52 m ρ c (Proc.devRef .tc main_arg5) = (m ((c : Thread nD τ).loc main_arg5)) :=
    Eq.trans (W52_of_ne m ρ c main_arg5 (by decide)) s3_arg5
  have s4_arg6 : W52 m ρ c (Proc.devRef .tc main_arg6) = (m ((c : Thread nD τ).loc main_arg6)) :=
    Eq.trans (W52_of_ne m ρ c main_arg6 (by decide)) s3_arg6
  have s4_arg7 : W52 m ρ c (Proc.devRef .tc main_arg7) = (m ((c : Thread nD τ).loc main_arg7)) :=
    Eq.trans (W52_of_ne m ρ c main_arg7 (by decide)) s3_arg7
  have s4_OUT : W52 m ρ c (Proc.devRef .tc main_v259) = (Cert.Spec.h12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    refine (W52_arr m ρ c 3).trans ?_
    refine (Cert.Region25.final (V51 m ρ) c).trans ?_
    show Cert.Forms.avgG (W51 m ρ c (Proc.devRef .tc main_v257)) (W51 m ρ c (Proc.devRef .tc main_v258)) (W51 m ρ c (Proc.devRef .tc main_v239)) = _
    rw [s3_AGG, s3_B2, s3_v239]
    refine (Cert.Post.avgG_eq _ _ _).trans ?_
    rfl
  exact ⟨s4_OUT, s4_arg0, s4_arg1, s4_arg2, s4_arg3, s4_arg4, s4_arg5, s4_arg6, s4_arg7⟩

end Cert.Layer12

end
-- ==== Proof.Region26.lean ====
/-
  Kernel region 26 as a function of whole arrays: after the region, its output array is, index by index,
  the matrix product of the 25000 × 192 array in window 0 with the 192 × 3 matrix in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.MatMul
import Idealize.ShloMosaic.Lib.Pipeline.Value

set_option maxRecDepth 16384

noncomputable section

namespace Cert.Region26

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg26.N, win26_0.index t (0 : Fin 2) = t.val
    ∧ win26_0.index t (1 : Fin 2) = 0
    ∧ win26_1.index t (0 : Fin 2) = 0
    ∧ win26_1.index t (1 : Fin 2) = 0
    ∧ win26_2.index t (0 : Fin 2) = t.val
    ∧ win26_2.index t (1 : Fin 2) = 0 :=
  (by decide +kernel : ∀ t : Fin grid26.N, _)

/-- What point t writes back is block t of the whole-array function. -/
theorem flushed_eq (c : Dev nD) (t : Fin cfg26.N) :
    (dat26 V c).flushed 2 t = ((cfg26.win 2).blk t).view.read (Elt Ideal) (mmG3 (V c main_v259) (V c main_arg6)) := by
  show (cfg26.win 2).cut (grid26.coords t) ((dat26 V c).after 2 t) = _
  rw [after26_2]
  unfold out26_2
  rw [View.canon_unit_zero hz]
  simp only [View.ld_unit_zero (S := S1000x192) hz, View.ld_unit_zero (S := S192x3) hz, View.ld_unit_zero (S := S1000x3) hz]
  obtain ⟨e00, e01, e10, e11, e20, e21⟩ := idx_facts t
  funext j
  refine (Cert.MatMul.pay26_apply _ _ j).trans ?_
  refine Eq.trans ?_ (mmG3_apply _ _ _).symm
  refine Finset.sum_congr rfl fun q _ => ?_
  have hl : iblk26 V c 0 t (Cert.MatMul.blkRowK ⟨(j 0).val, (j 0).isLt⟩ q) = V c main_v259 (rowK (r3 (((cfg26.win 2).blk t).view.emb j)) q) :=
    congrArg (V c main_v259) (a₁ := ((cfg26.win 0).blk t).view.emb (Cert.MatMul.blkRowK ⟨(j 0).val, (j 0).isLt⟩ q)) (a₂ := rowK (r3 (((cfg26.win 2).blk t).view.emb j)) q) (funext fun a => Fin.ext (by
      match a with
      | ⟨0, _⟩ => show win26_0.index t (0 : Fin 2) * 1000 + 1 * (j 0).val = win26_2.index t (0 : Fin 2) * 1000 + 1 * (j 0).val; omega
      | ⟨1, _⟩ => show win26_0.index t (1 : Fin 2) * 192 + 1 * q.val = q.val; omega))
  have hr : iblk26 V c 1 t (kCol3 q ⟨(j 1).val, (j 1).isLt⟩) = V c main_arg6 (kCol3 q (c3 (((cfg26.win 2).blk t).view.emb j))) :=
    congrArg (V c main_arg6) (a₁ := ((cfg26.win 1).blk t).view.emb (kCol3 q ⟨(j 1).val, (j 1).isLt⟩)) (a₂ := kCol3 q (c3 (((cfg26.win 2).blk t).view.emb j))) (funext fun a => Fin.ext (by
      match a with
      | ⟨0, _⟩ => show win26_1.index t (0 : Fin 2) * 192 + 1 * q.val = q.val; omega
      | ⟨1, _⟩ => show win26_1.index t (1 : Fin 2) * 3 + 1 * (j 1).val = win26_2.index t (1 : Fin 2) * 3 + 1 * (j 1).val; omega))
  exact congrArg₂ (· * ·) hl hr

/-- An index is in point t's block iff each coordinate is in the block's range on its axis. -/
theorem mem_blk (t : Fin cfg26.N) (i : S25000x3.Idx) :
    i ∈ ((cfg26.win 2).blk t).view.set ↔ ∀ a : Fin 2, win26_2.index t a * S1000x3.size a ≤ (i a).val ∧ (i a).val < win26_2.index t a * S1000x3.size a + S1000x3.size a := by
  show i ∈ ((View.whole main_v260).slice (win26_2.rect t)).set ↔ _
  rw [View.set_slice_whole, Rect.mem_set_unit]
  exact Iff.rfl

/-- Row r of the output lies in the block of point r / 1000. -/
theorem cover (i : S25000x3.Idx) : ∃ t : Fin cfg26.N, (cfg26.win 2).flush t = true ∧ i ∈ ((cfg26.win 2).blk t).view.set := by
  have hi0 : (i 0).val < 25000 := (i 0).isLt
  have hi1 : (i 1).val < 3 := (i 1).isLt
  have hN : (i 0).val / 1000 < cfg26.N := lt_of_lt_of_eq (by omega : (i 0).val / 1000 < 25) N_26.symm
  refine ⟨⟨(i 0).val / 1000, hN⟩, flush26_2 _, ?_⟩
  rw [mem_blk]
  have f0 : win26_2.index ⟨(i 0).val / 1000, hN⟩ (0 : Fin 2) = (i 0).val / 1000 := (idx_facts ⟨(i 0).val / 1000, hN⟩).2.2.2.2.1
  have f1 : win26_2.index ⟨(i 0).val / 1000, hN⟩ (1 : Fin 2) = 0 := (idx_facts ⟨(i 0).val / 1000, hN⟩).2.2.2.2.2
  intro a
  match a with
  | ⟨0, _⟩ => show win26_2.index ⟨(i 0).val / 1000, hN⟩ (0 : Fin 2) * 1000 ≤ (i 0).val ∧ (i 0).val < win26_2.index ⟨(i 0).val / 1000, hN⟩ (0 : Fin 2) * 1000 + 1000; rw [f0]; omega
  | ⟨1, _⟩ => show win26_2.index ⟨(i 0).val / 1000, hN⟩ (1 : Fin 2) * 3 ≤ (i 1).val ∧ (i 1).val < win26_2.index ⟨(i 0).val / 1000, hN⟩ (1 : Fin 2) * 3 + 3; rw [f1]; omega

/-- The output array after the region. -/
theorem final (c : Dev nD) : (dat26 V c).arrAt 2 cfg26.N = mmG3 (V c main_v259) (V c main_arg6) :=
  (dat26 V c).arrAt_eq_of_cover 2 _ (fun t _ => flushed_eq V c t) (cover)

end Cert.Region26

end
-- ==== Proof.Region27.lean ====
/-
  Kernel region 27 as a function of whole arrays: after the region, its output array is, index by index,
  a + b of the aggregate a in window 0 and the bias row b in window 1, as the region finds those arrays.
  Point t of the grid of 25 stages rows 1000·t … 1000·t + 999 of the row-blocked arrays and the whole of the
  small ones, and writes back rows 1000·t … 1000·t + 999 of the output; the 25 row blocks cover the output.
-/
import proofs.«171734_j42872363549123_1_alg».proof.Proof.Gen.KernelIdeal.Frame
import proofs.«171734_j42872363549123_1_alg».proof.Proof.Forms
import proofs.«171734_j42872363549123_1_alg».proof.Proof.Post
import Idealize.ShloMosaic.Lib.Pipeline.Value

set_option maxRecDepth 16384

noncomputable section

namespace Cert.Region27

open Cert.KernelIdeal Cert.KernelIdeal.Gen Idealize.ShloMosaic Idealize.ShloMosaic.TcCoe Idealize.SL.Sem
open Idealize.ShloMosaic.Pipeline (Dat)
open Cert.Forms

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: a row-blocked window is at block row t, every other
    block coordinate is 0. -/
theorem idx_facts : ∀ t : Fin cfg27.N, win27_0.index t (0 : Fin 2) = t.val
    ∧ win27_0.index t (1 : Fin 2) = 0
    ∧ win27_1.index t (0 : Fin 2) = 0
    ∧ win27_1.index t (1 : Fin 2) = 0
    ∧ win27_2.index t (0 : Fin 2) = t.val
    ∧ win27_2.index t (1 : Fin 2) = 0 :=
  (by decide +kernel : ∀ t : Fin grid27.N, _)

/-- What point t writes back is block t of the whole-array function. -/
theorem flushed_eq (c : Dev nD) (t : Fin cfg27.N) :
    (dat27 V c).flushed 2 t = ((cfg27.win 2).blk t).view.read (Elt Ideal) (plainG (V c main_v273) (V c main_v274)) := by
  show (cfg27.win 2).cut (grid27.coords t) ((dat27 V c).after 2 t) = _
  rw [after27_2]
  unfold out27_2
  rw [View.canon_unit_zero hz]
  simp only [View.ld_unit_zero (S := S1000x3) hz, View.ld_unit_zero (S := S1x3) hz]
  obtain ⟨e00, e01, e10, e11, e20, e21⟩ := idx_facts t
  funext j
  refine (Cert.Post.pay27_apply _ _ j).trans ?_
  refine Eq.trans ?_ (plainG_apply _ _ _).symm
  have ha : iblk27 V c 0 t j = V c main_v273 (((cfg27.win 2).blk t).view.emb j) :=
    congrArg (V c main_v273) (a₁ := ((cfg27.win 0).blk t).view.emb (j)) (a₂ := (((cfg27.win 2).blk t).view.emb j)) (funext fun a => Fin.ext (by
      match a with
      | ⟨0, _⟩ => show win27_0.index t (0 : Fin 2) * 1000 + 1 * (j 0).val = win27_2.index t (0 : Fin 2) * 1000 + 1 * (j 0).val; omega
      | ⟨1, _⟩ => show win27_0.index t (1 : Fin 2) * 3 + 1 * (j 1).val = win27_2.index t (1 : Fin 2) * 3 + 1 * (j 1).val; omega))
  have hb : iblk27 V c 1 t (biasAt3 ⟨(j 1).val, (j 1).isLt⟩) = V c main_v274 (biasAt3 (c3 (((cfg27.win 2).blk t).view.emb j))) :=
    congrArg (V c main_v274) (a₁ := ((cfg27.win 1).blk t).view.emb (biasAt3 ⟨(j 1).val, (j 1).isLt⟩)) (a₂ := biasAt3 (c3 (((cfg27.win 2).blk t).view.emb j))) (funext fun a => Fin.ext (by
      match a with
      | ⟨0, _⟩ => show win27_1.index t (0 : Fin 2) * 1 + 1 * 0 = 0; omega
      | ⟨1, _⟩ => show win27_1.index t (1 : Fin 2) * 3 + 1 * (j 1).val = win27_2.index t (1 : Fin 2) * 3 + 1 * (j 1).val; omega))

  rw [ha, hb]

/-- An index is in point t's block iff each coordinate is in the block's range on its axis. -/
theorem mem_blk (t : Fin cfg27.N) (i : S25000x3.Idx) :
    i ∈ ((cfg27.win 2).blk t).view.set ↔ ∀ a : Fin 2, win27_2.index t a * S1000x3.size a ≤ (i a).val ∧ (i a).val < win27_2.index t a * S1000x3.size a + S1000x3.size a := by
  show i ∈ ((View.whole main_v275).slice (win27_2.rect t)).set ↔ _
  rw [View.set_slice_whole, Rect.mem_set_unit]
  exact Iff.rfl

/-- Row r of the output lies in the block of point r / 1000. -/
theorem cover (i : S25000x3.Idx) : ∃ t : Fin cfg27.N, (cfg27.win 2).flush t = true ∧ i ∈ ((cfg27.win 2).blk t).view.set := by
  have hi0 : (i 0).val < 25000 := (i 0).isLt
  have hi1 : (i 1).val < 3 := (i 1).isLt
  have hN : (i 0).val / 1000 < cfg27.N := lt_of_lt_of_eq (by omega : (i 0).val / 1000 < 25) N_27.symm
  refine ⟨⟨(i 0).val / 1000, hN⟩, flush27_2 _, ?_⟩
  rw [mem_blk]
  have f0 : win27_2.index ⟨(i 0).val / 1000, hN⟩ (0 : Fin 2) = (i 0).val / 1000 := (idx_facts ⟨(i 0).val / 1000, hN⟩).2.2.2.2.1
  have f1 : win27_2.index ⟨(i 0).val / 1000, hN⟩ (1 : Fin 2) = 0 := (idx_facts ⟨(i 0).val / 1000, hN⟩).2.2.2.2.2
  intro a
  match a with
  | ⟨0, _⟩ => show win27_2.index ⟨(i 0).val / 1000, hN⟩ (0 : Fin 2) * 1000 ≤ (i 0).val ∧ (i 0).val < win27_2.index ⟨(i 0).val / 1000, hN⟩ (0 : Fin 2) * 1000 + 1000; rw [f0]; omega
  | ⟨1, _⟩ => show win27_2.index ⟨(i 0).val / 1000, hN⟩ (1 : Fin 2) * 3 ≤ (i 1).val ∧ (i 1).val < win27_2.index ⟨(i 0).val / 1000, hN⟩ (1 : Fin 2) * 3 + 3; rw [f1]; omega

/-- The output array after the region. -/
theorem final (c : Dev nD) : (dat27 V c).arrAt 2 cfg27.N = plainG (V c main_v273) (V c main_v274) :=
  (dat27 V c).arrAt_eq_of_cover 2 _ (fun t _ => flushed_eq V c t) (cover)

end Cert.Region27

end
-- ==== Proof.Layer13.lean ====
/-
  Layer 13 of the idealized kernel: at the segment boundary after its second region the layer's output buffer holds
  the head of the specification — A·(x·W) + b of the layer's input —, as a function of the launch contents of
  the arguments; the arguments, and the earlier features a later layer still reads, are unchanged there.
  The boundary's contents are a fold: a host stretch slices this layer's weight and bias, the first region multiplies,
  a host stretch gathers, scales and scatter-adds, the second region adds the bias.
-/
import proofs.«171734_j42872363549123_1_alg».proof.Proof.Gen.KernelIdeal.Frame
import proofs.«171734_j42872363549123_1_alg».proof.Proof.Gen.ReferenceIdeal
import proofs.«171734_j42872363549123_1_alg».proof.Proof.Spec
import proofs.«171734_j42872363549123_1_alg».proof.Proof.Forms
import proofs.«171734_j42872363549123_1_alg».proof.Proof.MatMul
import proofs.«171734_j42872363549123_1_alg».proof.Proof.Post
import proofs.«171734_j42872363549123_1_alg».proof.Proof.Region26
import proofs.«171734_j42872363549123_1_alg».proof.Proof.Region27
import proofs.«171734_j42872363549123_1_alg».proof.Proof.Invs
import Idealize.ShloMosaic.Lib.StableHlo.Run

set_option maxRecDepth 16384

noncomputable section

namespace Cert.Layer13

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

open Lean in
/-- A buffer that no operation of a host stretch writes keeps its contents across the stretch. -/
macro "kept_by " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

set_option maxHeartbeats 40000000 in
/-- From what the boundary before layer 13 holds to what the boundary after it holds. -/
theorem step (c : Dev nD) (P : Cert.Invs.Inv12 m ρ c) : Cert.Invs.Inv13 m ρ c := by
  have s2_arg0 : W53 m ρ c (Proc.devRef .tc main_arg0) = (m ((c : Thread nD τ).loc main_arg0)) :=
    Eq.trans (W53_of_ne m ρ c main_arg0 (by decide)) P.a0
  have s2_arg1 : W53 m ρ c (Proc.devRef .tc main_arg1) = (m ((c : Thread nD τ).loc main_arg1)) :=
    Eq.trans (W53_of_ne m ρ c main_arg1 (by decide)) P.a1
  have s2_arg2 : W53 m ρ c (Proc.devRef .tc main_arg2) = (m ((c : Thread nD τ).loc main_arg2)) :=
    Eq.trans (W53_of_ne m ρ c main_arg2 (by decide)) P.a2
  have s2_arg3 : W53 m ρ c (Proc.devRef .tc main_arg3) = (m ((c : Thread nD τ).loc main_arg3)) :=
    Eq.trans (W53_of_ne m ρ c main_arg3 (by decide)) P.a3
  have s2_arg4 : W53 m ρ c (Proc.devRef .tc main_arg4) = (m ((c : Thread nD τ).loc main_arg4)) :=
    Eq.trans (W53_of_ne m ρ c main_arg4 (by decide)) P.a4
  have s2_arg5 : W53 m ρ c (Proc.devRef .tc main_arg5) = (m ((c : Thread nD τ).loc main_arg5)) :=
    Eq.trans (W53_of_ne m ρ c main_arg5 (by decide)) P.a5
  have s2_arg6 : W53 m ρ c (Proc.devRef .tc main_arg6) = (m ((c : Thread nD τ).loc main_arg6)) :=
    Eq.trans ((W53_arr m ρ c 1).trans (((dat26 (V52 m ρ) c).arrAt_in 1 rfl _).trans (A_eq26 (V52 m ρ) c 1))) P.a6
  have s2_arg7 : W53 m ρ c (Proc.devRef .tc main_arg7) = (m ((c : Thread nD τ).loc main_arg7)) :=
    Eq.trans (W53_of_ne m ρ c main_arg7 (by decide)) P.a7
  have s2_v259 : W53 m ρ c (Proc.devRef .tc main_v259) = (Cert.Spec.h12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans ((W53_arr m ρ c 0).trans (((dat26 (V52 m ρ) c).arrAt_in 0 rfl _).trans (A_eq26 (V52 m ρ) c 0))) P.out
  have s2_SUP : W53 m ρ c (Proc.devRef .tc main_v260) = Host.dotGeneral (F := Ideal) (φ₁ := .f32) (φ₂ := .f32) Cert.ReferenceIdeal.dot_S25000x192_S192x3_S25000x3_1_0_0_1_n_n none (Cert.Spec.h12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) := by
    refine (W53_arr m ρ c 2).trans ?_
    refine (Cert.Region26.final (V52 m ρ) c).trans ?_
    show Cert.Forms.mmG3 (W52 m ρ c (Proc.devRef .tc main_v259)) (W52 m ρ c (Proc.devRef .tc main_arg6)) = _
    rw [P.out, P.a6]
    exact (Cert.MatMul.hostDot3_eq _ _).symm
  have s3_arg0 : W54 m ρ c (Proc.devRef .tc main_arg0) = (m ((c : Thread nD τ).loc main_arg0)) :=
    Eq.trans (by kept_by hostOps27) s2_arg0
  have s3_arg1 : W54 m ρ c (Proc.devRef .tc main_arg1) = (m ((c : Thread nD τ).loc main_arg1)) :=
    Eq.trans (by kept_by hostOps27) s2_arg1
  have s3_arg2 : W54 m ρ c (Proc.devRef .tc main_arg2) = (m ((c : Thread nD τ).loc main_arg2)) :=
    Eq.trans (by kept_by hostOps27) s2_arg2
  have s3_arg3 : W54 m ρ c (Proc.devRef .tc main_arg3) = (m ((c : Thread nD τ).loc main_arg3)) :=
    Eq.trans (by kept_by hostOps27) s2_arg3
  have s3_arg4 : W54 m ρ c (Proc.devRef .tc main_arg4) = (m ((c : Thread nD τ).loc main_arg4)) :=
    Eq.trans (by kept_by hostOps27) s2_arg4
  have s3_arg5 : W54 m ρ c (Proc.devRef .tc main_arg5) = (m ((c : Thread nD τ).loc main_arg5)) :=
    Eq.trans (by kept_by hostOps27) s2_arg5
  have s3_arg6 : W54 m ρ c (Proc.devRef .tc main_arg6) = (m ((c : Thread nD τ).loc main_arg6)) :=
    Eq.trans (by kept_by hostOps27) s2_arg6
  have s3_arg7 : W54 m ρ c (Proc.devRef .tc main_arg7) = (m ((c : Thread nD τ).loc main_arg7)) :=
    Eq.trans (by kept_by hostOps27) s2_arg7
  have s3_v259 : W54 m ρ c (Proc.devRef .tc main_v259) = (Cert.Spec.h12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (by kept_by hostOps27) s2_v259
  have s3_AGG : W54 m ρ c (Proc.devRef .tc main_v273) = Cert.Spec.agg3 (m ((c : Thread nD τ).loc main_arg1)) (m ((c : Thread nD τ).loc main_arg2)) (m ((c : Thread nD τ).loc main_arg3)) (Host.dotGeneral (F := Ideal) (φ₁ := .f32) (φ₂ := .f32) Cert.ReferenceIdeal.dot_S25000x192_S192x3_S25000x3_1_0_0_1_n_n none (Cert.Spec.h12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) := by
    have e : W54 m ρ c (Proc.devRef .tc main_v273) = Cert.Spec.agg3 (W53 m ρ c (Proc.devRef .tc main_arg1)) (W53 m ρ c (Proc.devRef .tc main_arg2)) (W53 m ρ c (Proc.devRef .tc main_arg3)) (W53 m ρ c (Proc.devRef .tc main_v260)) := by
      show StableHlo.after hostOps27 (W53 m ρ c) (Proc.devRef .tc main_v273) = _
      after_results
      exact Cert.Post.agg3_eq _ _ _ _
    rw [e, s2_arg1, s2_arg2, s2_arg3, s2_SUP]
  have s3_B2 : W54 m ρ c (Proc.devRef .tc main_v274) = shapeCast S1x3 (m ((c : Thread nD τ).loc main_arg7)) Cert.KernelIdeal.Facts₀.shapeCasts_S3_S1x3 := by
    have e : W54 m ρ c (Proc.devRef .tc main_v274) = shapeCast S1x3 (W53 m ρ c (Proc.devRef .tc main_arg7)) Cert.KernelIdeal.Facts₀.shapeCasts_S3_S1x3 := by
      show StableHlo.after hostOps27 (W53 m ρ c) (Proc.devRef .tc main_v274) = _
      after_results; rfl
    rw [e, s2_arg7]
  have s4_arg0 : W55 m ρ c (Proc.devRef .tc main_arg0) = (m ((c : Thread nD τ).loc main_arg0)) :=
    Eq.trans (W55_of_ne m ρ c main_arg0 (by decide)) s3_arg0
  have s4_arg1 : W55 m ρ c (Proc.devRef .tc main_arg1) = (m ((c : Thread nD τ).loc main_arg1)) :=
    Eq.trans (W55_of_ne m ρ c main_arg1 (by decide)) s3_arg1
  have s4_arg2 : W55 m ρ c (Proc.devRef .tc main_arg2) = (m ((c : Thread nD τ).loc main_arg2)) :=
    Eq.trans (W55_of_ne m ρ c main_arg2 (by decide)) s3_arg2
  have s4_arg3 : W55 m ρ c (Proc.devRef .tc main_arg3) = (m ((c : Thread nD τ).loc main_arg3)) :=
    Eq.trans (W55_of_ne m ρ c main_arg3 (by decide)) s3_arg3
  have s4_arg4 : W55 m ρ c (Proc.devRef .tc main_arg4) = (m ((c : Thread nD τ).loc main_arg4)) :=
    Eq.trans (W55_of_ne m ρ c main_arg4 (by decide)) s3_arg4
  have s4_arg5 : W55 m ρ c (Proc.devRef .tc main_arg5) = (m ((c : Thread nD τ).loc main_arg5)) :=
    Eq.trans (W55_of_ne m ρ c main_arg5 (by decide)) s3_arg5
  have s4_arg6 : W55 m ρ c (Proc.devRef .tc main_arg6) = (m ((c : Thread nD τ).loc main_arg6)) :=
    Eq.trans (W55_of_ne m ρ c main_arg6 (by decide)) s3_arg6
  have s4_arg7 : W55 m ρ c (Proc.devRef .tc main_arg7) = (m ((c : Thread nD τ).loc main_arg7)) :=
    Eq.trans (W55_of_ne m ρ c main_arg7 (by decide)) s3_arg7
  have s4_v259 : W55 m ρ c (Proc.devRef .tc main_v259) = (Cert.Spec.h12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    Eq.trans (W55_of_ne m ρ c main_v259 (by decide)) s3_v259
  have s4_OUT : W55 m ρ c (Proc.devRef .tc main_v275) = (Cert.Spec.head (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
    refine (W55_arr m ρ c 2).trans ?_
    refine (Cert.Region27.final (V54 m ρ) c).trans ?_
    show Cert.Forms.plainG (W54 m ρ c (Proc.devRef .tc main_v273)) (W54 m ρ c (Proc.devRef .tc main_v274)) = _
    rw [s3_AGG, s3_B2]
    refine (Cert.Post.plainG_eq _ _).trans ?_
    rfl
  exact ⟨s4_OUT, s4_v259, s4_arg0, s4_arg1, s4_arg2, s4_arg3, s4_arg4, s4_arg5, s4_arg6, s4_arg7⟩

end Cert.Layer13

end
-- ==== Proof.lean ====
/-
  The certificate: a stack of fourteen graph convolutions — thirteen hidden layers of width 192 with max(·, 0),
  averaged with a residual after every second one (and after the thirteenth), and a head of width 3 — computed by the kernel's program
  in twenty-eight tiled regions (a matrix product and a bias / clamp / average per layer) around the host's
  gather, scaling and scatter-add, against the reference's plain host operations.

  On the extended reals both programs compute the network of Spec.lean.  The reference's run is that network
  by unfolding (RefIsSpec.lean).  The kernel's run ends at the fold of its segments (KernelRun.lean); region by
  region its arrays are whole-array functions of what the region finds (Region*.lean: each point of the grid of
  25 writes back its 1000 rows, the blocks cover the array), a block's matrix product into a zero accumulator is
  the host's dot_general read at an index (MatMul.lean), the post-processing bodies are the host's pointwise
  operations, the bias stored as a row being the bias broadcast down the rows and the product with ½ being the
  quotient by 2 on every extended real (Post.lean), and layer by layer the fold is the specification's hidden
  layer (Layer*.lean).  The gather / scale / scatter-add between the two regions of a layer is the same function
  in both programs and is never opened.  No precondition is used: the one law, z · ½ = z / 2, holds at the
  infinities too.
-/
import proofs.«171734_j42872363549123_1_alg».proof.Defs
import proofs.«171734_j42872363549123_1_alg».proof.Proof.Gen.Kernel
import proofs.«171734_j42872363549123_1_alg».proof.Proof.Gen.Kernel.Frame
import proofs.«171734_j42872363549123_1_alg».proof.Proof.Gen.KernelIdeal
import proofs.«171734_j42872363549123_1_alg».proof.Proof.Gen.KernelIdeal.Frame
import proofs.«171734_j42872363549123_1_alg».proof.Proof.Gen.ReferenceIdeal
import proofs.«171734_j42872363549123_1_alg».proof.Proof.RunP
import proofs.«171734_j42872363549123_1_alg».proof.Proof.Gen.Pre_finite_inputs
import proofs.«171734_j42872363549123_1_alg».proof.Proof.Spec
import proofs.«171734_j42872363549123_1_alg».proof.Proof.RefIsSpec
import proofs.«171734_j42872363549123_1_alg».proof.Proof.KernelRun
import proofs.«171734_j42872363549123_1_alg».proof.Proof.Layer0
import proofs.«171734_j42872363549123_1_alg».proof.Proof.Layer1
import proofs.«171734_j42872363549123_1_alg».proof.Proof.Layer2
import proofs.«171734_j42872363549123_1_alg».proof.Proof.Layer3
import proofs.«171734_j42872363549123_1_alg».proof.Proof.Layer4
import proofs.«171734_j42872363549123_1_alg».proof.Proof.Layer5
import proofs.«171734_j42872363549123_1_alg».proof.Proof.Layer6
import proofs.«171734_j42872363549123_1_alg».proof.Proof.Layer7
import proofs.«171734_j42872363549123_1_alg».proof.Proof.Layer8
import proofs.«171734_j42872363549123_1_alg».proof.Proof.Layer9
import proofs.«171734_j42872363549123_1_alg».proof.Proof.Layer10
import proofs.«171734_j42872363549123_1_alg».proof.Proof.Layer11
import proofs.«171734_j42872363549123_1_alg».proof.Proof.Layer12
import proofs.«171734_j42872363549123_1_alg».proof.Proof.Layer13
import proofs.«171734_j42872363549123_1_alg».proof.Proof.Invs
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote nothing. -/
theorem preserves : Cert.preserves_Kernel_KernelIdeal := trivial

/-- From memories agreeing on the arguments both idealized programs end with the specification's head and its
    thirteenth hidden layer of those arguments in their two results. -/
theorem algebraic : Cert.algebraic_KernelIdeal_ReferenceIdeal := by
  intro m ρ m' ρ' _ hagree
  refine ⟨fun c => Cert.Spec.head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.h12 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelRun.ends (F := Ideal) m ρ)
    have I : Cert.Invs.Inv13 m ρ c :=
      Cert.Layer13.step m ρ c (Cert.Layer12.step m ρ c (Cert.Layer11.step m ρ c (Cert.Layer10.step m ρ c (Cert.Layer9.step m ρ c (Cert.Layer8.step m ρ c (Cert.Layer7.step m ρ c (Cert.Layer6.step m ρ c (Cert.Layer5.step m ρ c (Cert.Layer4.step m ρ c (Cert.Layer3.step m ρ c (Cert.Layer2.step m ρ c (Cert.Layer1.step m ρ c (Cert.Layer0.step m ρ c)))))))))))))
    exact ⟨(h c Cert.KernelIdeal.main_v275 (by decide)).trans I.out, (h c Cert.KernelIdeal.main_v259 (by decide)).trans I.car,
      (h c Cert.KernelIdeal.main_arg0 (by decide)).trans I.a0,
      (h c Cert.KernelIdeal.main_arg1 (by decide)).trans I.a1,
      (h c Cert.KernelIdeal.main_arg2 (by decide)).trans I.a2,
      (h c Cert.KernelIdeal.main_arg3 (by decide)).trans I.a3,
      (h c Cert.KernelIdeal.main_arg4 (by decide)).trans I.a4,
      (h c Cert.KernelIdeal.main_arg5 (by decide)).trans I.a5,
      (h c Cert.KernelIdeal.main_arg6 (by decide)).trans I.a6,
      (h c Cert.KernelIdeal.main_arg7 (by decide)).trans I.a7⟩
  · refine (θ_run Cert.ReferenceIdeal.defs _ _).mono (fun r h c => ⟨?_, ?_, (h c).2.2⟩) (Cert.ReferenceIdeal.ValueP.run (F := Ideal) m' ρ')
    · rw [(h c).1, Cert.RefIsSpec.coords_eq, (hagree c).1, (hagree c).2.1, (hagree c).2.2.1, (hagree c).2.2.2.1, (hagree c).2.2.2.2.1,
        (hagree c).2.2.2.2.2.1, (hagree c).2.2.2.2.2.2.1, (hagree c).2.2.2.2.2.2.2]
    · rw [(h c).2.1, Cert.RefIsSpec.feats_eq, (hagree c).1, (hagree c).2.1, (hagree c).2.2.1, (hagree c).2.2.2.1, (hagree c).2.2.2.2.1,
        (hagree c).2.2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
